-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v295)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v295) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x12 : Shape := ⟨2, ![2000000, 12]⟩
abbrev S12x12 : Shape := ⟨2, ![12, 12]⟩
abbrev S12 : Shape := ⟨1, ![12]⟩
abbrev S11x12 : Shape := ⟨2, ![11, 12]⟩
abbrev S11 : Shape := ⟨1, ![11]⟩
abbrev S10x11 : Shape := ⟨2, ![10, 11]⟩
abbrev S10 : Shape := ⟨1, ![10]⟩
abbrev S9x10 : Shape := ⟨2, ![9, 10]⟩
abbrev S9 : Shape := ⟨1, ![9]⟩
abbrev S8x9 : Shape := ⟨2, ![8, 9]⟩
abbrev S8 : Shape := ⟨1, ![8]⟩
abbrev S7x8 : Shape := ⟨2, ![7, 8]⟩
abbrev S7 : Shape := ⟨1, ![7]⟩
abbrev S6x7 : Shape := ⟨2, ![6, 7]⟩
abbrev S6 : Shape := ⟨1, ![6]⟩
abbrev S7x6 : Shape := ⟨2, ![7, 6]⟩
abbrev S8x7 : Shape := ⟨2, ![8, 7]⟩
abbrev S9x8 : Shape := ⟨2, ![9, 8]⟩
abbrev S10x9 : Shape := ⟨2, ![10, 9]⟩
abbrev S11x10 : Shape := ⟨2, ![11, 10]⟩
abbrev S12x11 : Shape := ⟨2, ![12, 11]⟩
abbrev S2x12 : Shape := ⟨2, ![2, 12]⟩
abbrev S2 : Shape := ⟨1, ![2]⟩
abbrev S_ : Shape := ⟨0, ![]⟩

class Facts : Prop where
  bcast_S_S2000000x12 : S_.BroadcastsInDim S2000000x12 (![] : Fin 0 → Fin S2000000x12.rank)
  reducesTo_S2000000x12_S_d0_1 : S2000000x12.ReducesTo [0, 1] S_
  h_S_ : 0 < S_.numel
  bcast_S_S12x12 : S_.BroadcastsInDim S12x12 (![] : Fin 0 → Fin S12x12.rank)
  reducesTo_S12x12_S_d0_1 : S12x12.ReducesTo [0, 1] S_
  bcast_S_S12 : S_.BroadcastsInDim S12 (![] : Fin 0 → Fin S12.rank)
  reducesTo_S12_S_d0 : S12.ReducesTo [0] S_
  bcast_S_S11x12 : S_.BroadcastsInDim S11x12 (![] : Fin 0 → Fin S11x12.rank)
  reducesTo_S11x12_S_d0_1 : S11x12.ReducesTo [0, 1] S_
  bcast_S_S11 : S_.BroadcastsInDim S11 (![] : Fin 0 → Fin S11.rank)
  reducesTo_S11_S_d0 : S11.ReducesTo [0] S_
  bcast_S_S10x11 : S_.BroadcastsInDim S10x11 (![] : Fin 0 → Fin S10x11.rank)
  reducesTo_S10x11_S_d0_1 : S10x11.ReducesTo [0, 1] S_
  bcast_S_S10 : S_.BroadcastsInDim S10 (![] : Fin 0 → Fin S10.rank)
  reducesTo_S10_S_d0 : S10.ReducesTo [0] S_
  bcast_S_S9x10 : S_.BroadcastsInDim S9x10 (![] : Fin 0 → Fin S9x10.rank)
  reducesTo_S9x10_S_d0_1 : S9x10.ReducesTo [0, 1] S_
  bcast_S_S9 : S_.BroadcastsInDim S9 (![] : Fin 0 → Fin S9.rank)
  reducesTo_S9_S_d0 : S9.ReducesTo [0] S_
  bcast_S_S8x9 : S_.BroadcastsInDim S8x9 (![] : Fin 0 → Fin S8x9.rank)
  reducesTo_S8x9_S_d0_1 : S8x9.ReducesTo [0, 1] S_
  bcast_S_S8 : S_.BroadcastsInDim S8 (![] : Fin 0 → Fin S8.rank)
  reducesTo_S8_S_d0 : S8.ReducesTo [0] S_
  bcast_S_S7x8 : S_.BroadcastsInDim S7x8 (![] : Fin 0 → Fin S7x8.rank)
  reducesTo_S7x8_S_d0_1 : S7x8.ReducesTo [0, 1] S_
  bcast_S_S7 : S_.BroadcastsInDim S7 (![] : Fin 0 → Fin S7.rank)
  reducesTo_S7_S_d0 : S7.ReducesTo [0] S_
  bcast_S_S6x7 : S_.BroadcastsInDim S6x7 (![] : Fin 0 → Fin S6x7.rank)
  reducesTo_S6x7_S_d0_1 : S6x7.ReducesTo [0, 1] S_
  bcast_S_S6 : S_.BroadcastsInDim S6 (![] : Fin 0 → Fin S6.rank)
  reducesTo_S6_S_d0 : S6.ReducesTo [0] S_
  bcast_S_S7x6 : S_.BroadcastsInDim S7x6 (![] : Fin 0 → Fin S7x6.rank)
  reducesTo_S7x6_S_d0_1 : S7x6.ReducesTo [0, 1] S_
  bcast_S_S8x7 : S_.BroadcastsInDim S8x7 (![] : Fin 0 → Fin S8x7.rank)
  reducesTo_S8x7_S_d0_1 : S8x7.ReducesTo [0, 1] S_
  bcast_S_S9x8 : S_.BroadcastsInDim S9x8 (![] : Fin 0 → Fin S9x8.rank)
  reducesTo_S9x8_S_d0_1 : S9x8.ReducesTo [0, 1] S_
  bcast_S_S10x9 : S_.BroadcastsInDim S10x9 (![] : Fin 0 → Fin S10x9.rank)
  reducesTo_S10x9_S_d0_1 : S10x9.ReducesTo [0, 1] S_
  bcast_S_S11x10 : S_.BroadcastsInDim S11x10 (![] : Fin 0 → Fin S11x10.rank)
  reducesTo_S11x10_S_d0_1 : S11x10.ReducesTo [0, 1] S_
  bcast_S_S12x11 : S_.BroadcastsInDim S12x11 (![] : Fin 0 → Fin S12x11.rank)
  reducesTo_S12x11_S_d0_1 : S12x11.ReducesTo [0, 1] S_
  bcast_S_S2x12 : S_.BroadcastsInDim S2x12 (![] : Fin 0 → Fin S2x12.rank)
  reducesTo_S2x12_S_d0_1 : S2x12.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg28 : FVec F S2 .f32) (main_v133 : IVec S_ 1) (main_v136 : IVec S2x12 1) : IVec S_ 1 :=
  let main_c_53 : IVec S_ 1 := constantI S_ 1 1#1
  let main_v137 : IVec S_ 1 := (fun x v => Host.reduce IntOp.andi x v reducesTo_S2x12_S_d0_1 h_S_) main_v136 main_c_53
  let main_v138 : IVec S_ 1 := andi main_v133 main_v137
  let main_v139 : FVec F S2 .f32 := Host.absf main_arg28
  let main_cst_54 : FVec F S_ .f32 := constant S_ .f32 0x7F800000#32
  let main_v140 : FVec F S2 .f32 := broadcastInDim S2 ![] bcast_S_S2 main_cst_54
  let main_v141 : IVec S2 1 := cmpf .olt main_v139 main_v140
  let main_c_55 : IVec S_ 1 := constantI S_ 1 1#1
  let main_v142 : IVec S_ 1 := (fun x v => Host.reduce IntOp.andi x v reducesTo_S2_S_d0 h_S_) main_v141 main_c_55
  let main_v143 : IVec S_ 1 := andi main_v138 main_v142
  main_v143

def fn_part7 {F : FTy → Type} [FloatOps F] (main_arg25 : FVec F S12x11 .f32) (main_arg26 : FVec F S12 .f32) (main_arg27 : FVec F S2x12 .f32) (main_arg28 : FVec F S2 .f32) (main_v118 : IVec S_ 1) (main_v119 : FVec F S11 .f32) : IVec S_ 1 :=
  let main_cst_46 : FVec F S_ .f32 := constant S_ .f32 0x7F800000#32
  let main_v120 : FVec F S11 .f32 := broadcastInDim S11 ![] bcast_S_S11 main_cst_46
  let main_v121 : IVec S11 1 := cmpf .olt main_v119 main_v120
  let main_c_47 : IVec S_ 1 := constantI S_ 1 1#1
  let main_v122 : IVec S_ 1 := (fun x v => Host.reduce IntOp.andi x v reducesTo_S11_S_d0 h_S_) main_v121 main_c_47
  let main_v123 : IVec S_ 1 := andi main_v118 main_v122
  let main_v124 : FVec F S12x11 .f32 := Host.absf main_arg25
  let main_cst_48 : FVec F S_ .f32 := constant S_ .f32 0x7F800000#32
  let main_v125 : FVec F S12x11 .f32 := broadcastInDim S12x11 ![] bcast_S_S12x11 main_cst_48
  let main_v126 : IVec S12x11 1 := cmpf .olt main_v124 main_v125
  let main_c_49 : IVec S_ 1 := constantI S_ 1 1#1
  let main_v127 : IVec S_ 1 := (fun x v => Host.reduce IntOp.andi x v reducesTo_S12x11_S_d0_1 h_S_) main_v126 main_c_49
  let main_v128 : IVec S_ 1 := andi main_v123 main_v127
  let main_v129 : FVec F S12 .f32 := Host.absf main_arg26
  let main_cst_50 : FVec F S_ .f32 := constant S_ .f32 0x7F800000#32
  let main_v130 : FVec F S12 .f32 := broadcastInDim S12 ![] bcast_S_S12 main_cst_50
  let main_v131 : IVec S12 1 := cmpf .olt main_v129 main_v130
  let main_c_51 : IVec S_ 1 := constantI S_ 1 1#1
  let main_v132 : IVec S_ 1 := (fun x v => Host.reduce IntOp.andi x v reducesTo_S12_S_d0 h_S_) main_v131 main_c_51
  let main_v133 : IVec S_ 1 := andi main_v128 main_v132
  let main_v134 : FVec F S2x12 .f32 := Host.absf main_arg27
  let main_cst_52 : FVec F S_ .f32 := constant S_ .f32 0x7F800000#32
  let main_v135 : FVec F S2x12 .f32 := broadcastInDim S2x12 ![] bcast_S_S2x12 main_cst_52
  let main_v136 : IVec S2x12 1 := cmpf .olt main_v134 main_v135
  fn_part8 (F := F) main_arg28 main_v133 main_v136

def fn_part6 {F : FTy → Type} [FloatOps F] (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) (main_v98 : IVec S_ 1) (main_v101 : IVec S9 1) (main_c_39 : IVec S_ 1) : IVec S_ 1 :=
  let main_v102 : IVec S_ 1 := (fun x v => Host.reduce IntOp.andi x v reducesTo_S9_S_d0 h_S_) main_v101 main_c_39
  let main_v103 : IVec S_ 1 := andi main_v98 main_v102
  let main_v104 : FVec F S10x9 .f32 := Host.absf main_arg21
  let main_cst_40 : FVec F S_ .f32 := constant S_ .f32 0x7F800000#32
  let main_v105 : FVec F S10x9 .f32 := broadcastInDim S10x9 ![] bcast_S_S10x9 main_cst_40
  let main_v106 : IVec S10x9 1 := cmpf .olt main_v104 main_v105
  let main_c_41 : IVec S_ 1 := constantI S_ 1 1#1
  let main_v107 : IVec S_ 1 := (fun x v => Host.reduce IntOp.andi x v reducesTo_S10x9_S_d0_1 h_S_) main_v106 main_c_41
  let main_v108 : IVec S_ 1 := andi main_v103 main_v107
  let main_v109 : FVec F S10 .f32 := Host.absf main_arg22
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  let main_v114 : FVec F S11x10 .f32 := Host.absf main_arg23
  let main_cst_44 : FVec F S_ .f32 := constant S_ .f32 0x7F800000#32
  let main_v115 : FVec F S11x10 .f32 := broadcastInDim S11x10 ![] bcast_S_S11x10 main_cst_44
  let main_v116 : IVec S11x10 1 := cmpf .olt main_v114 main_v115
  let main_c_45 : IVec S_ 1 := constantI S_ 1 1#1
  let main_v117 : IVec S_ 1 := (fun x v => Host.reduce IntOp.andi x v reducesTo_S11x10_S_d0_1 h_S_) main_v116 main_c_45
  let main_v118 : IVec S_ 1 := andi main_v113 main_v117
  let main_v119 : FVec F S11 .f32 := Host.absf main_arg24
  fn_part7 (F := F) main_arg25 main_arg26 main_arg27 main_arg28 main_v118 main_v119

def fn_part5 {F : FTy → Type} [FloatOps F] (main_arg18 : FVec F S8 .f32) (main_arg19 : FVec F S9x8 .f32) (main_arg20 : FVec F S9 .f32) (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) (main_v83 : IVec S_ 1) (main_v84 : FVec F S8x7 .f32) (main_cst_32 : FVec F S_ .f32) : IVec S_ 1 :=
  let main_v85 : FVec F S8x7 .f32 := broadcastInDim S8x7 ![] bcast_S_S8x7 main_cst_32
  let main_v86 : IVec S8x7 1 := cmpf .olt main_v84 main_v85
  let main_c_33 : IVec S_ 1 := constantI S_ 1 1#1
  let main_v87 : IVec S_ 1 := (fun x v => Host.reduce IntOp.andi x v reducesTo_S8x7_S_d0_1 h_S_) main_v86 main_c_33
  let main_v88 : IVec S_ 1 := andi main_v83 main_v87
  let main_v89 : FVec F S8 .f32 := Host.absf main_arg18
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S9x8 .f32 := Host.absf main_arg19
  let main_cst_36 : FVec F S_ .f32 := constant S_ .f32 0x7F800000#32
  let main_v95 : FVec F S9x8 .f32 := broadcastInDim S9x8 ![] bcast_S_S9x8 main_cst_36
  let main_v96 : IVec S9x8 1 := cmpf .olt main_v94 main_v95
  let main_c_37 : IVec S_ 1 := constantI S_ 1 1#1
  let main_v97 : IVec S_ 1 := (fun x v => Host.reduce IntOp.andi x v reducesTo_S9x8_S_d0_1 h_S_) main_v96 main_c_37
  let main_v98 : IVec S_ 1 := andi main_v93 main_v97
  let main_v99 : FVec F S9 .f32 := Host.absf main_arg20
  let main_cst_38 : FVec F S_ .f32 := constant S_ .f32 0x7F800000#32
  let main_v100 : FVec F S9 .f32 := broadcastInDim S9 ![] bcast_S_S9 main_cst_38
  let main_v101 : IVec S9 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S6 .f32) (main_arg15 : FVec F S7x6 .f32) (main_arg16 : FVec F S7 .f32) (main_arg17 : FVec F S8x7 .f32) (main_arg18 : FVec F S8 .f32) (main_arg19 : FVec F S9x8 .f32) (main_arg20 : FVec F S9 .f32) (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) (main_v63 : IVec S_ 1) (main_v67 : IVec S_ 1) : IVec S_ 1 :=
  let main_v68 : IVec S_ 1 := andi main_v63 main_v67
  let main_v69 : FVec F S6 .f32 := Host.absf main_arg14
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  let main_v74 : FVec F S7x6 .f32 := Host.absf main_arg15
  let main_cst_28 : FVec F S_ .f32 := constant S_ .f32 0x7F800000#32
  let main_v75 : FVec F S7x6 .f32 := broadcastInDim S7x6 ![] bcast_S_S7x6 main_cst_28
  let main_v76 : IVec S7x6 1 := cmpf .olt main_v74 main_v75
  let main_c_29 : IVec S_ 1 := constantI S_ 1 1#1
  let main_v77 : IVec S_ 1 := (fun x v => Host.reduce IntOp.andi x v reducesTo_S7x6_S_d0_1 h_S_) main_v76 main_c_29
  let main_v78 : IVec S_ 1 := andi main_v73 main_v77
  let main_v79 : FVec F S7 .f32 := Host.absf main_arg16
  let main_cst_30 : FVec F S_ .f32 := constant S_ .f32 0x7F800000#32
  let main_v80 : FVec F S7 .f32 := broadcastInDim S7 ![] bcast_S_S7 main_cst_30
  let main_v81 : IVec S7 1 := cmpf .olt main_v79 main_v80
  let main_c_31 : IVec S_ 1 := constantI S_ 1 1#1
  let main_v82 : IVec S_ 1 := (fun x v => Host.reduce IntOp.andi x v reducesTo_S7_S_d0 h_S_) main_v81 main_c_31
  let main_v83 : IVec S_ 1 := andi main_v78 main_v82
  let main_v84 : FVec F S8x7 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S7x8 .f32) (main_arg12 : FVec F S7 .f32) (main_arg13 : FVec F S6x7 .f32) (main_arg14 : FVec F S6 .f32) (main_arg15 : FVec F S7x6 .f32) (main_arg16 : FVec F S7 .f32) (main_arg17 : FVec F S8x7 .f32) (main_arg18 : FVec F S8 .f32) (main_arg19 : FVec F S9x8 .f32) (main_arg20 : FVec F S9 .f32) (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S7x8 .f32 := Host.absf main_arg11
  let main_cst_20 : FVec F S_ .f32 := constant S_ .f32 0x7F800000#32
  let main_v55 : FVec F S7x8 .f32 := broadcastInDim S7x8 ![] bcast_S_S7x8 main_cst_20
  let main_v56 : IVec S7x8 1 := cmpf .olt main_v54 main_v55
  let main_c_21 : IVec S_ 1 := constantI S_ 1 1#1
  let main_v57 : IVec S_ 1 := (fun x v => Host.reduce IntOp.andi x v reducesTo_S7x8_S_d0_1 h_S_) main_v56 main_c_21
  let main_v58 : IVec S_ 1 := andi main_v53 main_v57
  let main_v59 : FVec F S7 .f32 := Host.absf main_arg12
  let main_cst_22 : FVec F S_ .f32 := constant S_ .f32 0x7F800000#32
  let main_v60 : FVec F S7 .f32 := broadcastInDim S7 ![] bcast_S_S7 main_cst_22
  let main_v61 : IVec S7 1 := cmpf .olt main_v59 main_v60
  let main_c_23 : IVec S_ 1 := constantI S_ 1 1#1
  let main_v62 : IVec S_ 1 := (fun x v => Host.reduce IntOp.andi x v reducesTo_S7_S_d0 h_S_) main_v61 main_c_23
  let main_v63 : IVec S_ 1 := andi main_v58 main_v62
  let main_v64 : FVec F S6x7 .f32 := Host.absf main_arg13
  let main_cst_24 : FVec F S_ .f32 := constant S_ .f32 0x7F800000#32
  let main_v65 : FVec F S6x7 .f32 := broadcastInDim S6x7 ![] bcast_S_S6x7 main_cst_24
  let main_v66 : IVec S6x7 1 := cmpf .olt main_v64 main_v65
  let main_c_25 : IVec S_ 1 := constantI S_ 1 1#1
  let main_v67 : IVec S_ 1 := (fun x v => Host.reduce IntOp.andi x v reducesTo_S6x7_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S9x10 .f32) (main_arg8 : FVec F S9 .f32) (main_arg9 : FVec F S8x9 .f32) (main_arg10 : FVec F S8 .f32) (main_arg11 : FVec F S7x8 .f32) (main_arg12 : FVec F S7 .f32) (main_arg13 : FVec F S6x7 .f32) (main_arg14 : FVec F S6 .f32) (main_arg15 : FVec F S7x6 .f32) (main_arg16 : FVec F S7 .f32) (main_arg17 : FVec F S8x7 .f32) (main_arg18 : FVec F S8 .f32) (main_arg19 : FVec F S9x8 .f32) (main_arg20 : FVec F S9 .f32) (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) (main_v33 : IVec S_ 1) : IVec S_ 1 :=
  let main_v34 : FVec F S9x10 .f32 := Host.absf main_arg7
  let main_cst_12 : FVec F S_ .f32 := constant S_ .f32 0x7F800000#32
  let main_v35 : FVec F S9x10 .f32 := broadcastInDim S9x10 ![] bcast_S_S9x10 main_cst_12
  let main_v36 : IVec S9x10 1 := cmpf .olt main_v34 main_v35
  let main_c_13 : IVec S_ 1 := constantI S_ 1 1#1
  let main_v37 : IVec S_ 1 := (fun x v => Host.reduce IntOp.andi x v reducesTo_S9x10_S_d0_1 h_S_) main_v36 main_c_13
  let main_v38 : IVec S_ 1 := andi main_v33 main_v37
  let main_v39 : FVec F S9 .f32 := Host.absf main_arg8
  let main_cst_14 : FVec F S_ .f32 := constant S_ .f32 0x7F800000#32
  let main_v40 : FVec F S9 .f32 := broadcastInDim S9 ![] bcast_S_S9 main_cst_14
  let main_v41 : IVec S9 1 := cmpf .olt main_v39 main_v40
  let main_c_15 : IVec S_ 1 := constantI S_ 1 1#1
  let main_v42 : IVec S_ 1 := (fun x v => Host.reduce IntOp.andi x v reducesTo_S9_S_d0 h_S_) main_v41 main_c_15
  let main_v43 : IVec S_ 1 := andi main_v38 main_v42
  let main_v44 : FVec F S8x9 .f32 := Host.absf main_arg9
  let main_cst_16 : FVec F S_ .f32 := constant S_ .f32 0x7F800000#32
  let main_v45 : FVec F S8x9 .f32 := broadcastInDim S8x9 ![] bcast_S_S8x9 main_cst_16
  let main_v46 : IVec S8x9 1 := cmpf .olt main_v44 main_v45
  let main_c_17 : IVec S_ 1 := constantI S_ 1 1#1
  let main_v47 : IVec S_ 1 := (fun x v => Host.reduce IntOp.andi x v reducesTo_S8x9_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S11 .f32) (main_arg5 : FVec F S10x11 .f32) (main_arg6 : FVec F S10 .f32) (main_arg7 : FVec F S9x10 .f32) (main_arg8 : FVec F S9 .f32) (main_arg9 : FVec F S8x9 .f32) (main_arg10 : FVec F S8 .f32) (main_arg11 : FVec F S7x8 .f32) (main_arg12 : FVec F S7 .f32) (main_arg13 : FVec F S6x7 .f32) (main_arg14 : FVec F S6 .f32) (main_arg15 : FVec F S7x6 .f32) (main_arg16 : FVec F S7 .f32) (main_arg17 : FVec F S8x7 .f32) (main_arg18 : FVec F S8 .f32) (main_arg19 : FVec F S9x8 .f32) (main_arg20 : FVec F S9 .f32) (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) (main_v13 : IVec S_ 1) (main_v16 : IVec S11x12 1) : IVec S_ 1 :=
  let main_c_5 : IVec S_ 1 := constantI S_ 1 1#1
  let main_v17 : IVec S_ 1 := (fun x v => Host.reduce IntOp.andi x v reducesTo_S11x12_S_d0_1 h_S_) main_v16 main_c_5
  let main_v18 : IVec S_ 1 := andi main_v13 main_v17
  let main_v19 : FVec F S11 .f32 := Host.absf main_arg4
  let main_cst_6 : FVec F S_ .f32 := constant S_ .f32 0x7F800000#32
  let main_v20 : FVec F S11 .f32 := broadcastInDim S11 ![] bcast_S_S11 main_cst_6
  let main_v21 : IVec S11 1 := cmpf .olt main_v19 main_v20
  let main_c_7 : IVec S_ 1 := constantI S_ 1 1#1
  let main_v22 : IVec S_ 1 := (fun x v => Host.reduce IntOp.andi x v reducesTo_S11_S_d0 h_S_) main_v21 main_c_7
  let main_v23 : IVec S_ 1 := andi main_v18 main_v22
  let main_v24 : FVec F S10x11 .f32 := Host.absf main_arg5
  let main_cst_8 : FVec F S_ .f32 := constant S_ .f32 0x7F800000#32
  let main_v25 : FVec F S10x11 .f32 := broadcastInDim S10x11 ![] bcast_S_S10x11 main_cst_8
  let main_v26 : IVec S10x11 1 := cmpf .olt main_v24 main_v25
  let main_c_9 : IVec S_ 1 := constantI S_ 1 1#1
  let main_v27 : IVec S_ 1 := (fun x v => Host.reduce IntOp.andi x v reducesTo_S10x11_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S2000000x12 .f32) (main_arg1 : FVec F S12x12 .f32) (main_arg2 : FVec F S12 .f32) (main_arg3 : FVec F S11x12 .f32) (main_arg4 : FVec F S11 .f32) (main_arg5 : FVec F S10x11 .f32) (main_arg6 : FVec F S10 .f32) (main_arg7 : FVec F S9x10 .f32) (main_arg8 : FVec F S9 .f32) (main_arg9 : FVec F S8x9 .f32) (main_arg10 : FVec F S8 .f32) (main_arg11 : FVec F S7x8 .f32) (main_arg12 : FVec F S7 .f32) (main_arg13 : FVec F S6x7 .f32) (main_arg14 : FVec F S6 .f32) (main_arg15 : FVec F S7x6 .f32) (main_arg16 : FVec F S7 .f32) (main_arg17 : FVec F S8x7 .f32) (main_arg18 : FVec F S8 .f32) (main_arg19 : FVec F S9x8 .f32) (main_arg20 : FVec F S9 .f32) (main_arg21 : FVec F S10x9 .f32) (main_arg22 : FVec F S10 .f32) (main_arg23 : FVec F S11x10 .f32) (main_arg24 : FVec F S11 .f32) (main_arg25 : FVec F S12x11 .f32) (main_arg26 : FVec F S12 .f32) (main_arg27 : FVec F S2x12 .f32) (main_arg28 : FVec F S2 .f32) : IVec S_ 1 :=
  let main_v0 : FVec F S2000000x12 .f32 := Host.absf main_arg0
  let main_cst : FVec F S_ .f32 := constant S_ .f32 0x7F800000#32
  let main_v1 : FVec F S2000000x12 .f32 := broadcastInDim S2000000x12 ![] bcast_S_S2000000x12 main_cst
  let main_v2 : IVec S2000000x12 1 := cmpf .olt main_v0 main_v1
  let main_c : IVec S_ 1 := constantI S_ 1 1#1
  let main_v3 : IVec S_ 1 := (fun x v => Host.reduce IntOp.andi x v reducesTo_S2000000x12_S_d0_1 h_S_) main_v2 main_c
  let main_v4 : FVec F S12x12 .f32 := Host.absf main_arg1
  let main_cst_0 : FVec F S_ .f32 := constant S_ .f32 0x7F800000#32
  let main_v5 : FVec F S12x12 .f32 := broadcastInDim S12x12 ![] bcast_S_S12x12 main_cst_0
  let main_v6 : IVec S12x12 1 := cmpf .olt main_v4 main_v5
  let main_c_1 : IVec S_ 1 := constantI S_ 1 1#1
  let main_v7 : IVec S_ 1 := (fun x v => Host.reduce IntOp.andi x v reducesTo_S12x12_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S11x12 .f32 := Host.absf main_arg3
  let main_cst_4 : FVec F S_ .f32 := constant S_ .f32 0x7F800000#32
  let main_v15 : FVec F S11x12 .f32 := broadcastInDim S11x12 ![] bcast_S_S11x12 main_cst_4
  let main_v16 : IVec S11x12 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S2000000x12 : Shape := ⟨2, ![2000000, 12]⟩
abbrev S12x12 : Shape := ⟨2, ![12, 12]⟩
abbrev S12 : Shape := ⟨1, ![12]⟩
abbrev S11x12 : Shape := ⟨2, ![11, 12]⟩
abbrev S11 : Shape := ⟨1, ![11]⟩
abbrev S10x11 : Shape := ⟨2, ![10, 11]⟩
abbrev S10 : Shape := ⟨1, ![10]⟩
abbrev S9x10 : Shape := ⟨2, ![9, 10]⟩
abbrev S9 : Shape := ⟨1, ![9]⟩
abbrev S8x9 : Shape := ⟨2, ![8, 9]⟩
abbrev S8 : Shape := ⟨1, ![8]⟩
abbrev S7x8 : Shape := ⟨2, ![7, 8]⟩
abbrev S7 : Shape := ⟨1, ![7]⟩
abbrev S6x7 : Shape := ⟨2, ![6, 7]⟩
abbrev S6 : Shape := ⟨1, ![6]⟩
abbrev S7x6 : Shape := ⟨2, ![7, 6]⟩
abbrev S8x7 : Shape := ⟨2, ![8, 7]⟩
abbrev S9x8 : Shape := ⟨2, ![9, 8]⟩
abbrev S10x9 : Shape := ⟨2, ![10, 9]⟩
abbrev S11x10 : Shape := ⟨2, ![11, 10]⟩
abbrev S12x11 : Shape := ⟨2, ![12, 11]⟩
abbrev S2x12 : Shape := ⟨2, ![2, 12]⟩
abbrev S2 : Shape := ⟨1, ![2]⟩
abbrev S_ : Shape := ⟨0, ![]⟩
abbrev S2000000x16 : Shape := ⟨2, ![2000000, 16]⟩
abbrev S250000x128 : Shape := ⟨2, ![250000, 128]⟩
abbrev S16x16 : Shape := ⟨2, ![16, 16]⟩
abbrev S1 : Shape := ⟨1, ![1]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S16 : Shape := ⟨1, ![16]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S12x2 : Shape := ⟨2, ![12, 2]⟩
abbrev S2000x128 : Shape := ⟨2, ![2000, 128]⟩
abbrev S2000000x2 : Shape := ⟨2, ![2000000, 2]⟩
abbrev S2000000 : Shape := ⟨1, ![2000000]⟩
abbrev S2000000x1 : Shape := ⟨2, ![2000000, 1]⟩

abbrev nBuf : Space → Nat
  | .hbm => 484
  | .vmem => 32
  | .smem => 0
  | _ => 0

abbrev hbmTy0_0 (i : Nat) : BufTy := match i % 128 with
  | 0 => ⟨S2000000x12, .f32⟩
  | 1 => ⟨S12x12, .f32⟩
  | 2 => ⟨S12, .f32⟩
  | 3 => ⟨S11x12, .f32⟩
  | 4 => ⟨S11, .f32⟩
  | 5 => ⟨S10x11, .f32⟩
  | 6 => ⟨S10, .f32⟩
  | 7 => ⟨S9x10, .f32⟩
  | 8 => ⟨S9, .f32⟩
  | 9 => ⟨S8x9, .f32⟩
  | 10 => ⟨S8, .f32⟩
  | 11 => ⟨S7x8, .f32⟩
  | 12 => ⟨S7, .f32⟩
  | 13 => ⟨S6x7, .f32⟩
  | 14 => ⟨S6, .f32⟩
  | 15 => ⟨S7x6, .f32⟩
  | 16 => ⟨S7, .f32⟩
  | 17 => ⟨S8x7, .f32⟩
  | 18 => ⟨S8, .f32⟩
  | 19 => ⟨S9x8, .f32⟩
  | 20 => ⟨S9, .f32⟩
  | 21 => ⟨S10x9, .f32⟩
  | 22 => ⟨S10, .f32⟩
  | 23 => ⟨S11x10, .f32⟩
  | 24 => ⟨S11, .f32⟩
  | 25 => ⟨S12x11, .f32⟩
  | 26 => ⟨S12, .f32⟩
  | 27 => ⟨S2x12, .f32⟩
  | 28 => ⟨S2, .f32⟩
  | 29 => ⟨S_, .i32⟩
  | 30 => ⟨S_, .f32⟩
  | 31 => ⟨S2000000x16, .f32⟩
  | 32 => ⟨S250000x128, .f32⟩
  | 33 => ⟨S_, .f32⟩
  | 34 => ⟨S16x16, .f32⟩
  | 35 => ⟨S12x12, .f32⟩
  | 36 => ⟨S_, .i32⟩
  | 37 => ⟨S1, .i32⟩
  | 38 => ⟨S_, .i32⟩
  | 39 => ⟨S1, .i32⟩
  | 40 => ⟨S2, .i32⟩
  | 41 => ⟨S16x16, .f32⟩
  | 42 => ⟨S8x8, .i32⟩
  | 43 => ⟨S8x8, .i32⟩
  | 44 => ⟨S_, .i32⟩
  | 45 => ⟨S8x8, .i32⟩
  | 46 => ⟨S8x8, .i32⟩
  | 47 => ⟨S8x8, .i1⟩
  | 48 => ⟨S8x8, .f32⟩
  | 49 => ⟨S8x1x8x1, .f32⟩
  | 50 => ⟨S1x16x1x16, .f32⟩
  | 51 => ⟨S8x16x8x16, .f32⟩
  | 52 => ⟨S8x16x8x16, .f32⟩
  | 53 => ⟨S8x16x8x16, .f32⟩
  | 54 => ⟨S128x128, .f32⟩
  | 55 => ⟨S_, .f32⟩
  | 56 => ⟨S16, .f32⟩
  | 57 => ⟨S_, .i32⟩
  | 58 => ⟨S1, .i32⟩
  | 59 => ⟨S16, .f32⟩
  | 60 => ⟨S1x16, .f32⟩
  | 61 => ⟨S8x16, .f32⟩
  | 62 => ⟨S128, .f32⟩
  | 63 => ⟨S1x128, .f32⟩
  | 64 => ⟨S_, .f32⟩
  | 65 => ⟨S16x16, .f32⟩
  | 66 => ⟨S12x11, .f32⟩
  | 67 => ⟨S_, .i32⟩
  | 68 => ⟨S1, .i32⟩
  | 69 => ⟨S_, .i32⟩
  | 70 => ⟨S1, .i32⟩
  | 71 => ⟨S2, .i32⟩
  | 72 => ⟨S16x16, .f32⟩
  | 73 => ⟨S8x8, .i32⟩
  | 74 => ⟨S8x8, .i32⟩
  | 75 => ⟨S_, .i32⟩
  | 76 => ⟨S8x8, .i32⟩
  | 77 => ⟨S8x8, .i32⟩
  | 78 => ⟨S8x8, .i1⟩
  | 79 => ⟨S8x8, .f32⟩
  | 80 => ⟨S8x1x8x1, .f32⟩
  | 81 => ⟨S1x16x1x16, .f32⟩
  | 82 => ⟨S8x16x8x16, .f32⟩
  | 83 => ⟨S8x16x8x16, .f32⟩
  | 84 => ⟨S8x16x8x16, .f32⟩
  | 85 => ⟨S128x128, .f32⟩
  | 86 => ⟨S_, .f32⟩
  | 87 => ⟨S16, .f32⟩
  | 88 => ⟨S_, .i32⟩
  | 89 => ⟨S1, .i32⟩
  | 90 => ⟨S16, .f32⟩
  | 91 => ⟨S1x16, .f32⟩
  | 92 => ⟨S8x16, .f32⟩
  | 93 => ⟨S128, .f32⟩
  | 94 => ⟨S1x128, .f32⟩
  | 95 => ⟨S_, .f32⟩
  | 96 => ⟨S16x16, .f32⟩
  | 97 => ⟨S11x10, .f32⟩
  | 98 => ⟨S_, .i32⟩
  | 99 => ⟨S1, .i32⟩
  | 100 => ⟨S_, .i32⟩
  | 101 => ⟨S1, .i32⟩
  | 102 => ⟨S2, .i32⟩
  | 103 => ⟨S16x16, .f32⟩
  | 104 => ⟨S8x8, .i32⟩
  | 105 => ⟨S8x8, .i32⟩
  | 106 => ⟨S_, .i32⟩
  | 107 => ⟨S8x8, .i32⟩
  | 108 => ⟨S8x8, .i32⟩
  | 109 => ⟨S8x8, .i1⟩
  | 110 => ⟨S8x8, .f32⟩
  | 111 => ⟨S8x1x8x1, .f32⟩
  | 112 => ⟨S1x16x1x16, .f32⟩
  | 113 => ⟨S8x16x8x16, .f32⟩
  | 114 => ⟨S8x16x8x16, .f32⟩
  | 115 => ⟨S8x16x8x16, .f32⟩
  | 116 => ⟨S128x128, .f32⟩
  | 117 => ⟨S_, .f32⟩
  | 118 => ⟨S16, .f32⟩
  | 119 => ⟨S_, .i32⟩
  | 120 => ⟨S1, .i32⟩
  | 121 => ⟨S16, .f32⟩
  | 122 => ⟨S1x16, .f32⟩
  | 123 => ⟨S8x16, .f32⟩
  | 124 => ⟨S128, .f32⟩
  | 125 => ⟨S1x128, .f32⟩
  | 126 => ⟨S_, .f32⟩
  | 127 => ⟨S16x16, .f32⟩
  | _ => ⟨S2000000x12, .f32⟩

abbrev hbmTy0_1 (i : Nat) : BufTy := match i % 128 with
  | 0 => ⟨S10x9, .f32⟩
  | 1 => ⟨S_, .i32⟩
  | 2 => ⟨S1, .i32⟩
  | 3 => ⟨S_, .i32⟩
  | 4 => ⟨S1, .i32⟩
  | 5 => ⟨S2, .i32⟩
  | 6 => ⟨S16x16, .f32⟩
  | 7 => ⟨S8x8, .i32⟩
  | 8 => ⟨S8x8, .i32⟩
  | 9 => ⟨S_, .i32⟩
  | 10 => ⟨S8x8, .i32⟩
  | 11 => ⟨S8x8, .i32⟩
  | 12 => ⟨S8x8, .i1⟩
  | 13 => ⟨S8x8, .f32⟩
  | 14 => ⟨S8x1x8x1, .f32⟩
  | 15 => ⟨S1x16x1x16, .f32⟩
  | 16 => ⟨S8x16x8x16, .f32⟩
  | 17 => ⟨S8x16x8x16, .f32⟩
  | 18 => ⟨S8x16x8x16, .f32⟩
  | 19 => ⟨S128x128, .f32⟩
  | 20 => ⟨S_, .f32⟩
  | 21 => ⟨S16, .f32⟩
  | 22 => ⟨S_, .i32⟩
  | 23 => ⟨S1, .i32⟩
  | 24 => ⟨S16, .f32⟩
  | 25 => ⟨S1x16, .f32⟩
  | 26 => ⟨S8x16, .f32⟩
  | 27 => ⟨S128, .f32⟩
  | 28 => ⟨S1x128, .f32⟩
  | 29 => ⟨S_, .f32⟩
  | 30 => ⟨S16x16, .f32⟩
  | 31 => ⟨S9x8, .f32⟩
  | 32 => ⟨S_, .i32⟩
  | 33 => ⟨S1, .i32⟩
  | 34 => ⟨S_, .i32⟩
  | 35 => ⟨S1, .i32⟩
  | 36 => ⟨S2, .i32⟩
  | 37 => ⟨S16x16, .f32⟩
  | 38 => ⟨S8x8, .i32⟩
  | 39 => ⟨S8x8, .i32⟩
  | 40 => ⟨S_, .i32⟩
  | 41 => ⟨S8x8, .i32⟩
  | 42 => ⟨S8x8, .i32⟩
  | 43 => ⟨S8x8, .i1⟩
  | 44 => ⟨S8x8, .f32⟩
  | 45 => ⟨S8x1x8x1, .f32⟩
  | 46 => ⟨S1x16x1x16, .f32⟩
  | 47 => ⟨S8x16x8x16, .f32⟩
  | 48 => ⟨S8x16x8x16, .f32⟩
  | 49 => ⟨S8x16x8x16, .f32⟩
  | 50 => ⟨S128x128, .f32⟩
  | 51 => ⟨S_, .f32⟩
  | 52 => ⟨S16, .f32⟩
  | 53 => ⟨S_, .i32⟩
  | 54 => ⟨S1, .i32⟩
  | 55 => ⟨S16, .f32⟩
  | 56 => ⟨S1x16, .f32⟩
  | 57 => ⟨S8x16, .f32⟩
  | 58 => ⟨S128, .f32⟩
  | 59 => ⟨S1x128, .f32⟩
  | 60 => ⟨S_, .f32⟩
  | 61 => ⟨S16x16, .f32⟩
  | 62 => ⟨S8x7, .f32⟩
  | 63 => ⟨S_, .i32⟩
  | 64 => ⟨S1, .i32⟩
  | 65 => ⟨S_, .i32⟩
  | 66 => ⟨S1, .i32⟩
  | 67 => ⟨S2, .i32⟩
  | 68 => ⟨S16x16, .f32⟩
  | 69 => ⟨S8x8, .i32⟩
  | 70 => ⟨S8x8, .i32⟩
  | 71 => ⟨S_, .i32⟩
  | 72 => ⟨S8x8, .i32⟩
  | 73 => ⟨S8x8, .i32⟩
  | 74 => ⟨S8x8, .i1⟩
  | 75 => ⟨S8x8, .f32⟩
  | 76 => ⟨S8x1x8x1, .f32⟩
  | 77 => ⟨S1x16x1x16, .f32⟩
  | 78 => ⟨S8x16x8x16, .f32⟩
  | 79 => ⟨S8x16x8x16, .f32⟩
  | 80 => ⟨S8x16x8x16, .f32⟩
  | 81 => ⟨S128x128, .f32⟩
  | 82 => ⟨S_, .f32⟩
  | 83 => ⟨S16, .f32⟩
  | 84 => ⟨S_, .i32⟩
  | 85 => ⟨S1, .i32⟩
  | 86 => ⟨S16, .f32⟩
  | 87 => ⟨S1x16, .f32⟩
  | 88 => ⟨S8x16, .f32⟩
  | 89 => ⟨S128, .f32⟩
  | 90 => ⟨S1x128, .f32⟩
  | 91 => ⟨S_, .f32⟩
  | 92 => ⟨S16x16, .f32⟩
  | 93 => ⟨S7x6, .f32⟩
  | 94 => ⟨S_, .i32⟩
  | 95 => ⟨S1, .i32⟩
  | 96 => ⟨S_, .i32⟩
  | 97 => ⟨S1, .i32⟩
  | 98 => ⟨S2, .i32⟩
  | 99 => ⟨S16x16, .f32⟩
  | 100 => ⟨S8x8, .i32⟩
  | 101 => ⟨S8x8, .i32⟩
  | 102 => ⟨S_, .i32⟩
  | 103 => ⟨S8x8, .i32⟩
  | 104 => ⟨S8x8, .i32⟩
  | 105 => ⟨S8x8, .i1⟩
  | 106 => ⟨S8x8, .f32⟩
  | 107 => ⟨S8x1x8x1, .f32⟩
  | 108 => ⟨S1x16x1x16, .f32⟩
  | 109 => ⟨S8x16x8x16, .f32⟩
  | 110 => ⟨S8x16x8x16, .f32⟩
  | 111 => ⟨S8x16x8x16, .f32⟩
  | 112 => ⟨S128x128, .f32⟩
  | 113 => ⟨S_, .f32⟩
  | 114 => ⟨S16, .f32⟩
  | 115 => ⟨S_, .i32⟩
  | 116 => ⟨S1, .i32⟩
  | 117 => ⟨S16, .f32⟩
  | 118 => ⟨S1x16, .f32⟩
  | 119 => ⟨S8x16, .f32⟩
  | 120 => ⟨S128, .f32⟩
  | 121 => ⟨S1x128, .f32⟩
  | 122 => ⟨S_, .f32⟩
  | 123 => ⟨S16x16, .f32⟩
  | 124 => ⟨S6x7, .f32⟩
  | 125 => ⟨S_, .i32⟩
  | 126 => ⟨S1, .i32⟩
  | 127 => ⟨S_, .i32⟩
  | _ => ⟨S2000000x12, .f32⟩

abbrev hbmTy0_2 (i : Nat) : BufTy := match i % 128 with
  | 0 => ⟨S1, .i32⟩
  | 1 => ⟨S2, .i32⟩
  | 2 => ⟨S16x16, .f32⟩
  | 3 => ⟨S8x8, .i32⟩
  | 4 => ⟨S8x8, .i32⟩
  | 5 => ⟨S_, .i32⟩
  | 6 => ⟨S8x8, .i32⟩
  | 7 => ⟨S8x8, .i32⟩
  | 8 => ⟨S8x8, .i1⟩
  | 9 => ⟨S8x8, .f32⟩
  | 10 => ⟨S8x1x8x1, .f32⟩
  | 11 => ⟨S1x16x1x16, .f32⟩
  | 12 => ⟨S8x16x8x16, .f32⟩
  | 13 => ⟨S8x16x8x16, .f32⟩
  | 14 => ⟨S8x16x8x16, .f32⟩
  | 15 => ⟨S128x128, .f32⟩
  | 16 => ⟨S_, .f32⟩
  | 17 => ⟨S16, .f32⟩
  | 18 => ⟨S_, .i32⟩
  | 19 => ⟨S1, .i32⟩
  | 20 => ⟨S16, .f32⟩
  | 21 => ⟨S1x16, .f32⟩
  | 22 => ⟨S8x16, .f32⟩
  | 23 => ⟨S128, .f32⟩
  | 24 => ⟨S1x128, .f32⟩
  | 25 => ⟨S_, .f32⟩
  | 26 => ⟨S16x16, .f32⟩
  | 27 => ⟨S7x8, .f32⟩
  | 28 => ⟨S_, .i32⟩
  | 29 => ⟨S1, .i32⟩
  | 30 => ⟨S_, .i32⟩
  | 31 => ⟨S1, .i32⟩
  | 32 => ⟨S2, .i32⟩
  | 33 => ⟨S16x16, .f32⟩
  | 34 => ⟨S8x8, .i32⟩
  | 35 => ⟨S8x8, .i32⟩
  | 36 => ⟨S_, .i32⟩
  | 37 => ⟨S8x8, .i32⟩
  | 38 => ⟨S8x8, .i32⟩
  | 39 => ⟨S8x8, .i1⟩
  | 40 => ⟨S8x8, .f32⟩
  | 41 => ⟨S8x1x8x1, .f32⟩
  | 42 => ⟨S1x16x1x16, .f32⟩
  | 43 => ⟨S8x16x8x16, .f32⟩
  | 44 => ⟨S8x16x8x16, .f32⟩
  | 45 => ⟨S8x16x8x16, .f32⟩
  | 46 => ⟨S128x128, .f32⟩
  | 47 => ⟨S_, .f32⟩
  | 48 => ⟨S16, .f32⟩
  | 49 => ⟨S_, .i32⟩
  | 50 => ⟨S1, .i32⟩
  | 51 => ⟨S16, .f32⟩
  | 52 => ⟨S1x16, .f32⟩
  | 53 => ⟨S8x16, .f32⟩
  | 54 => ⟨S128, .f32⟩
  | 55 => ⟨S1x128, .f32⟩
  | 56 => ⟨S_, .f32⟩
  | 57 => ⟨S16x16, .f32⟩
  | 58 => ⟨S8x9, .f32⟩
  | 59 => ⟨S_, .i32⟩
  | 60 => ⟨S1, .i32⟩
  | 61 => ⟨S_, .i32⟩
  | 62 => ⟨S1, .i32⟩
  | 63 => ⟨S2, .i32⟩
  | 64 => ⟨S16x16, .f32⟩
  | 65 => ⟨S8x8, .i32⟩
  | 66 => ⟨S8x8, .i32⟩
  | 67 => ⟨S_, .i32⟩
  | 68 => ⟨S8x8, .i32⟩
  | 69 => ⟨S8x8, .i32⟩
  | 70 => ⟨S8x8, .i1⟩
  | 71 => ⟨S8x8, .f32⟩
  | 72 => ⟨S8x1x8x1, .f32⟩
  | 73 => ⟨S1x16x1x16, .f32⟩
  | 74 => ⟨S8x16x8x16, .f32⟩
  | 75 => ⟨S8x16x8x16, .f32⟩
  | 76 => ⟨S8x16x8x16, .f32⟩
  | 77 => ⟨S128x128, .f32⟩
  | 78 => ⟨S_, .f32⟩
  | 79 => ⟨S16, .f32⟩
  | 80 => ⟨S_, .i32⟩
  | 81 => ⟨S1, .i32⟩
  | 82 => ⟨S16, .f32⟩
  | 83 => ⟨S1x16, .f32⟩
  | 84 => ⟨S8x16, .f32⟩
  | 85 => ⟨S128, .f32⟩
  | 86 => ⟨S1x128, .f32⟩
  | 87 => ⟨S_, .f32⟩
  | 88 => ⟨S16x16, .f32⟩
  | 89 => ⟨S9x10, .f32⟩
  | 90 => ⟨S_, .i32⟩
  | 91 => ⟨S1, .i32⟩
  | 92 => ⟨S_, .i32⟩
  | 93 => ⟨S1, .i32⟩
  | 94 => ⟨S2, .i32⟩
  | 95 => ⟨S16x16, .f32⟩
  | 96 => ⟨S8x8, .i32⟩
  | 97 => ⟨S8x8, .i32⟩
  | 98 => ⟨S_, .i32⟩
  | 99 => ⟨S8x8, .i32⟩
  | 100 => ⟨S8x8, .i32⟩
  | 101 => ⟨S8x8, .i1⟩
  | 102 => ⟨S8x8, .f32⟩
  | 103 => ⟨S8x1x8x1, .f32⟩
  | 104 => ⟨S1x16x1x16, .f32⟩
  | 105 => ⟨S8x16x8x16, .f32⟩
  | 106 => ⟨S8x16x8x16, .f32⟩
  | 107 => ⟨S8x16x8x16, .f32⟩
  | 108 => ⟨S128x128, .f32⟩
  | 109 => ⟨S_, .f32⟩
  | 110 => ⟨S16, .f32⟩
  | 111 => ⟨S_, .i32⟩
  | 112 => ⟨S1, .i32⟩
  | 113 => ⟨S16, .f32⟩
  | 114 => ⟨S1x16, .f32⟩
  | 115 => ⟨S8x16, .f32⟩
  | 116 => ⟨S128, .f32⟩
  | 117 => ⟨S1x128, .f32⟩
  | 118 => ⟨S_, .f32⟩
  | 119 => ⟨S16x16, .f32⟩
  | 120 => ⟨S10x11, .f32⟩
  | 121 => ⟨S_, .i32⟩
  | 122 => ⟨S1, .i32⟩
  | 123 => ⟨S_, .i32⟩
  | 124 => ⟨S1, .i32⟩
  | 125 => ⟨S2, .i32⟩
  | 126 => ⟨S16x16, .f32⟩
  | 127 => ⟨S8x8, .i32⟩
  | _ => ⟨S2000000x12, .f32⟩

abbrev hbmTy0_3 (i : Nat) : BufTy := match i % 128 with
  | 0 => ⟨S8x8, .i32⟩
  | 1 => ⟨S_, .i32⟩
  | 2 => ⟨S8x8, .i32⟩
  | 3 => ⟨S8x8, .i32⟩
  | 4 => ⟨S8x8, .i1⟩
  | 5 => ⟨S8x8, .f32⟩
  | 6 => ⟨S8x1x8x1, .f32⟩
  | 7 => ⟨S1x16x1x16, .f32⟩
  | 8 => ⟨S8x16x8x16, .f32⟩
  | 9 => ⟨S8x16x8x16, .f32⟩
  | 10 => ⟨S8x16x8x16, .f32⟩
  | 11 => ⟨S128x128, .f32⟩
  | 12 => ⟨S_, .f32⟩
  | 13 => ⟨S16, .f32⟩
  | 14 => ⟨S_, .i32⟩
  | 15 => ⟨S1, .i32⟩
  | 16 => ⟨S16, .f32⟩
  | 17 => ⟨S1x16, .f32⟩
  | 18 => ⟨S8x16, .f32⟩
  | 19 => ⟨S128, .f32⟩
  | 20 => ⟨S1x128, .f32⟩
  | 21 => ⟨S_, .f32⟩
  | 22 => ⟨S16x16, .f32⟩
  | 23 => ⟨S11x12, .f32⟩
  | 24 => ⟨S_, .i32⟩
  | 25 => ⟨S1, .i32⟩
  | 26 => ⟨S_, .i32⟩
  | 27 => ⟨S1, .i32⟩
  | 28 => ⟨S2, .i32⟩
  | 29 => ⟨S16x16, .f32⟩
  | 30 => ⟨S8x8, .i32⟩
  | 31 => ⟨S8x8, .i32⟩
  | 32 => ⟨S_, .i32⟩
  | 33 => ⟨S8x8, .i32⟩
  | 34 => ⟨S8x8, .i32⟩
  | 35 => ⟨S8x8, .i1⟩
  | 36 => ⟨S8x8, .f32⟩
  | 37 => ⟨S8x1x8x1, .f32⟩
  | 38 => ⟨S1x16x1x16, .f32⟩
  | 39 => ⟨S8x16x8x16, .f32⟩
  | 40 => ⟨S8x16x8x16, .f32⟩
  | 41 => ⟨S8x16x8x16, .f32⟩
  | 42 => ⟨S128x128, .f32⟩
  | 43 => ⟨S_, .f32⟩
  | 44 => ⟨S16, .f32⟩
  | 45 => ⟨S_, .i32⟩
  | 46 => ⟨S1, .i32⟩
  | 47 => ⟨S16, .f32⟩
  | 48 => ⟨S1x16, .f32⟩
  | 49 => ⟨S8x16, .f32⟩
  | 50 => ⟨S128, .f32⟩
  | 51 => ⟨S1x128, .f32⟩
  | 52 => ⟨S_, .f32⟩
  | 53 => ⟨S16x16, .f32⟩
  | 54 => ⟨S12x2, .f32⟩
  | 55 => ⟨S_, .i32⟩
  | 56 => ⟨S1, .i32⟩
  | 57 => ⟨S_, .i32⟩
  | 58 => ⟨S1, .i32⟩
  | 59 => ⟨S2, .i32⟩
  | 60 => ⟨S16x16, .f32⟩
  | 61 => ⟨S8x8, .i32⟩
  | 62 => ⟨S8x8, .i32⟩
  | 63 => ⟨S_, .i32⟩
  | 64 => ⟨S8x8, .i32⟩
  | 65 => ⟨S8x8, .i32⟩
  | 66 => ⟨S8x8, .i1⟩
  | 67 => ⟨S8x8, .f32⟩
  | 68 => ⟨S8x1x8x1, .f32⟩
  | 69 => ⟨S1x16x1x16, .f32⟩
  | 70 => ⟨S8x16x8x16, .f32⟩
  | 71 => ⟨S8x16x8x16, .f32⟩
  | 72 => ⟨S8x16x8x16, .f32⟩
  | 73 => ⟨S128x128, .f32⟩
  | 74 => ⟨S_, .f32⟩
  | 75 => ⟨S16, .f32⟩
  | 76 => ⟨S_, .i32⟩
  | 77 => ⟨S1, .i32⟩
  | 78 => ⟨S16, .f32⟩
  | 79 => ⟨S1x16, .f32⟩
  | 80 => ⟨S8x16, .f32⟩
  | 81 => ⟨S128, .f32⟩
  | 82 => ⟨S1x128, .f32⟩
  | 83 => ⟨S250000x128, .f32⟩
  | 84 => ⟨S2000000x16, .f32⟩
  | 85 => ⟨S2000000x2, .f32⟩
  | 86 => ⟨S_, .f32⟩
  | 87 => ⟨S2000000, .f32⟩
  | 88 => ⟨S_, .f32⟩
  | 89 => ⟨S2000000, .f32⟩
  | 90 => ⟨S2000000, .f32⟩
  | 91 => ⟨S2000000x1, .f32⟩
  | 92 => ⟨S2000000x2, .f32⟩
  | 93 => ⟨S2000000x2, .f32⟩
  | 94 => ⟨S2000000x2, .f32⟩
  | 95 => ⟨S_, .f32⟩
  | 96 => ⟨S2000000, .f32⟩
  | 97 => ⟨S2000000x1, .f32⟩
  | 98 => ⟨S2000000x2, .f32⟩
  | 99 => ⟨S2000000x2, .f32⟩
  | _ => ⟨S2000000x12, .f32⟩

abbrev hbmTy (i : Nat) : BufTy := match i / 128 with
  | 0 => hbmTy0_0 i
  | 1 => hbmTy0_1 i
  | 2 => hbmTy0_2 i
  | 3 => hbmTy0_3 i
  | _ => ⟨S2000000x12, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S2000000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_call0_v0 : Ref sig .tc := ⟨.hbm, 30, rfl⟩
abbrev main_v0 : Ref sig .tc := ⟨.hbm, 31, rfl⟩
abbrev main_v1 : Ref sig .tc := ⟨.hbm, 32, rfl⟩
abbrev main_cst : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_c_1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_c_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v14 : Ref sig .tc := ⟨.hbm, 54, rfl⟩
abbrev main_cst_3 : Ref sig .tc := ⟨.hbm, 55, rfl⟩
abbrev main_v15 : Ref sig .tc := ⟨.hbm, 56, rfl⟩
abbrev main_c_4 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_5 : Ref sig .tc := ⟨.hbm, 64, rfl⟩
abbrev main_v22 : Ref sig .tc := ⟨.hbm, 65, rfl⟩
abbrev main_v23 : Ref sig .tc := ⟨.hbm, 66, rfl⟩
abbrev main_c_6 : Ref sig .tc := ⟨.hbm, 67, rfl⟩
abbrev main_v24 : Ref sig .tc := ⟨.hbm, 68, rfl⟩
abbrev main_c_7 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_c_8 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v34 : Ref sig .tc := ⟨.hbm, 85, rfl⟩
abbrev main_cst_9 : Ref sig .tc := ⟨.hbm, 86, rfl⟩
abbrev main_v35 : Ref sig .tc := ⟨.hbm, 87, rfl⟩
abbrev main_c_10 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_11 : Ref sig .tc := ⟨.hbm, 95, rfl⟩
abbrev main_v42 : Ref sig .tc := ⟨.hbm, 96, rfl⟩
abbrev main_v43 : Ref sig .tc := ⟨.hbm, 97, rfl⟩
abbrev main_c_12 : Ref sig .tc := ⟨.hbm, 98, rfl⟩
abbrev main_v44 : Ref sig .tc := ⟨.hbm, 99, rfl⟩
abbrev main_c_13 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_c_14 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v54 : Ref sig .tc := ⟨.hbm, 116, rfl⟩
abbrev main_cst_15 : Ref sig .tc := ⟨.hbm, 117, rfl⟩
abbrev main_v55 : Ref sig .tc := ⟨.hbm, 118, rfl⟩
abbrev main_c_16 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_cst_17 : Ref sig .tc := ⟨.hbm, 126, rfl⟩
abbrev main_v62 : Ref sig .tc := ⟨.hbm, 127, rfl⟩
abbrev main_v63 : Ref sig .tc := ⟨.hbm, 128, rfl⟩
abbrev main_c_18 : Ref sig .tc := ⟨.hbm, 129, rfl⟩
abbrev main_v64 : Ref sig .tc := ⟨.hbm, 130, rfl⟩
abbrev main_c_19 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_c_20 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_call4_v0 : Ref sig .tc := ⟨.hbm, 142, rfl⟩
abbrev main_call4_v1 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_v74 : Ref sig .tc := ⟨.hbm, 147, rfl⟩
abbrev main_cst_21 : Ref sig .tc := ⟨.hbm, 148, rfl⟩
abbrev main_v75 : Ref sig .tc := ⟨.hbm, 149, rfl⟩
abbrev main_c_22 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_cst_23 : Ref sig .tc := ⟨.hbm, 157, rfl⟩
abbrev main_v82 : Ref sig .tc := ⟨.hbm, 158, rfl⟩
abbrev main_v83 : Ref sig .tc := ⟨.hbm, 159, rfl⟩
abbrev main_c_24 : Ref sig .tc := ⟨.hbm, 160, rfl⟩
abbrev main_v84 : Ref sig .tc := ⟨.hbm, 161, rfl⟩
abbrev main_c_25 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_c_26 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_v94 : Ref sig .tc := ⟨.hbm, 178, rfl⟩
abbrev main_cst_27 : Ref sig .tc := ⟨.hbm, 179, rfl⟩
abbrev main_v95 : Ref sig .tc := ⟨.hbm, 180, rfl⟩
abbrev main_c_28 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_cst_29 : Ref sig .tc := ⟨.hbm, 188, rfl⟩
abbrev main_v102 : Ref sig .tc := ⟨.hbm, 189, rfl⟩
abbrev main_v103 : Ref sig .tc := ⟨.hbm, 190, rfl⟩
abbrev main_c_30 : Ref sig .tc := ⟨.hbm, 191, rfl⟩
abbrev main_v104 : Ref sig .tc := ⟨.hbm, 192, rfl⟩
abbrev main_c_31 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_c_32 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v114 : Ref sig .tc := ⟨.hbm, 209, rfl⟩
abbrev main_cst_33 : Ref sig .tc := ⟨.hbm, 210, rfl⟩
abbrev main_v115 : Ref sig .tc := ⟨.hbm, 211, rfl⟩
abbrev main_c_34 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_cst_35 : Ref sig .tc := ⟨.hbm, 219, rfl⟩
abbrev main_v122 : Ref sig .tc := ⟨.hbm, 220, rfl⟩
abbrev main_v123 : Ref sig .tc := ⟨.hbm, 221, rfl⟩
abbrev main_c_36 : Ref sig .tc := ⟨.hbm, 222, rfl⟩
abbrev main_v124 : Ref sig .tc := ⟨.hbm, 223, rfl⟩
abbrev main_c_37 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_c_38 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_call7_v0 : Ref sig .tc := ⟨.hbm, 235, rfl⟩
abbrev main_call7_v1 : Ref sig .tc := ⟨.hbm, 236, rfl⟩
abbrev main_call7_v2 : Ref sig .tc := ⟨.hbm, 237, rfl⟩
abbrev main_call7_v3 : Ref sig .tc := ⟨.hbm, 238, rfl⟩
abbrev main_call7_v4 : Ref sig .tc := ⟨.hbm, 239, rfl⟩
abbrev main_v134 : Ref sig .tc := ⟨.hbm, 240, rfl⟩
abbrev main_cst_39 : Ref sig .tc := ⟨.hbm, 241, rfl⟩
abbrev main_v135 : Ref sig .tc := ⟨.hbm, 242, rfl⟩
abbrev main_c_40 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_v139 : Ref sig .tc := ⟨.hbm, 247, rfl⟩
abbrev main_v140 : Ref sig .tc := ⟨.hbm, 248, rfl⟩
abbrev main_v141 : Ref sig .tc := ⟨.hbm, 249, rfl⟩
abbrev main_cst_41 : Ref sig .tc := ⟨.hbm, 250, rfl⟩
abbrev main_v142 : Ref sig .tc := ⟨.hbm, 251, rfl⟩
abbrev main_v143 : Ref sig .tc := ⟨.hbm, 252, rfl⟩
abbrev main_c_42 : Ref sig .tc := ⟨.hbm, 253, rfl⟩
abbrev main_v144 : Ref sig .tc := ⟨.hbm, 254, rfl⟩
abbrev main_c_43 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_c_44 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_call8_v0 : Ref sig .tc := ⟨.hbm, 266, rfl⟩
abbrev main_call8_v1 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_v154 : Ref sig .tc := ⟨.hbm, 271, rfl⟩
abbrev main_cst_45 : Ref sig .tc := ⟨.hbm, 272, rfl⟩
abbrev main_v155 : Ref sig .tc := ⟨.hbm, 273, rfl⟩
abbrev main_c_46 : Ref sig .tc := ⟨.hbm, 274, rfl⟩
abbrev main_v156 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_cst_47 : Ref sig .tc := ⟨.hbm, 281, rfl⟩
abbrev main_v162 : Ref sig .tc := ⟨.hbm, 282, rfl⟩
abbrev main_v163 : Ref sig .tc := ⟨.hbm, 283, rfl⟩
abbrev main_c_48 : Ref sig .tc := ⟨.hbm, 284, rfl⟩
abbrev main_v164 : Ref sig .tc := ⟨.hbm, 285, rfl⟩
abbrev main_c_49 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_c_50 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_call9_v0 : Ref sig .tc := ⟨.hbm, 297, rfl⟩
abbrev main_call9_v1 : Ref sig .tc := ⟨.hbm, 298, rfl⟩
abbrev main_call9_v2 : Ref sig .tc := ⟨.hbm, 299, rfl⟩
abbrev main_call9_v3 : Ref sig .tc := ⟨.hbm, 300, rfl⟩
abbrev main_call9_v4 : Ref sig .tc := ⟨.hbm, 301, rfl⟩
abbrev main_v174 : Ref sig .tc := ⟨.hbm, 302, rfl⟩
abbrev main_cst_51 : Ref sig .tc := ⟨.hbm, 303, rfl⟩
abbrev main_v175 : Ref sig .tc := ⟨.hbm, 304, rfl⟩
abbrev main_c_52 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_v181 : Ref sig .tc := ⟨.hbm, 311, rfl⟩
abbrev main_cst_53 : Ref sig .tc := ⟨.hbm, 312, rfl⟩
abbrev main_v182 : Ref sig .tc := ⟨.hbm, 313, rfl⟩
abbrev main_v183 : Ref sig .tc := ⟨.hbm, 314, rfl⟩
abbrev main_c_54 : Ref sig .tc := ⟨.hbm, 315, rfl⟩
abbrev main_v184 : Ref sig .tc := ⟨.hbm, 316, rfl⟩
abbrev main_c_55 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_c_56 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_call10_v0 : Ref sig .tc := ⟨.hbm, 328, rfl⟩
abbrev main_call10_v1 : Ref sig .tc := ⟨.hbm, 329, rfl⟩
abbrev main_call10_v2 : Ref sig .tc := ⟨.hbm, 330, rfl⟩
abbrev main_call10_v3 : Ref sig .tc := ⟨.hbm, 331, rfl⟩
abbrev main_call10_v4 : Ref sig .tc := ⟨.hbm, 332, rfl⟩
abbrev main_v194 : Ref sig .tc := ⟨.hbm, 333, rfl⟩
abbrev main_cst_57 : Ref sig .tc := ⟨.hbm, 334, rfl⟩
abbrev main_v195 : Ref sig .tc := ⟨.hbm, 335, rfl⟩
abbrev main_c_58 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_cst_59 : Ref sig .tc := ⟨.hbm, 343, rfl⟩
abbrev main_v202 : Ref sig .tc := ⟨.hbm, 344, rfl⟩
abbrev main_v203 : Ref sig .tc := ⟨.hbm, 345, rfl⟩
abbrev main_c_60 : Ref sig .tc := ⟨.hbm, 346, rfl⟩
abbrev main_v204 : Ref sig .tc := ⟨.hbm, 347, rfl⟩
abbrev main_c_61 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_c_62 : Ref sig .tc := ⟨.hbm, 354, rfl⟩
abbrev main_v210 : Ref sig .tc := ⟨.hbm, 355, rfl⟩
abbrev main_v211 : Ref sig .tc := ⟨.hbm, 356, rfl⟩
abbrev main_v212 : Ref sig .tc := ⟨.hbm, 357, rfl⟩
abbrev main_v213 : Ref sig .tc := ⟨.hbm, 358, rfl⟩
abbrev main_call11_v0 : Ref sig .tc := ⟨.hbm, 359, rfl⟩
abbrev main_call11_v1 : Ref sig .tc := ⟨.hbm, 360, rfl⟩
abbrev main_call11_v2 : Ref sig .tc := ⟨.hbm, 361, rfl⟩
abbrev main_call11_v3 : Ref sig .tc := ⟨.hbm, 362, rfl⟩
abbrev main_call11_v4 : Ref sig .tc := ⟨.hbm, 363, rfl⟩
abbrev main_v214 : Ref sig .tc := ⟨.hbm, 364, rfl⟩
abbrev main_cst_63 : Ref sig .tc := ⟨.hbm, 365, rfl⟩
abbrev main_v215 : Ref sig .tc := ⟨.hbm, 366, rfl⟩
abbrev main_c_64 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_cst_65 : Ref sig .tc := ⟨.hbm, 374, rfl⟩
abbrev main_v222 : Ref sig .tc := ⟨.hbm, 375, rfl⟩
abbrev main_v223 : Ref sig .tc := ⟨.hbm, 376, rfl⟩
abbrev main_c_66 : Ref sig .tc := ⟨.hbm, 377, rfl⟩
abbrev main_v224 : Ref sig .tc := ⟨.hbm, 378, rfl⟩
abbrev main_c_67 : Ref sig .tc := ⟨.hbm, 379, rfl⟩
abbrev main_v225 : Ref sig .tc := ⟨.hbm, 380, rfl⟩
abbrev main_v226 : Ref sig .tc := ⟨.hbm, 381, rfl⟩
abbrev main_v227 : Ref sig .tc := ⟨.hbm, 382, rfl⟩
abbrev main_v228 : Ref sig .tc := ⟨.hbm, 383, rfl⟩
abbrev main_v229 : Ref sig .tc := ⟨.hbm, 384, rfl⟩
abbrev main_c_68 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_call12_v0 : Ref sig .tc := ⟨.hbm, 390, rfl⟩
abbrev main_call12_v1 : Ref sig .tc := ⟨.hbm, 391, rfl⟩
abbrev main_call12_v2 : Ref sig .tc := ⟨.hbm, 392, rfl⟩
abbrev main_call12_v3 : Ref sig .tc := ⟨.hbm, 393, rfl⟩
abbrev main_call12_v4 : Ref sig .tc := ⟨.hbm, 394, rfl⟩
abbrev main_v234 : Ref sig .tc := ⟨.hbm, 395, rfl⟩
abbrev main_cst_69 : Ref sig .tc := ⟨.hbm, 396, rfl⟩
abbrev main_v235 : Ref sig .tc := ⟨.hbm, 397, rfl⟩
abbrev main_c_70 : Ref sig .tc := ⟨.hbm, 398, rfl⟩
abbrev main_v236 : Ref sig .tc := ⟨.hbm, 399, rfl⟩
abbrev main_v237 : Ref sig .tc := ⟨.hbm, 400, rfl⟩
abbrev main_v238 : Ref sig .tc := ⟨.hbm, 401, rfl⟩
abbrev main_v239 : Ref sig .tc := ⟨.hbm, 402, rfl⟩
abbrev main_v240 : Ref sig .tc := ⟨.hbm, 403, rfl⟩
abbrev main_v241 : Ref sig .tc := ⟨.hbm, 404, rfl⟩
abbrev main_cst_71 : Ref sig .tc := ⟨.hbm, 405, rfl⟩
abbrev main_v242 : Ref sig .tc := ⟨.hbm, 406, rfl⟩
abbrev main_v243 : Ref sig .tc := ⟨.hbm, 407, rfl⟩
abbrev main_c_72 : Ref sig .tc := ⟨.hbm, 408, rfl⟩
abbrev main_v244 : Ref sig .tc := ⟨.hbm, 409, rfl⟩
abbrev main_c_73 : Ref sig .tc := ⟨.hbm, 410, rfl⟩
abbrev main_v245 : Ref sig .tc := ⟨.hbm, 411, rfl⟩
abbrev main_v246 : Ref sig .tc := ⟨.hbm, 412, rfl⟩
abbrev main_v247 : Ref sig .tc := ⟨.hbm, 413, rfl⟩
abbrev main_v248 : Ref sig .tc := ⟨.hbm, 414, rfl⟩
abbrev main_v249 : Ref sig .tc := ⟨.hbm, 415, rfl⟩
abbrev main_c_74 : Ref sig .tc := ⟨.hbm, 416, rfl⟩
abbrev main_v250 : Ref sig .tc := ⟨.hbm, 417, rfl⟩
abbrev main_v251 : Ref sig .tc := ⟨.hbm, 418, rfl⟩
abbrev main_v252 : Ref sig .tc := ⟨.hbm, 419, rfl⟩
abbrev main_v253 : Ref sig .tc := ⟨.hbm, 420, rfl⟩
abbrev main_call13_v0 : Ref sig .tc := ⟨.hbm, 421, rfl⟩
abbrev main_call13_v1 : Ref sig .tc := ⟨.hbm, 422, rfl⟩
abbrev main_call13_v2 : Ref sig .tc := ⟨.hbm, 423, rfl⟩
abbrev main_call13_v3 : Ref sig .tc := ⟨.hbm, 424, rfl⟩
abbrev main_call13_v4 : Ref sig .tc := ⟨.hbm, 425, rfl⟩
abbrev main_v254 : Ref sig .tc := ⟨.hbm, 426, rfl⟩
abbrev main_cst_75 : Ref sig .tc := ⟨.hbm, 427, rfl⟩
abbrev main_v255 : Ref sig .tc := ⟨.hbm, 428, rfl⟩
abbrev main_c_76 : Ref sig .tc := ⟨.hbm, 429, rfl⟩
abbrev main_v256 : Ref sig .tc := ⟨.hbm, 430, rfl⟩
abbrev main_v257 : Ref sig .tc := ⟨.hbm, 431, rfl⟩
abbrev main_v258 : Ref sig .tc := ⟨.hbm, 432, rfl⟩
abbrev main_v259 : Ref sig .tc := ⟨.hbm, 433, rfl⟩
abbrev main_v260 : Ref sig .tc := ⟨.hbm, 434, rfl⟩
abbrev main_v261 : Ref sig .tc := ⟨.hbm, 435, rfl⟩
abbrev main_cst_77 : Ref sig .tc := ⟨.hbm, 436, rfl⟩
abbrev main_v262 : Ref sig .tc := ⟨.hbm, 437, rfl⟩
abbrev main_v263 : Ref sig .tc := ⟨.hbm, 438, rfl⟩
abbrev main_c_78 : Ref sig .tc := ⟨.hbm, 439, rfl⟩
abbrev main_v264 : Ref sig .tc := ⟨.hbm, 440, rfl⟩
abbrev main_c_79 : Ref sig .tc := ⟨.hbm, 441, rfl⟩
abbrev main_v265 : Ref sig .tc := ⟨.hbm, 442, rfl⟩
abbrev main_v266 : Ref sig .tc := ⟨.hbm, 443, rfl⟩
abbrev main_v267 : Ref sig .tc := ⟨.hbm, 444, rfl⟩
abbrev main_v268 : Ref sig .tc := ⟨.hbm, 445, rfl⟩
abbrev main_v269 : Ref sig .tc := ⟨.hbm, 446, rfl⟩
abbrev main_c_80 : Ref sig .tc := ⟨.hbm, 447, rfl⟩
abbrev main_v270 : Ref sig .tc := ⟨.hbm, 448, rfl⟩
abbrev main_v271 : Ref sig .tc := ⟨.hbm, 449, rfl⟩
abbrev main_v272 : Ref sig .tc := ⟨.hbm, 450, rfl⟩
abbrev main_v273 : Ref sig .tc := ⟨.hbm, 451, rfl⟩
abbrev main_call14_v0 : Ref sig .tc := ⟨.hbm, 452, rfl⟩
abbrev main_call14_v1 : Ref sig .tc := ⟨.hbm, 453, rfl⟩
abbrev main_call14_v2 : Ref sig .tc := ⟨.hbm, 454, rfl⟩
abbrev main_call14_v3 : Ref sig .tc := ⟨.hbm, 455, rfl⟩
abbrev main_call14_v4 : Ref sig .tc := ⟨.hbm, 456, rfl⟩
abbrev main_v274 : Ref sig .tc := ⟨.hbm, 457, rfl⟩
abbrev main_cst_81 : Ref sig .tc := ⟨.hbm, 458, rfl⟩
abbrev main_v275 : Ref sig .tc := ⟨.hbm, 459, rfl⟩
abbrev main_c_82 : Ref sig .tc := ⟨.hbm, 460, rfl⟩
abbrev main_v276 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_v280 : Ref sig .tc := ⟨.hbm, 465, rfl⟩
abbrev main_v281 : Ref sig .tc := ⟨.hbm, 466, rfl⟩
abbrev main_v282 : Ref sig .tc := ⟨.hbm, 467, rfl⟩
abbrev main_v283 : Ref sig .tc := ⟨.hbm, 468, rfl⟩
abbrev main_v284 : Ref sig .tc := ⟨.hbm, 469, rfl⟩
abbrev main_cst_83 : Ref sig .tc := ⟨.hbm, 470, rfl⟩
abbrev main_v285 : Ref sig .tc := ⟨.hbm, 471, rfl⟩
abbrev main_cst_84 : Ref sig .tc := ⟨.hbm, 472, rfl⟩
abbrev main_v286 : Ref sig .tc := ⟨.hbm, 473, rfl⟩
abbrev main_v287 : Ref sig .tc := ⟨.hbm, 474, rfl⟩
abbrev main_v288 : Ref sig .tc := ⟨.hbm, 475, rfl⟩
abbrev main_v289 : Ref sig .tc := ⟨.hbm, 476, rfl⟩
abbrev main_v290 : Ref sig .tc := ⟨.hbm, 477, rfl⟩
abbrev main_v291 : Ref sig .tc := ⟨.hbm, 478, rfl⟩
abbrev main_cst_85 : Ref sig .tc := ⟨.hbm, 479, rfl⟩
abbrev main_v292 : Ref sig .tc := ⟨.hbm, 480, rfl⟩
abbrev main_v293 : Ref sig .tc := ⟨.hbm, 481, rfl⟩
abbrev main_v294 : Ref sig .tc := ⟨.hbm, 482, rfl⟩
abbrev main_v295 : Ref sig .tc := ⟨.hbm, 483, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg29_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem29_1 : DmaSem sig := 31

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S2000x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

class Facts₀ : Prop where
  pads_S2000000x12_S2000000x16_000_040 : S2000000x12.Pads (![0, 0] : Fin 2 → Nat) ![0, 4] ![0, 0] S2000000x16
  h_S_ : 0 < S_.numel
  shapeCasts_S2000000x16_S250000x128 : S2000000x16.ShapeCasts S250000x128
  bcast_S_S16x16 : S_.BroadcastsInDim S16x16 (![] : Fin 0 → Fin S16x16.rank)
  transposes_S12x12_S12x12_1_0 : S12x12.Transposes [1, 0] S12x12
  bcast_S_S1 : S_.BroadcastsInDim S1 (![] : Fin 0 → Fin S1.rank)
  concatenates_S1_S1_S2_d0 : Shape.Concatenates [S1, S1] S2 0
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  bcast_S_S16 : S_.BroadcastsInDim S16 (![] : Fin 0 → Fin S16.rank)
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  transposes_S11x12_S12x11_1_0 : S11x12.Transposes [1, 0] S12x11
  transposes_S10x11_S11x10_1_0 : S10x11.Transposes [1, 0] S11x10
  transposes_S9x10_S10x9_1_0 : S9x10.Transposes [1, 0] S10x9
  transposes_S8x9_S9x8_1_0 : S8x9.Transposes [1, 0] S9x8
  transposes_S7x8_S8x7_1_0 : S7x8.Transposes [1, 0] S8x7
  transposes_S6x7_S7x6_1_0 : S6x7.Transposes [1, 0] S7x6
  transposes_S7x6_S6x7_1_0 : S7x6.Transposes [1, 0] S6x7
  transposes_S8x7_S7x8_1_0 : S8x7.Transposes [1, 0] S7x8
  transposes_S9x8_S8x9_1_0 : S9x8.Transposes [1, 0] S8x9
  transposes_S10x9_S9x10_1_0 : S10x9.Transposes [1, 0] S9x10
  transposes_S11x10_S10x11_1_0 : S11x10.Transposes [1, 0] S10x11
  transposes_S12x11_S11x12_1_0 : S12x11.Transposes [1, 0] S11x12
  transposes_S2x12_S12x2_1_0 : S2x12.Transposes [1, 0] S12x2
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S250000x128_S2000000x16 : S250000x128.ShapeCasts S2000000x16
  slices_S2000000x16_S2000000x2_0_0 : S2000000x16.Slices ![0, 0] S2000000x2
  reducesTo_S2000000x2_S2000000_d1 : S2000000x2.ReducesTo [1] S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x2_0_1 : S2000000x1.BroadcastsInDim S2000000x2 (![0, 1] : Fin 2 → Fin S2000000x2.rank)
  scatter_S16x16_S2_S12x12_01_n_01_0_wf : ScatterDims.WF S16x16 S2 S12x12 [0, 1] [] [0, 1] 0
  scatter_S16_S1_S12_0_n_0_0_wf : ScatterDims.WF S16 S1 S12 [0] [] [0] 0
  scatter_S16x16_S2_S12x11_01_n_01_0_wf : ScatterDims.WF S16x16 S2 S12x11 [0, 1] [] [0, 1] 0
  scatter_S16_S1_S11_0_n_0_0_wf : ScatterDims.WF S16 S1 S11 [0] [] [0] 0
  scatter_S16x16_S2_S11x10_01_n_01_0_wf : ScatterDims.WF S16x16 S2 S11x10 [0, 1] [] [0, 1] 0
  scatter_S16_S1_S10_0_n_0_0_wf : ScatterDims.WF S16 S1 S10 [0] [] [0] 0
  scatter_S16x16_S2_S10x9_01_n_01_0_wf : ScatterDims.WF S16x16 S2 S10x9 [0, 1] [] [0, 1] 0
  scatter_S16_S1_S9_0_n_0_0_wf : ScatterDims.WF S16 S1 S9 [0] [] [0] 0
  scatter_S16x16_S2_S9x8_01_n_01_0_wf : ScatterDims.WF S16x16 S2 S9x8 [0, 1] [] [0, 1] 0
  scatter_S16_S1_S8_0_n_0_0_wf : ScatterDims.WF S16 S1 S8 [0] [] [0] 0
  scatter_S16x16_S2_S8x7_01_n_01_0_wf : ScatterDims.WF S16x16 S2 S8x7 [0, 1] [] [0, 1] 0
  scatter_S16_S1_S7_0_n_0_0_wf : ScatterDims.WF S16 S1 S7 [0] [] [0] 0
  scatter_S16x16_S2_S7x6_01_n_01_0_wf : ScatterDims.WF S16x16 S2 S7x6 [0, 1] [] [0, 1] 0
  scatter_S16_S1_S6_0_n_0_0_wf : ScatterDims.WF S16 S1 S6 [0] [] [0] 0
  scatter_S16x16_S2_S6x7_01_n_01_0_wf : ScatterDims.WF S16x16 S2 S6x7 [0, 1] [] [0, 1] 0
  scatter_S16x16_S2_S7x8_01_n_01_0_wf : ScatterDims.WF S16x16 S2 S7x8 [0, 1] [] [0, 1] 0
  scatter_S16x16_S2_S8x9_01_n_01_0_wf : ScatterDims.WF S16x16 S2 S8x9 [0, 1] [] [0, 1] 0
  scatter_S16x16_S2_S9x10_01_n_01_0_wf : ScatterDims.WF S16x16 S2 S9x10 [0, 1] [] [0, 1] 0
  scatter_S16x16_S2_S10x11_01_n_01_0_wf : ScatterDims.WF S16x16 S2 S10x11 [0, 1] [] [0, 1] 0
  scatter_S16x16_S2_S11x12_01_n_01_0_wf : ScatterDims.WF S16x16 S2 S11x12 [0, 1] [] [0, 1] 0
  scatter_S16x16_S2_S12x2_01_n_01_0_wf : ScatterDims.WF S16x16 S2 S12x2 [0, 1] [] [0, 1] 0
  scatter_S16_S1_S2_0_n_0_0_wf : ScatterDims.WF S16 S1 S2 [0] [] [0] 0
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S250000x128.size a
  hwx0_0 : ∀ i : grid0.Coords, EltTy.bits .f32 = 32 ∨ (Rect.block (s := S250000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x128.size a ≤ S128x128.size a
  hwx0_23 : ∀ i : grid0.Coords, EltTy.bits .f32 = 32 ∨ (Rect.block (s := S128x128) S128x128.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x128.size a ≤ S128x128.size a
  hwx0_25 : ∀ i : grid0.Coords, EltTy.bits .f32 = 32 ∨ (Rect.block (s := S128x128) S128x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .f32 = 32 ∨ (Rect.block (s := S128x128) S128x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S2000x128.size a ≤ S250000x128.size a
  hwx0_29 : ∀ i : grid0.Coords, EltTy.bits .f32 = 32 ∨ (Rect.block (s := S250000x128) S2000x128.size (cc0_transform_29 i) (hinb0_29 i)).WholeWords (EltTy.packing .f32)

variable [Facts₀]

def scatter_S16x16_S2_S12x12_01_n_01_0 : ScatterDims S16x16 S2 S12x12 where
  updateWindowDims := [0, 1]
  insertedWindowDims := []
  scatterDimsToOperandDims := [0, 1]
  indexVectorDim := 0
  wf := scatter_S16x16_S2_S12x12_01_n_01_0_wf
def scatter_S16_S1_S12_0_n_0_0 : ScatterDims S16 S1 S12 where
  updateWindowDims := [0]
  insertedWindowDims := []
  scatterDimsToOperandDims := [0]
  indexVectorDim := 0
  wf := scatter_S16_S1_S12_0_n_0_0_wf
def scatter_S16x16_S2_S12x11_01_n_01_0 : ScatterDims S16x16 S2 S12x11 where
  updateWindowDims := [0, 1]
  insertedWindowDims := []
  scatterDimsToOperandDims := [0, 1]
  indexVectorDim := 0
  wf := scatter_S16x16_S2_S12x11_01_n_01_0_wf
def scatter_S16_S1_S11_0_n_0_0 : ScatterDims S16 S1 S11 where
  updateWindowDims := [0]
  insertedWindowDims := []
  scatterDimsToOperandDims := [0]
  indexVectorDim := 0
  wf := scatter_S16_S1_S11_0_n_0_0_wf
def scatter_S16x16_S2_S11x10_01_n_01_0 : ScatterDims S16x16 S2 S11x10 where
  updateWindowDims := [0, 1]
  insertedWindowDims := []
  scatterDimsToOperandDims := [0, 1]
  indexVectorDim := 0
  wf := scatter_S16x16_S2_S11x10_01_n_01_0_wf
def scatter_S16_S1_S10_0_n_0_0 : ScatterDims S16 S1 S10 where
  updateWindowDims := [0]
  insertedWindowDims := []
  scatterDimsToOperandDims := [0]
  indexVectorDim := 0
  wf := scatter_S16_S1_S10_0_n_0_0_wf
def scatter_S16x16_S2_S10x9_01_n_01_0 : ScatterDims S16x16 S2 S10x9 where
  updateWindowDims := [0, 1]
  insertedWindowDims := []
  scatterDimsToOperandDims := [0, 1]
  indexVectorDim := 0
  wf := scatter_S16x16_S2_S10x9_01_n_01_0_wf
def scatter_S16_S1_S9_0_n_0_0 : ScatterDims S16 S1 S9 where
  updateWindowDims := [0]
  insertedWindowDims := []
  scatterDimsToOperandDims := [0]
  indexVectorDim := 0
  wf := scatter_S16_S1_S9_0_n_0_0_wf
def scatter_S16x16_S2_S9x8_01_n_01_0 : ScatterDims S16x16 S2 S9x8 where
  updateWindowDims := [0, 1]
  insertedWindowDims := []
  scatterDimsToOperandDims := [0, 1]
  indexVectorDim := 0
  wf := scatter_S16x16_S2_S9x8_01_n_01_0_wf
def scatter_S16_S1_S8_0_n_0_0 : ScatterDims S16 S1 S8 where
  updateWindowDims := [0]
  insertedWindowDims := []
  scatterDimsToOperandDims := [0]
  indexVectorDim := 0
  wf := scatter_S16_S1_S8_0_n_0_0_wf
def scatter_S16x16_S2_S8x7_01_n_01_0 : ScatterDims S16x16 S2 S8x7 where
  updateWindowDims := [0, 1]
  insertedWindowDims := []
  scatterDimsToOperandDims := [0, 1]
  indexVectorDim := 0
  wf := scatter_S16x16_S2_S8x7_01_n_01_0_wf
def scatter_S16_S1_S7_0_n_0_0 : ScatterDims S16 S1 S7 where
  updateWindowDims := [0]
  insertedWindowDims := []
  scatterDimsToOperandDims := [0]
  indexVectorDim := 0
  wf := scatter_S16_S1_S7_0_n_0_0_wf
def scatter_S16x16_S2_S7x6_01_n_01_0 : ScatterDims S16x16 S2 S7x6 where
  updateWindowDims := [0, 1]
  insertedWindowDims := []
  scatterDimsToOperandDims := [0, 1]
  indexVectorDim := 0
  wf := scatter_S16x16_S2_S7x6_01_n_01_0_wf
def scatter_S16_S1_S6_0_n_0_0 : ScatterDims S16 S1 S6 where
  updateWindowDims := [0]
  insertedWindowDims := []
  scatterDimsToOperandDims := [0]
  indexVectorDim := 0
  wf := scatter_S16_S1_S6_0_n_0_0_wf
def scatter_S16x16_S2_S6x7_01_n_01_0 : ScatterDims S16x16 S2 S6x7 where
  updateWindowDims := [0, 1]
  insertedWindowDims := []
  scatterDimsToOperandDims := [0, 1]
  indexVectorDim := 0
  wf := scatter_S16x16_S2_S6x7_01_n_01_0_wf
def scatter_S16x16_S2_S7x8_01_n_01_0 : ScatterDims S16x16 S2 S7x8 where
  updateWindowDims := [0, 1]
  insertedWindowDims := []
  scatterDimsToOperandDims := [0, 1]
  indexVectorDim := 0
  wf := scatter_S16x16_S2_S7x8_01_n_01_0_wf
def scatter_S16x16_S2_S8x9_01_n_01_0 : ScatterDims S16x16 S2 S8x9 where
  updateWindowDims := [0, 1]
  insertedWindowDims := []
  scatterDimsToOperandDims := [0, 1]
  indexVectorDim := 0
  wf := scatter_S16x16_S2_S8x9_01_n_01_0_wf
def scatter_S16x16_S2_S9x10_01_n_01_0 : ScatterDims S16x16 S2 S9x10 where
  updateWindowDims := [0, 1]
  insertedWindowDims := []
  scatterDimsToOperandDims := [0, 1]
  indexVectorDim := 0
  wf := scatter_S16x16_S2_S9x10_01_n_01_0_wf
def scatter_S16x16_S2_S10x11_01_n_01_0 : ScatterDims S16x16 S2 S10x11 where
  updateWindowDims := [0, 1]
  insertedWindowDims := []
  scatterDimsToOperandDims := [0, 1]
  indexVectorDim := 0
  wf := scatter_S16x16_S2_S10x11_01_n_01_0_wf
def scatter_S16x16_S2_S11x12_01_n_01_0 : ScatterDims S16x16 S2 S11x12 where
  updateWindowDims := [0, 1]
  insertedWindowDims := []
  scatterDimsToOperandDims := [0, 1]
  indexVectorDim := 0
  wf := scatter_S16x16_S2_S11x12_01_n_01_0_wf
def scatter_S16x16_S2_S12x2_01_n_01_0 : ScatterDims S16x16 S2 S12x2 where
  updateWindowDims := [0, 1]
  insertedWindowDims := []
  scatterDimsToOperandDims := [0, 1]
  indexVectorDim := 0
  wf := scatter_S16x16_S2_S12x2_01_n_01_0_wf
def scatter_S16_S1_S2_0_n_0_0 : ScatterDims S16 S1 S2 where
  updateWindowDims := [0]
  insertedWindowDims := []
  scatterDimsToOperandDims := [0]
  indexVectorDim := 0
  wf := scatter_S16_S1_S2_0_n_0_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v74) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v81) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v94) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v101) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v114) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v121) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v134) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v141) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v154) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v161) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v174) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v181) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v194) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v201) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v214) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v221) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v234) S128x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v241) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v254) S128x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v261) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v274) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v281) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v282) S2000x128.size cc0_transform_29 reads0_29 true false 2 stage0_29 sem0_29
    hrank0 hreads0_29 hinb0_29 nbuf0_29 (Memref.isWhole_whole _) hwx0_29 hstage0_29

abbrev win0 : Fin 30 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | ⟨_ + 30, h⟩ => absurd h (Nat.not_lt.2 (Nat.le_add_left _ _))
abbrev spec0 : Fin 30 → Pipeline.WinSpec sig grid0.rank := fun w => (win0 w).toWinSpec

class Facts : Prop extends Facts₀ where

variable [Facts]
-- ==== ReferenceIdeal.lean ====
abbrev S2000000x12 : Shape := ⟨2, ![2000000, 12]⟩
abbrev S12x12 : Shape := ⟨2, ![12, 12]⟩
abbrev S12 : Shape := ⟨1, ![12]⟩
abbrev S11x12 : Shape := ⟨2, ![11, 12]⟩
abbrev S11 : Shape := ⟨1, ![11]⟩
abbrev S10x11 : Shape := ⟨2, ![10, 11]⟩
abbrev S10 : Shape := ⟨1, ![10]⟩
abbrev S9x10 : Shape := ⟨2, ![9, 10]⟩
abbrev S9 : Shape := ⟨1, ![9]⟩
abbrev S8x9 : Shape := ⟨2, ![8, 9]⟩
abbrev S8 : Shape := ⟨1, ![8]⟩
abbrev S7x8 : Shape := ⟨2, ![7, 8]⟩
abbrev S7 : Shape := ⟨1, ![7]⟩
abbrev S6x7 : Shape := ⟨2, ![6, 7]⟩
abbrev S6 : Shape := ⟨1, ![6]⟩
abbrev S7x6 : Shape := ⟨2, ![7, 6]⟩
abbrev S8x7 : Shape := ⟨2, ![8, 7]⟩
abbrev S9x8 : Shape := ⟨2, ![9, 8]⟩
abbrev S10x9 : Shape := ⟨2, ![10, 9]⟩
abbrev S11x10 : Shape := ⟨2, ![11, 10]⟩
abbrev S12x11 : Shape := ⟨2, ![12, 11]⟩
abbrev S2x12 : Shape := ⟨2, ![2, 12]⟩
abbrev S2 : Shape := ⟨1, ![2]⟩
abbrev S1x12 : Shape := ⟨2, ![1, 12]⟩
abbrev S_ : Shape := ⟨0, ![]⟩
abbrev S2000000x11 : Shape := ⟨2, ![2000000, 11]⟩
abbrev S1x11 : Shape := ⟨2, ![1, 11]⟩
abbrev S2000000x10 : Shape := ⟨2, ![2000000, 10]⟩
abbrev S1x10 : Shape := ⟨2, ![1, 10]⟩
abbrev S2000000x9 : Shape := ⟨2, ![2000000, 9]⟩
abbrev S1x9 : Shape := ⟨2, ![1, 9]⟩
abbrev S2000000x8 : Shape := ⟨2, ![2000000, 8]⟩
abbrev S1x8 : Shape := ⟨2, ![1, 8]⟩
abbrev S2000000x7 : Shape := ⟨2, ![2000000, 7]⟩
abbrev S1x7 : Shape := ⟨2, ![1, 7]⟩
abbrev S2000000x6 : Shape := ⟨2, ![2000000, 6]⟩
abbrev S1x6 : Shape := ⟨2, ![1, 6]⟩
abbrev S12x2 : Shape := ⟨2, ![12, 2]⟩
abbrev S2000000x2 : Shape := ⟨2, ![2000000, 2]⟩
abbrev S1x2 : Shape := ⟨2, ![1, 2]⟩
abbrev S2000000 : Shape := ⟨1, ![2000000]⟩
abbrev S2000000x1 : Shape := ⟨2, ![2000000, 1]⟩

abbrev nBuf : Space → Nat
  | .hbm => 158
  | .vmem => 0
  | .smem => 0
  | _ => 0

abbrev hbmTy0_0 (i : Nat) : BufTy := match i % 128 with
  | 0 => ⟨S2000000x12, .f32⟩
  | 1 => ⟨S12x12, .f32⟩
  | 2 => ⟨S12, .f32⟩
  | 3 => ⟨S11x12, .f32⟩
  | 4 => ⟨S11, .f32⟩
  | 5 => ⟨S10x11, .f32⟩
  | 6 => ⟨S10, .f32⟩
  | 7 => ⟨S9x10, .f32⟩
  | 8 => ⟨S9, .f32⟩
  | 9 => ⟨S8x9, .f32⟩
  | 10 => ⟨S8, .f32⟩
  | 11 => ⟨S7x8, .f32⟩
  | 12 => ⟨S7, .f32⟩
  | 13 => ⟨S6x7, .f32⟩
  | 14 => ⟨S6, .f32⟩
  | 15 => ⟨S7x6, .f32⟩
  | 16 => ⟨S7, .f32⟩
  | 17 => ⟨S8x7, .f32⟩
  | 18 => ⟨S8, .f32⟩
  | 19 => ⟨S9x8, .f32⟩
  | 20 => ⟨S9, .f32⟩
  | 21 => ⟨S10x9, .f32⟩
  | 22 => ⟨S10, .f32⟩
  | 23 => ⟨S11x10, .f32⟩
  | 24 => ⟨S11, .f32⟩
  | 25 => ⟨S12x11, .f32⟩
  | 26 => ⟨S12, .f32⟩
  | 27 => ⟨S2x12, .f32⟩
  | 28 => ⟨S2, .f32⟩
  | 29 => ⟨S12x12, .f32⟩
  | 30 => ⟨S2000000x12, .f32⟩
  | 31 => ⟨S1x12, .f32⟩
  | 32 => ⟨S2000000x12, .f32⟩
  | 33 => ⟨S2000000x12, .f32⟩
  | 34 => ⟨S_, .f32⟩
  | 35 => ⟨S2000000x12, .f32⟩
  | 36 => ⟨S2000000x12, .f32⟩
  | 37 => ⟨S12x11, .f32⟩
  | 38 => ⟨S2000000x11, .f32⟩
  | 39 => ⟨S1x11, .f32⟩
  | 40 => ⟨S2000000x11, .f32⟩
  | 41 => ⟨S2000000x11, .f32⟩
  | 42 => ⟨S_, .f32⟩
  | 43 => ⟨S2000000x11, .f32⟩
  | 44 => ⟨S2000000x11, .f32⟩
  | 45 => ⟨S11x10, .f32⟩
  | 46 => ⟨S2000000x10, .f32⟩
  | 47 => ⟨S1x10, .f32⟩
  | 48 => ⟨S2000000x10, .f32⟩
  | 49 => ⟨S2000000x10, .f32⟩
  | 50 => ⟨S_, .f32⟩
  | 51 => ⟨S2000000x10, .f32⟩
  | 52 => ⟨S2000000x10, .f32⟩
  | 53 => ⟨S10x9, .f32⟩
  | 54 => ⟨S2000000x9, .f32⟩
  | 55 => ⟨S1x9, .f32⟩
  | 56 => ⟨S2000000x9, .f32⟩
  | 57 => ⟨S2000000x9, .f32⟩
  | 58 => ⟨S_, .f32⟩
  | 59 => ⟨S2000000x9, .f32⟩
  | 60 => ⟨S2000000x9, .f32⟩
  | 61 => ⟨S9x8, .f32⟩
  | 62 => ⟨S2000000x8, .f32⟩
  | 63 => ⟨S1x8, .f32⟩
  | 64 => ⟨S2000000x8, .f32⟩
  | 65 => ⟨S2000000x8, .f32⟩
  | 66 => ⟨S_, .f32⟩
  | 67 => ⟨S2000000x8, .f32⟩
  | 68 => ⟨S2000000x8, .f32⟩
  | 69 => ⟨S8x7, .f32⟩
  | 70 => ⟨S2000000x7, .f32⟩
  | 71 => ⟨S1x7, .f32⟩
  | 72 => ⟨S2000000x7, .f32⟩
  | 73 => ⟨S2000000x7, .f32⟩
  | 74 => ⟨S_, .f32⟩
  | 75 => ⟨S2000000x7, .f32⟩
  | 76 => ⟨S2000000x7, .f32⟩
  | 77 => ⟨S7x6, .f32⟩
  | 78 => ⟨S2000000x6, .f32⟩
  | 79 => ⟨S1x6, .f32⟩
  | 80 => ⟨S2000000x6, .f32⟩
  | 81 => ⟨S2000000x6, .f32⟩
  | 82 => ⟨S_, .f32⟩
  | 83 => ⟨S2000000x6, .f32⟩
  | 84 => ⟨S2000000x6, .f32⟩
  | 85 => ⟨S6x7, .f32⟩
  | 86 => ⟨S2000000x7, .f32⟩
  | 87 => ⟨S1x7, .f32⟩
  | 88 => ⟨S2000000x7, .f32⟩
  | 89 => ⟨S2000000x7, .f32⟩
  | 90 => ⟨S2000000x7, .f32⟩
  | 91 => ⟨S_, .f32⟩
  | 92 => ⟨S2000000x7, .f32⟩
  | 93 => ⟨S2000000x7, .f32⟩
  | 94 => ⟨S7x8, .f32⟩
  | 95 => ⟨S2000000x8, .f32⟩
  | 96 => ⟨S1x8, .f32⟩
  | 97 => ⟨S2000000x8, .f32⟩
  | 98 => ⟨S2000000x8, .f32⟩
  | 99 => ⟨S2000000x8, .f32⟩
  | 100 => ⟨S_, .f32⟩
  | 101 => ⟨S2000000x8, .f32⟩
  | 102 => ⟨S2000000x8, .f32⟩
  | 103 => ⟨S8x9, .f32⟩
  | 104 => ⟨S2000000x9, .f32⟩
  | 105 => ⟨S1x9, .f32⟩
  | 106 => ⟨S2000000x9, .f32⟩
  | 107 => ⟨S2000000x9, .f32⟩
  | 108 => ⟨S2000000x9, .f32⟩
  | 109 => ⟨S_, .f32⟩
  | 110 => ⟨S2000000x9, .f32⟩
  | 111 => ⟨S2000000x9, .f32⟩
  | 112 => ⟨S9x10, .f32⟩
  | 113 => ⟨S2000000x10, .f32⟩
  | 114 => ⟨S1x10, .f32⟩
  | 115 => ⟨S2000000x10, .f32⟩
  | 116 => ⟨S2000000x10, .f32⟩
  | 117 => ⟨S2000000x10, .f32⟩
  | 118 => ⟨S_, .f32⟩
  | 119 => ⟨S2000000x10, .f32⟩
  | 120 => ⟨S2000000x10, .f32⟩
  | 121 => ⟨S10x11, .f32⟩
  | 122 => ⟨S2000000x11, .f32⟩
  | 123 => ⟨S1x11, .f32⟩
  | 124 => ⟨S2000000x11, .f32⟩
  | 125 => ⟨S2000000x11, .f32⟩
  | 126 => ⟨S2000000x11, .f32⟩
  | 127 => ⟨S_, .f32⟩
  | _ => ⟨S2000000x12, .f32⟩

abbrev hbmTy0_1 (i : Nat) : BufTy := match i % 128 with
  | 0 => ⟨S2000000x11, .f32⟩
  | 1 => ⟨S2000000x11, .f32⟩
  | 2 => ⟨S11x12, .f32⟩
  | 3 => ⟨S2000000x12, .f32⟩
  | 4 => ⟨S1x12, .f32⟩
  | 5 => ⟨S2000000x12, .f32⟩
  | 6 => ⟨S2000000x12, .f32⟩
  | 7 => ⟨S2000000x12, .f32⟩
  | 8 => ⟨S_, .f32⟩
  | 9 => ⟨S2000000x12, .f32⟩
  | 10 => ⟨S2000000x12, .f32⟩
  | 11 => ⟨S12x2, .f32⟩
  | 12 => ⟨S2000000x2, .f32⟩
  | 13 => ⟨S1x2, .f32⟩
  | 14 => ⟨S2000000x2, .f32⟩
  | 15 => ⟨S2000000x2, .f32⟩
  | 16 => ⟨S_, .f32⟩
  | 17 => ⟨S2000000, .f32⟩
  | 18 => ⟨S_, .f32⟩
  | 19 => ⟨S2000000, .f32⟩
  | 20 => ⟨S2000000, .f32⟩
  | 21 => ⟨S2000000x1, .f32⟩
  | 22 => ⟨S2000000x2, .f32⟩
  | 23 => ⟨S2000000x2, .f32⟩
  | 24 => ⟨S2000000x2, .f32⟩
  | 25 => ⟨S_, .f32⟩
  | 26 => ⟨S2000000, .f32⟩
  | 27 => ⟨S2000000x1, .f32⟩
  | 28 => ⟨S2000000x2, .f32⟩
  | 29 => ⟨S2000000x2, .f32⟩
  | _ => ⟨S2000000x12, .f32⟩

abbrev hbmTy (i : Nat) : BufTy := match i / 128 with
  | 0 => hbmTy0_0 i
  | 1 => hbmTy0_1 i
  | _ => ⟨S2000000x12, .f32⟩

abbrev bufTy : (tb : Table) → Fin (tcTables nBuf tb) → BufTy
  | .hbm, ⟨i, _⟩ => hbmTy i
  | _, _ => ⟨S2000000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call0_cst : Ref sig .tc := ⟨.hbm, 34, rfl⟩
abbrev main_call0_v0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_cst : Ref sig .tc := ⟨.hbm, 42, rfl⟩
abbrev main_call1_v0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call2_cst : Ref sig .tc := ⟨.hbm, 50, rfl⟩
abbrev main_call2_v0 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call3_cst : Ref sig .tc := ⟨.hbm, 58, rfl⟩
abbrev main_call3_v0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_call4_cst : Ref sig .tc := ⟨.hbm, 66, rfl⟩
abbrev main_call4_v0 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call5_cst : Ref sig .tc := ⟨.hbm, 74, rfl⟩
abbrev main_call5_v0 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_call6_cst : Ref sig .tc := ⟨.hbm, 82, rfl⟩
abbrev main_call6_v0 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call7_cst : Ref sig .tc := ⟨.hbm, 91, rfl⟩
abbrev main_call7_v0 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call8_cst : Ref sig .tc := ⟨.hbm, 100, rfl⟩
abbrev main_call8_v0 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_call9_cst : Ref sig .tc := ⟨.hbm, 109, rfl⟩
abbrev main_call9_v0 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call10_cst : Ref sig .tc := ⟨.hbm, 118, rfl⟩
abbrev main_call10_v0 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_call11_cst : Ref sig .tc := ⟨.hbm, 127, rfl⟩
abbrev main_call11_v0 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call12_cst : Ref sig .tc := ⟨.hbm, 136, rfl⟩
abbrev main_call12_v0 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst : Ref sig .tc := ⟨.hbm, 144, rfl⟩
abbrev main_v89 : Ref sig .tc := ⟨.hbm, 145, rfl⟩
abbrev main_cst_0 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_1 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩

abbrev nD : Nat := 1
abbrev τ : Topo := Topo.v7x

variable {F : FTy → Type} [FloatOps F]

class Facts₀ : Prop where
  transposes_S12x12_S12x12_1_0 : S12x12.Transposes [1, 0] S12x12
  bcast_S12_S1x12_1 : S12.BroadcastsInDim S1x12 (![1] : Fin 1 → Fin S1x12.rank)
  bcast_S1x12_S2000000x12_0_1 : S1x12.BroadcastsInDim S2000000x12 (![0, 1] : Fin 2 → Fin S2000000x12.rank)
  bcast_S_S2000000x12 : S_.BroadcastsInDim S2000000x12 (![] : Fin 0 → Fin S2000000x12.rank)
  transposes_S11x12_S12x11_1_0 : S11x12.Transposes [1, 0] S12x11
  bcast_S11_S1x11_1 : S11.BroadcastsInDim S1x11 (![1] : Fin 1 → Fin S1x11.rank)
  bcast_S1x11_S2000000x11_0_1 : S1x11.BroadcastsInDim S2000000x11 (![0, 1] : Fin 2 → Fin S2000000x11.rank)
  bcast_S_S2000000x11 : S_.BroadcastsInDim S2000000x11 (![] : Fin 0 → Fin S2000000x11.rank)
  transposes_S10x11_S11x10_1_0 : S10x11.Transposes [1, 0] S11x10
  bcast_S10_S1x10_1 : S10.BroadcastsInDim S1x10 (![1] : Fin 1 → Fin S1x10.rank)
  bcast_S1x10_S2000000x10_0_1 : S1x10.BroadcastsInDim S2000000x10 (![0, 1] : Fin 2 → Fin S2000000x10.rank)
  bcast_S_S2000000x10 : S_.BroadcastsInDim S2000000x10 (![] : Fin 0 → Fin S2000000x10.rank)
  transposes_S9x10_S10x9_1_0 : S9x10.Transposes [1, 0] S10x9
  bcast_S9_S1x9_1 : S9.BroadcastsInDim S1x9 (![1] : Fin 1 → Fin S1x9.rank)
  bcast_S1x9_S2000000x9_0_1 : S1x9.BroadcastsInDim S2000000x9 (![0, 1] : Fin 2 → Fin S2000000x9.rank)
  bcast_S_S2000000x9 : S_.BroadcastsInDim S2000000x9 (![] : Fin 0 → Fin S2000000x9.rank)
  transposes_S8x9_S9x8_1_0 : S8x9.Transposes [1, 0] S9x8
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  transposes_S7x8_S8x7_1_0 : S7x8.Transposes [1, 0] S8x7
  bcast_S7_S1x7_1 : S7.BroadcastsInDim S1x7 (![1] : Fin 1 → Fin S1x7.rank)
  bcast_S1x7_S2000000x7_0_1 : S1x7.BroadcastsInDim S2000000x7 (![0, 1] : Fin 2 → Fin S2000000x7.rank)
  bcast_S_S2000000x7 : S_.BroadcastsInDim S2000000x7 (![] : Fin 0 → Fin S2000000x7.rank)
  transposes_S6x7_S7x6_1_0 : S6x7.Transposes [1, 0] S7x6
  bcast_S6_S1x6_1 : S6.BroadcastsInDim S1x6 (![1] : Fin 1 → Fin S1x6.rank)
  bcast_S1x6_S2000000x6_0_1 : S1x6.BroadcastsInDim S2000000x6 (![0, 1] : Fin 2 → Fin S2000000x6.rank)
  bcast_S_S2000000x6 : S_.BroadcastsInDim S2000000x6 (![] : Fin 0 → Fin S2000000x6.rank)
  transposes_S7x6_S6x7_1_0 : S7x6.Transposes [1, 0] S6x7
  transposes_S8x7_S7x8_1_0 : S8x7.Transposes [1, 0] S7x8
  transposes_S9x8_S8x9_1_0 : S9x8.Transposes [1, 0] S8x9
  transposes_S10x9_S9x10_1_0 : S10x9.Transposes [1, 0] S9x10
  transposes_S11x10_S10x11_1_0 : S11x10.Transposes [1, 0] S10x11
  transposes_S12x11_S11x12_1_0 : S12x11.Transposes [1, 0] S11x12
  transposes_S2x12_S12x2_1_0 : S2x12.Transposes [1, 0] S12x2
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  reducesTo_S2000000x2_S2000000_d1 : S2000000x2.ReducesTo [1] S2000000
  h_S_ : 0 < S_.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x2_0_1 : S2000000x1.BroadcastsInDim S2000000x2 (![0, 1] : Fin 2 → Fin S2000000x2.rank)
  dot_S2000000x12_S12x12_S2000000x12_1_0_0_1_n_n_wf : DotDims.WF S2000000x12 S12x12 S2000000x12 [1] [0] [0] [1] [] []
  dot_S2000000x12_S12x11_S2000000x11_1_0_0_1_n_n_wf : DotDims.WF S2000000x12 S12x11 S2000000x11 [1] [0] [0] [1] [] []
  dot_S2000000x11_S11x10_S2000000x10_1_0_0_1_n_n_wf : DotDims.WF S2000000x11 S11x10 S2000000x10 [1] [0] [0] [1] [] []
  dot_S2000000x10_S10x9_S2000000x9_1_0_0_1_n_n_wf : DotDims.WF S2000000x10 S10x9 S2000000x9 [1] [0] [0] [1] [] []
  dot_S2000000x9_S9x8_S2000000x8_1_0_0_1_n_n_wf : DotDims.WF S2000000x9 S9x8 S2000000x8 [1] [0] [0] [1] [] []
  dot_S2000000x8_S8x7_S2000000x7_1_0_0_1_n_n_wf : DotDims.WF S2000000x8 S8x7 S2000000x7 [1] [0] [0] [1] [] []
  dot_S2000000x7_S7x6_S2000000x6_1_0_0_1_n_n_wf : DotDims.WF S2000000x7 S7x6 S2000000x6 [1] [0] [0] [1] [] []
  dot_S2000000x6_S6x7_S2000000x7_1_0_0_1_n_n_wf : DotDims.WF S2000000x6 S6x7 S2000000x7 [1] [0] [0] [1] [] []
  dot_S2000000x7_S7x8_S2000000x8_1_0_0_1_n_n_wf : DotDims.WF S2000000x7 S7x8 S2000000x8 [1] [0] [0] [1] [] []
  dot_S2000000x8_S8x9_S2000000x9_1_0_0_1_n_n_wf : DotDims.WF S2000000x8 S8x9 S2000000x9 [1] [0] [0] [1] [] []
  dot_S2000000x9_S9x10_S2000000x10_1_0_0_1_n_n_wf : DotDims.WF S2000000x9 S9x10 S2000000x10 [1] [0] [0] [1] [] []
  dot_S2000000x10_S10x11_S2000000x11_1_0_0_1_n_n_wf : DotDims.WF S2000000x10 S10x11 S2000000x11 [1] [0] [0] [1] [] []
  dot_S2000000x11_S11x12_S2000000x12_1_0_0_1_n_n_wf : DotDims.WF S2000000x11 S11x12 S2000000x12 [1] [0] [0] [1] [] []
  dot_S2000000x12_S12x2_S2000000x2_1_0_0_1_n_n_wf : DotDims.WF S2000000x12 S12x2 S2000000x2 [1] [0] [0] [1] [] []

variable [Facts₀]

def dot_S2000000x12_S12x12_S2000000x12_1_0_0_1_n_n : DotDims S2000000x12 S12x12 S2000000x12 where
  lhsContracting := [1]
  rhsContracting := [0]
  lhsNonContracting := [0]
  rhsNonContracting := [1]
  lhsBatch := []
  rhsBatch := []
  wf := dot_S2000000x12_S12x12_S2000000x12_1_0_0_1_n_n_wf
def dot_S2000000x12_S12x11_S2000000x11_1_0_0_1_n_n : DotDims S2000000x12 S12x11 S2000000x11 where
  lhsContracting := [1]
  rhsContracting := [0]
  lhsNonContracting := [0]
  rhsNonContracting := [1]
  lhsBatch := []
  rhsBatch := []
  wf := dot_S2000000x12_S12x11_S2000000x11_1_0_0_1_n_n_wf
def dot_S2000000x11_S11x10_S2000000x10_1_0_0_1_n_n : DotDims S2000000x11 S11x10 S2000000x10 where
  lhsContracting := [1]
  rhsContracting := [0]
  lhsNonContracting := [0]
  rhsNonContracting := [1]
  lhsBatch := []
  rhsBatch := []
  wf := dot_S2000000x11_S11x10_S2000000x10_1_0_0_1_n_n_wf
def dot_S2000000x10_S10x9_S2000000x9_1_0_0_1_n_n : DotDims S2000000x10 S10x9 S2000000x9 where
  lhsContracting := [1]
  rhsContracting := [0]
  lhsNonContracting := [0]
  rhsNonContracting := [1]
  lhsBatch := []
  rhsBatch := []
  wf := dot_S2000000x10_S10x9_S2000000x9_1_0_0_1_n_n_wf
def dot_S2000000x9_S9x8_S2000000x8_1_0_0_1_n_n : DotDims S2000000x9 S9x8 S2000000x8 where
  lhsContracting := [1]
  rhsContracting := [0]
  lhsNonContracting := [0]
  rhsNonContracting := [1]
  lhsBatch := []
  rhsBatch := []
  wf := dot_S2000000x9_S9x8_S2000000x8_1_0_0_1_n_n_wf
def dot_S2000000x8_S8x7_S2000000x7_1_0_0_1_n_n : DotDims S2000000x8 S8x7 S2000000x7 where
  lhsContracting := [1]
  rhsContracting := [0]
  lhsNonContracting := [0]
  rhsNonContracting := [1]
  lhsBatch := []
  rhsBatch := []
  wf := dot_S2000000x8_S8x7_S2000000x7_1_0_0_1_n_n_wf
def dot_S2000000x7_S7x6_S2000000x6_1_0_0_1_n_n : DotDims S2000000x7 S7x6 S2000000x6 where
  lhsContracting := [1]
  rhsContracting := [0]
  lhsNonContracting := [0]
  rhsNonContracting := [1]
  lhsBatch := []
  rhsBatch := []
  wf := dot_S2000000x7_S7x6_S2000000x6_1_0_0_1_n_n_wf
def dot_S2000000x6_S6x7_S2000000x7_1_0_0_1_n_n : DotDims S2000000x6 S6x7 S2000000x7 where
  lhsContracting := [1]
  rhsContracting := [0]
  lhsNonContracting := [0]
  rhsNonContracting := [1]
  lhsBatch := []
  rhsBatch := []
  wf := dot_S2000000x6_S6x7_S2000000x7_1_0_0_1_n_n_wf
def dot_S2000000x7_S7x8_S2000000x8_1_0_0_1_n_n : DotDims S2000000x7 S7x8 S2000000x8 where
  lhsContracting := [1]
  rhsContracting := [0]
  lhsNonContracting := [0]
  rhsNonContracting := [1]
  lhsBatch := []
  rhsBatch := []
  wf := dot_S2000000x7_S7x8_S2000000x8_1_0_0_1_n_n_wf
def dot_S2000000x8_S8x9_S2000000x9_1_0_0_1_n_n : DotDims S2000000x8 S8x9 S2000000x9 where
  lhsContracting := [1]
  rhsContracting := [0]
  lhsNonContracting := [0]
  rhsNonContracting := [1]
  lhsBatch := []
  rhsBatch := []
  wf := dot_S2000000x8_S8x9_S2000000x9_1_0_0_1_n_n_wf
def dot_S2000000x9_S9x10_S2000000x10_1_0_0_1_n_n : DotDims S2000000x9 S9x10 S2000000x10 where
  lhsContracting := [1]
  rhsContracting := [0]
  lhsNonContracting := [0]
  rhsNonContracting := [1]
  lhsBatch := []
  rhsBatch := []
  wf := dot_S2000000x9_S9x10_S2000000x10_1_0_0_1_n_n_wf
def dot_S2000000x10_S10x11_S2000000x11_1_0_0_1_n_n : DotDims S2000000x10 S10x11 S2000000x11 where
  lhsContracting := [1]
  rhsContracting := [0]
  lhsNonContracting := [0]
  rhsNonContracting := [1]
  lhsBatch := []
  rhsBatch := []
  wf := dot_S2000000x10_S10x11_S2000000x11_1_0_0_1_n_n_wf
def dot_S2000000x11_S11x12_S2000000x12_1_0_0_1_n_n : DotDims S2000000x11 S11x12 S2000000x12 where
  lhsContracting := [1]
  rhsContracting := [0]
  lhsNonContracting := [0]
  rhsNonContracting := [1]
  lhsBatch := []
  rhsBatch := []
  wf := dot_S2000000x11_S11x12_S2000000x12_1_0_0_1_n_n_wf
def dot_S2000000x12_S12x2_S2000000x2_1_0_0_1_n_n : DotDims S2000000x12 S12x2 S2000000x2 where
  lhsContracting := [1]
  rhsContracting := [0]
  lhsNonContracting := [0]
  rhsNonContracting := [1]
  lhsBatch := []
  rhsBatch := []
  wf := dot_S2000000x12_S12x2_S2000000x2_1_0_0_1_n_n_wf

class Facts : Prop extends Facts₀ where

variable [Facts]
-- ==== Proof.LibPlainDot.lean ====
/-
  A plain matrix product read at an index (a general lemma: it depends only on the definitions of the printed
  programs' operations, on no program).

  For the dimension numbers of an `M×K` by `K×N` product (`DotDims.plain M K N`: the left operand contracted on its
  second axis, the right one on its first, no batch axis) the sum over the record's contraction index of the operands'
  products at the record's operand indices is the textbook sum `∑ k, l (r, k) * r (k, c)` over `Fin K`, in any additive
  commutative monoid with a product.  At the exact extended-real instance both a `tpu.matmul` into the zero
  accumulator and the host's `dot_general` are that sum (`matmul_zero_plain`, `dotGeneral_plain`).
-/
import Idealize.ShloMosaic.PureOps.Ideal.Laws
import Idealize.ShloMosaic.Lib.ValueIdx

noncomputable section

namespace PlainDot

open Idealize.ShloMosaic Idealize.ShloMosaic.ValueIdx

variable {M K N : Nat}

theorem contr_rank : (DotDims.plain M K N).contr.rank = 1 := rfl

theorem contr_size : (DotDims.plain M K N).contr.size ⟨0, by rw [contr_rank]; exact Nat.one_pos⟩ = K := rfl

theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand is read at (row of the output index, contraction position). -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  have hk := contrEquiv1_symm_val (DotDims.plain M K N) K contr_rank contr_size k
  funext a
  refine Fin.ext ?_
  match a with
  | ⟨0, _⟩ => exact lhs_row j _
  | ⟨1, _⟩ => exact ((DotDims.plain M K N).lhsIdx_val_of_single rfl j _).trans hk

/-- The right operand is read at (contraction position, column of the output index). -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  have hk := contrEquiv1_symm_val (DotDims.plain M K N) K contr_rank contr_size k
  funext a
  refine Fin.ext ?_
  match a with
  | ⟨0, _⟩ => exact ((DotDims.plain M K N).rhsIdx_val_of_single rfl j _).trans hk
  | ⟨1, _⟩ => exact rhs_col j _

/-- The record's sum is the textbook sum over `Fin K`. -/
theorem sum_plain {R : Type*} [AddCommMonoid R] [Mul R] (l : (⟨2, ![M, K]⟩ : Shape).Idx → R)
    (r : (⟨2, ![K, N]⟩ : Shape).Idx → R) (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  exact Finset.sum_congr rfl fun k _ =>
    congrArg₂ (· * ·) (congrArg l (lhsIdx_eq j k)) (congrArg r (rhsIdx_eq j k))

/-- A `tpu.matmul` into the zero accumulator, at the exact instance, is the textbook sum. -/
theorem matmul_zero_plain {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain l r j)

/-- The host's `dot_general`, at the exact instance, is the textbook sum, whatever the schedule key. -/
theorem dotGeneral_plain {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_plain l r j)

end PlainDot

end
-- ==== Proof.LibPackedDot.lean ====
/-
  A block-diagonal product restricted to one block.

  Eight rows of at most sixteen entries are laid side by side in one row of 128 lanes: lane `16 p + q` holds entry `q` of
  row `p`.  A 128 × 128 matrix that is zero outside its eight diagonal 16 × 16 blocks, each block holding the transposed
  weights `W q' q` in its top-left `din × dout` corner and zeros elsewhere, multiplies the packed row block by block:
  lane `16 p + q'` of the product is the plain product of row `p` with the weights, `∑ q < din, h q * W q' q`, whatever the
  lanes past `din` hold, because every other term of the sum over the 128 lanes has a zero factor (and `x * 0 = 0` for every
  extended real `x`, the infinities included).  The same for the bias row: lane `16 p + q'` holds bias entry `q'`.
-/
import Mathlib

namespace Cert.Lib.PackedDot

open Finset

/-- A sum over the 128 lanes of a function that vanishes off the first `din` lanes of block `p` is the sum over those
    lanes. -/
theorem sum_block {M : Type*} [AddCommMonoid M] (f : Fin 128 → M) (p : Fin 8) (din : ℕ) (hdin : din ≤ 16)
    (hf : ∀ k : Fin 128, ¬ (k.val / 16 = p.val ∧ k.val % 16 < din) → f k = 0) :
    ∑ k, f k = ∑ q : Fin din, f ⟨16 * p.val + q.val, by have := q.isLt; have := p.isLt; omega⟩ := by
  symm
  refine Finset.sum_of_injOn
    (fun q : Fin din => (⟨16 * p.val + q.val, by have := q.isLt; have := p.isLt; omega⟩ : Fin 128)) ?_ ?_ ?_ ?_
  · intro a _ b _ h
    have h' := congrArg Fin.val h
    simp only at h'
    exact Fin.ext (by omega)
  · intro a _; exact Finset.mem_coe.2 (Finset.mem_univ _)
  · intro k _ hk
    apply hf
    rintro ⟨h1, h2⟩
    apply hk
    refine ⟨⟨k.val % 16, h2⟩, Finset.mem_coe.2 (Finset.mem_univ _), Fin.ext ?_⟩
    show 16 * p.val + k.val % 16 = k.val
    omega
  · intro q _; rfl

/-- The packed product at lane `16 p + q'` is the plain product of row `p` with the weights. -/
theorem packed_dot (din dout : ℕ) (hdin : din ≤ 16) (hdout : dout ≤ 16)
    (a : Fin 128 → EReal) (h : Fin din → EReal) (p : Fin 8)
    (ha : ∀ q : Fin din, a ⟨16 * p.val + q.val, by have := q.isLt; have := p.isLt; omega⟩ = h q)
    (Wp : Fin 128 → Fin 128 → EReal) (W : Fin dout → Fin din → EReal)
    (hWp : ∀ k l : Fin 128, Wp k l = if k.val / 16 = l.val / 16 then
      (if hh : k.val % 16 < din ∧ l.val % 16 < dout then W ⟨l.val % 16, hh.2⟩ ⟨k.val % 16, hh.1⟩ else 0) else 0)
    (q' : Fin dout) :
    ∑ k, a k * Wp k ⟨16 * p.val + q'.val, by have := q'.isLt; have := p.isLt; omega⟩ = ∑ q : Fin din, h q * W q' q := by
  have hq' := q'.isLt
  have hp := p.isLt
  rw [sum_block (fun k => a k * Wp k ⟨16 * p.val + q'.val, by omega⟩) p din hdin ?_]
  · refine Finset.sum_congr rfl fun q _ => ?_
    have hq := q.isLt
    show a ⟨16 * p.val + q.val, _⟩ * Wp ⟨16 * p.val + q.val, _⟩ ⟨16 * p.val + q'.val, _⟩ = h q * W q' q
    rw [ha q, hWp]
    have e1 : (16 * p.val + q.val) / 16 = (16 * p.val + q'.val) / 16 := by omega
    have e2 : (16 * p.val + q.val) % 16 < din ∧ (16 * p.val + q'.val) % 16 < dout := by constructor <;> omega
    simp only [e1, if_true]
    rw [dif_pos e2]
    congr 2 <;> exact Fin.ext (by simp only; omega)
  · intro k hk
    show a k * Wp k ⟨16 * p.val + q'.val, _⟩ = 0
    rw [hWp]
    by_cases h1 : k.val / 16 = (16 * p.val + q'.val) / 16
    · rw [if_pos h1]
      have h2 : ¬ (k.val % 16 < din ∧ (16 * p.val + q'.val) % 16 < dout) := by
        rintro ⟨h3, _⟩
        exact hk ⟨by omega, h3⟩
      rw [dif_neg h2, mul_zero]
    · rw [if_neg h1, mul_zero]

end Cert.Lib.PackedDot
-- ==== Proof.Net.lean ====
/-
  The network on one packed row and on one plain row, and why they agree.

  The plain network takes a row `x` of 12 numbers through fourteen affine maps `h ↦ (∑ k, h k * U j k) + c j`
  of widths 12 → 12 → 11 → 10 → 9 → 8 → 7 → 6 → 7 → 8 → 9 → 10 → 11 → 12 → 2, each but the last followed by `max · 0`,
  the eighth to the thirteenth adding, before the maximum, the activation of the same width saved on the way down
  (layer 8 adds layer 6's, …, layer 13 adds layer 1's).  The packed network does the same on a row of 128 lanes holding
  eight plain rows side by side, sixteen lanes each, with block-diagonal 128 × 128 weights and tiled biases.  Lane
  `16 p + q` of every packed activation is entry `q` of plain row `p`'s activation, for `q` below the layer's width:
  by induction over the layers, the step being the block-diagonal product restricted to one block.  Lanes past the
  width are never looked at: their weights are zero.
-/
import Mathlib
import proofs.«129942_j63720134803801_2_alg».proof.Proof.LibPackedDot

noncomputable section

namespace Cert.Net

open Cert.Lib.PackedDot

/-- One affine map on a packed row. -/
def rowAff (h : Fin 128 → EReal) (W : Fin 128 → Fin 128 → EReal) (b : Fin 128 → EReal) : Fin 128 → EReal :=
  fun l => (∑ k, h k * W k l) + b l
/-- One affine map on a plain row: `U j k` is the weight from input `k` to output `j`. -/
def lin {din dout : ℕ} (h : Fin din → EReal) (U : Fin dout → Fin din → EReal) (c : Fin dout → EReal) : Fin dout → EReal :=
  fun j => (∑ k, h k * U j k) + c j
def relu {n : ℕ} (v : Fin n → EReal) : Fin n → EReal := fun l => max (v l) 0
def vadd {n : ℕ} (u v : Fin n → EReal) : Fin n → EReal := fun l => u l + v l

/-- Lanes `16 p .. 16 p + d - 1` of the packed row `a` are the plain row `h`. -/
def Rep (d : ℕ) (p : Fin 8) (a : Fin 128 → EReal) (h : Fin d → EReal) : Prop :=
  ∀ (q : Fin d) (hq : 16 * p.val + q.val < 128), a ⟨16 * p.val + q.val, hq⟩ = h q

/-- `Wp` is block diagonal, each diagonal block the transposed weights in its top-left corner, zero elsewhere. -/
def PackW (din dout : ℕ) (Wp : Fin 128 → Fin 128 → EReal) (U : Fin dout → Fin din → EReal) : Prop :=
  ∀ k l : Fin 128, Wp k l = if k.val / 16 = l.val / 16 then
    (if hh : k.val % 16 < din ∧ l.val % 16 < dout then U ⟨l.val % 16, hh.2⟩ ⟨k.val % 16, hh.1⟩ else 0) else 0

/-- `bp` is the bias, zero-padded to sixteen entries, repeated eight times. -/
def PackB (dout : ℕ) (bp : Fin 128 → EReal) (c : Fin dout → EReal) : Prop :=
  ∀ l : Fin 128, bp l = if hh : l.val % 16 < dout then c ⟨l.val % 16, hh⟩ else 0

theorem rep_aff {din dout : ℕ} (hdin : din ≤ 16) (hdout : dout ≤ 16) {p : Fin 8} {a : Fin 128 → EReal} {h : Fin din → EReal}
    (ha : Rep din p a h) {Wp : Fin 128 → Fin 128 → EReal} {U : Fin dout → Fin din → EReal} (hW : PackW din dout Wp U)
    {bp : Fin 128 → EReal} {c : Fin dout → EReal} (hb : PackB dout bp c) :
    Rep dout p (rowAff a Wp bp) (lin h U c) := by
  intro q' hq'
  have hlt := q'.isLt
  show (∑ k, a k * Wp k ⟨16 * p.val + q'.val, hq'⟩) + bp ⟨16 * p.val + q'.val, hq'⟩ = (∑ k, h k * U q' k) + c q'
  rw [packed_dot din dout hdin hdout a h p (fun q => ha q _) Wp U hW q', hb]
  have e : (16 * p.val + q'.val) % 16 < dout := by omega
  rw [dif_pos e]
  congr 2
  exact Fin.ext (by simp only; omega)

theorem rep_relu {d : ℕ} {p : Fin 8} {a : Fin 128 → EReal} {h : Fin d → EReal} (ha : Rep d p a h) :
    Rep d p (relu a) (relu h) := fun q hq => by
  show max (a _) 0 = max (h q) 0
  rw [ha q hq]

theorem rep_add {d : ℕ} {p : Fin 8} {a a' : Fin 128 → EReal} {h h' : Fin d → EReal} (ha : Rep d p a h) (ha' : Rep d p a' h') :
    Rep d p (vadd a a') (vadd h h') := fun q hq => by
  show a _ + a' _ = h q + h' q
  rw [ha q hq, ha' q hq]

/-- The packed network on one row of 128 lanes. -/
def rowNet (x : Fin 128 → EReal) (W1 : Fin 128 → Fin 128 → EReal) (b1 : Fin 128 → EReal) (W2 : Fin 128 → Fin 128 → EReal) (b2 : Fin 128 → EReal) (W3 : Fin 128 → Fin 128 → EReal) (b3 : Fin 128 → EReal) (W4 : Fin 128 → Fin 128 → EReal) (b4 : Fin 128 → EReal) (W5 : Fin 128 → Fin 128 → EReal) (b5 : Fin 128 → EReal) (W6 : Fin 128 → Fin 128 → EReal) (b6 : Fin 128 → EReal) (W7 : Fin 128 → Fin 128 → EReal) (b7 : Fin 128 → EReal) (W8 : Fin 128 → Fin 128 → EReal) (b8 : Fin 128 → EReal) (W9 : Fin 128 → Fin 128 → EReal) (b9 : Fin 128 → EReal) (W10 : Fin 128 → Fin 128 → EReal) (b10 : Fin 128 → EReal) (W11 : Fin 128 → Fin 128 → EReal) (b11 : Fin 128 → EReal) (W12 : Fin 128 → Fin 128 → EReal) (b12 : Fin 128 → EReal) (W13 : Fin 128 → Fin 128 → EReal) (b13 : Fin 128 → EReal) (W14 : Fin 128 → Fin 128 → EReal) (b14 : Fin 128 → EReal) : Fin 128 → EReal :=
  let a1 := relu (rowAff x W1 b1)
  let a2 := relu (rowAff a1 W2 b2)
  let a3 := relu (rowAff a2 W3 b3)
  let a4 := relu (rowAff a3 W4 b4)
  let a5 := relu (rowAff a4 W5 b5)
  let a6 := relu (rowAff a5 W6 b6)
  let a7 := relu (rowAff a6 W7 b7)
  let a8 := relu (vadd (rowAff a7 W8 b8) a6)
  let a9 := relu (vadd (rowAff a8 W9 b9) a5)
  let a10 := relu (vadd (rowAff a9 W10 b10) a4)
  let a11 := relu (vadd (rowAff a10 W11 b11) a3)
  let a12 := relu (vadd (rowAff a11 W12 b12) a2)
  let a13 := relu (vadd (rowAff a12 W13 b13) a1)
  rowAff a13 W14 b14

/-- The plain network on one row of 12 entries. -/
def refNet (x : Fin 12 → EReal) (U1 : Fin 12 → Fin 12 → EReal) (c1 : Fin 12 → EReal) (U2 : Fin 11 → Fin 12 → EReal) (c2 : Fin 11 → EReal) (U3 : Fin 10 → Fin 11 → EReal) (c3 : Fin 10 → EReal) (U4 : Fin 9 → Fin 10 → EReal) (c4 : Fin 9 → EReal) (U5 : Fin 8 → Fin 9 → EReal) (c5 : Fin 8 → EReal) (U6 : Fin 7 → Fin 8 → EReal) (c6 : Fin 7 → EReal) (U7 : Fin 6 → Fin 7 → EReal) (c7 : Fin 6 → EReal) (U8 : Fin 7 → Fin 6 → EReal) (c8 : Fin 7 → EReal) (U9 : Fin 8 → Fin 7 → EReal) (c9 : Fin 8 → EReal) (U10 : Fin 9 → Fin 8 → EReal) (c10 : Fin 9 → EReal) (U11 : Fin 10 → Fin 9 → EReal) (c11 : Fin 10 → EReal) (U12 : Fin 11 → Fin 10 → EReal) (c12 : Fin 11 → EReal) (U13 : Fin 12 → Fin 11 → EReal) (c13 : Fin 12 → EReal) (U14 : Fin 2 → Fin 12 → EReal) (c14 : Fin 2 → EReal) : Fin 2 → EReal :=
  let a1 := relu (lin x U1 c1)
  let a2 := relu (lin a1 U2 c2)
  let a3 := relu (lin a2 U3 c3)
  let a4 := relu (lin a3 U4 c4)
  let a5 := relu (lin a4 U5 c5)
  let a6 := relu (lin a5 U6 c6)
  let a7 := relu (lin a6 U7 c7)
  let a8 := relu (vadd (lin a7 U8 c8) a6)
  let a9 := relu (vadd (lin a8 U9 c9) a5)
  let a10 := relu (vadd (lin a9 U10 c10) a4)
  let a11 := relu (vadd (lin a10 U11 c11) a3)
  let a12 := relu (vadd (lin a11 U12 c12) a2)
  let a13 := relu (vadd (lin a12 U13 c13) a1)
  lin a13 U14 c14

/-- Lanes `16 p`, `16 p + 1` of the packed network's result are the plain network's two results on row `p`. -/
theorem rep_net (p : Fin 8) (x : Fin 128 → EReal) (y : Fin 12 → EReal) (hx : Rep 12 p x y)
    (W1 : Fin 128 → Fin 128 → EReal) (b1 : Fin 128 → EReal) (W2 : Fin 128 → Fin 128 → EReal) (b2 : Fin 128 → EReal) (W3 : Fin 128 → Fin 128 → EReal) (b3 : Fin 128 → EReal) (W4 : Fin 128 → Fin 128 → EReal) (b4 : Fin 128 → EReal) (W5 : Fin 128 → Fin 128 → EReal) (b5 : Fin 128 → EReal) (W6 : Fin 128 → Fin 128 → EReal) (b6 : Fin 128 → EReal) (W7 : Fin 128 → Fin 128 → EReal) (b7 : Fin 128 → EReal) (W8 : Fin 128 → Fin 128 → EReal) (b8 : Fin 128 → EReal) (W9 : Fin 128 → Fin 128 → EReal) (b9 : Fin 128 → EReal) (W10 : Fin 128 → Fin 128 → EReal) (b10 : Fin 128 → EReal) (W11 : Fin 128 → Fin 128 → EReal) (b11 : Fin 128 → EReal) (W12 : Fin 128 → Fin 128 → EReal) (b12 : Fin 128 → EReal) (W13 : Fin 128 → Fin 128 → EReal) (b13 : Fin 128 → EReal) (W14 : Fin 128 → Fin 128 → EReal) (b14 : Fin 128 → EReal) (U1 : Fin 12 → Fin 12 → EReal) (c1 : Fin 12 → EReal) (U2 : Fin 11 → Fin 12 → EReal) (c2 : Fin 11 → EReal) (U3 : Fin 10 → Fin 11 → EReal) (c3 : Fin 10 → EReal) (U4 : Fin 9 → Fin 10 → EReal) (c4 : Fin 9 → EReal) (U5 : Fin 8 → Fin 9 → EReal) (c5 : Fin 8 → EReal) (U6 : Fin 7 → Fin 8 → EReal) (c6 : Fin 7 → EReal) (U7 : Fin 6 → Fin 7 → EReal) (c7 : Fin 6 → EReal) (U8 : Fin 7 → Fin 6 → EReal) (c8 : Fin 7 → EReal) (U9 : Fin 8 → Fin 7 → EReal) (c9 : Fin 8 → EReal) (U10 : Fin 9 → Fin 8 → EReal) (c10 : Fin 9 → EReal) (U11 : Fin 10 → Fin 9 → EReal) (c11 : Fin 10 → EReal) (U12 : Fin 11 → Fin 10 → EReal) (c12 : Fin 11 → EReal) (U13 : Fin 12 → Fin 11 → EReal) (c13 : Fin 12 → EReal) (U14 : Fin 2 → Fin 12 → EReal) (c14 : Fin 2 → EReal)
    (hW1 : PackW 12 12 W1 U1) (hb1 : PackB 12 b1 c1)
    (hW2 : PackW 12 11 W2 U2) (hb2 : PackB 11 b2 c2)
    (hW3 : PackW 11 10 W3 U3) (hb3 : PackB 10 b3 c3)
    (hW4 : PackW 10 9 W4 U4) (hb4 : PackB 9 b4 c4)
    (hW5 : PackW 9 8 W5 U5) (hb5 : PackB 8 b5 c5)
    (hW6 : PackW 8 7 W6 U6) (hb6 : PackB 7 b6 c6)
    (hW7 : PackW 7 6 W7 U7) (hb7 : PackB 6 b7 c7)
    (hW8 : PackW 6 7 W8 U8) (hb8 : PackB 7 b8 c8)
    (hW9 : PackW 7 8 W9 U9) (hb9 : PackB 8 b9 c9)
    (hW10 : PackW 8 9 W10 U10) (hb10 : PackB 9 b10 c10)
    (hW11 : PackW 9 10 W11 U11) (hb11 : PackB 10 b11 c11)
    (hW12 : PackW 10 11 W12 U12) (hb12 : PackB 11 b12 c12)
    (hW13 : PackW 11 12 W13 U13) (hb13 : PackB 12 b13 c13)
    (hW14 : PackW 12 2 W14 U14) (hb14 : PackB 2 b14 c14) :
    Rep 2 p (rowNet x W1 b1 W2 b2 W3 b3 W4 b4 W5 b5 W6 b6 W7 b7 W8 b8 W9 b9 W10 b10 W11 b11 W12 b12 W13 b13 W14 b14) (refNet y U1 c1 U2 c2 U3 c3 U4 c4 U5 c5 U6 c6 U7 c7 U8 c8 U9 c9 U10 c10 U11 c11 U12 c12 U13 c13 U14 c14) := by
  have r1 := rep_relu (rep_aff (by omega) (by omega) hx hW1 hb1)
  have r2 := rep_relu (rep_aff (by omega) (by omega) r1 hW2 hb2)
  have r3 := rep_relu (rep_aff (by omega) (by omega) r2 hW3 hb3)
  have r4 := rep_relu (rep_aff (by omega) (by omega) r3 hW4 hb4)
  have r5 := rep_relu (rep_aff (by omega) (by omega) r4 hW5 hb5)
  have r6 := rep_relu (rep_aff (by omega) (by omega) r5 hW6 hb6)
  have r7 := rep_relu (rep_aff (by omega) (by omega) r6 hW7 hb7)
  have r8 := rep_relu (rep_add (rep_aff (by omega) (by omega) r7 hW8 hb8) r6)
  have r9 := rep_relu (rep_add (rep_aff (by omega) (by omega) r8 hW9 hb9) r5)
  have r10 := rep_relu (rep_add (rep_aff (by omega) (by omega) r9 hW10 hb10) r4)
  have r11 := rep_relu (rep_add (rep_aff (by omega) (by omega) r10 hW11 hb11) r3)
  have r12 := rep_relu (rep_add (rep_aff (by omega) (by omega) r11 hW12 hb12) r2)
  have r13 := rep_relu (rep_add (rep_aff (by omega) (by omega) r12 hW13 hb13) r1)
  exact rep_aff (by omega) (by omega) r13 hW14 hb14

end Cert.Net

end
-- ==== Proof.KBody.lean ====
/-
  The kernel body on one block, read row by row.

  The body takes a block of 2000 packed rows through fourteen layers `h ↦ h · W + b` (a 2000 × 128 by 128 × 128 product
  into a zero accumulator, plus the bias row broadcast down the rows), each but the last followed by the maximum with zero,
  layers 8 to 13 adding a saved activation first.  Every operation acts on each row by itself: row `g` of the result is
  the packed network (`Cert.Net.rowNet`) of row `g` of the input block, the weights and biases read as plain matrices
  and rows.
-/
import proofs.«129942_j63720134803801_2_alg».proof.Proof.Gen.KernelIdeal.Skeleton
import proofs.«129942_j63720134803801_2_alg».proof.Proof.LibPlainDot
import proofs.«129942_j63720134803801_2_alg».proof.Proof.Net
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KBody

open Idealize.ShloMosaic Idealize.ShloMosaic.ValueIdx Cert.KernelIdeal Cert.KernelIdeal.Gen Cert.Net

/-- One layer's affine part on a block: the product into the zero accumulator plus the bias row. -/
def aff (h : FVec Ideal S2000x128 .f32) (w : Vec Ideal S128x128 .f32) (b : Vec Ideal S1x128 .f32) : FVec Ideal S2000x128 .f32 :=
  addf (matmul dot_S2000x128_S128x128_S2000x128_1_0_0_1_n_n none h (shapeCast S128x128 w shapeCasts_S128x128_S128x128 : FVec Ideal S128x128 .f32) (constant S2000x128 .f32 0x00000000#32))
    (broadcastTo S2000x128 (shapeCast S1x128 b shapeCasts_S1x128_S1x128 : FVec Ideal S1x128 .f32) broadcasts_S1x128_S2000x128)

/-- The maximum with zero, entry by entry. -/
def reluV (v : FVec Ideal S2000x128 .f32) : FVec Ideal S2000x128 .f32 :=
  maximumf v (broadcast S2000x128 (Scalar.ofBits .f32 0x00000000#32))

/-- The fourteen layers on a block. -/
def netV (x0 : Vec Ideal S2000x128 .f32) (x1 : Vec Ideal S128x128 .f32) (x2 : Vec Ideal S1x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S128x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x128 .f32) (x28 : Vec Ideal S1x128 .f32) : FVec Ideal S2000x128 .f32 :=
  let a1 := reluV (aff (shapeCast S2000x128 x0 shapeCasts_S2000x128_S2000x128 : FVec Ideal S2000x128 .f32) x1 x2)
  let a2 := reluV (aff a1 x3 x4)
  let a3 := reluV (aff a2 x5 x6)
  let a4 := reluV (aff a3 x7 x8)
  let a5 := reluV (aff a4 x9 x10)
  let a6 := reluV (aff a5 x11 x12)
  let a7 := reluV (aff a6 x13 x14)
  let a8 := reluV (addf (aff a7 x15 x16) a6)
  let a9 := reluV (addf (aff a8 x17 x18) a5)
  let a10 := reluV (addf (aff a9 x19 x20) a4)
  let a11 := reluV (addf (aff a10 x21 x22) a3)
  let a12 := reluV (addf (aff a11 x23 x24) a2)
  let a13 := reluV (addf (aff a12 x25 x26) a1)
  aff a13 x27 x28

/-- The body's one stored value is the fourteen layers of its loads. -/
theorem pay_eq (x0 : Vec Ideal S2000x128 .f32) (x1 : Vec Ideal S128x128 .f32) (x2 : Vec Ideal S1x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S128x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x128 .f32) (x28 : Vec Ideal S1x128 .f32) :
    k0_pay1 (k0_pay2 x0 x1 x2) (k0_pay3 x0 x1 x2 x3 x4) (k0_pay12 (k0_pay4 x0 x1 x2 x3 x4 x5 x6) (k0_pay7 (k0_pay5 x8) (k0_pay6 x0 x1 x2 x3 x4 x5 x6 x7)) (k0_pay8 (k0_pay5 x8) (k0_pay6 x0 x1 x2 x3 x4 x5 x6 x7) x9 x10) (k0_pay9 (k0_pay5 x8) (k0_pay6 x0 x1 x2 x3 x4 x5 x6 x7) x9 x10 x11 x12) (k0_pay10 x16) (k0_pay11 (k0_pay5 x8) (k0_pay6 x0 x1 x2 x3 x4 x5 x6 x7) x9 x10 x11 x12 x13 x14 x15) x17 x18 x19 x20 x21 x22) (k0_pay13 x23) x24 x25 x26 x27 x28 = netV x0 x1 x2 x3 x4 x5 x6 x7 x8 x9 x10 x11 x12 x13 x14 x15 x16 x17 x18 x19 x20 x21 x22 x23 x24 x25 x26 x27 x28 := rfl

/-- Row `g` of a block, a weight block as a matrix, a bias block as a row. -/
def rowOf (v : S2000x128.Idx → EReal) (g : Fin 2000) : Fin 128 → EReal := fun k => v (ix2 g k)
def matOf (w : S128x128.Idx → EReal) : Fin 128 → Fin 128 → EReal := fun k l => w (ix2 k l)
def vecOf (b : S1x128.Idx → EReal) : Fin 128 → EReal := fun l => b (ix2 (0 : Fin 1) l)

theorem rowOf_aff (h : FVec Ideal S2000x128 .f32) (w : Vec Ideal S128x128 .f32) (b : Vec Ideal S1x128 .f32) (g : Fin 2000) :
    rowOf (aff h w b) g = rowAff (rowOf h g) (matOf w) (vecOf b) := by
  funext l
  show aff h w b (ix2 g l) = (∑ k, h (ix2 g k) * w (ix2 k l)) + b (ix2 (0 : Fin 1) l)
  unfold aff
  rw [shapeCast_self, shapeCast_self]
  show matmul dot_S2000x128_S128x128_S2000x128_1_0_0_1_n_n none h w (constant S2000x128 .f32 0x00000000#32) (ix2 g l)
      + broadcastTo S2000x128 b broadcasts_S1x128_S2000x128 (ix2 g l) = _
  rw [broadcastTo_1b_ab_apply]
  exact congrArg (· + b (ix2 (0 : Fin 1) l)) (PlainDot.matmul_zero_plain (M := 2000) (K := 128) (N := 128) none h w (ix2 g l))

theorem rowOf_reluV (v : FVec Ideal S2000x128 .f32) (g : Fin 2000) : rowOf (reluV v) g = relu (rowOf v g) := by
  funext l
  show max (v (ix2 g l)) (Ideal.ofBits .f32 0x00000000#32) = max (v (ix2 g l)) 0
  rw [Ideal.ofBits_zero_f32]

theorem rowOf_addf (u v : FVec Ideal S2000x128 .f32) (g : Fin 2000) : rowOf (addf u v) g = vadd (rowOf u g) (rowOf v g) := rfl

/-- Row `g` of the fourteen layers of a block is the packed network of row `g` of the block. -/
theorem rowOf_netV (x0 : Vec Ideal S2000x128 .f32) (x1 : Vec Ideal S128x128 .f32) (x2 : Vec Ideal S1x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S128x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x128 .f32) (x28 : Vec Ideal S1x128 .f32) (g : Fin 2000) :
    rowOf (netV x0 x1 x2 x3 x4 x5 x6 x7 x8 x9 x10 x11 x12 x13 x14 x15 x16 x17 x18 x19 x20 x21 x22 x23 x24 x25 x26 x27 x28) g = rowNet (rowOf x0 g) (matOf x1) (vecOf x2) (matOf x3) (vecOf x4) (matOf x5) (vecOf x6) (matOf x7) (vecOf x8) (matOf x9) (vecOf x10) (matOf x11) (vecOf x12) (matOf x13) (vecOf x14) (matOf x15) (vecOf x16) (matOf x17) (vecOf x18) (matOf x19) (vecOf x20) (matOf x21) (vecOf x22) (matOf x23) (vecOf x24) (matOf x25) (vecOf x26) (matOf x27) (vecOf x28) := by
  unfold netV rowNet
  simp only [rowOf_aff, rowOf_reluV, rowOf_addf, shapeCast_self]

end Cert.KernelIdeal.KBody

end
-- ==== Proof.KPoint.lean ====
/-
  One entry of what a grid point writes back.

  The body's stored block is the fourteen layers of the blocks it loads; entry `(g, l)` of it is lane `l` of the packed
  network of row `g` of the loaded input block, with the loaded weights and biases.  Stated over arbitrary blocks: the
  loaded input block agreeing, on row `g`, with row `R` of some array, the loaded weights and biases being whole arrays.
-/
import proofs.«129942_j63720134803801_2_alg».proof.Proof.KernelIdealFrameP
import proofs.«129942_j63720134803801_2_alg».proof.Proof.KBody

set_option maxRecDepth 16384

noncomputable section

namespace Cert.KernelIdeal.KPoint

open Idealize.ShloMosaic Idealize.ShloMosaic.ValueIdx Idealize.SL.Sem Cert.KernelIdeal Cert.KernelIdeal.Gen Cert.KernelIdeal.GenP Cert.KernelIdeal.KBody Cert.Net

theorem hz : (![0, 0] : Fin 2 → Nat) = fun _ => 0 := funext fun a => by fin_cases a <;> rfl

/-- What the body leaves in the output window's buffer is the fourteen layers of the loaded blocks. -/
theorem out29_eq (x0 : Vec Ideal S2000x128 .f32) (x1 : Vec Ideal S128x128 .f32) (x2 : Vec Ideal S1x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S128x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x128 .f32) (x28 : Vec Ideal S1x128 .f32) : out0_29 x0 x1 x2 x3 x4 x5 x6 x7 x8 x9 x10 x11 x12 x13 x14 x15 x16 x17 x18 x19 x20 x21 x22 x23 x24 x25 x26 x27 x28 = netV x0 x1 x2 x3 x4 x5 x6 x7 x8 x9 x10 x11 x12 x13 x14 x15 x16 x17 x18 x19 x20 x21 x22 x23 x24 x25 x26 x27 x28 := by
  unfold out0_29
  rw [View.canon_unit_zero hz]
  simp only [View.ld_unit_zero (S := S2000x128) hz, View.ld_unit_zero (S := S128x128) hz, View.ld_unit_zero (S := S1x128) hz]
  exact pay_eq x0 x1 x2 x3 x4 x5 x6 x7 x8 x9 x10 x11 x12 x13 x14 x15 x16 x17 x18 x19 x20 x21 x22 x23 x24 x25 x26 x27 x28

/-- Entry `(g, l)` of the fourteen layers of blocks that are row `R` of `A0` (on row `g`) and the arrays `A1 … A28`. -/
theorem netV_point (x0 : Vec Ideal S2000x128 .f32) (x1 : Vec Ideal S128x128 .f32) (x2 : Vec Ideal S1x128 .f32) (x3 : Vec Ideal S128x128 .f32) (x4 : Vec Ideal S1x128 .f32) (x5 : Vec Ideal S128x128 .f32) (x6 : Vec Ideal S1x128 .f32) (x7 : Vec Ideal S128x128 .f32) (x8 : Vec Ideal S1x128 .f32) (x9 : Vec Ideal S128x128 .f32) (x10 : Vec Ideal S1x128 .f32) (x11 : Vec Ideal S128x128 .f32) (x12 : Vec Ideal S1x128 .f32) (x13 : Vec Ideal S128x128 .f32) (x14 : Vec Ideal S1x128 .f32) (x15 : Vec Ideal S128x128 .f32) (x16 : Vec Ideal S1x128 .f32) (x17 : Vec Ideal S128x128 .f32) (x18 : Vec Ideal S1x128 .f32) (x19 : Vec Ideal S128x128 .f32) (x20 : Vec Ideal S1x128 .f32) (x21 : Vec Ideal S128x128 .f32) (x22 : Vec Ideal S1x128 .f32) (x23 : Vec Ideal S128x128 .f32) (x24 : Vec Ideal S1x128 .f32) (x25 : Vec Ideal S128x128 .f32) (x26 : Vec Ideal S1x128 .f32) (x27 : Vec Ideal S128x128 .f32) (x28 : Vec Ideal S1x128 .f32) (A0 : S250000x128.Idx → EReal) (A1 : S128x128.Idx → EReal) (A2 : S1x128.Idx → EReal) (A3 : S128x128.Idx → EReal) (A4 : S1x128.Idx → EReal) (A5 : S128x128.Idx → EReal) (A6 : S1x128.Idx → EReal) (A7 : S128x128.Idx → EReal) (A8 : S1x128.Idx → EReal) (A9 : S128x128.Idx → EReal) (A10 : S1x128.Idx → EReal) (A11 : S128x128.Idx → EReal) (A12 : S1x128.Idx → EReal) (A13 : S128x128.Idx → EReal) (A14 : S1x128.Idx → EReal) (A15 : S128x128.Idx → EReal) (A16 : S1x128.Idx → EReal) (A17 : S128x128.Idx → EReal) (A18 : S1x128.Idx → EReal) (A19 : S128x128.Idx → EReal) (A20 : S1x128.Idx → EReal) (A21 : S128x128.Idx → EReal) (A22 : S1x128.Idx → EReal) (A23 : S128x128.Idx → EReal) (A24 : S1x128.Idx → EReal) (A25 : S128x128.Idx → EReal) (A26 : S1x128.Idx → EReal) (A27 : S128x128.Idx → EReal) (A28 : S1x128.Idx → EReal) (g : Fin 2000) (R : Fin 250000) (l : Fin 128)
    (h0 : ∀ k : Fin 128, x0 (ix2 g k) = A0 (ix2 R k)) (h1 : x1 = A1) (h2 : x2 = A2) (h3 : x3 = A3) (h4 : x4 = A4) (h5 : x5 = A5) (h6 : x6 = A6) (h7 : x7 = A7) (h8 : x8 = A8) (h9 : x9 = A9) (h10 : x10 = A10) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) (h25 : x25 = A25) (h26 : x26 = A26) (h27 : x27 = A27) (h28 : x28 = A28) :
    netV x0 x1 x2 x3 x4 x5 x6 x7 x8 x9 x10 x11 x12 x13 x14 x15 x16 x17 x18 x19 x20 x21 x22 x23 x24 x25 x26 x27 x28 (ix2 g l) = rowNet (fun k => A0 (ix2 R k)) (matOf A1) (vecOf A2) (matOf A3) (vecOf A4) (matOf A5) (vecOf A6) (matOf A7) (vecOf A8) (matOf A9) (vecOf A10) (matOf A11) (vecOf A12) (matOf A13) (vecOf A14) (matOf A15) (vecOf A16) (matOf A17) (vecOf A18) (matOf A19) (vecOf A20) (matOf A21) (vecOf A22) (matOf A23) (vecOf A24) (matOf A25) (vecOf A26) (matOf A27) (vecOf A28) l := by
  subst h1 h2 h3 h4 h5 h6 h7 h8 h9 h10 h11 h12 h13 h14 h15 h16 h17 h18 h19 h20 h21 h22 h23 h24 h25 h26 h27 h28
  have hrow : rowOf x0 g = fun k => A0 (ix2 R k) := funext h0
  have := congrFun (rowOf_netV x0 x1 x2 x3 x4 x5 x6 x7 x8 x9 x10 x11 x12 x13 x14 x15 x16 x17 x18 x19 x20 x21 x22 x23 x24 x25 x26 x27 x28 g) l
  rw [hrow] at this
  exact this

end Cert.KernelIdeal.KPoint

end
-- ==== Proof.KBlkA.lean ====
/-
  Which block of its array each window of the region stages at a grid point: the input and the output windows, and the
  weight and bias windows 1 to 14.
-/
import proofs.«129942_j63720134803801_2_alg».proof.Proof.KernelIdealFrameP
import Idealize.ShloMosaic.Lib.ValueIdx

set_option maxRecDepth 16384

noncomputable section

namespace Cert.KernelIdeal.KBlk

open Idealize.ShloMosaic Idealize.ShloMosaic.ValueIdx Idealize.SL.Sem Cert.KernelIdeal Cert.KernelIdeal.Gen Cert.KernelIdeal.GenP
open Idealize.ShloMosaic.Pipeline (Dat Cfg Window)

variable (m : (ℓ : Loc nD τ sig) → Buf (Elt Ideal) ℓ)

/-- The input and the output move one block of rows per point. -/
theorem idx0 : ∀ t : Fin cfg0.N, win0_0.index t (0 : Fin 2) = t.val ∧ win0_0.index t (1 : Fin 2) = 0 :=
  (by decide +kernel : ∀ t : Fin grid0.N, _)
theorem idx29 : ∀ t : Fin cfg0.N, win0_29.index t (0 : Fin 2) = t.val ∧ win0_29.index t (1 : Fin 2) = 0 :=
  (by decide +kernel : ∀ t : Fin grid0.N, _)

/-- Every block of rows is some point's. -/
theorem idx_onto : ∀ q : Fin 125, ∃ t : Fin cfg0.N, win0_29.index t = ![q.val, 0] :=
  (by decide +kernel : ∀ q : Fin 125, ∃ t : Fin grid0.N, win0_29.index t = ![q.val, 0])

/-- Entry `(g, k)` of point `t`'s block of the input window is entry `(2000 t + g, k)` of the array. -/
theorem blk0 (A : S250000x128.Idx → EReal) (t : Fin cfg0.N) (g : Fin 2000) (k : Fin 128) :
    A (((cfg0.win 0).blk t).view.emb (ix2 g k)) = A (ix2 (⟨2000 * t.val + g.val, by have := t.isLt; have hN : cfg0.N = 125 := N_0; have := g.isLt; omega⟩ : Fin 250000) k) := by
  obtain ⟨e0, e1⟩ := idx0 t
  refine congrArg A (funext fun a => Fin.ext ?_)
  match a with
  | ⟨0, _⟩ => show win0_0.index t (0 : Fin 2) * 2000 + 1 * g.val = 2000 * t.val + g.val; omega
  | ⟨1, _⟩ => show win0_0.index t (1 : Fin 2) * 128 + 1 * k.val = k.val; omega

/-- … and the same for the output window. -/
theorem blk29 (A : S250000x128.Idx → EReal) (t : Fin cfg0.N) (g : Fin 2000) (k : Fin 128) :
    A (((cfg0.win 29).blk t).view.emb (ix2 g k)) = A (ix2 (⟨2000 * t.val + g.val, by have := t.isLt; have hN : cfg0.N = 125 := N_0; have := g.isLt; omega⟩ : Fin 250000) k) := by
  obtain ⟨e0, e1⟩ := idx29 t
  refine congrArg A (funext fun a => Fin.ext ?_)
  match a with
  | ⟨0, _⟩ => show win0_29.index t (0 : Fin 2) * 2000 + 1 * g.val = 2000 * t.val + g.val; omega
  | ⟨1, _⟩ => show win0_29.index t (1 : Fin 2) * 128 + 1 * k.val = k.val; omega

/-- Window 1 stays on its one block at every point. -/
theorem idx1 : ∀ t : Fin cfg0.N, win0_1.index t (0 : Fin 2) = 0 ∧ win0_1.index t (1 : Fin 2) = 0 :=
  (by decide +kernel : ∀ t : Fin grid0.N, _)

/-- Window 1's block at any point is the whole array. -/
theorem blk1 (A : S128x128.Idx → EReal) (t : Fin cfg0.N) (y : S128x128.Idx) : A (((cfg0.win 1).blk t).view.emb y) = A y := by
  obtain ⟨e0, e1⟩ := idx1 t
  refine congrArg A (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2 stays on its one block at every point. -/
theorem idx2 : ∀ t : Fin cfg0.N, win0_2.index t (0 : Fin 2) = 0 ∧ win0_2.index t (1 : Fin 2) = 0 :=
  (by decide +kernel : ∀ t : Fin grid0.N, _)

/-- Window 2's block at any point is the whole array. -/
theorem blk2 (A : S1x128.Idx → EReal) (t : Fin cfg0.N) (y : S1x128.Idx) : A (((cfg0.win 2).blk t).view.emb y) = A y := by
  obtain ⟨e0, e1⟩ := idx2 t
  refine congrArg A (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3 stays on its one block at every point. -/
theorem idx3 : ∀ t : Fin cfg0.N, win0_3.index t (0 : Fin 2) = 0 ∧ win0_3.index t (1 : Fin 2) = 0 :=
  (by decide +kernel : ∀ t : Fin grid0.N, _)

/-- Window 3's block at any point is the whole array. -/
theorem blk3 (A : S128x128.Idx → EReal) (t : Fin cfg0.N) (y : S128x128.Idx) : A (((cfg0.win 3).blk t).view.emb y) = A y := by
  obtain ⟨e0, e1⟩ := idx3 t
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stays on its one block at every point. -/
theorem idx4 : ∀ t : Fin cfg0.N, win0_4.index t (0 : Fin 2) = 0 ∧ win0_4.index t (1 : Fin 2) = 0 :=
  (by decide +kernel : ∀ t : Fin grid0.N, _)

/-- Window 4's block at any point is the whole array. -/
theorem blk4 (A : S1x128.Idx → EReal) (t : Fin cfg0.N) (y : S1x128.Idx) : A (((cfg0.win 4).blk t).view.emb y) = A y := by
  obtain ⟨e0, e1⟩ := idx4 t
  refine congrArg A (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 stays on its one block at every point. -/
theorem idx5 : ∀ t : Fin cfg0.N, win0_5.index t (0 : Fin 2) = 0 ∧ win0_5.index t (1 : Fin 2) = 0 :=
  (by decide +kernel : ∀ t : Fin grid0.N, _)

/-- Window 5's block at any point is the whole array. -/
theorem blk5 (A : S128x128.Idx → EReal) (t : Fin cfg0.N) (y : S128x128.Idx) : A (((cfg0.win 5).blk t).view.emb y) = A y := by
  obtain ⟨e0, e1⟩ := idx5 t
  refine congrArg A (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 stays on its one block at every point. -/
theorem idx6 : ∀ t : Fin cfg0.N, win0_6.index t (0 : Fin 2) = 0 ∧ win0_6.index t (1 : Fin 2) = 0 :=
  (by decide +kernel : ∀ t : Fin grid0.N, _)

/-- Window 6's block at any point is the whole array. -/
theorem blk6 (A : S1x128.Idx → EReal) (t : Fin cfg0.N) (y : S1x128.Idx) : A (((cfg0.win 6).blk t).view.emb y) = A y := by
  obtain ⟨e0, e1⟩ := idx6 t
  refine congrArg A (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 stays on its one block at every point. -/
theorem idx7 : ∀ t : Fin cfg0.N, win0_7.index t (0 : Fin 2) = 0 ∧ win0_7.index t (1 : Fin 2) = 0 :=
  (by decide +kernel : ∀ t : Fin grid0.N, _)

/-- Window 7's block at any point is the whole array. -/
theorem blk7 (A : S128x128.Idx → EReal) (t : Fin cfg0.N) (y : S128x128.Idx) : A (((cfg0.win 7).blk t).view.emb y) = A y := by
  obtain ⟨e0, e1⟩ := idx7 t
  refine congrArg A (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8 stays on its one block at every point. -/
theorem idx8 : ∀ t : Fin cfg0.N, win0_8.index t (0 : Fin 2) = 0 ∧ win0_8.index t (1 : Fin 2) = 0 :=
  (by decide +kernel : ∀ t : Fin grid0.N, _)

/-- Window 8's block at any point is the whole array. -/
theorem blk8 (A : S1x128.Idx → EReal) (t : Fin cfg0.N) (y : S1x128.Idx) : A (((cfg0.win 8).blk t).view.emb y) = A y := by
  obtain ⟨e0, e1⟩ := idx8 t
  refine congrArg A (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9 stays on its one block at every point. -/
theorem idx9 : ∀ t : Fin cfg0.N, win0_9.index t (0 : Fin 2) = 0 ∧ win0_9.index t (1 : Fin 2) = 0 :=
  (by decide +kernel : ∀ t : Fin grid0.N, _)

/-- Window 9's block at any point is the whole array. -/
theorem blk9 (A : S128x128.Idx → EReal) (t : Fin cfg0.N) (y : S128x128.Idx) : A (((cfg0.win 9).blk t).view.emb y) = A y := by
  obtain ⟨e0, e1⟩ := idx9 t
  refine congrArg A (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10 stays on its one block at every point. -/
theorem idx10 : ∀ t : Fin cfg0.N, win0_10.index t (0 : Fin 2) = 0 ∧ win0_10.index t (1 : Fin 2) = 0 :=
  (by decide +kernel : ∀ t : Fin grid0.N, _)

/-- Window 10's block at any point is the whole array. -/
theorem blk10 (A : S1x128.Idx → EReal) (t : Fin cfg0.N) (y : S1x128.Idx) : A (((cfg0.win 10).blk t).view.emb y) = A y := by
  obtain ⟨e0, e1⟩ := idx10 t
  refine congrArg A (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11 stays on its one block at every point. -/
theorem idx11 : ∀ t : Fin cfg0.N, win0_11.index t (0 : Fin 2) = 0 ∧ win0_11.index t (1 : Fin 2) = 0 :=
  (by decide +kernel : ∀ t : Fin grid0.N, _)

/-- Window 11's block at any point is the whole array. -/
theorem blk11 (A : S128x128.Idx → EReal) (t : Fin cfg0.N) (y : S128x128.Idx) : A (((cfg0.win 11).blk t).view.emb y) = A y := by
  obtain ⟨e0, e1⟩ := idx11 t
  refine congrArg A (funext fun a => Fin.ext ?_)
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12 stays on its one block at every point. -/
theorem idx12 : ∀ t : Fin cfg0.N, win0_12.index t (0 : Fin 2) = 0 ∧ win0_12.index t (1 : Fin 2) = 0 :=
  (by decide +kernel : ∀ t : Fin grid0.N, _)

/-- Window 12's block at any point is the whole array. -/
theorem blk12 (A : S1x128.Idx → EReal) (t : Fin cfg0.N) (y : S1x128.Idx) : A (((cfg0.win 12).blk t).view.emb y) = A y := by
  obtain ⟨e0, e1⟩ := idx12 t
  refine congrArg A (funext fun a => Fin.ext ?_)
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 13 stays on its one block at every point. -/
theorem idx13 : ∀ t : Fin cfg0.N, win0_13.index t (0 : Fin 2) = 0 ∧ win0_13.index t (1 : Fin 2) = 0 :=
  (by decide +kernel : ∀ t : Fin grid0.N, _)

/-- Window 13's block at any point is the whole array. -/
theorem blk13 (A : S128x128.Idx → EReal) (t : Fin cfg0.N) (y : S128x128.Idx) : A (((cfg0.win 13).blk t).view.emb y) = A y := by
  obtain ⟨e0, e1⟩ := idx13 t
  refine congrArg A (funext fun a => Fin.ext ?_)
  match a with
  | ⟨0, _⟩ => show win0_13.index t (0 : Fin 2) * 128 + 1 * (y 0).val = (y 0).val; omega
  | ⟨1, _⟩ => show win0_13.index t (1 : Fin 2) * 128 + 1 * (y 1).val = (y 1).val; omega

/-- Window 14 stays on its one block at every point. -/
theorem idx14 : ∀ t : Fin cfg0.N, win0_14.index t (0 : Fin 2) = 0 ∧ win0_14.index t (1 : Fin 2) = 0 :=
  (by decide +kernel : ∀ t : Fin grid0.N, _)

/-- Window 14's block at any point is the whole array. -/
theorem blk14 (A : S1x128.Idx → EReal) (t : Fin cfg0.N) (y : S1x128.Idx) : A (((cfg0.win 14).blk t).view.emb y) = A y := by
  obtain ⟨e0, e1⟩ := idx14 t
  refine congrArg A (funext fun a => Fin.ext ?_)
  match a with
  | ⟨0, _⟩ => show win0_14.index t (0 : Fin 2) * 1 + 1 * (y 0).val = (y 0).val; omega
  | ⟨1, _⟩ => show win0_14.index t (1 : Fin 2) * 128 + 1 * (y 1).val = (y 1).val; omega

end Cert.KernelIdeal.KBlk

end
-- ==== Proof.KBlkB.lean ====
/-
  Which block of its array each window of the region stages at a grid point: the weight and bias windows 15 to 28.
-/
import proofs.«129942_j63720134803801_2_alg».proof.Proof.KernelIdealFrameP
import Idealize.ShloMosaic.Lib.ValueIdx

set_option maxRecDepth 16384

noncomputable section

namespace Cert.KernelIdeal.KBlk

open Idealize.ShloMosaic Idealize.ShloMosaic.ValueIdx Idealize.SL.Sem Cert.KernelIdeal Cert.KernelIdeal.Gen Cert.KernelIdeal.GenP
open Idealize.ShloMosaic.Pipeline (Dat Cfg Window)

variable (m : (ℓ : Loc nD τ sig) → Buf (Elt Ideal) ℓ)

/-- Window 15 stays on its one block at every point. -/
theorem idx15 : ∀ t : Fin cfg0.N, win0_15.index t (0 : Fin 2) = 0 ∧ win0_15.index t (1 : Fin 2) = 0 :=
  (by decide +kernel : ∀ t : Fin grid0.N, _)

/-- Window 15's block at any point is the whole array. -/
theorem blk15 (A : S128x128.Idx → EReal) (t : Fin cfg0.N) (y : S128x128.Idx) : A (((cfg0.win 15).blk t).view.emb y) = A y := by
  obtain ⟨e0, e1⟩ := idx15 t
  refine congrArg A (funext fun a => Fin.ext ?_)
  match a with
  | ⟨0, _⟩ => show win0_15.index t (0 : Fin 2) * 128 + 1 * (y 0).val = (y 0).val; omega
  | ⟨1, _⟩ => show win0_15.index t (1 : Fin 2) * 128 + 1 * (y 1).val = (y 1).val; omega

/-- Window 16 stays on its one block at every point. -/
theorem idx16 : ∀ t : Fin cfg0.N, win0_16.index t (0 : Fin 2) = 0 ∧ win0_16.index t (1 : Fin 2) = 0 :=
  (by decide +kernel : ∀ t : Fin grid0.N, _)

/-- Window 16's block at any point is the whole array. -/
theorem blk16 (A : S1x128.Idx → EReal) (t : Fin cfg0.N) (y : S1x128.Idx) : A (((cfg0.win 16).blk t).view.emb y) = A y := by
  obtain ⟨e0, e1⟩ := idx16 t
  refine congrArg A (funext fun a => Fin.ext ?_)
  match a with
  | ⟨0, _⟩ => show win0_16.index t (0 : Fin 2) * 1 + 1 * (y 0).val = (y 0).val; omega
  | ⟨1, _⟩ => show win0_16.index t (1 : Fin 2) * 128 + 1 * (y 1).val = (y 1).val; omega

/-- Window 17 stays on its one block at every point. -/
theorem idx17 : ∀ t : Fin cfg0.N, win0_17.index t (0 : Fin 2) = 0 ∧ win0_17.index t (1 : Fin 2) = 0 :=
  (by decide +kernel : ∀ t : Fin grid0.N, _)

/-- Window 17's block at any point is the whole array. -/
theorem blk17 (A : S128x128.Idx → EReal) (t : Fin cfg0.N) (y : S128x128.Idx) : A (((cfg0.win 17).blk t).view.emb y) = A y := by
  obtain ⟨e0, e1⟩ := idx17 t
  refine congrArg A (funext fun a => Fin.ext ?_)
  match a with
  | ⟨0, _⟩ => show win0_17.index t (0 : Fin 2) * 128 + 1 * (y 0).val = (y 0).val; omega
  | ⟨1, _⟩ => show win0_17.index t (1 : Fin 2) * 128 + 1 * (y 1).val = (y 1).val; omega

/-- Window 18 stays on its one block at every point. -/
theorem idx18 : ∀ t : Fin cfg0.N, win0_18.index t (0 : Fin 2) = 0 ∧ win0_18.index t (1 : Fin 2) = 0 :=
  (by decide +kernel : ∀ t : Fin grid0.N, _)

/-- Window 18's block at any point is the whole array. -/
theorem blk18 (A : S1x128.Idx → EReal) (t : Fin cfg0.N) (y : S1x128.Idx) : A (((cfg0.win 18).blk t).view.emb y) = A y := by
  obtain ⟨e0, e1⟩ := idx18 t
  refine congrArg A (funext fun a => Fin.ext ?_)
  match a with
  | ⟨0, _⟩ => show win0_18.index t (0 : Fin 2) * 1 + 1 * (y 0).val = (y 0).val; omega
  | ⟨1, _⟩ => show win0_18.index t (1 : Fin 2) * 128 + 1 * (y 1).val = (y 1).val; omega

/-- Window 19 stays on its one block at every point. -/
theorem idx19 : ∀ t : Fin cfg0.N, win0_19.index t (0 : Fin 2) = 0 ∧ win0_19.index t (1 : Fin 2) = 0 :=
  (by decide +kernel : ∀ t : Fin grid0.N, _)

/-- Window 19's block at any point is the whole array. -/
theorem blk19 (A : S128x128.Idx → EReal) (t : Fin cfg0.N) (y : S128x128.Idx) : A (((cfg0.win 19).blk t).view.emb y) = A y := by
  obtain ⟨e0, e1⟩ := idx19 t
  refine congrArg A (funext fun a => Fin.ext ?_)
  match a with
  | ⟨0, _⟩ => show win0_19.index t (0 : Fin 2) * 128 + 1 * (y 0).val = (y 0).val; omega
  | ⟨1, _⟩ => show win0_19.index t (1 : Fin 2) * 128 + 1 * (y 1).val = (y 1).val; omega

/-- Window 20 stays on its one block at every point. -/
theorem idx20 : ∀ t : Fin cfg0.N, win0_20.index t (0 : Fin 2) = 0 ∧ win0_20.index t (1 : Fin 2) = 0 :=
  (by decide +kernel : ∀ t : Fin grid0.N, _)

/-- Window 20's block at any point is the whole array. -/
theorem blk20 (A : S1x128.Idx → EReal) (t : Fin cfg0.N) (y : S1x128.Idx) : A (((cfg0.win 20).blk t).view.emb y) = A y := by
  obtain ⟨e0, e1⟩ := idx20 t
  refine congrArg A (funext fun a => Fin.ext ?_)
  match a with
  | ⟨0, _⟩ => show win0_20.index t (0 : Fin 2) * 1 + 1 * (y 0).val = (y 0).val; omega
  | ⟨1, _⟩ => show win0_20.index t (1 : Fin 2) * 128 + 1 * (y 1).val = (y 1).val; omega

/-- Window 21 stays on its one block at every point. -/
theorem idx21 : ∀ t : Fin cfg0.N, win0_21.index t (0 : Fin 2) = 0 ∧ win0_21.index t (1 : Fin 2) = 0 :=
  (by decide +kernel : ∀ t : Fin grid0.N, _)

/-- Window 21's block at any point is the whole array. -/
theorem blk21 (A : S128x128.Idx → EReal) (t : Fin cfg0.N) (y : S128x128.Idx) : A (((cfg0.win 21).blk t).view.emb y) = A y := by
  obtain ⟨e0, e1⟩ := idx21 t
  refine congrArg A (funext fun a => Fin.ext ?_)
  match a with
  | ⟨0, _⟩ => show win0_21.index t (0 : Fin 2) * 128 + 1 * (y 0).val = (y 0).val; omega
  | ⟨1, _⟩ => show win0_21.index t (1 : Fin 2) * 128 + 1 * (y 1).val = (y 1).val; omega

/-- Window 22 stays on its one block at every point. -/
theorem idx22 : ∀ t : Fin cfg0.N, win0_22.index t (0 : Fin 2) = 0 ∧ win0_22.index t (1 : Fin 2) = 0 :=
  (by decide +kernel : ∀ t : Fin grid0.N, _)

/-- Window 22's block at any point is the whole array. -/
theorem blk22 (A : S1x128.Idx → EReal) (t : Fin cfg0.N) (y : S1x128.Idx) : A (((cfg0.win 22).blk t).view.emb y) = A y := by
  obtain ⟨e0, e1⟩ := idx22 t
  refine congrArg A (funext fun a => Fin.ext ?_)
  match a with
  | ⟨0, _⟩ => show win0_22.index t (0 : Fin 2) * 1 + 1 * (y 0).val = (y 0).val; omega
  | ⟨1, _⟩ => show win0_22.index t (1 : Fin 2) * 128 + 1 * (y 1).val = (y 1).val; omega

/-- Window 23 stays on its one block at every point. -/
theorem idx23 : ∀ t : Fin cfg0.N, win0_23.index t (0 : Fin 2) = 0 ∧ win0_23.index t (1 : Fin 2) = 0 :=
  (by decide +kernel : ∀ t : Fin grid0.N, _)

/-- Window 23's block at any point is the whole array. -/
theorem blk23 (A : S128x128.Idx → EReal) (t : Fin cfg0.N) (y : S128x128.Idx) : A (((cfg0.win 23).blk t).view.emb y) = A y := by
  obtain ⟨e0, e1⟩ := idx23 t
  refine congrArg A (funext fun a => Fin.ext ?_)
  match a with
  | ⟨0, _⟩ => show win0_23.index t (0 : Fin 2) * 128 + 1 * (y 0).val = (y 0).val; omega
  | ⟨1, _⟩ => show win0_23.index t (1 : Fin 2) * 128 + 1 * (y 1).val = (y 1).val; omega

/-- Window 24 stays on its one block at every point. -/
theorem idx24 : ∀ t : Fin cfg0.N, win0_24.index t (0 : Fin 2) = 0 ∧ win0_24.index t (1 : Fin 2) = 0 :=
  (by decide +kernel : ∀ t : Fin grid0.N, _)

/-- Window 24's block at any point is the whole array. -/
theorem blk24 (A : S1x128.Idx → EReal) (t : Fin cfg0.N) (y : S1x128.Idx) : A (((cfg0.win 24).blk t).view.emb y) = A y := by
  obtain ⟨e0, e1⟩ := idx24 t
  refine congrArg A (funext fun a => Fin.ext ?_)
  match a with
  | ⟨0, _⟩ => show win0_24.index t (0 : Fin 2) * 1 + 1 * (y 0).val = (y 0).val; omega
  | ⟨1, _⟩ => show win0_24.index t (1 : Fin 2) * 128 + 1 * (y 1).val = (y 1).val; omega

/-- Window 25 stays on its one block at every point. -/
theorem idx25 : ∀ t : Fin cfg0.N, win0_25.index t (0 : Fin 2) = 0 ∧ win0_25.index t (1 : Fin 2) = 0 :=
  (by decide +kernel : ∀ t : Fin grid0.N, _)

/-- Window 25's block at any point is the whole array. -/
theorem blk25 (A : S128x128.Idx → EReal) (t : Fin cfg0.N) (y : S128x128.Idx) : A (((cfg0.win 25).blk t).view.emb y) = A y := by
  obtain ⟨e0, e1⟩ := idx25 t
  refine congrArg A (funext fun a => Fin.ext ?_)
  match a with
  | ⟨0, _⟩ => show win0_25.index t (0 : Fin 2) * 128 + 1 * (y 0).val = (y 0).val; omega
  | ⟨1, _⟩ => show win0_25.index t (1 : Fin 2) * 128 + 1 * (y 1).val = (y 1).val; omega

/-- Window 26 stays on its one block at every point. -/
theorem idx26 : ∀ t : Fin cfg0.N, win0_26.index t (0 : Fin 2) = 0 ∧ win0_26.index t (1 : Fin 2) = 0 :=
  (by decide +kernel : ∀ t : Fin grid0.N, _)

/-- Window 26's block at any point is the whole array. -/
theorem blk26 (A : S1x128.Idx → EReal) (t : Fin cfg0.N) (y : S1x128.Idx) : A (((cfg0.win 26).blk t).view.emb y) = A y := by
  obtain ⟨e0, e1⟩ := idx26 t
  refine congrArg A (funext fun a => Fin.ext ?_)
  match a with
  | ⟨0, _⟩ => show win0_26.index t (0 : Fin 2) * 1 + 1 * (y 0).val = (y 0).val; omega
  | ⟨1, _⟩ => show win0_26.index t (1 : Fin 2) * 128 + 1 * (y 1).val = (y 1).val; omega

/-- Window 27 stays on its one block at every point. -/
theorem idx27 : ∀ t : Fin cfg0.N, win0_27.index t (0 : Fin 2) = 0 ∧ win0_27.index t (1 : Fin 2) = 0 :=
  (by decide +kernel : ∀ t : Fin grid0.N, _)

/-- Window 27's block at any point is the whole array. -/
theorem blk27 (A : S128x128.Idx → EReal) (t : Fin cfg0.N) (y : S128x128.Idx) : A (((cfg0.win 27).blk t).view.emb y) = A y := by
  obtain ⟨e0, e1⟩ := idx27 t
  refine congrArg A (funext fun a => Fin.ext ?_)
  match a with
  | ⟨0, _⟩ => show win0_27.index t (0 : Fin 2) * 128 + 1 * (y 0).val = (y 0).val; omega
  | ⟨1, _⟩ => show win0_27.index t (1 : Fin 2) * 128 + 1 * (y 1).val = (y 1).val; omega

/-- Window 28 stays on its one block at every point. -/
theorem idx28 : ∀ t : Fin cfg0.N, win0_28.index t (0 : Fin 2) = 0 ∧ win0_28.index t (1 : Fin 2) = 0 :=
  (by decide +kernel : ∀ t : Fin grid0.N, _)

/-- Window 28's block at any point is the whole array. -/
theorem blk28 (A : S1x128.Idx → EReal) (t : Fin cfg0.N) (y : S1x128.Idx) : A (((cfg0.win 28).blk t).view.emb y) = A y := by
  obtain ⟨e0, e1⟩ := idx28 t
  refine congrArg A (funext fun a => Fin.ext ?_)
  match a with
  | ⟨0, _⟩ => show win0_28.index t (0 : Fin 2) * 1 + 1 * (y 0).val = (y 0).val; omega
  | ⟨1, _⟩ => show win0_28.index t (1 : Fin 2) * 128 + 1 * (y 1).val = (y 1).val; omega

end Cert.KernelIdeal.KBlk

end
-- ==== Proof.KIblkA.lean ====
/-
  The blocks the region stages at a grid point, read out of arbitrary contents of the windows' arrays: the input window and windows 1 to 14.
-/
import proofs.«129942_j63720134803801_2_alg».proof.Proof.KernelIdealFrameP
import proofs.«129942_j63720134803801_2_alg».proof.Proof.KBlkA
import Idealize.ShloMosaic.Lib.ValueIdx

set_option maxRecDepth 16384

noncomputable section

namespace Cert.KernelIdeal.KIblk

open Idealize.ShloMosaic Idealize.ShloMosaic.ValueIdx Idealize.SL.Sem Cert.KernelIdeal Cert.KernelIdeal.Gen Cert.KernelIdeal.GenP Cert.KernelIdeal.KBlk

variable (c : Dev nD) (VV : (b : Ref sig .tc) → Buf (Elt Ideal) ((c.tc : Thread nD τ).loc b))

/-- Row `g` of the input block read at point `t` out of any contents of the packed input is row `2000 t + g` of them. -/
theorem rd0 (t : Fin cfg0.N) (g : Fin 2000) (k : Fin 128) :
    (((cfg0.win 0).blk t).view.read (Elt Ideal) (VV (Pipeline.arrRef spec0 0)) : S2000x128.Idx → EReal) (ix2 g k) = VV (Pipeline.arrRef spec0 0) (ix2 (⟨2000 * t.val + g.val, by have := t.isLt; have hN : cfg0.N = 125 := N_0; have := g.isLt; omega⟩ : Fin 250000) k) :=
  blk0 (VV (Pipeline.arrRef spec0 0)) t g k

/-- The block of window 1 read at any point out of any contents of its array is the whole array. -/
theorem rd1 (t : Fin cfg0.N) : (((cfg0.win 1).blk t).view.read (Elt Ideal) (VV (Pipeline.arrRef spec0 1)) : S128x128.Idx → EReal) = VV (Pipeline.arrRef spec0 1) :=
  funext fun y => blk1 (VV (Pipeline.arrRef spec0 1)) t y

/-- The block of window 2 read at any point out of any contents of its array is the whole array. -/
theorem rd2 (t : Fin cfg0.N) : (((cfg0.win 2).blk t).view.read (Elt Ideal) (VV (Pipeline.arrRef spec0 2)) : S1x128.Idx → EReal) = VV (Pipeline.arrRef spec0 2) :=
  funext fun y => blk2 (VV (Pipeline.arrRef spec0 2)) t y

/-- The block of window 3 read at any point out of any contents of its array is the whole array. -/
theorem rd3 (t : Fin cfg0.N) : (((cfg0.win 3).blk t).view.read (Elt Ideal) (VV (Pipeline.arrRef spec0 3)) : S128x128.Idx → EReal) = VV (Pipeline.arrRef spec0 3) :=
  funext fun y => blk3 (VV (Pipeline.arrRef spec0 3)) t y

/-- The block of window 4 read at any point out of any contents of its array is the whole array. -/
theorem rd4 (t : Fin cfg0.N) : (((cfg0.win 4).blk t).view.read (Elt Ideal) (VV (Pipeline.arrRef spec0 4)) : S1x128.Idx → EReal) = VV (Pipeline.arrRef spec0 4) :=
  funext fun y => blk4 (VV (Pipeline.arrRef spec0 4)) t y

/-- The block of window 5 read at any point out of any contents of its array is the whole array. -/
theorem rd5 (t : Fin cfg0.N) : (((cfg0.win 5).blk t).view.read (Elt Ideal) (VV (Pipeline.arrRef spec0 5)) : S128x128.Idx → EReal) = VV (Pipeline.arrRef spec0 5) :=
  funext fun y => blk5 (VV (Pipeline.arrRef spec0 5)) t y

/-- The block of window 6 read at any point out of any contents of its array is the whole array. -/
theorem rd6 (t : Fin cfg0.N) : (((cfg0.win 6).blk t).view.read (Elt Ideal) (VV (Pipeline.arrRef spec0 6)) : S1x128.Idx → EReal) = VV (Pipeline.arrRef spec0 6) :=
  funext fun y => blk6 (VV (Pipeline.arrRef spec0 6)) t y

/-- The block of window 7 read at any point out of any contents of its array is the whole array. -/
theorem rd7 (t : Fin cfg0.N) : (((cfg0.win 7).blk t).view.read (Elt Ideal) (VV (Pipeline.arrRef spec0 7)) : S128x128.Idx → EReal) = VV (Pipeline.arrRef spec0 7) :=
  funext fun y => blk7 (VV (Pipeline.arrRef spec0 7)) t y

/-- The block of window 8 read at any point out of any contents of its array is the whole array. -/
theorem rd8 (t : Fin cfg0.N) : (((cfg0.win 8).blk t).view.read (Elt Ideal) (VV (Pipeline.arrRef spec0 8)) : S1x128.Idx → EReal) = VV (Pipeline.arrRef spec0 8) :=
  funext fun y => blk8 (VV (Pipeline.arrRef spec0 8)) t y

/-- The block of window 9 read at any point out of any contents of its array is the whole array. -/
theorem rd9 (t : Fin cfg0.N) : (((cfg0.win 9).blk t).view.read (Elt Ideal) (VV (Pipeline.arrRef spec0 9)) : S128x128.Idx → EReal) = VV (Pipeline.arrRef spec0 9) :=
  funext fun y => blk9 (VV (Pipeline.arrRef spec0 9)) t y

/-- The block of window 10 read at any point out of any contents of its array is the whole array. -/
theorem rd10 (t : Fin cfg0.N) : (((cfg0.win 10).blk t).view.read (Elt Ideal) (VV (Pipeline.arrRef spec0 10)) : S1x128.Idx → EReal) = VV (Pipeline.arrRef spec0 10) :=
  funext fun y => blk10 (VV (Pipeline.arrRef spec0 10)) t y

/-- The block of window 11 read at any point out of any contents of its array is the whole array. -/
theorem rd11 (t : Fin cfg0.N) : (((cfg0.win 11).blk t).view.read (Elt Ideal) (VV (Pipeline.arrRef spec0 11)) : S128x128.Idx → EReal) = VV (Pipeline.arrRef spec0 11) :=
  funext fun y => blk11 (VV (Pipeline.arrRef spec0 11)) t y

/-- The block of window 12 read at any point out of any contents of its array is the whole array. -/
theorem rd12 (t : Fin cfg0.N) : (((cfg0.win 12).blk t).view.read (Elt Ideal) (VV (Pipeline.arrRef spec0 12)) : S1x128.Idx → EReal) = VV (Pipeline.arrRef spec0 12) :=
  funext fun y => blk12 (VV (Pipeline.arrRef spec0 12)) t y

/-- The block of window 13 read at any point out of any contents of its array is the whole array. -/
theorem rd13 (t : Fin cfg0.N) : (((cfg0.win 13).blk t).view.read (Elt Ideal) (VV (Pipeline.arrRef spec0 13)) : S128x128.Idx → EReal) = VV (Pipeline.arrRef spec0 13) :=
  funext fun y => blk13 (VV (Pipeline.arrRef spec0 13)) t y

/-- The block of window 14 read at any point out of any contents of its array is the whole array. -/
theorem rd14 (t : Fin cfg0.N) : (((cfg0.win 14).blk t).view.read (Elt Ideal) (VV (Pipeline.arrRef spec0 14)) : S1x128.Idx → EReal) = VV (Pipeline.arrRef spec0 14) :=
  funext fun y => blk14 (VV (Pipeline.arrRef spec0 14)) t y

end Cert.KernelIdeal.KIblk

end
-- ==== Proof.KIblkB.lean ====
/-
  The blocks the region stages at a grid point, read out of arbitrary contents of the windows' arrays: windows 15 to 28.
-/
import proofs.«129942_j63720134803801_2_alg».proof.Proof.KernelIdealFrameP
import proofs.«129942_j63720134803801_2_alg».proof.Proof.KBlkB
import Idealize.ShloMosaic.Lib.ValueIdx

set_option maxRecDepth 16384

noncomputable section

namespace Cert.KernelIdeal.KIblk

open Idealize.ShloMosaic Idealize.ShloMosaic.ValueIdx Idealize.SL.Sem Cert.KernelIdeal Cert.KernelIdeal.Gen Cert.KernelIdeal.GenP Cert.KernelIdeal.KBlk

variable (c : Dev nD) (VV : (b : Ref sig .tc) → Buf (Elt Ideal) ((c.tc : Thread nD τ).loc b))

/-- The block of window 15 read at any point out of any contents of its array is the whole array. -/
theorem rd15 (t : Fin cfg0.N) : (((cfg0.win 15).blk t).view.read (Elt Ideal) (VV (Pipeline.arrRef spec0 15)) : S128x128.Idx → EReal) = VV (Pipeline.arrRef spec0 15) :=
  funext fun y => blk15 (VV (Pipeline.arrRef spec0 15)) t y

/-- The block of window 16 read at any point out of any contents of its array is the whole array. -/
theorem rd16 (t : Fin cfg0.N) : (((cfg0.win 16).blk t).view.read (Elt Ideal) (VV (Pipeline.arrRef spec0 16)) : S1x128.Idx → EReal) = VV (Pipeline.arrRef spec0 16) :=
  funext fun y => blk16 (VV (Pipeline.arrRef spec0 16)) t y

/-- The block of window 17 read at any point out of any contents of its array is the whole array. -/
theorem rd17 (t : Fin cfg0.N) : (((cfg0.win 17).blk t).view.read (Elt Ideal) (VV (Pipeline.arrRef spec0 17)) : S128x128.Idx → EReal) = VV (Pipeline.arrRef spec0 17) :=
  funext fun y => blk17 (VV (Pipeline.arrRef spec0 17)) t y

/-- The block of window 18 read at any point out of any contents of its array is the whole array. -/
theorem rd18 (t : Fin cfg0.N) : (((cfg0.win 18).blk t).view.read (Elt Ideal) (VV (Pipeline.arrRef spec0 18)) : S1x128.Idx → EReal) = VV (Pipeline.arrRef spec0 18) :=
  funext fun y => blk18 (VV (Pipeline.arrRef spec0 18)) t y

/-- The block of window 19 read at any point out of any contents of its array is the whole array. -/
theorem rd19 (t : Fin cfg0.N) : (((cfg0.win 19).blk t).view.read (Elt Ideal) (VV (Pipeline.arrRef spec0 19)) : S128x128.Idx → EReal) = VV (Pipeline.arrRef spec0 19) :=
  funext fun y => blk19 (VV (Pipeline.arrRef spec0 19)) t y

/-- The block of window 20 read at any point out of any contents of its array is the whole array. -/
theorem rd20 (t : Fin cfg0.N) : (((cfg0.win 20).blk t).view.read (Elt Ideal) (VV (Pipeline.arrRef spec0 20)) : S1x128.Idx → EReal) = VV (Pipeline.arrRef spec0 20) :=
  funext fun y => blk20 (VV (Pipeline.arrRef spec0 20)) t y

/-- The block of window 21 read at any point out of any contents of its array is the whole array. -/
theorem rd21 (t : Fin cfg0.N) : (((cfg0.win 21).blk t).view.read (Elt Ideal) (VV (Pipeline.arrRef spec0 21)) : S128x128.Idx → EReal) = VV (Pipeline.arrRef spec0 21) :=
  funext fun y => blk21 (VV (Pipeline.arrRef spec0 21)) t y

/-- The block of window 22 read at any point out of any contents of its array is the whole array. -/
theorem rd22 (t : Fin cfg0.N) : (((cfg0.win 22).blk t).view.read (Elt Ideal) (VV (Pipeline.arrRef spec0 22)) : S1x128.Idx → EReal) = VV (Pipeline.arrRef spec0 22) :=
  funext fun y => blk22 (VV (Pipeline.arrRef spec0 22)) t y

/-- The block of window 23 read at any point out of any contents of its array is the whole array. -/
theorem rd23 (t : Fin cfg0.N) : (((cfg0.win 23).blk t).view.read (Elt Ideal) (VV (Pipeline.arrRef spec0 23)) : S128x128.Idx → EReal) = VV (Pipeline.arrRef spec0 23) :=
  funext fun y => blk23 (VV (Pipeline.arrRef spec0 23)) t y

/-- The block of window 24 read at any point out of any contents of its array is the whole array. -/
theorem rd24 (t : Fin cfg0.N) : (((cfg0.win 24).blk t).view.read (Elt Ideal) (VV (Pipeline.arrRef spec0 24)) : S1x128.Idx → EReal) = VV (Pipeline.arrRef spec0 24) :=
  funext fun y => blk24 (VV (Pipeline.arrRef spec0 24)) t y

/-- The block of window 25 read at any point out of any contents of its array is the whole array. -/
theorem rd25 (t : Fin cfg0.N) : (((cfg0.win 25).blk t).view.read (Elt Ideal) (VV (Pipeline.arrRef spec0 25)) : S128x128.Idx → EReal) = VV (Pipeline.arrRef spec0 25) :=
  funext fun y => blk25 (VV (Pipeline.arrRef spec0 25)) t y

/-- The block of window 26 read at any point out of any contents of its array is the whole array. -/
theorem rd26 (t : Fin cfg0.N) : (((cfg0.win 26).blk t).view.read (Elt Ideal) (VV (Pipeline.arrRef spec0 26)) : S1x128.Idx → EReal) = VV (Pipeline.arrRef spec0 26) :=
  funext fun y => blk26 (VV (Pipeline.arrRef spec0 26)) t y

/-- The block of window 27 read at any point out of any contents of its array is the whole array. -/
theorem rd27 (t : Fin cfg0.N) : (((cfg0.win 27).blk t).view.read (Elt Ideal) (VV (Pipeline.arrRef spec0 27)) : S128x128.Idx → EReal) = VV (Pipeline.arrRef spec0 27) :=
  funext fun y => blk27 (VV (Pipeline.arrRef spec0 27)) t y

/-- The block of window 28 read at any point out of any contents of its array is the whole array. -/
theorem rd28 (t : Fin cfg0.N) : (((cfg0.win 28).blk t).view.read (Elt Ideal) (VV (Pipeline.arrRef spec0 28)) : S1x128.Idx → EReal) = VV (Pipeline.arrRef spec0 28) :=
  funext fun y => blk28 (VV (Pipeline.arrRef spec0 28)) t y

end Cert.KernelIdeal.KIblk

end
-- ==== Proof.KArr.lean ====
/-
  From the blocks the grid points write back to the whole output array.

  Grid point `t` of 125 stages rows `2000 t .. 2000 t + 1999` of the packed input (a 250000 × 128 array), all of every weight
  matrix and bias row, runs the body, and writes its 2000 × 128 result back to the same rows of the output.  The blocks
  tile the output, and the body acts row by row, so row `R` of the output array after the run is the packed network of
  row `R` of the packed input.  The argument is made for arbitrary contents of the staged arrays first, and then read at
  the contents the region finds.
-/
import proofs.«129942_j63720134803801_2_alg».proof.Proof.KernelIdealFrameP
import proofs.«129942_j63720134803801_2_alg».proof.Proof.KPoint
import proofs.«129942_j63720134803801_2_alg».proof.Proof.KBlkA
import proofs.«129942_j63720134803801_2_alg».proof.Proof.KBlkB
import proofs.«129942_j63720134803801_2_alg».proof.Proof.KIblkA
import proofs.«129942_j63720134803801_2_alg».proof.Proof.KIblkB
import Idealize.ShloMosaic.Lib.Pipeline.Value

set_option maxRecDepth 16384

noncomputable section

namespace Cert.KernelIdeal.KArr

open Idealize.ShloMosaic Idealize.ShloMosaic.ValueIdx Idealize.SL.Sem Cert.KernelIdeal Cert.KernelIdeal.Gen Cert.KernelIdeal.GenP Cert.KernelIdeal.KBody Cert.KernelIdeal.KPoint Cert.KernelIdeal.KBlk Cert.KernelIdeal.KIblk Cert.Net
open Idealize.ShloMosaic.Pipeline (Dat Cfg Window)

section Generic

variable (c : Dev nD) (VV : (b : Ref sig .tc) → Buf (Elt Ideal) ((c.tc : Thread nD τ).loc b))

/-- Lane `l` of the packed network of row `R` of the packed input, with the packed weights and biases, all read out of `VV`. -/
def GrowG (R : Fin 250000) (l : Fin 128) : EReal :=
  rowNet (fun k => (VV (Pipeline.arrRef spec0 0)) (ix2 R k)) (matOf (VV (Pipeline.arrRef spec0 1))) (vecOf (VV (Pipeline.arrRef spec0 2))) (matOf (VV (Pipeline.arrRef spec0 3))) (vecOf (VV (Pipeline.arrRef spec0 4))) (matOf (VV (Pipeline.arrRef spec0 5))) (vecOf (VV (Pipeline.arrRef spec0 6))) (matOf (VV (Pipeline.arrRef spec0 7))) (vecOf (VV (Pipeline.arrRef spec0 8))) (matOf (VV (Pipeline.arrRef spec0 9))) (vecOf (VV (Pipeline.arrRef spec0 10))) (matOf (VV (Pipeline.arrRef spec0 11))) (vecOf (VV (Pipeline.arrRef spec0 12))) (matOf (VV (Pipeline.arrRef spec0 13))) (vecOf (VV (Pipeline.arrRef spec0 14))) (matOf (VV (Pipeline.arrRef spec0 15))) (vecOf (VV (Pipeline.arrRef spec0 16))) (matOf (VV (Pipeline.arrRef spec0 17))) (vecOf (VV (Pipeline.arrRef spec0 18))) (matOf (VV (Pipeline.arrRef spec0 19))) (vecOf (VV (Pipeline.arrRef spec0 20))) (matOf (VV (Pipeline.arrRef spec0 21))) (vecOf (VV (Pipeline.arrRef spec0 22))) (matOf (VV (Pipeline.arrRef spec0 23))) (vecOf (VV (Pipeline.arrRef spec0 24))) (matOf (VV (Pipeline.arrRef spec0 25))) (vecOf (VV (Pipeline.arrRef spec0 26))) (matOf (VV (Pipeline.arrRef spec0 27))) (vecOf (VV (Pipeline.arrRef spec0 28))) l

/-- The array whose row `R` is the packed network of row `R` of the packed input. -/
def GG : S250000x128.Idx → EReal := fun i =>
  GrowG c VV (⟨(i 0).val, (i 0).isLt⟩ : Fin 250000) (⟨(i 1).val, (i 1).isLt⟩ : Fin 128)

theorem GG_apply (R : Fin 250000) (l : Fin 128) : GG c VV (ix2 R l) = GrowG c VV R l := rfl

attribute [local irreducible] netV rowNet

set_option maxHeartbeats 2000000 in
/-- What the body leaves at point `t`, from the blocks read out of `VV`, is block `t` of `GG`. -/
theorem key (t : Fin cfg0.N) :
    (cfg0.win 29).cut (grid0.coords t) (out0_29 (((cfg0.win 0).blk t).view.read (Elt Ideal) (VV (Pipeline.arrRef spec0 0))) (((cfg0.win 1).blk t).view.read (Elt Ideal) (VV (Pipeline.arrRef spec0 1))) (((cfg0.win 2).blk t).view.read (Elt Ideal) (VV (Pipeline.arrRef spec0 2))) (((cfg0.win 3).blk t).view.read (Elt Ideal) (VV (Pipeline.arrRef spec0 3))) (((cfg0.win 4).blk t).view.read (Elt Ideal) (VV (Pipeline.arrRef spec0 4))) (((cfg0.win 5).blk t).view.read (Elt Ideal) (VV (Pipeline.arrRef spec0 5))) (((cfg0.win 6).blk t).view.read (Elt Ideal) (VV (Pipeline.arrRef spec0 6))) (((cfg0.win 7).blk t).view.read (Elt Ideal) (VV (Pipeline.arrRef spec0 7))) (((cfg0.win 8).blk t).view.read (Elt Ideal) (VV (Pipeline.arrRef spec0 8))) (((cfg0.win 9).blk t).view.read (Elt Ideal) (VV (Pipeline.arrRef spec0 9))) (((cfg0.win 10).blk t).view.read (Elt Ideal) (VV (Pipeline.arrRef spec0 10))) (((cfg0.win 11).blk t).view.read (Elt Ideal) (VV (Pipeline.arrRef spec0 11))) (((cfg0.win 12).blk t).view.read (Elt Ideal) (VV (Pipeline.arrRef spec0 12))) (((cfg0.win 13).blk t).view.read (Elt Ideal) (VV (Pipeline.arrRef spec0 13))) (((cfg0.win 14).blk t).view.read (Elt Ideal) (VV (Pipeline.arrRef spec0 14))) (((cfg0.win 15).blk t).view.read (Elt Ideal) (VV (Pipeline.arrRef spec0 15))) (((cfg0.win 16).blk t).view.read (Elt Ideal) (VV (Pipeline.arrRef spec0 16))) (((cfg0.win 17).blk t).view.read (Elt Ideal) (VV (Pipeline.arrRef spec0 17))) (((cfg0.win 18).blk t).view.read (Elt Ideal) (VV (Pipeline.arrRef spec0 18))) (((cfg0.win 19).blk t).view.read (Elt Ideal) (VV (Pipeline.arrRef spec0 19))) (((cfg0.win 20).blk t).view.read (Elt Ideal) (VV (Pipeline.arrRef spec0 20))) (((cfg0.win 21).blk t).view.read (Elt Ideal) (VV (Pipeline.arrRef spec0 21))) (((cfg0.win 22).blk t).view.read (Elt Ideal) (VV (Pipeline.arrRef spec0 22))) (((cfg0.win 23).blk t).view.read (Elt Ideal) (VV (Pipeline.arrRef spec0 23))) (((cfg0.win 24).blk t).view.read (Elt Ideal) (VV (Pipeline.arrRef spec0 24))) (((cfg0.win 25).blk t).view.read (Elt Ideal) (VV (Pipeline.arrRef spec0 25))) (((cfg0.win 26).blk t).view.read (Elt Ideal) (VV (Pipeline.arrRef spec0 26))) (((cfg0.win 27).blk t).view.read (Elt Ideal) (VV (Pipeline.arrRef spec0 27))) (((cfg0.win 28).blk t).view.read (Elt Ideal) (VV (Pipeline.arrRef spec0 28))))
      = ((cfg0.win 29).blk t).view.read (Elt Ideal) (GG c VV) := by
  rw [out29_eq]
  funext j
  obtain ⟨g, l, rfl⟩ : ∃ (g : Fin 2000) (l : Fin 128), j = ix2 g l := ⟨j 0, j 1, eq_ix2 j⟩
  have ht := t.isLt
  have hN : cfg0.N = 125 := N_0
  have hx : (cfg0.win 29).xinj (grid0.coords t) (ix2 g l) = ix2 g l := funext fun a => Fin.ext (by
    match a with
    | ⟨0, _⟩ => rfl
    | ⟨1, _⟩ => rfl)
  change netV _ _ _ _ _ _ _ _ _ _ _ _ _ _ _ _ _ _ _ _ _ _ _ _ _ _ _ _ _ ((cfg0.win 29).xinj (grid0.coords t) (ix2 g l)) = GG c VV (((cfg0.win 29).blk t).view.emb (ix2 g l))
  rw [hx, blk29 (GG c VV) t g l, GG_apply]
  exact netV_point _ _ _ _ _ _ _ _ _ _ _ _ _ _ _ _ _ _ _ _ _ _ _ _ _ _ _ _ _ (VV (Pipeline.arrRef spec0 0)) (VV (Pipeline.arrRef spec0 1)) (VV (Pipeline.arrRef spec0 2)) (VV (Pipeline.arrRef spec0 3)) (VV (Pipeline.arrRef spec0 4)) (VV (Pipeline.arrRef spec0 5)) (VV (Pipeline.arrRef spec0 6)) (VV (Pipeline.arrRef spec0 7)) (VV (Pipeline.arrRef spec0 8)) (VV (Pipeline.arrRef spec0 9)) (VV (Pipeline.arrRef spec0 10)) (VV (Pipeline.arrRef spec0 11)) (VV (Pipeline.arrRef spec0 12)) (VV (Pipeline.arrRef spec0 13)) (VV (Pipeline.arrRef spec0 14)) (VV (Pipeline.arrRef spec0 15)) (VV (Pipeline.arrRef spec0 16)) (VV (Pipeline.arrRef spec0 17)) (VV (Pipeline.arrRef spec0 18)) (VV (Pipeline.arrRef spec0 19)) (VV (Pipeline.arrRef spec0 20)) (VV (Pipeline.arrRef spec0 21)) (VV (Pipeline.arrRef spec0 22)) (VV (Pipeline.arrRef spec0 23)) (VV (Pipeline.arrRef spec0 24)) (VV (Pipeline.arrRef spec0 25)) (VV (Pipeline.arrRef spec0 26)) (VV (Pipeline.arrRef spec0 27)) (VV (Pipeline.arrRef spec0 28)) g (⟨2000 * t.val + g.val, by have := g.isLt; omega⟩ : Fin 250000) l
    (fun k => rd0 c VV t g k) (rd1 c VV t) (rd2 c VV t) (rd3 c VV t) (rd4 c VV t) (rd5 c VV t) (rd6 c VV t) (rd7 c VV t) (rd8 c VV t) (rd9 c VV t) (rd10 c VV t) (rd11 c VV t) (rd12 c VV t) (rd13 c VV t) (rd14 c VV t) (rd15 c VV t) (rd16 c VV t) (rd17 c VV t) (rd18 c VV t) (rd19 c VV t) (rd20 c VV t) (rd21 c VV t) (rd22 c VV t) (rd23 c VV t) (rd24 c VV t) (rd25 c VV t) (rd26 c VV t) (rd27 c VV t) (rd28 c VV t)

end Generic

variable (m : (ℓ : Loc nD τ sig) → Buf (Elt Ideal) ℓ) (ρ : Dev nD → PrngReg)

/-- The output array after the run: row `R` is the packed network of row `R` of the packed input as the region finds it. -/
def G (c : Dev nD) : S250000x128.Idx → EReal := GG c (V m c)

/-- What point `t` writes back is block `t` of `G`. -/
theorem flushed_eq (c : Dev nD) (t : Fin cfg0.N) :
    (dats m 0 c).flushed 29 t = ((cfg0.win 29).blk t).view.read (Elt Ideal) (G m c) := by
  show (cfg0.win 29).cut (grid0.coords t) ((dats m 0 c).after 29 t) = _
  rw [after0_29]
  exact key c (V m c) t

/-- An index of the array is in point `t`'s block iff each coordinate is in the block's range on its axis. -/
theorem mem_blk (t : Fin cfg0.N) (i : S250000x128.Idx) :
    i ∈ ((cfg0.win 29).blk t).view.set ↔ ∀ a : Fin 2, win0_29.index t a * S2000x128.size a ≤ (i a).val ∧ (i a).val < win0_29.index t a * S2000x128.size a + S2000x128.size a := by
  show i ∈ ((View.whole main_v282).slice (win0_29.rect t)).set ↔ _
  rw [View.set_slice_whole, Rect.mem_set_unit]
  exact Iff.rfl

/-- The blocks cover the array: row `R` is in the block of point `R / 2000`. -/
theorem cover (i : S250000x128.Idx) : ∃ t : Fin cfg0.N, (cfg0.win 29).flush t = true ∧ i ∈ ((cfg0.win 29).blk t).view.set := by
  have hi0 : (i 0).val < 250000 := (i 0).isLt
  have hi1 : (i 1).val < 128 := (i 1).isLt
  obtain ⟨t, ht⟩ := idx_onto ⟨(i 0).val / 2000, by omega⟩
  have q0 : win0_29.index t (0 : Fin 2) = (i 0).val / 2000 := congrFun ht 0
  have q1 : win0_29.index t (1 : Fin 2) = 0 := congrFun ht 1
  refine ⟨t, flush0_29 t, ?_⟩
  rw [mem_blk]
  intro a
  match a with
  | ⟨0, _⟩ => show win0_29.index t (0 : Fin 2) * 2000 ≤ (i 0).val ∧ (i 0).val < win0_29.index t (0 : Fin 2) * 2000 + 2000; omega
  | ⟨1, _⟩ => show win0_29.index t (1 : Fin 2) * 128 ≤ (i 1).val ∧ (i 1).val < win0_29.index t (1 : Fin 2) * 128 + 128; omega

/-- The output array after the run is `G`. -/
theorem final (c : Dev nD) : (dats m 0 c).arrAt 29 cfg0.N = G m c :=
  (dats m 0 c).arrAt_eq_of_cover 29 (G m c) (fun t _ => flushed_eq m c t) (cover)

end Cert.KernelIdeal.KArr

end
-- ==== Proof.KTail.lean ====
/-
  The host lines after the region: the two logits of every row, then the softmax.

  The output array (250000 × 128) is reshaped to 2000000 × 16 — packed row `R`, lanes `16 p .. 16 p + 15`, becomes row
  `8 R + p` — and its first two columns are the logits; the softmax over the two columns follows.
-/
import proofs.«129942_j63720134803801_2_alg».proof.Proof.KernelIdealFrameP
import proofs.«129942_j63720134803801_2_alg».proof.Proof.KArr
import Idealize.ShloMosaic.Lib.Pipeline.Value
import Idealize.ShloMosaic.Lib.StableHlo.Run

set_option maxRecDepth 16384

noncomputable section

namespace Cert.KernelIdeal.KTail

open Idealize.ShloMosaic Idealize.ShloMosaic.ValueIdx Idealize.ShloMosaic.StableHlo Idealize.SL.Sem Cert.KernelIdeal Cert.KernelIdeal.Gen Cert.KernelIdeal.GenP Cert.KernelIdeal.KArr Cert.Net

variable (m : (ℓ : Loc nD τ sig) → Buf (Elt Ideal) ℓ) (ρ : Dev nD → PrngReg)

/-- The first two columns of the array reshaped to sixteen columns. -/
def logitsK (A : S250000x128.Idx → EReal) : FVec Ideal S2000000x2 .f32 :=
  extractStridedSlice S2000000x2 ![0, 0] (shapeCast S2000000x16 A shapeCasts_S250000x128_S2000000x16) slices_S2000000x16_S2000000x2_0_0

/-- The softmax over the two columns, as the host computes it: subtract the row maximum, exponentiate, divide by the row sum. -/
def softmaxK (L : FVec Ideal S2000000x2 .f32) : FVec Ideal S2000000x2 .f32 :=
  Host.divf
    (Host.exp (subf L (broadcastInDim S2000000x2 ![0, 1] bcast_S2000000x1_S2000000x2_0_1 (broadcastInDim S2000000x1 ![0] bcast_S2000000_S2000000x1_0
      (maximumf (broadcastInDim S2000000 ![] bcast_S_S2000000 (constant S_ .f32 0xFF800000#32)) (Host.reduce FloatOps.maximumf L (constant S_ .f32 0xFF800000#32) reducesTo_S2000000x2_S2000000_d1 h_S_))))))
    (broadcastInDim S2000000x2 ![0, 1] bcast_S2000000x1_S2000000x2_0_1 (broadcastInDim S2000000x1 ![0] bcast_S2000000_S2000000x1_0
      (Host.reduceAdd (Host.exp (subf L (broadcastInDim S2000000x2 ![0, 1] bcast_S2000000x1_S2000000x2_0_1 (broadcastInDim S2000000x1 ![0] bcast_S2000000_S2000000x1_0
        (maximumf (broadcastInDim S2000000 ![] bcast_S_S2000000 (constant S_ .f32 0xFF800000#32)) (Host.reduce FloatOps.maximumf L (constant S_ .f32 0xFF800000#32) reducesTo_S2000000x2_S2000000_d1 h_S_))))))
        (constant S_ .f32 0x00000000#32) reducesTo_S2000000x2_S2000000_d1 h_S_)))

/-- Logit `j` of row `r` sits in packed row `r / 8`, lane `16 (r % 8) + j`. -/
theorem logitsK_apply (A : S250000x128.Idx → EReal) (r : Fin 2000000) (j : Fin 2) :
    logitsK A (ix2 r j) = A (ix2 (⟨r.val / 8, by have := r.isLt; omega⟩ : Fin 250000) (⟨16 * (r.val % 8) + j.val, by have := j.isLt; omega⟩ : Fin 128)) := by
  have hr := r.isLt
  have hj := j.isLt
  unfold logitsK
  rw [extractStridedSlice_apply ![0, 0] _ slices_S2000000x16_S2000000x2_0_0 (ix2 r j) (ix2 r (⟨j.val, by omega⟩ : Fin 16)) (fun a => by
    match a with
    | ⟨0, _⟩ => show r.val = 0 + r.val; omega
    | ⟨1, _⟩ => show j.val = 0 + j.val; omega)]
  refine shapeCast_apply A shapeCasts_S250000x128_S2000000x16 (ix2 r (⟨j.val, by omega⟩ : Fin 16)) (ix2 (⟨r.val / 8, by omega⟩ : Fin 250000) (⟨16 * (r.val % 8) + j.val, by omega⟩ : Fin 128)) ?_
  rw [Shape.rowMajor_val_two, Shape.rowMajor_val_two]
  show r.val / 8 * 128 + (16 * (r.val % 8) + j.val) = r.val * 16 + j.val
  omega

set_option maxHeartbeats 4000000 in
/-- The program's result after the host lines that follow the region, for whatever the output array holds after the region. -/
theorem tail_eq_of (c : Dev nD) (A : S250000x128.Idx → EReal) (hfin : (dats m 0 c).arrAt 29 cfg0.N = A) :
    Pipeline.afterTail₀ cfgs (dats m) 0 (V0 m) [hostOps1] c main_v295 = softmaxK (logitsK A) := by
  unfold Pipeline.afterTail₀
  show StableHlo.after hostOps1 _ (Proc.devRef .tc main_v295) = _
  after_results
  rw [(Pipeline.withArrays_arr spec0 launch0.win.arr_inj c _ _ 29).trans hfin]
  rfl

/-- The program's result: the softmax of the logits read off the array of packed networks. -/
theorem tail_eq (c : Dev nD) :
    Pipeline.afterTail₀ cfgs (dats m) 0 (V0 m) [hostOps1] c main_v295 = softmaxK (logitsK (G m c)) :=
  tail_eq_of m c (G m c) (final m c)

end Cert.KernelIdeal.KTail

end
-- ==== Proof.KRun.lean ====
/-
  The idealized kernel's run, read: every weakly fair execution ends with the result buffer at the softmax of the logits
  read off the output array, and the argument arrays unchanged.
-/
import proofs.«129942_j63720134803801_2_alg».proof.Proof.KernelIdealFrameP
import proofs.«129942_j63720134803801_2_alg».proof.Proof.KTail

set_option maxRecDepth 16384

noncomputable section

namespace Cert.KernelIdeal.KRun

open Idealize.ShloMosaic Idealize.ShloMosaic.ValueIdx Idealize.SL.Sem Cert.KernelIdeal Cert.KernelIdeal.Gen Cert.KernelIdeal.GenP Cert.KernelIdeal.KArr Cert.KernelIdeal.KTail

variable (m : (ℓ : Loc nD τ sig) → Buf (Elt Ideal) ℓ) (ρ : Dev nD → PrngReg)

set_option maxHeartbeats 4000000 in
theorem run : θ_run defs (onTc (τ := τ) (main (F := Ideal))) ⟨m, fun _ => 0, ρ⟩ (fun r => ∀ c : Dev nD,
      r.2.mem ((c.tc : Thread nD τ).loc main_v295) = softmaxK (logitsK (G m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨((h c).2 main_v295 (Pipeline.mem_restRefs_of main_v295 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c),
      ((h c).2 main_arg24 (Pipeline.mem_restRefs_of main_arg24 (by decide) (by decide))).trans (W_main_arg24 m (dats m) c),
      ((h c).2 main_arg25 (Pipeline.mem_restRefs_of main_arg25 (by decide) (by decide))).trans (W_main_arg25 m (dats m) c),
      ((h c).2 main_arg26 (Pipeline.mem_restRefs_of main_arg26 (by decide) (by decide))).trans (W_main_arg26 m (dats m) c),
      ((h c).2 main_arg27 (Pipeline.mem_restRefs_of main_arg27 (by decide) (by decide))).trans (W_main_arg27 m (dats m) c),
      ((h c).2 main_arg28 (Pipeline.mem_restRefs_of main_arg28 (by decide) (by decide))).trans (W_main_arg28 m (dats m) c)⟩) (run_main m ρ)

end Cert.KernelIdeal.KRun

end
-- ==== Proof.KHostV.lean ====
/-
  The buffers as the host lines before the region leave them, as one valuation.
-/
import proofs.«129942_j63720134803801_2_alg».proof.Proof.Gen.KernelIdeal.Launch
import Idealize.ShloMosaic.Lib.StableHlo.Run
import Idealize.ShloMosaic.PureOps.Ideal

noncomputable section

namespace Cert.KernelIdeal.KHost

open Idealize.ShloMosaic Idealize.ShloMosaic.StableHlo Idealize.SL.Sem Cert.KernelIdeal Cert.KernelIdeal.Gen

variable (m : (ℓ : Loc nD τ sig) → Buf (Elt Ideal) ℓ)

/-- Core `c`'s buffers after the host lines before the region. -/
abbrev VH (c : Dev nD) : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]) (fun b => m (c, b))

end Cert.KernelIdeal.KHost

end
-- ==== Proof.KHostW.lean ====
/-
  The host lines before the region, stretch by stretch.

  The host's operations before the region come as 31 stretches run in order.  Running a concatenation of lines is running
  them one after the other, so the buffers at the end are reached through 31 intermediate states, state `n + 1` being
  stretch `n` run from state `n`.  Each operation writes its own result buffer only; listing the result buffers of
  every stretch, a buffer not on the list of stretch `n` holds in state `n + 1` what it held in state `n`, and a buffer on
  none of the lists of stretches `n, …, n + k - 1` holds in state `n + k` what it held in state `n`.  So what one buffer
  holds at the end is computed inside the one stretch that writes it, from the stretches that write its operands.
-/
import proofs.«129942_j63720134803801_2_alg».proof.Proof.KHostV
import Idealize.ShloMosaic.Lib.StableHlo.Run

set_option maxRecDepth 16384

noncomputable section

namespace Cert.KernelIdeal.KHost

open Idealize.ShloMosaic Idealize.ShloMosaic.TcCoe Idealize.ShloMosaic.StableHlo Idealize.SL.Sem Cert.KernelIdeal Cert.KernelIdeal.Gen

variable (m : (ℓ : Loc nD τ sig) → Buf (Elt Ideal) ℓ)

/-- Running a concatenation of two lines is running the first and then the second. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The host's stretches before the region, in order. -/
def stretchList : List (List (HloOp τ sig (Elt Ideal))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- Core `c`'s buffers after the first `n` stretches. -/
def VP (c : Dev nD) (n : Nat) : Valuation τ sig (Elt Ideal) :=
  StableHlo.after (List.flatten (stretchList.take n)) (fun b => m (c, b))

/-- Before any stretch the buffers are as launched. -/
theorem VP_zero (c : Dev nD) : VP m c 0 = fun b => m (c, b) := rfl

/-- After all 31 stretches the buffers are as the region finds them. -/
theorem VH_eq (c : Dev nD) : VH m c = VP m c 31 := rfl

/-- State `n + 1` is stretch `n` run from state `n`. -/
theorem VP_succ (c : Dev nD) (n : Nat) (h : n < 31) :
    VP m c (n + 1) = StableHlo.after (stretchList[n]'h) (VP m c n) := by
  have h' : n < stretchList.length := h
  unfold VP
  rw [List.take_succ_eq_append_getElem h', List.flatten_append, after_append]
  simp only [List.flatten_cons, List.flatten_nil, List.append_nil]
  rfl

/-! State `n + 1` from state `n`, stretch by stretch. -/

theorem VP_step_0 (c : Dev nD) : VP m c 1 = StableHlo.after hostOps0 (VP m c 0) := VP_succ m c 0 (by decide)
theorem VP_step_1 (c : Dev nD) : VP m c 2 = StableHlo.after hostOps0_1 (VP m c 1) := VP_succ m c 1 (by decide)
theorem VP_step_2 (c : Dev nD) : VP m c 3 = StableHlo.after hostOps0_2 (VP m c 2) := VP_succ m c 2 (by decide)
theorem VP_step_3 (c : Dev nD) : VP m c 4 = StableHlo.after hostOps0_3 (VP m c 3) := VP_succ m c 3 (by decide)
theorem VP_step_4 (c : Dev nD) : VP m c 5 = StableHlo.after hostOps0_4 (VP m c 4) := VP_succ m c 4 (by decide)
theorem VP_step_5 (c : Dev nD) : VP m c 6 = StableHlo.after hostOps0_5 (VP m c 5) := VP_succ m c 5 (by decide)
theorem VP_step_6 (c : Dev nD) : VP m c 7 = StableHlo.after hostOps0_6 (VP m c 6) := VP_succ m c 6 (by decide)
theorem VP_step_7 (c : Dev nD) : VP m c 8 = StableHlo.after hostOps0_7 (VP m c 7) := VP_succ m c 7 (by decide)
theorem VP_step_8 (c : Dev nD) : VP m c 9 = StableHlo.after hostOps0_8 (VP m c 8) := VP_succ m c 8 (by decide)
theorem VP_step_9 (c : Dev nD) : VP m c 10 = StableHlo.after hostOps0_9 (VP m c 9) := VP_succ m c 9 (by decide)
theorem VP_step_10 (c : Dev nD) : VP m c 11 = StableHlo.after hostOps0_10 (VP m c 10) := VP_succ m c 10 (by decide)
theorem VP_step_11 (c : Dev nD) : VP m c 12 = StableHlo.after hostOps0_11 (VP m c 11) := VP_succ m c 11 (by decide)
theorem VP_step_12 (c : Dev nD) : VP m c 13 = StableHlo.after hostOps0_12 (VP m c 12) := VP_succ m c 12 (by decide)
theorem VP_step_13 (c : Dev nD) : VP m c 14 = StableHlo.after hostOps0_13 (VP m c 13) := VP_succ m c 13 (by decide)
theorem VP_step_14 (c : Dev nD) : VP m c 15 = StableHlo.after hostOps0_14 (VP m c 14) := VP_succ m c 14 (by decide)
theorem VP_step_15 (c : Dev nD) : VP m c 16 = StableHlo.after hostOps0_15 (VP m c 15) := VP_succ m c 15 (by decide)
theorem VP_step_16 (c : Dev nD) : VP m c 17 = StableHlo.after hostOps0_16 (VP m c 16) := VP_succ m c 16 (by decide)
theorem VP_step_17 (c : Dev nD) : VP m c 18 = StableHlo.after hostOps0_17 (VP m c 17) := VP_succ m c 17 (by decide)
theorem VP_step_18 (c : Dev nD) : VP m c 19 = StableHlo.after hostOps0_18 (VP m c 18) := VP_succ m c 18 (by decide)
theorem VP_step_19 (c : Dev nD) : VP m c 20 = StableHlo.after hostOps0_19 (VP m c 19) := VP_succ m c 19 (by decide)
theorem VP_step_20 (c : Dev nD) : VP m c 21 = StableHlo.after hostOps0_20 (VP m c 20) := VP_succ m c 20 (by decide)
theorem VP_step_21 (c : Dev nD) : VP m c 22 = StableHlo.after hostOps0_21 (VP m c 21) := VP_succ m c 21 (by decide)
theorem VP_step_22 (c : Dev nD) : VP m c 23 = StableHlo.after hostOps0_22 (VP m c 22) := VP_succ m c 22 (by decide)
theorem VP_step_23 (c : Dev nD) : VP m c 24 = StableHlo.after hostOps0_23 (VP m c 23) := VP_succ m c 23 (by decide)
theorem VP_step_24 (c : Dev nD) : VP m c 25 = StableHlo.after hostOps0_24 (VP m c 24) := VP_succ m c 24 (by decide)
theorem VP_step_25 (c : Dev nD) : VP m c 26 = StableHlo.after hostOps0_25 (VP m c 25) := VP_succ m c 25 (by decide)
theorem VP_step_26 (c : Dev nD) : VP m c 27 = StableHlo.after hostOps0_26 (VP m c 26) := VP_succ m c 26 (by decide)
theorem VP_step_27 (c : Dev nD) : VP m c 28 = StableHlo.after hostOps0_27 (VP m c 27) := VP_succ m c 27 (by decide)
theorem VP_step_28 (c : Dev nD) : VP m c 29 = StableHlo.after hostOps0_28 (VP m c 28) := VP_succ m c 28 (by decide)
theorem VP_step_29 (c : Dev nD) : VP m c 30 = StableHlo.after hostOps0_29 (VP m c 29) := VP_succ m c 29 (by decide)
theorem VP_step_30 (c : Dev nD) : VP m c 31 = StableHlo.after hostOps0_30 (VP m c 30) := VP_succ m c 30 (by decide)

/-- The buffers stretch `n` writes: the result buffer of each of its operations, in order. -/
def Wr : Nat → List (Ref sig .tc)
  | 0 => [main_c]
  | 1 => [main_call0_v0, main_v0]
  | 2 => [main_v1, main_cst, main_v2, main_v3, main_c_0, main_v4, main_c_1, main_v5, main_v6, main_v7, main_v8, main_v9, main_c_2, main_v10, main_v11, main_v12, main_v13]
  | 3 => [main_call1_v0, main_call1_v1, main_call1_v2, main_call1_v3, main_call1_v4, main_v14]
  | 4 => [main_cst_3, main_v15, main_c_4, main_v16, main_v17, main_v18, main_v19, main_v20, main_v21, main_cst_5, main_v22, main_v23, main_c_6, main_v24, main_c_7, main_v25, main_v26, main_v27, main_v28, main_v29, main_c_8, main_v30, main_v31, main_v32, main_v33]
  | 5 => [main_call2_v0, main_call2_v1, main_call2_v2, main_call2_v3, main_call2_v4, main_v34]
  | 6 => [main_cst_9, main_v35, main_c_10, main_v36, main_v37, main_v38, main_v39, main_v40, main_v41, main_cst_11, main_v42, main_v43, main_c_12, main_v44, main_c_13, main_v45, main_v46, main_v47, main_v48, main_v49, main_c_14, main_v50, main_v51, main_v52, main_v53]
  | 7 => [main_call3_v0, main_call3_v1, main_call3_v2, main_call3_v3, main_call3_v4, main_v54]
  | 8 => [main_cst_15, main_v55, main_c_16, main_v56, main_v57, main_v58, main_v59, main_v60, main_v61, main_cst_17, main_v62, main_v63, main_c_18, main_v64, main_c_19, main_v65, main_v66, main_v67, main_v68, main_v69, main_c_20, main_v70, main_v71, main_v72, main_v73]
  | 9 => [main_call4_v0, main_call4_v1, main_call4_v2, main_call4_v3, main_call4_v4, main_v74]
  | 10 => [main_cst_21, main_v75, main_c_22, main_v76, main_v77, main_v78, main_v79, main_v80, main_v81, main_cst_23, main_v82, main_v83, main_c_24, main_v84, main_c_25, main_v85, main_v86, main_v87, main_v88, main_v89, main_c_26, main_v90, main_v91, main_v92, main_v93]
  | 11 => [main_call5_v0, main_call5_v1, main_call5_v2, main_call5_v3, main_call5_v4, main_v94]
  | 12 => [main_cst_27, main_v95, main_c_28, main_v96, main_v97, main_v98, main_v99, main_v100, main_v101, main_cst_29, main_v102, main_v103, main_c_30, main_v104, main_c_31, main_v105, main_v106, main_v107, main_v108, main_v109, main_c_32, main_v110, main_v111, main_v112, main_v113]
  | 13 => [main_call6_v0, main_call6_v1, main_call6_v2, main_call6_v3, main_call6_v4, main_v114]
  | 14 => [main_cst_33, main_v115, main_c_34, main_v116, main_v117, main_v118, main_v119, main_v120, main_v121, main_cst_35, main_v122, main_v123, main_c_36, main_v124, main_c_37, main_v125, main_v126, main_v127, main_v128, main_v129, main_c_38, main_v130, main_v131, main_v132, main_v133]
  | 15 => [main_call7_v0, main_call7_v1, main_call7_v2, main_call7_v3, main_call7_v4, main_v134]
  | 16 => [main_cst_39, main_v135, main_c_40, main_v136, main_v137, main_v138, main_v139, main_v140, main_v141, main_cst_41, main_v142, main_v143, main_c_42, main_v144, main_c_43, main_v145, main_v146, main_v147, main_v148, main_v149, main_c_44, main_v150, main_v151, main_v152, main_v153]
  | 17 => [main_call8_v0, main_call8_v1, main_call8_v2, main_call8_v3, main_call8_v4, main_v154]
  | 18 => [main_cst_45, main_v155, main_c_46, main_v156, main_v157, main_v158, main_v159, main_v160, main_v161, main_cst_47, main_v162, main_v163, main_c_48, main_v164, main_c_49, main_v165, main_v166, main_v167, main_v168, main_v169, main_c_50, main_v170, main_v171, main_v172, main_v173]
  | 19 => [main_call9_v0, main_call9_v1, main_call9_v2, main_call9_v3, main_call9_v4, main_v174]
  | 20 => [main_cst_51, main_v175, main_c_52, main_v176, main_v177, main_v178, main_v179, main_v180, main_v181, main_cst_53, main_v182, main_v183, main_c_54, main_v184, main_c_55, main_v185, main_v186, main_v187, main_v188, main_v189, main_c_56, main_v190, main_v191, main_v192, main_v193]
  | 21 => [main_call10_v0, main_call10_v1, main_call10_v2, main_call10_v3, main_call10_v4, main_v194]
  | 22 => [main_cst_57, main_v195, main_c_58, main_v196, main_v197, main_v198, main_v199, main_v200, main_v201, main_cst_59, main_v202, main_v203, main_c_60, main_v204, main_c_61, main_v205, main_v206, main_v207, main_v208, main_v209, main_c_62, main_v210, main_v211, main_v212, main_v213]
  | 23 => [main_call11_v0, main_call11_v1, main_call11_v2, main_call11_v3, main_call11_v4, main_v214]
  | 24 => [main_cst_63, main_v215, main_c_64, main_v216, main_v217, main_v218, main_v219, main_v220, main_v221, main_cst_65, main_v222, main_v223, main_c_66, main_v224, main_c_67, main_v225, main_v226, main_v227, main_v228, main_v229, main_c_68, main_v230, main_v231, main_v232, main_v233]
  | 25 => [main_call12_v0, main_call12_v1, main_call12_v2, main_call12_v3, main_call12_v4, main_v234]
  | 26 => [main_cst_69, main_v235, main_c_70, main_v236, main_v237, main_v238, main_v239, main_v240, main_v241, main_cst_71, main_v242, main_v243, main_c_72, main_v244, main_c_73, main_v245, main_v246, main_v247, main_v248, main_v249, main_c_74, main_v250, main_v251, main_v252, main_v253]
  | 27 => [main_call13_v0, main_call13_v1, main_call13_v2, main_call13_v3, main_call13_v4, main_v254]
  | 28 => [main_cst_75, main_v255, main_c_76, main_v256, main_v257, main_v258, main_v259, main_v260, main_v261, main_cst_77, main_v262, main_v263, main_c_78, main_v264, main_c_79, main_v265, main_v266, main_v267, main_v268, main_v269, main_c_80, main_v270, main_v271, main_v272, main_v273]
  | 29 => [main_call14_v0, main_call14_v1, main_call14_v2, main_call14_v3, main_call14_v4, main_v274]
  | 30 => [main_cst_81, main_v275, main_c_82, main_v276, main_v277, main_v278, main_v279, main_v280, main_v281]
  | _ => []

theorem writes_0 : (hostOps0 : List (HloOp τ sig (Elt Ideal))).Forall fun op => op.writes ⊆ ((Wr 0).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
theorem writes_1 : (hostOps0_1 : List (HloOp τ sig (Elt Ideal))).Forall fun op => op.writes ⊆ ((Wr 1).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_⟩ <;> exact List.mem_map_of_mem (by decide)
theorem writes_2 : (hostOps0_2 : List (HloOp τ sig (Elt Ideal))).Forall fun op => op.writes ⊆ ((Wr 2).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_⟩ <;> exact List.mem_map_of_mem (by decide)
theorem writes_3 : (hostOps0_3 : List (HloOp τ sig (Elt Ideal))).Forall fun op => op.writes ⊆ ((Wr 3).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_4 : (hostOps0_4 : List (HloOp τ sig (Elt Ideal))).Forall fun op => op.writes ⊆ ((Wr 4).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_5 : (hostOps0_5 : List (HloOp τ sig (Elt Ideal))).Forall fun op => op.writes ⊆ ((Wr 5).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_6 : (hostOps0_6 : List (HloOp τ sig (Elt Ideal))).Forall fun op => op.writes ⊆ ((Wr 6).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_7 : (hostOps0_7 : List (HloOp τ sig (Elt Ideal))).Forall fun op => op.writes ⊆ ((Wr 7).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_8 : (hostOps0_8 : List (HloOp τ sig (Elt Ideal))).Forall fun op => op.writes ⊆ ((Wr 8).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_9 : (hostOps0_9 : List (HloOp τ sig (Elt Ideal))).Forall fun op => op.writes ⊆ ((Wr 9).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_10 : (hostOps0_10 : List (HloOp τ sig (Elt Ideal))).Forall fun op => op.writes ⊆ ((Wr 10).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_11 : (hostOps0_11 : List (HloOp τ sig (Elt Ideal))).Forall fun op => op.writes ⊆ ((Wr 11).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_12 : (hostOps0_12 : List (HloOp τ sig (Elt Ideal))).Forall fun op => op.writes ⊆ ((Wr 12).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_13 : (hostOps0_13 : List (HloOp τ sig (Elt Ideal))).Forall fun op => op.writes ⊆ ((Wr 13).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_14 : (hostOps0_14 : List (HloOp τ sig (Elt Ideal))).Forall fun op => op.writes ⊆ ((Wr 14).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_15 : (hostOps0_15 : List (HloOp τ sig (Elt Ideal))).Forall fun op => op.writes ⊆ ((Wr 15).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_16 : (hostOps0_16 : List (HloOp τ sig (Elt Ideal))).Forall fun op => op.writes ⊆ ((Wr 16).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_17 : (hostOps0_17 : List (HloOp τ sig (Elt Ideal))).Forall fun op => op.writes ⊆ ((Wr 17).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_18 : (hostOps0_18 : List (HloOp τ sig (Elt Ideal))).Forall fun op => op.writes ⊆ ((Wr 18).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_19 : (hostOps0_19 : List (HloOp τ sig (Elt Ideal))).Forall fun op => op.writes ⊆ ((Wr 19).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_20 : (hostOps0_20 : List (HloOp τ sig (Elt Ideal))).Forall fun op => op.writes ⊆ ((Wr 20).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_21 : (hostOps0_21 : List (HloOp τ sig (Elt Ideal))).Forall fun op => op.writes ⊆ ((Wr 21).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_22 : (hostOps0_22 : List (HloOp τ sig (Elt Ideal))).Forall fun op => op.writes ⊆ ((Wr 22).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_23 : (hostOps0_23 : List (HloOp τ sig (Elt Ideal))).Forall fun op => op.writes ⊆ ((Wr 23).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_24 : (hostOps0_24 : List (HloOp τ sig (Elt Ideal))).Forall fun op => op.writes ⊆ ((Wr 24).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_25 : (hostOps0_25 : List (HloOp τ sig (Elt Ideal))).Forall fun op => op.writes ⊆ ((Wr 25).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_26 : (hostOps0_26 : List (HloOp τ sig (Elt Ideal))).Forall fun op => op.writes ⊆ ((Wr 26).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_27 : (hostOps0_27 : List (HloOp τ sig (Elt Ideal))).Forall fun op => op.writes ⊆ ((Wr 27).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_28 : (hostOps0_28 : List (HloOp τ sig (Elt Ideal))).Forall fun op => op.writes ⊆ ((Wr 28).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩ <;> exact List.mem_map_of_mem (by decide)
theorem writes_29 : (hostOps0_29 : List (HloOp τ sig (Elt Ideal))).Forall fun op => op.writes ⊆ ((Wr 29).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_⟩ <;> exact List.mem_map_of_mem (by decide)
theorem writes_30 : (hostOps0_30 : List (HloOp τ sig (Elt Ideal))).Forall fun op => op.writes ⊆ ((Wr 30).map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  refine ⟨?_, ?_, ?_, ?_, ?_, ?_, ?_, ?_, ?_⟩ <;> exact List.mem_map_of_mem (by decide)

/-- Every operation of stretch `n` writes a buffer on stretch `n`'s list. -/
theorem stretch_writes : ∀ (n : Nat) (h : n < 31),
    (stretchList[n]'h).Forall fun op => op.writes ⊆ ((Wr n).map (Proc.devRef (τ := τ) .tc)).toFinset
  | 0, _ => writes_0
  | 1, _ => writes_1
  | 2, _ => writes_2
  | 3, _ => writes_3
  | 4, _ => writes_4
  | 5, _ => writes_5
  | 6, _ => writes_6
  | 7, _ => writes_7
  | 8, _ => writes_8
  | 9, _ => writes_9
  | 10, _ => writes_10
  | 11, _ => writes_11
  | 12, _ => writes_12
  | 13, _ => writes_13
  | 14, _ => writes_14
  | 15, _ => writes_15
  | 16, _ => writes_16
  | 17, _ => writes_17
  | 18, _ => writes_18
  | 19, _ => writes_19
  | 20, _ => writes_20
  | 21, _ => writes_21
  | 22, _ => writes_22
  | 23, _ => writes_23
  | 24, _ => writes_24
  | 25, _ => writes_25
  | 26, _ => writes_26
  | 27, _ => writes_27
  | 28, _ => writes_28
  | 29, _ => writes_29
  | 30, _ => writes_30
  | n + 31, h => absurd h (by omega)

/-- A buffer stretch `n` does not write holds after it what it held before. -/
theorem VP_keep (c : Dev nD) (n : Nat) (h : n < 31) (r : Ref sig .tc) (hr : r ∉ Wr n) :
    VP m c (n + 1) (Proc.devRef .tc r) = VP m c n (Proc.devRef .tc r) := by
  rw [VP_succ m c n h]
  exact StableHlo.after_of_writes_sub _ _ (stretch_writes n h) hr

/-- A buffer none of the stretches `n, …, n + k - 1` writes holds after them what it held before. -/
theorem VP_skip_of (c : Dev nD) (r : Ref sig .tc) (n : Nat) : ∀ k : Nat, n + k ≤ 31 →
    (∀ i, n ≤ i → i < n + k → r ∉ Wr i) → VP m c (n + k) (Proc.devRef .tc r) = VP m c n (Proc.devRef .tc r)
  | 0, _, _ => rfl
  | k + 1, hk, hr =>
    (VP_keep m c (n + k) (by omega) r (hr _ (by omega) (by omega))).trans
      (VP_skip_of c r n k (by omega) fun i h1 h2 => hr i h1 (by omega))

/-- The same, the stretches' lists checked one by one. -/
theorem VP_skip (c : Dev nD) (r : Ref sig .tc) (n k : Nat) (hk : n + k ≤ 31)
    (hr : ∀ i ∈ List.range' n k, r ∉ Wr i) : VP m c (n + k) (Proc.devRef .tc r) = VP m c n (Proc.devRef .tc r) :=
  VP_skip_of m c r n k hk fun i h1 h2 => hr i (List.mem_range'_1.2 ⟨h1, h2⟩)

/-- A buffer no stretch writes holds in every state what it held at launch. -/
theorem VP_launch (c : Dev nD) (r : Ref sig .tc) (k : Nat) (hk : k ≤ 31)
    (hr : ∀ i ∈ List.range' 0 k, r ∉ Wr i) : VP m c k (Proc.devRef .tc r) = m ((c : Thread nD τ).loc r) := by
  have h := VP_skip m c r 0 k (by omega) hr
  rw [Nat.zero_add] at h
  exact h.trans rfl

end Cert.KernelIdeal.KHost

end
-- ==== Proof.KHostT.lean ====
/-
  A finishing step for reading one buffer after a stretch of host operations: the reads that sit inside a list of shaped
  pieces (the operands of a concatenation) are rewritten one at a time, each operation's result at its own buffer to its
  value and at any other buffer to what was there before.
-/
import Idealize.ShloMosaic.Lib.StableHlo.Run

namespace Cert.KernelIdeal.KHost

/-- Rewrites the remaining reads of operations' results, one at a time, until none is left. -/
macro "results_rest" : tactic =>
  `(tactic| repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

end Cert.KernelIdeal.KHost
-- ==== Proof.PackRead.lean ====
import proofs.«129942_j63720134803801_2_alg».proof.KernelIdeal
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost

noncomputable section

/-! # The packed operands read at an index

The host packs 8 rows of 16 lanes into one row of 128 lanes. Three arrays it builds are read here entry by entry:
the block-diagonal weight kron(I₈, A) of a 16 by 16 block A, the bias row that repeats a 16-vector 8 times, and the
input whose rows of 12 are padded to 16 lanes and regrouped 8 to a row. Each array is written as the composition of
the shape operations that build it; a shape cast is read through the row-major position of the index, a broadcast
through the coordinates it keeps, and a pad inside the operand through the operand itself. -/

namespace Cert.KernelIdeal.PackRead

open Idealize.ShloMosaic Idealize.ShloMosaic.ValueIdx Cert.KernelIdeal
open Cert.KernelIdeal.Facts₀ Cert.KernelIdeal.Facts

variable [Cert.KernelIdeal.Facts]

section Kron

/-- The 8 by 8 identity matrix as the host builds it: the comparison of the row coordinate (plus zero) with the column
    coordinate, converted to a float. -/
def eye8 : FVec Ideal S8x8 .f32 :=
  uitofp .f32 (cmpi .eq (addi (iotaInDim S8x8 32 0) (broadcastInDim S8x8 ![] bcast_S_S8x8 (constantI S_ 32 0#32)))
    (iotaInDim S8x8 32 1))

/-- The Kronecker product of an 8 by 8 matrix E with a 16 by 16 matrix A as the host builds it: both broadcast to the
    four-axis array (a, b, c, d) ↦ E(a, c) · A(b, d), flattened row-major to 128 by 128. -/
def kron8 (E : FVec Ideal S8x8 .f32) (A : FVec Ideal S16x16 .f32) : FVec Ideal S128x128 .f32 :=
  shapeCast S128x128
    (mulf
      (broadcastInDim S8x16x8x16 ![0, 1, 2, 3] bcast_S8x1x8x1_S8x16x8x16_0_1_2_3
        (broadcastInDim S8x1x8x1 ![0, 2] bcast_S8x8_S8x1x8x1_0_2 E))
      (broadcastInDim S8x16x8x16 ![0, 1, 2, 3] bcast_S1x16x1x16_S8x16x8x16_0_1_2_3
        (broadcastInDim S1x16x1x16 ![1, 3] bcast_S16x16_S1x16x1x16_1_3 A)))
    shapeCasts_S8x16x8x16_S128x128

/-- Entry (k, l) of the Kronecker product: with k = 16 a + b and l = 16 c + d it is E(a, c) · A(b, d). -/
theorem kron8_apply (E : FVec Ideal S8x8 .f32) (A : FVec Ideal S16x16 .f32) (k l : Fin 128) :
    kron8 E A (ix2 k l)
      = E (ix2 (⟨k.val / 16, by omega⟩ : Fin 8) (⟨l.val / 16, by omega⟩ : Fin 8))
        * A (ix2 (⟨k.val % 16, by omega⟩ : Fin 16) (⟨l.val % 16, by omega⟩ : Fin 16)) := by
  unfold kron8
  refine (shapeCast_apply _ shapeCasts_S8x16x8x16_S128x128 (ix2 k l)
    (ix4 (⟨k.val / 16, by omega⟩ : Fin 8) (⟨k.val % 16, by omega⟩ : Fin 16)
      (⟨l.val / 16, by omega⟩ : Fin 8) (⟨l.val % 16, by omega⟩ : Fin 16)) ?_).trans ?_
  · rw [Shape.rowMajor_val_four, Shape.rowMajor_val_two]
    show ((k.val / 16 * 16 + k.val % 16) * 8 + l.val / 16) * 16 + l.val % 16 = k.val * 128 + l.val
    omega
  · rw [mulf_apply]
    congr 1
    · refine (broadcastInDim_apply _ bcast_S8x1x8x1_S8x16x8x16_0_1_2_3 _ _
        (ix4 (⟨k.val / 16, by omega⟩ : Fin 8) (0 : Fin 1) (⟨l.val / 16, by omega⟩ : Fin 8) (0 : Fin 1))
        fun a => match a with | ⟨0, _⟩ => rfl | ⟨1, _⟩ => rfl | ⟨2, _⟩ => rfl | ⟨3, _⟩ => rfl).trans ?_
      exact broadcastInDim_apply _ bcast_S8x8_S8x1x8x1_0_2 _ _ _
        fun a => match a with | ⟨0, _⟩ => rfl | ⟨1, _⟩ => rfl
    · refine (broadcastInDim_apply _ bcast_S1x16x1x16_S8x16x8x16_0_1_2_3 _ _
        (ix4 (0 : Fin 1) (⟨k.val % 16, by omega⟩ : Fin 16) (0 : Fin 1) (⟨l.val % 16, by omega⟩ : Fin 16))
        fun a => match a with | ⟨0, _⟩ => rfl | ⟨1, _⟩ => rfl | ⟨2, _⟩ => rfl | ⟨3, _⟩ => rfl).trans ?_
      exact broadcastInDim_apply _ bcast_S16x16_S1x16x1x16_1_3 _ _ _
        fun a => match a with | ⟨0, _⟩ => rfl | ⟨1, _⟩ => rfl

end Kron

section Eye

/-- The word the host's comparison leaves at (a, c): one when the coordinates agree, zero otherwise. -/
theorem eye_word (a c : Fin 8) :
    IntOp.cmpi .eq (IntOp.addi (BitVec.ofNat 32 a.val) 0#32) (BitVec.ofNat 32 c.val) = if a = c then 1#1 else 0#1 := by
  revert a c; decide

/-- The host's 8 by 8 identity at (a, c) is one on the diagonal and zero off it. -/
theorem eye8_apply (a c : Fin 8) : eye8 (ix2 a c) = if a = c then 1 else 0 := by
  show FloatOps.uitofp (F := Ideal) .f32 (IntOp.cmpi .eq (IntOp.addi (BitVec.ofNat 32 a.val) 0#32) (BitVec.ofNat 32 c.val)) = _
  rw [eye_word]
  by_cases h : a = c
  · rw [if_pos h, if_pos h]
    show (((1#1 : BitVec 1).toNat : ℝ) : EReal) = 1
    simp
  · rw [if_neg h, if_neg h]
    show (((0#1 : BitVec 1).toNat : ℝ) : EReal) = 0
    simp

end Eye

section KronEye

/-- Entry (k, l) of the block-diagonal matrix kron(I₈, A): with k = 16 a + b and l = 16 c + d it is A(b, d) when the
    blocks agree (a = c) and zero otherwise. -/
theorem kron8_eye8_apply (A : FVec Ideal S16x16 .f32) (k l : Fin 128) :
    kron8 eye8 A (ix2 k l)
      = if k.val / 16 = l.val / 16 then
          A (ix2 (⟨k.val % 16, Nat.mod_lt _ (by decide)⟩ : Fin 16) (⟨l.val % 16, Nat.mod_lt _ (by decide)⟩ : Fin 16))
        else 0 := by
  rw [kron8_apply, eye8_apply]
  by_cases h : k.val / 16 = l.val / 16
  · rw [if_pos h, if_pos (Fin.ext h), one_mul]
  · rw [if_neg h, if_neg (fun e => h (congrArg Fin.val e)), zero_mul]

end KronEye

section Tile

/-- A 16-vector repeated 8 times along a row of 128 lanes as the host builds it: the vector as a one-row matrix,
    that row broadcast to 8 rows, the 8 by 16 matrix flattened row-major, and the flat vector as a one-row matrix. -/
def tile8 (v : FVec Ideal S16 .f32) : FVec Ideal S1x128 .f32 :=
  shapeCast S1x128
    (shapeCast S128
      (broadcastInDim S8x16 ![0, 1] bcast_S1x16_S8x16_0_1 (shapeCast S1x16 v shapeCasts_S16_S1x16))
      shapeCasts_S8x16_S128)
    shapeCasts_S128_S1x128

/-- Lane l of the tiled row is entry l mod 16 of the vector. -/
theorem tile8_apply (v : FVec Ideal S16 .f32) (l : Fin 128) :
    tile8 v (ix2 (0 : Fin 1) l) = v (ix1 (⟨l.val % 16, Nat.mod_lt _ (by decide)⟩ : Fin 16)) := by
  unfold tile8
  refine (shapeCast_apply _ shapeCasts_S128_S1x128 (ix2 (0 : Fin 1) l) (ix1 l) ?_).trans ?_
  · rw [Shape.rowMajor_val_one, Shape.rowMajor_val_two]
    show l.val = 0 * 128 + l.val
    omega
  refine (shapeCast_apply _ shapeCasts_S8x16_S128 (ix1 l)
    (ix2 (⟨l.val / 16, by omega⟩ : Fin 8) (⟨l.val % 16, Nat.mod_lt _ (by decide)⟩ : Fin 16)) ?_).trans ?_
  · rw [Shape.rowMajor_val_two, Shape.rowMajor_val_one]
    show l.val / 16 * 16 + l.val % 16 = l.val
    omega
  refine (broadcastInDim_apply _ bcast_S1x16_S8x16_0_1 _ _
    (ix2 (0 : Fin 1) (⟨l.val % 16, Nat.mod_lt _ (by decide)⟩ : Fin 16))
    fun a => match a with | ⟨0, _⟩ => rfl | ⟨1, _⟩ => rfl).trans ?_
  refine shapeCast_apply _ shapeCasts_S16_S1x16 _ (ix1 (⟨l.val % 16, Nat.mod_lt _ (by decide)⟩ : Fin 16)) ?_
  rw [Shape.rowMajor_val_one, Shape.rowMajor_val_two]
  show l.val % 16 = 0 * 16 + l.val % 16
  omega

end Tile

section Pack

/-- The packed input as the host builds it: each row of 12 padded on the right to 16 lanes with the pad value, and
    the 2000000 by 16 matrix regrouped row-major as 250000 rows of 128 lanes (8 padded rows to a row). -/
def packX (x : FVec Ideal S2000000x12 .f32) (z : FVec Ideal S_ .f32) : FVec Ideal S250000x128 .f32 :=
  shapeCast S250000x128
    (pad S2000000x16 ![0, 0] ![0, 4] ![0, 0] x z pads_S2000000x12_S2000000x16_000_040 h_S_)
    shapeCasts_S2000000x16_S250000x128

/-- Lane 16 p + q (q < 12) of packed row g is entry q of input row 8 g + p. -/
theorem packX_apply (x : FVec Ideal S2000000x12 .f32) (z : FVec Ideal S_ .f32)
    (g : Fin 250000) (p8 : Fin 8) (q : Fin 12) :
    packX x z (ix2 g (⟨16 * p8.val + q.val, by omega⟩ : Fin 128))
      = x (ix2 (⟨8 * g.val + p8.val, by omega⟩ : Fin 2000000) q) := by
  unfold packX
  refine (shapeCast_apply _ shapeCasts_S2000000x16_S250000x128 _
    (ix2 (⟨8 * g.val + p8.val, by omega⟩ : Fin 2000000) (⟨q.val, by omega⟩ : Fin 16)) ?_).trans ?_
  · rw [Shape.rowMajor_val_two, Shape.rowMajor_val_two]
    show (8 * g.val + p8.val) * 16 + q.val = g.val * 128 + (16 * p8.val + q.val)
    omega
  exact pad_apply_of_inside _ _ _ x z pads_S2000000x12_S2000000x16_000_040 h_S_ _
    (ix2 (⟨8 * g.val + p8.val, by omega⟩ : Fin 2000000) q)
    fun a => match a with
      | ⟨0, _⟩ => by show 8 * g.val + p8.val = 0 + (8 * g.val + p8.val) * (0 + 1); omega
      | ⟨1, _⟩ => by show q.val = 0 + q.val * (0 + 1); omega

end Pack

end Cert.KernelIdeal.PackRead
-- ==== Proof.KHostDefs.lean ====
/-
  The constants the host's packing lines start from: zero blocks and zero scatter indices.
-/
import proofs.«129942_j63720134803801_2_alg».proof.KernelIdeal
import Idealize.ShloMosaic.Lib.ValueIdx

noncomputable section

namespace Cert.KernelIdeal.KHost

open Idealize.ShloMosaic Idealize.ShloMosaic.ValueIdx Cert.KernelIdeal
open Cert.KernelIdeal.Facts₀ Cert.KernelIdeal.Facts

variable [Cert.KernelIdeal.Facts]

/-- The zero 16 × 16 block. -/
def zeros16x16 : FVec Ideal S16x16 .f32 := broadcastInDim S16x16 ![] bcast_S_S16x16 (constant S_ .f32 0x00000000#32)
/-- The zero 16-vector. -/
def zeros16 : FVec Ideal S16 .f32 := broadcastInDim S16 ![] bcast_S_S16 (constant S_ .f32 0x00000000#32)
/-- One scatter index, zero. -/
def idx0 : IVec S1 32 := broadcastInDim S1 ![] bcast_S_S1 (constantI S_ 32 0#32)
/-- The two scatter indices, both zero. -/
def idx00 : IVec S2 32 := concatenate S2 0 [⟨S1, idx0⟩, ⟨S1, idx0⟩] concatenates_S1_S1_S2_d0

end Cert.KernelIdeal.KHost

end
-- ==== Proof.KHostA.lean ====
/-
  What the host lines before the region leave in the buffers the region stages (part A): the input padded to sixteen columns
  and reshaped eight rows to a packed row; per layer the transposed weights written into the top-left corner of a zero
  16 × 16 block and repeated along the diagonal of a 128 × 128 matrix (the Kronecker product with the 8 × 8 identity), and
  the bias written into the head of a zero 16-vector and tiled eight times.
-/
import proofs.«129942_j63720134803801_2_alg».proof.Proof.KHostW
import proofs.«129942_j63720134803801_2_alg».proof.Proof.KHostT
import proofs.«129942_j63720134803801_2_alg».proof.Proof.PackRead
import proofs.«129942_j63720134803801_2_alg».proof.Proof.KHostDefs
import Idealize.ShloMosaic.Lib.StableHlo.Run

set_option maxRecDepth 16384

noncomputable section

namespace Cert.KernelIdeal.KHost

open Idealize.ShloMosaic Idealize.ShloMosaic.TcCoe Idealize.ShloMosaic.ValueIdx Idealize.ShloMosaic.StableHlo Idealize.SL.Sem Cert.KernelIdeal Cert.KernelIdeal.Gen Cert.KernelIdeal.PackRead

variable (m : (ℓ : Loc nD τ sig) → Buf (Elt Ideal) ℓ)

set_option maxHeartbeats 1000000 in
/-- The packed input as the region finds it. -/
theorem V_x (c : Dev nD) : (VH m c (Proc.devRef .tc main_v1) : S250000x128.Idx → EReal) = packX (m ((c : Thread nD τ).loc main_arg0)) (sitofp .f32 (constantI S_ 32 0#32)) := by
  rw [VH_eq]
  refine (VP_skip m c main_v1 3 28 (by decide) (by decide)).trans ?_
  rw [VP_step_2]; dsimp only [hostOps0_2]; after_results_simp
  rw [VP_step_1]; dsimp only [hostOps0_1]; after_results_simp
  rw [VP_step_0]; dsimp only [hostOps0]; after_results_simp
  rfl

set_option maxHeartbeats 1000000 in
/-- Layer 1's 16 × 16 block before it is repeated: the transposed weights in the top-left corner of zeros. -/
theorem V_blk1 (c : Dev nD) : (VP m c 3 (Proc.devRef .tc main_v7) : S16x16.Idx → EReal) = Host.scatter scatter_S16x16_S2_S12x12_01_n_01_0 (fun _ b => b) zeros16x16 idx00 (transpose S12x12 [1, 0] (m ((c : Thread nD τ).loc main_arg1)) transposes_S12x12_S12x12_1_0) := by
  rw [VP_step_2]; dsimp only [hostOps0_2]; after_results_simp
  results_rest
  rw [VP_launch m c main_arg1 2 (by decide) (by decide)]
  rfl

set_option maxHeartbeats 1000000 in
/-- The 8 × 8 identity layer 1's block is repeated along. -/
theorem V_eye1 (c : Dev nD) : (VP m c 3 (Proc.devRef .tc main_v13) : S8x8.Idx → EReal) = eye8 := by
  rw [VP_step_2]; dsimp only [hostOps0_2]; after_results_simp
  rfl

set_option maxHeartbeats 1000000 in
/-- Layer 1's packed weights as the region finds them. -/
theorem V_W1 (c : Dev nD) : (VH m c (Proc.devRef .tc main_v14) : S128x128.Idx → EReal) = kron8 eye8 (Host.scatter scatter_S16x16_S2_S12x12_01_n_01_0 (fun _ b => b) zeros16x16 idx00 (transpose S12x12 [1, 0] (m ((c : Thread nD τ).loc main_arg1)) transposes_S12x12_S12x12_1_0)) := by
  rw [VH_eq]
  refine (VP_skip m c main_v14 4 27 (by decide) (by decide)).trans ?_
  rw [VP_step_3]; dsimp only [hostOps0_3]; after_results_simp
  rw [V_blk1, V_eye1]
  unfold kron8
  simp only [StableHlo.TRef.ofBuf, StableHlo.TRef.toBuf, cast_cast, cast_eq]
  rfl

set_option maxHeartbeats 1000000 in
/-- Layer 1's packed bias as the region finds it. -/
theorem V_b1 (c : Dev nD) : (VH m c (Proc.devRef .tc main_v21) : S1x128.Idx → EReal) = tile8 (Host.scatter scatter_S16_S1_S12_0_n_0_0 (fun _ b => b) zeros16 idx0 (m ((c : Thread nD τ).loc main_arg2))) := by
  rw [VH_eq]
  refine (VP_skip m c main_v21 5 26 (by decide) (by decide)).trans ?_
  rw [VP_step_4]; dsimp only [hostOps0_4]; after_results_simp
  rw [VP_launch m c main_arg2 4 (by decide) (by decide)]
  rfl

set_option maxHeartbeats 1000000 in
/-- Layer 2's 16 × 16 block before it is repeated: the transposed weights in the top-left corner of zeros. -/
theorem V_blk2 (c : Dev nD) : (VP m c 5 (Proc.devRef .tc main_v27) : S16x16.Idx → EReal) = Host.scatter scatter_S16x16_S2_S12x11_01_n_01_0 (fun _ b => b) zeros16x16 idx00 (transpose S12x11 [1, 0] (m ((c : Thread nD τ).loc main_arg3)) transposes_S11x12_S12x11_1_0) := by
  rw [VP_step_4]; dsimp only [hostOps0_4]; after_results_simp
  results_rest
  rw [VP_launch m c main_arg3 4 (by decide) (by decide)]
  rfl

set_option maxHeartbeats 1000000 in
/-- The 8 × 8 identity layer 2's block is repeated along. -/
theorem V_eye2 (c : Dev nD) : (VP m c 5 (Proc.devRef .tc main_v33) : S8x8.Idx → EReal) = eye8 := by
  rw [VP_step_4]; dsimp only [hostOps0_4]; after_results_simp
  rfl

set_option maxHeartbeats 1000000 in
/-- Layer 2's packed weights as the region finds them. -/
theorem V_W2 (c : Dev nD) : (VH m c (Proc.devRef .tc main_v34) : S128x128.Idx → EReal) = kron8 eye8 (Host.scatter scatter_S16x16_S2_S12x11_01_n_01_0 (fun _ b => b) zeros16x16 idx00 (transpose S12x11 [1, 0] (m ((c : Thread nD τ).loc main_arg3)) transposes_S11x12_S12x11_1_0)) := by
  rw [VH_eq]
  refine (VP_skip m c main_v34 6 25 (by decide) (by decide)).trans ?_
  rw [VP_step_5]; dsimp only [hostOps0_5]; after_results_simp
  rw [V_blk2, V_eye2]
  unfold kron8
  simp only [StableHlo.TRef.ofBuf, StableHlo.TRef.toBuf, cast_cast, cast_eq]
  rfl

set_option maxHeartbeats 1000000 in
/-- Layer 2's packed bias as the region finds it. -/
theorem V_b2 (c : Dev nD) : (VH m c (Proc.devRef .tc main_v41) : S1x128.Idx → EReal) = tile8 (Host.scatter scatter_S16_S1_S11_0_n_0_0 (fun _ b => b) zeros16 idx0 (m ((c : Thread nD τ).loc main_arg4))) := by
  rw [VH_eq]
  refine (VP_skip m c main_v41 7 24 (by decide) (by decide)).trans ?_
  rw [VP_step_6]; dsimp only [hostOps0_6]; after_results_simp
  rw [VP_launch m c main_arg4 6 (by decide) (by decide)]
  rfl

set_option maxHeartbeats 1000000 in
/-- Layer 3's 16 × 16 block before it is repeated: the transposed weights in the top-left corner of zeros. -/
theorem V_blk3 (c : Dev nD) : (VP m c 7 (Proc.devRef .tc main_v47) : S16x16.Idx → EReal) = Host.scatter scatter_S16x16_S2_S11x10_01_n_01_0 (fun _ b => b) zeros16x16 idx00 (transpose S11x10 [1, 0] (m ((c : Thread nD τ).loc main_arg5)) transposes_S10x11_S11x10_1_0) := by
  rw [VP_step_6]; dsimp only [hostOps0_6]; after_results_simp
  results_rest
  rw [VP_launch m c main_arg5 6 (by decide) (by decide)]
  rfl

set_option maxHeartbeats 1000000 in
/-- The 8 × 8 identity layer 3's block is repeated along. -/
theorem V_eye3 (c : Dev nD) : (VP m c 7 (Proc.devRef .tc main_v53) : S8x8.Idx → EReal) = eye8 := by
  rw [VP_step_6]; dsimp only [hostOps0_6]; after_results_simp
  rfl

set_option maxHeartbeats 1000000 in
/-- Layer 3's packed weights as the region finds them. -/
theorem V_W3 (c : Dev nD) : (VH m c (Proc.devRef .tc main_v54) : S128x128.Idx → EReal) = kron8 eye8 (Host.scatter scatter_S16x16_S2_S11x10_01_n_01_0 (fun _ b => b) zeros16x16 idx00 (transpose S11x10 [1, 0] (m ((c : Thread nD τ).loc main_arg5)) transposes_S10x11_S11x10_1_0)) := by
  rw [VH_eq]
  refine (VP_skip m c main_v54 8 23 (by decide) (by decide)).trans ?_
  rw [VP_step_7]; dsimp only [hostOps0_7]; after_results_simp
  rw [V_blk3, V_eye3]
  unfold kron8
  simp only [StableHlo.TRef.ofBuf, StableHlo.TRef.toBuf, cast_cast, cast_eq]
  rfl

set_option maxHeartbeats 1000000 in
/-- Layer 3's packed bias as the region finds it. -/
theorem V_b3 (c : Dev nD) : (VH m c (Proc.devRef .tc main_v61) : S1x128.Idx → EReal) = tile8 (Host.scatter scatter_S16_S1_S10_0_n_0_0 (fun _ b => b) zeros16 idx0 (m ((c : Thread nD τ).loc main_arg6))) := by
  rw [VH_eq]
  refine (VP_skip m c main_v61 9 22 (by decide) (by decide)).trans ?_
  rw [VP_step_8]; dsimp only [hostOps0_8]; after_results_simp
  rw [VP_launch m c main_arg6 8 (by decide) (by decide)]
  rfl

end Cert.KernelIdeal.KHost

end
-- ==== Proof.KHostB.lean ====
/-
  What the host lines before the region leave in the buffers the region stages (part B): the input padded to sixteen columns
  and reshaped eight rows to a packed row; per layer the transposed weights written into the top-left corner of a zero
  16 × 16 block and repeated along the diagonal of a 128 × 128 matrix (the Kronecker product with the 8 × 8 identity), and
  the bias written into the head of a zero 16-vector and tiled eight times.
-/
import proofs.«129942_j63720134803801_2_alg».proof.Proof.KHostW
import proofs.«129942_j63720134803801_2_alg».proof.Proof.KHostT
import proofs.«129942_j63720134803801_2_alg».proof.Proof.PackRead
import proofs.«129942_j63720134803801_2_alg».proof.Proof.KHostDefs
import Idealize.ShloMosaic.Lib.StableHlo.Run

set_option maxRecDepth 16384

noncomputable section

namespace Cert.KernelIdeal.KHost

open Idealize.ShloMosaic Idealize.ShloMosaic.TcCoe Idealize.ShloMosaic.ValueIdx Idealize.ShloMosaic.StableHlo Idealize.SL.Sem Cert.KernelIdeal Cert.KernelIdeal.Gen Cert.KernelIdeal.PackRead

variable (m : (ℓ : Loc nD τ sig) → Buf (Elt Ideal) ℓ)

set_option maxHeartbeats 1000000 in
/-- Layer 4's 16 × 16 block before it is repeated: the transposed weights in the top-left corner of zeros. -/
theorem V_blk4 (c : Dev nD) : (VP m c 9 (Proc.devRef .tc main_v67) : S16x16.Idx → EReal) = Host.scatter scatter_S16x16_S2_S10x9_01_n_01_0 (fun _ b => b) zeros16x16 idx00 (transpose S10x9 [1, 0] (m ((c : Thread nD τ).loc main_arg7)) transposes_S9x10_S10x9_1_0) := by
  rw [VP_step_8]; dsimp only [hostOps0_8]; after_results_simp
  results_rest
  rw [VP_launch m c main_arg7 8 (by decide) (by decide)]
  rfl

set_option maxHeartbeats 1000000 in
/-- The 8 × 8 identity layer 4's block is repeated along. -/
theorem V_eye4 (c : Dev nD) : (VP m c 9 (Proc.devRef .tc main_v73) : S8x8.Idx → EReal) = eye8 := by
  rw [VP_step_8]; dsimp only [hostOps0_8]; after_results_simp
  rfl

set_option maxHeartbeats 1000000 in
/-- Layer 4's packed weights as the region finds them. -/
theorem V_W4 (c : Dev nD) : (VH m c (Proc.devRef .tc main_v74) : S128x128.Idx → EReal) = kron8 eye8 (Host.scatter scatter_S16x16_S2_S10x9_01_n_01_0 (fun _ b => b) zeros16x16 idx00 (transpose S10x9 [1, 0] (m ((c : Thread nD τ).loc main_arg7)) transposes_S9x10_S10x9_1_0)) := by
  rw [VH_eq]
  refine (VP_skip m c main_v74 10 21 (by decide) (by decide)).trans ?_
  rw [VP_step_9]; dsimp only [hostOps0_9]; after_results_simp
  rw [V_blk4, V_eye4]
  unfold kron8
  simp only [StableHlo.TRef.ofBuf, StableHlo.TRef.toBuf, cast_cast, cast_eq]
  rfl

set_option maxHeartbeats 1000000 in
/-- Layer 4's packed bias as the region finds it. -/
theorem V_b4 (c : Dev nD) : (VH m c (Proc.devRef .tc main_v81) : S1x128.Idx → EReal) = tile8 (Host.scatter scatter_S16_S1_S9_0_n_0_0 (fun _ b => b) zeros16 idx0 (m ((c : Thread nD τ).loc main_arg8))) := by
  rw [VH_eq]
  refine (VP_skip m c main_v81 11 20 (by decide) (by decide)).trans ?_
  rw [VP_step_10]; dsimp only [hostOps0_10]; after_results_simp
  rw [VP_launch m c main_arg8 10 (by decide) (by decide)]
  rfl

set_option maxHeartbeats 1000000 in
/-- Layer 5's 16 × 16 block before it is repeated: the transposed weights in the top-left corner of zeros. -/
theorem V_blk5 (c : Dev nD) : (VP m c 11 (Proc.devRef .tc main_v87) : S16x16.Idx → EReal) = Host.scatter scatter_S16x16_S2_S9x8_01_n_01_0 (fun _ b => b) zeros16x16 idx00 (transpose S9x8 [1, 0] (m ((c : Thread nD τ).loc main_arg9)) transposes_S8x9_S9x8_1_0) := by
  rw [VP_step_10]; dsimp only [hostOps0_10]; after_results_simp
  results_rest
  rw [VP_launch m c main_arg9 10 (by decide) (by decide)]
  rfl

set_option maxHeartbeats 1000000 in
/-- The 8 × 8 identity layer 5's block is repeated along. -/
theorem V_eye5 (c : Dev nD) : (VP m c 11 (Proc.devRef .tc main_v93) : S8x8.Idx → EReal) = eye8 := by
  rw [VP_step_10]; dsimp only [hostOps0_10]; after_results_simp
  rfl

set_option maxHeartbeats 1000000 in
/-- Layer 5's packed weights as the region finds them. -/
theorem V_W5 (c : Dev nD) : (VH m c (Proc.devRef .tc main_v94) : S128x128.Idx → EReal) = kron8 eye8 (Host.scatter scatter_S16x16_S2_S9x8_01_n_01_0 (fun _ b => b) zeros16x16 idx00 (transpose S9x8 [1, 0] (m ((c : Thread nD τ).loc main_arg9)) transposes_S8x9_S9x8_1_0)) := by
  rw [VH_eq]
  refine (VP_skip m c main_v94 12 19 (by decide) (by decide)).trans ?_
  rw [VP_step_11]; dsimp only [hostOps0_11]; after_results_simp
  rw [V_blk5, V_eye5]
  unfold kron8
  simp only [StableHlo.TRef.ofBuf, StableHlo.TRef.toBuf, cast_cast, cast_eq]
  rfl

set_option maxHeartbeats 1000000 in
/-- Layer 5's packed bias as the region finds it. -/
theorem V_b5 (c : Dev nD) : (VH m c (Proc.devRef .tc main_v101) : S1x128.Idx → EReal) = tile8 (Host.scatter scatter_S16_S1_S8_0_n_0_0 (fun _ b => b) zeros16 idx0 (m ((c : Thread nD τ).loc main_arg10))) := by
  rw [VH_eq]
  refine (VP_skip m c main_v101 13 18 (by decide) (by decide)).trans ?_
  rw [VP_step_12]; dsimp only [hostOps0_12]; after_results_simp
  rw [VP_launch m c main_arg10 12 (by decide) (by decide)]
  rfl

set_option maxHeartbeats 1000000 in
/-- Layer 6's 16 × 16 block before it is repeated: the transposed weights in the top-left corner of zeros. -/
theorem V_blk6 (c : Dev nD) : (VP m c 13 (Proc.devRef .tc main_v107) : S16x16.Idx → EReal) = Host.scatter scatter_S16x16_S2_S8x7_01_n_01_0 (fun _ b => b) zeros16x16 idx00 (transpose S8x7 [1, 0] (m ((c : Thread nD τ).loc main_arg11)) transposes_S7x8_S8x7_1_0) := by
  rw [VP_step_12]; dsimp only [hostOps0_12]; after_results_simp
  results_rest
  rw [VP_launch m c main_arg11 12 (by decide) (by decide)]
  rfl

set_option maxHeartbeats 1000000 in
/-- The 8 × 8 identity layer 6's block is repeated along. -/
theorem V_eye6 (c : Dev nD) : (VP m c 13 (Proc.devRef .tc main_v113) : S8x8.Idx → EReal) = eye8 := by
  rw [VP_step_12]; dsimp only [hostOps0_12]; after_results_simp
  rfl

set_option maxHeartbeats 1000000 in
/-- Layer 6's packed weights as the region finds them. -/
theorem V_W6 (c : Dev nD) : (VH m c (Proc.devRef .tc main_v114) : S128x128.Idx → EReal) = kron8 eye8 (Host.scatter scatter_S16x16_S2_S8x7_01_n_01_0 (fun _ b => b) zeros16x16 idx00 (transpose S8x7 [1, 0] (m ((c : Thread nD τ).loc main_arg11)) transposes_S7x8_S8x7_1_0)) := by
  rw [VH_eq]
  refine (VP_skip m c main_v114 14 17 (by decide) (by decide)).trans ?_
  rw [VP_step_13]; dsimp only [hostOps0_13]; after_results_simp
  rw [V_blk6, V_eye6]
  unfold kron8
  simp only [StableHlo.TRef.ofBuf, StableHlo.TRef.toBuf, cast_cast, cast_eq]
  rfl

set_option maxHeartbeats 1000000 in
/-- Layer 6's packed bias as the region finds it. -/
theorem V_b6 (c : Dev nD) : (VH m c (Proc.devRef .tc main_v121) : S1x128.Idx → EReal) = tile8 (Host.scatter scatter_S16_S1_S7_0_n_0_0 (fun _ b => b) zeros16 idx0 (m ((c : Thread nD τ).loc main_arg12))) := by
  rw [VH_eq]
  refine (VP_skip m c main_v121 15 16 (by decide) (by decide)).trans ?_
  rw [VP_step_14]; dsimp only [hostOps0_14]; after_results_simp
  rw [VP_launch m c main_arg12 14 (by decide) (by decide)]
  rfl

set_option maxHeartbeats 1000000 in
/-- Layer 7's 16 × 16 block before it is repeated: the transposed weights in the top-left corner of zeros. -/
theorem V_blk7 (c : Dev nD) : (VP m c 15 (Proc.devRef .tc main_v127) : S16x16.Idx → EReal) = Host.scatter scatter_S16x16_S2_S7x6_01_n_01_0 (fun _ b => b) zeros16x16 idx00 (transpose S7x6 [1, 0] (m ((c : Thread nD τ).loc main_arg13)) transposes_S6x7_S7x6_1_0) := by
  rw [VP_step_14]; dsimp only [hostOps0_14]; after_results_simp
  results_rest
  rw [VP_launch m c main_arg13 14 (by decide) (by decide)]
  rfl

set_option maxHeartbeats 1000000 in
/-- The 8 × 8 identity layer 7's block is repeated along. -/
theorem V_eye7 (c : Dev nD) : (VP m c 15 (Proc.devRef .tc main_v133) : S8x8.Idx → EReal) = eye8 := by
  rw [VP_step_14]; dsimp only [hostOps0_14]; after_results_simp
  rfl

set_option maxHeartbeats 1000000 in
/-- Layer 7's packed weights as the region finds them. -/
theorem V_W7 (c : Dev nD) : (VH m c (Proc.devRef .tc main_v134) : S128x128.Idx → EReal) = kron8 eye8 (Host.scatter scatter_S16x16_S2_S7x6_01_n_01_0 (fun _ b => b) zeros16x16 idx00 (transpose S7x6 [1, 0] (m ((c : Thread nD τ).loc main_arg13)) transposes_S6x7_S7x6_1_0)) := by
  rw [VH_eq]
  refine (VP_skip m c main_v134 16 15 (by decide) (by decide)).trans ?_
  rw [VP_step_15]; dsimp only [hostOps0_15]; after_results_simp
  rw [V_blk7, V_eye7]
  unfold kron8
  simp only [StableHlo.TRef.ofBuf, StableHlo.TRef.toBuf, cast_cast, cast_eq]
  rfl

set_option maxHeartbeats 1000000 in
/-- Layer 7's packed bias as the region finds it. -/
theorem V_b7 (c : Dev nD) : (VH m c (Proc.devRef .tc main_v141) : S1x128.Idx → EReal) = tile8 (Host.scatter scatter_S16_S1_S6_0_n_0_0 (fun _ b => b) zeros16 idx0 (m ((c : Thread nD τ).loc main_arg14))) := by
  rw [VH_eq]
  refine (VP_skip m c main_v141 17 14 (by decide) (by decide)).trans ?_
  rw [VP_step_16]; dsimp only [hostOps0_16]; after_results_simp
  rw [VP_launch m c main_arg14 16 (by decide) (by decide)]
  rfl

end Cert.KernelIdeal.KHost

end
-- ==== Proof.KHostC.lean ====
/-
  What the host lines before the region leave in the buffers the region stages (part C): the input padded to sixteen columns
  and reshaped eight rows to a packed row; per layer the transposed weights written into the top-left corner of a zero
  16 × 16 block and repeated along the diagonal of a 128 × 128 matrix (the Kronecker product with the 8 × 8 identity), and
  the bias written into the head of a zero 16-vector and tiled eight times.
-/
import proofs.«129942_j63720134803801_2_alg».proof.Proof.KHostW
import proofs.«129942_j63720134803801_2_alg».proof.Proof.KHostT
import proofs.«129942_j63720134803801_2_alg».proof.Proof.PackRead
import proofs.«129942_j63720134803801_2_alg».proof.Proof.KHostDefs
import Idealize.ShloMosaic.Lib.StableHlo.Run

set_option maxRecDepth 16384

noncomputable section

namespace Cert.KernelIdeal.KHost

open Idealize.ShloMosaic Idealize.ShloMosaic.TcCoe Idealize.ShloMosaic.ValueIdx Idealize.ShloMosaic.StableHlo Idealize.SL.Sem Cert.KernelIdeal Cert.KernelIdeal.Gen Cert.KernelIdeal.PackRead

variable (m : (ℓ : Loc nD τ sig) → Buf (Elt Ideal) ℓ)

set_option maxHeartbeats 1000000 in
/-- Layer 8's 16 × 16 block before it is repeated: the transposed weights in the top-left corner of zeros. -/
theorem V_blk8 (c : Dev nD) : (VP m c 17 (Proc.devRef .tc main_v147) : S16x16.Idx → EReal) = Host.scatter scatter_S16x16_S2_S6x7_01_n_01_0 (fun _ b => b) zeros16x16 idx00 (transpose S6x7 [1, 0] (m ((c : Thread nD τ).loc main_arg15)) transposes_S7x6_S6x7_1_0) := by
  rw [VP_step_16]; dsimp only [hostOps0_16]; after_results_simp
  results_rest
  rw [VP_launch m c main_arg15 16 (by decide) (by decide)]
  rfl

set_option maxHeartbeats 1000000 in
/-- The 8 × 8 identity layer 8's block is repeated along. -/
theorem V_eye8 (c : Dev nD) : (VP m c 17 (Proc.devRef .tc main_v153) : S8x8.Idx → EReal) = eye8 := by
  rw [VP_step_16]; dsimp only [hostOps0_16]; after_results_simp
  rfl

set_option maxHeartbeats 1000000 in
/-- Layer 8's packed weights as the region finds them. -/
theorem V_W8 (c : Dev nD) : (VH m c (Proc.devRef .tc main_v154) : S128x128.Idx → EReal) = kron8 eye8 (Host.scatter scatter_S16x16_S2_S6x7_01_n_01_0 (fun _ b => b) zeros16x16 idx00 (transpose S6x7 [1, 0] (m ((c : Thread nD τ).loc main_arg15)) transposes_S7x6_S6x7_1_0)) := by
  rw [VH_eq]
  refine (VP_skip m c main_v154 18 13 (by decide) (by decide)).trans ?_
  rw [VP_step_17]; dsimp only [hostOps0_17]; after_results_simp
  rw [V_blk8, V_eye8]
  unfold kron8
  simp only [StableHlo.TRef.ofBuf, StableHlo.TRef.toBuf, cast_cast, cast_eq]
  rfl

set_option maxHeartbeats 1000000 in
/-- Layer 8's packed bias as the region finds it. -/
theorem V_b8 (c : Dev nD) : (VH m c (Proc.devRef .tc main_v161) : S1x128.Idx → EReal) = tile8 (Host.scatter scatter_S16_S1_S7_0_n_0_0 (fun _ b => b) zeros16 idx0 (m ((c : Thread nD τ).loc main_arg16))) := by
  rw [VH_eq]
  refine (VP_skip m c main_v161 19 12 (by decide) (by decide)).trans ?_
  rw [VP_step_18]; dsimp only [hostOps0_18]; after_results_simp
  rw [VP_launch m c main_arg16 18 (by decide) (by decide)]
  rfl

set_option maxHeartbeats 1000000 in
/-- Layer 9's 16 × 16 block before it is repeated: the transposed weights in the top-left corner of zeros. -/
theorem V_blk9 (c : Dev nD) : (VP m c 19 (Proc.devRef .tc main_v167) : S16x16.Idx → EReal) = Host.scatter scatter_S16x16_S2_S7x8_01_n_01_0 (fun _ b => b) zeros16x16 idx00 (transpose S7x8 [1, 0] (m ((c : Thread nD τ).loc main_arg17)) transposes_S8x7_S7x8_1_0) := by
  rw [VP_step_18]; dsimp only [hostOps0_18]; after_results_simp
  results_rest
  rw [VP_launch m c main_arg17 18 (by decide) (by decide)]
  rfl

set_option maxHeartbeats 1000000 in
/-- The 8 × 8 identity layer 9's block is repeated along. -/
theorem V_eye9 (c : Dev nD) : (VP m c 19 (Proc.devRef .tc main_v173) : S8x8.Idx → EReal) = eye8 := by
  rw [VP_step_18]; dsimp only [hostOps0_18]; after_results_simp
  rfl

set_option maxHeartbeats 1000000 in
/-- Layer 9's packed weights as the region finds them. -/
theorem V_W9 (c : Dev nD) : (VH m c (Proc.devRef .tc main_v174) : S128x128.Idx → EReal) = kron8 eye8 (Host.scatter scatter_S16x16_S2_S7x8_01_n_01_0 (fun _ b => b) zeros16x16 idx00 (transpose S7x8 [1, 0] (m ((c : Thread nD τ).loc main_arg17)) transposes_S8x7_S7x8_1_0)) := by
  rw [VH_eq]
  refine (VP_skip m c main_v174 20 11 (by decide) (by decide)).trans ?_
  rw [VP_step_19]; dsimp only [hostOps0_19]; after_results_simp
  rw [V_blk9, V_eye9]
  unfold kron8
  simp only [StableHlo.TRef.ofBuf, StableHlo.TRef.toBuf, cast_cast, cast_eq]
  rfl

set_option maxHeartbeats 1000000 in
/-- Layer 9's packed bias as the region finds it. -/
theorem V_b9 (c : Dev nD) : (VH m c (Proc.devRef .tc main_v181) : S1x128.Idx → EReal) = tile8 (Host.scatter scatter_S16_S1_S8_0_n_0_0 (fun _ b => b) zeros16 idx0 (m ((c : Thread nD τ).loc main_arg18))) := by
  rw [VH_eq]
  refine (VP_skip m c main_v181 21 10 (by decide) (by decide)).trans ?_
  rw [VP_step_20]; dsimp only [hostOps0_20]; after_results_simp
  rw [VP_launch m c main_arg18 20 (by decide) (by decide)]
  rfl

set_option maxHeartbeats 1000000 in
/-- Layer 10's 16 × 16 block before it is repeated: the transposed weights in the top-left corner of zeros. -/
theorem V_blk10 (c : Dev nD) : (VP m c 21 (Proc.devRef .tc main_v187) : S16x16.Idx → EReal) = Host.scatter scatter_S16x16_S2_S8x9_01_n_01_0 (fun _ b => b) zeros16x16 idx00 (transpose S8x9 [1, 0] (m ((c : Thread nD τ).loc main_arg19)) transposes_S9x8_S8x9_1_0) := by
  rw [VP_step_20]; dsimp only [hostOps0_20]; after_results_simp
  results_rest
  rw [VP_launch m c main_arg19 20 (by decide) (by decide)]
  rfl

set_option maxHeartbeats 1000000 in
/-- The 8 × 8 identity layer 10's block is repeated along. -/
theorem V_eye10 (c : Dev nD) : (VP m c 21 (Proc.devRef .tc main_v193) : S8x8.Idx → EReal) = eye8 := by
  rw [VP_step_20]; dsimp only [hostOps0_20]; after_results_simp
  rfl

set_option maxHeartbeats 1000000 in
/-- Layer 10's packed weights as the region finds them. -/
theorem V_W10 (c : Dev nD) : (VH m c (Proc.devRef .tc main_v194) : S128x128.Idx → EReal) = kron8 eye8 (Host.scatter scatter_S16x16_S2_S8x9_01_n_01_0 (fun _ b => b) zeros16x16 idx00 (transpose S8x9 [1, 0] (m ((c : Thread nD τ).loc main_arg19)) transposes_S9x8_S8x9_1_0)) := by
  rw [VH_eq]
  refine (VP_skip m c main_v194 22 9 (by decide) (by decide)).trans ?_
  rw [VP_step_21]; dsimp only [hostOps0_21]; after_results_simp
  rw [V_blk10, V_eye10]
  unfold kron8
  simp only [StableHlo.TRef.ofBuf, StableHlo.TRef.toBuf, cast_cast, cast_eq]
  rfl

set_option maxHeartbeats 1000000 in
/-- Layer 10's packed bias as the region finds it. -/
theorem V_b10 (c : Dev nD) : (VH m c (Proc.devRef .tc main_v201) : S1x128.Idx → EReal) = tile8 (Host.scatter scatter_S16_S1_S9_0_n_0_0 (fun _ b => b) zeros16 idx0 (m ((c : Thread nD τ).loc main_arg20))) := by
  rw [VH_eq]
  refine (VP_skip m c main_v201 23 8 (by decide) (by decide)).trans ?_
  rw [VP_step_22]; dsimp only [hostOps0_22]; after_results_simp
  rw [VP_launch m c main_arg20 22 (by decide) (by decide)]
  rfl

set_option maxHeartbeats 1000000 in
/-- Layer 11's 16 × 16 block before it is repeated: the transposed weights in the top-left corner of zeros. -/
theorem V_blk11 (c : Dev nD) : (VP m c 23 (Proc.devRef .tc main_v207) : S16x16.Idx → EReal) = Host.scatter scatter_S16x16_S2_S9x10_01_n_01_0 (fun _ b => b) zeros16x16 idx00 (transpose S9x10 [1, 0] (m ((c : Thread nD τ).loc main_arg21)) transposes_S10x9_S9x10_1_0) := by
  rw [VP_step_22]; dsimp only [hostOps0_22]; after_results_simp
  results_rest
  rw [VP_launch m c main_arg21 22 (by decide) (by decide)]
  rfl

set_option maxHeartbeats 1000000 in
/-- The 8 × 8 identity layer 11's block is repeated along. -/
theorem V_eye11 (c : Dev nD) : (VP m c 23 (Proc.devRef .tc main_v213) : S8x8.Idx → EReal) = eye8 := by
  rw [VP_step_22]; dsimp only [hostOps0_22]; after_results_simp
  rfl

set_option maxHeartbeats 1000000 in
/-- Layer 11's packed weights as the region finds them. -/
theorem V_W11 (c : Dev nD) : (VH m c (Proc.devRef .tc main_v214) : S128x128.Idx → EReal) = kron8 eye8 (Host.scatter scatter_S16x16_S2_S9x10_01_n_01_0 (fun _ b => b) zeros16x16 idx00 (transpose S9x10 [1, 0] (m ((c : Thread nD τ).loc main_arg21)) transposes_S10x9_S9x10_1_0)) := by
  rw [VH_eq]
  refine (VP_skip m c main_v214 24 7 (by decide) (by decide)).trans ?_
  rw [VP_step_23]; dsimp only [hostOps0_23]; after_results_simp
  rw [V_blk11, V_eye11]
  unfold kron8
  simp only [StableHlo.TRef.ofBuf, StableHlo.TRef.toBuf, cast_cast, cast_eq]
  rfl

set_option maxHeartbeats 1000000 in
/-- Layer 11's packed bias as the region finds it. -/
theorem V_b11 (c : Dev nD) : (VH m c (Proc.devRef .tc main_v221) : S1x128.Idx → EReal) = tile8 (Host.scatter scatter_S16_S1_S10_0_n_0_0 (fun _ b => b) zeros16 idx0 (m ((c : Thread nD τ).loc main_arg22))) := by
  rw [VH_eq]
  refine (VP_skip m c main_v221 25 6 (by decide) (by decide)).trans ?_
  rw [VP_step_24]; dsimp only [hostOps0_24]; after_results_simp
  rw [VP_launch m c main_arg22 24 (by decide) (by decide)]
  rfl

end Cert.KernelIdeal.KHost

end
-- ==== Proof.KHostD.lean ====
/-
  What the host lines before the region leave in the buffers the region stages (part D): the input padded to sixteen columns
  and reshaped eight rows to a packed row; per layer the transposed weights written into the top-left corner of a zero
  16 × 16 block and repeated along the diagonal of a 128 × 128 matrix (the Kronecker product with the 8 × 8 identity), and
  the bias written into the head of a zero 16-vector and tiled eight times.
-/
import proofs.«129942_j63720134803801_2_alg».proof.Proof.KHostW
import proofs.«129942_j63720134803801_2_alg».proof.Proof.KHostT
import proofs.«129942_j63720134803801_2_alg».proof.Proof.PackRead
import proofs.«129942_j63720134803801_2_alg».proof.Proof.KHostDefs
import Idealize.ShloMosaic.Lib.StableHlo.Run

set_option maxRecDepth 16384

noncomputable section

namespace Cert.KernelIdeal.KHost

open Idealize.ShloMosaic Idealize.ShloMosaic.TcCoe Idealize.ShloMosaic.ValueIdx Idealize.ShloMosaic.StableHlo Idealize.SL.Sem Cert.KernelIdeal Cert.KernelIdeal.Gen Cert.KernelIdeal.PackRead

variable (m : (ℓ : Loc nD τ sig) → Buf (Elt Ideal) ℓ)

set_option maxHeartbeats 1000000 in
/-- Layer 12's 16 × 16 block before it is repeated: the transposed weights in the top-left corner of zeros. -/
theorem V_blk12 (c : Dev nD) : (VP m c 25 (Proc.devRef .tc main_v227) : S16x16.Idx → EReal) = Host.scatter scatter_S16x16_S2_S10x11_01_n_01_0 (fun _ b => b) zeros16x16 idx00 (transpose S10x11 [1, 0] (m ((c : Thread nD τ).loc main_arg23)) transposes_S11x10_S10x11_1_0) := by
  rw [VP_step_24]; dsimp only [hostOps0_24]; after_results_simp
  results_rest
  rw [VP_launch m c main_arg23 24 (by decide) (by decide)]
  rfl

set_option maxHeartbeats 1000000 in
/-- The 8 × 8 identity layer 12's block is repeated along. -/
theorem V_eye12 (c : Dev nD) : (VP m c 25 (Proc.devRef .tc main_v233) : S8x8.Idx → EReal) = eye8 := by
  rw [VP_step_24]; dsimp only [hostOps0_24]; after_results_simp
  rfl

set_option maxHeartbeats 1000000 in
/-- Layer 12's packed weights as the region finds them. -/
theorem V_W12 (c : Dev nD) : (VH m c (Proc.devRef .tc main_v234) : S128x128.Idx → EReal) = kron8 eye8 (Host.scatter scatter_S16x16_S2_S10x11_01_n_01_0 (fun _ b => b) zeros16x16 idx00 (transpose S10x11 [1, 0] (m ((c : Thread nD τ).loc main_arg23)) transposes_S11x10_S10x11_1_0)) := by
  rw [VH_eq]
  refine (VP_skip m c main_v234 26 5 (by decide) (by decide)).trans ?_
  rw [VP_step_25]; dsimp only [hostOps0_25]; after_results_simp
  rw [V_blk12, V_eye12]
  unfold kron8
  simp only [StableHlo.TRef.ofBuf, StableHlo.TRef.toBuf, cast_cast, cast_eq]
  rfl

set_option maxHeartbeats 1000000 in
/-- Layer 12's packed bias as the region finds it. -/
theorem V_b12 (c : Dev nD) : (VH m c (Proc.devRef .tc main_v241) : S1x128.Idx → EReal) = tile8 (Host.scatter scatter_S16_S1_S11_0_n_0_0 (fun _ b => b) zeros16 idx0 (m ((c : Thread nD τ).loc main_arg24))) := by
  rw [VH_eq]
  refine (VP_skip m c main_v241 27 4 (by decide) (by decide)).trans ?_
  rw [VP_step_26]; dsimp only [hostOps0_26]; after_results_simp
  rw [VP_launch m c main_arg24 26 (by decide) (by decide)]
  rfl

set_option maxHeartbeats 1000000 in
/-- Layer 13's 16 × 16 block before it is repeated: the transposed weights in the top-left corner of zeros. -/
theorem V_blk13 (c : Dev nD) : (VP m c 27 (Proc.devRef .tc main_v247) : S16x16.Idx → EReal) = Host.scatter scatter_S16x16_S2_S11x12_01_n_01_0 (fun _ b => b) zeros16x16 idx00 (transpose S11x12 [1, 0] (m ((c : Thread nD τ).loc main_arg25)) transposes_S12x11_S11x12_1_0) := by
  rw [VP_step_26]; dsimp only [hostOps0_26]; after_results_simp
  results_rest
  rw [VP_launch m c main_arg25 26 (by decide) (by decide)]
  rfl

set_option maxHeartbeats 1000000 in
/-- The 8 × 8 identity layer 13's block is repeated along. -/
theorem V_eye13 (c : Dev nD) : (VP m c 27 (Proc.devRef .tc main_v253) : S8x8.Idx → EReal) = eye8 := by
  rw [VP_step_26]; dsimp only [hostOps0_26]; after_results_simp
  rfl

set_option maxHeartbeats 1000000 in
/-- Layer 13's packed weights as the region finds them. -/
theorem V_W13 (c : Dev nD) : (VH m c (Proc.devRef .tc main_v254) : S128x128.Idx → EReal) = kron8 eye8 (Host.scatter scatter_S16x16_S2_S11x12_01_n_01_0 (fun _ b => b) zeros16x16 idx00 (transpose S11x12 [1, 0] (m ((c : Thread nD τ).loc main_arg25)) transposes_S12x11_S11x12_1_0)) := by
  rw [VH_eq]
  refine (VP_skip m c main_v254 28 3 (by decide) (by decide)).trans ?_
  rw [VP_step_27]; dsimp only [hostOps0_27]; after_results_simp
  rw [V_blk13, V_eye13]
  unfold kron8
  simp only [StableHlo.TRef.ofBuf, StableHlo.TRef.toBuf, cast_cast, cast_eq]
  rfl

set_option maxHeartbeats 1000000 in
/-- Layer 13's packed bias as the region finds it. -/
theorem V_b13 (c : Dev nD) : (VH m c (Proc.devRef .tc main_v261) : S1x128.Idx → EReal) = tile8 (Host.scatter scatter_S16_S1_S12_0_n_0_0 (fun _ b => b) zeros16 idx0 (m ((c : Thread nD τ).loc main_arg26))) := by
  rw [VH_eq]
  refine (VP_skip m c main_v261 29 2 (by decide) (by decide)).trans ?_
  rw [VP_step_28]; dsimp only [hostOps0_28]; after_results_simp
  rw [VP_launch m c main_arg26 28 (by decide) (by decide)]
  rfl

set_option maxHeartbeats 1000000 in
/-- Layer 14's 16 × 16 block before it is repeated: the transposed weights in the top-left corner of zeros. -/
theorem V_blk14 (c : Dev nD) : (VP m c 29 (Proc.devRef .tc main_v267) : S16x16.Idx → EReal) = Host.scatter scatter_S16x16_S2_S12x2_01_n_01_0 (fun _ b => b) zeros16x16 idx00 (transpose S12x2 [1, 0] (m ((c : Thread nD τ).loc main_arg27)) transposes_S2x12_S12x2_1_0) := by
  rw [VP_step_28]; dsimp only [hostOps0_28]; after_results_simp
  results_rest
  rw [VP_launch m c main_arg27 28 (by decide) (by decide)]
  rfl

set_option maxHeartbeats 1000000 in
/-- The 8 × 8 identity layer 14's block is repeated along. -/
theorem V_eye14 (c : Dev nD) : (VP m c 29 (Proc.devRef .tc main_v273) : S8x8.Idx → EReal) = eye8 := by
  rw [VP_step_28]; dsimp only [hostOps0_28]; after_results_simp
  rfl

set_option maxHeartbeats 1000000 in
/-- Layer 14's packed weights as the region finds them. -/
theorem V_W14 (c : Dev nD) : (VH m c (Proc.devRef .tc main_v274) : S128x128.Idx → EReal) = kron8 eye8 (Host.scatter scatter_S16x16_S2_S12x2_01_n_01_0 (fun _ b => b) zeros16x16 idx00 (transpose S12x2 [1, 0] (m ((c : Thread nD τ).loc main_arg27)) transposes_S2x12_S12x2_1_0)) := by
  rw [VH_eq]
  refine (VP_skip m c main_v274 30 1 (by decide) (by decide)).trans ?_
  rw [VP_step_29]; dsimp only [hostOps0_29]; after_results_simp
  rw [V_blk14, V_eye14]
  unfold kron8
  simp only [StableHlo.TRef.ofBuf, StableHlo.TRef.toBuf, cast_cast, cast_eq]
  rfl

set_option maxHeartbeats 1000000 in
/-- Layer 14's packed bias as the region finds it. -/
theorem V_b14 (c : Dev nD) : (VH m c (Proc.devRef .tc main_v281) : S1x128.Idx → EReal) = tile8 (Host.scatter scatter_S16_S1_S2_0_n_0_0 (fun _ b => b) zeros16 idx0 (m ((c : Thread nD τ).loc main_arg28))) := by
  rw [VH_eq]
  refine (VP_skip m c main_v281 31 0 (by decide) (by decide)).trans ?_
  rw [VP_step_30]; dsimp only [hostOps0_30]; after_results_simp
  rw [VP_launch m c main_arg28 30 (by decide) (by decide)]
  rfl

end Cert.KernelIdeal.KHost

end
-- ==== Proof.LibScatterOnce.lean ====
/-
  A SET-SCATTER each of whose targets is hit by one update, read at an entry; two instances.

  `stablehlo.scatter` whose body returns the update (`x.at[…].set(v)`) folds the updates in row-major order, each
  overwriting the entry it lands on.  When exactly one update lands on an entry — or all that do carry one value — the
  entry ends at that value, whatever the order.
  * THE WHOLE WINDOW: operand and updates `[M, K]`, no scatter index at all (an index array of extent `0`): every update
    `(r, c)` lands at `(r, c)`, so the result is the updates array (`zeros.at[:M, :K].set(v)` when nothing is padded).
  * ONE ROW: operand `[1, K]`, updates `[K]`, one scatter index `0` naming the row: update `c` lands at `(0, c)`
    (`zeros((1, K)).at[0, :K].set(v)`).
  Generic in the sizes and the element type; a program's record equals `wholeDims` / `rowDims` by `rfl`.
-/
import Idealize.ShloMosaic.PureOps.Ideal
import Idealize.ShloMosaic.Lib.ValueIdx

noncomputable section

namespace Cert.Lib.ScatterOnce

open Idealize.ShloMosaic Idealize.ShloMosaic.ValueIdx

/-! ## The fold -/

/-- A left fold whose step overwrites one entry (`tgt n = some i`) with the step's value or does nothing: an entry no step of
    the list targets keeps its contents. -/
theorem foldl_keep {ι κ α : Type} [DecidableEq ι] (tgt : κ → Option ι) (val : κ → α)
    (step : (ι → α) → κ → (ι → α))
    (hsome : ∀ r n i, tgt n = some i → step r n = fun i'' => if i'' = i then val n else r i'')
    (hnone : ∀ r n, tgt n = none → step r n = r) (i' : ι) :
    ∀ (L : List κ) (x : ι → α), (¬ ∃ n ∈ L, tgt n = some i') → L.foldl step x i' = x i' := by
  intro L
  induction L with
  | nil => intro x _; rfl
  | cons a L ih =>
    intro x hno
    rw [List.foldl_cons, ih (step x a) (fun ⟨n', hn', ht⟩ => hno ⟨n', List.mem_cons_of_mem _ hn', ht⟩)]
    rcases hta : tgt a with _ | i
    · rw [hnone x a hta]
    · rw [hsome x a i hta]
      have : i' ≠ i := fun e => hno ⟨a, List.mem_cons_self, by rw [hta, e]⟩
      simp only [if_neg this]

/-- … and an entry some step targets, every step that targets it carrying the value `v`, ends at `v`. -/
theorem foldl_hit {ι κ α : Type} [DecidableEq ι] (tgt : κ → Option ι) (val : κ → α)
    (step : (ι → α) → κ → (ι → α))
    (hsome : ∀ r n i, tgt n = some i → step r n = fun i'' => if i'' = i then val n else r i'')
    (hnone : ∀ r n, tgt n = none → step r n = r) (i' : ι) (v : α) :
    ∀ (L : List κ) (x : ι → α), (∃ n ∈ L, tgt n = some i') → (∀ n ∈ L, tgt n = some i' → val n = v) →
      L.foldl step x i' = v := by
  intro L
  induction L with
  | nil => intro x h _; obtain ⟨n, hn, _⟩ := h; exact absurd hn List.not_mem_nil
  | cons a L ih =>
    intro x h hv
    rw [List.foldl_cons]
    by_cases hL : ∃ n' ∈ L, tgt n' = some i'
    · exact ih (step x a) hL (fun n hn => hv n (List.mem_cons_of_mem _ hn))
    · have hhead : tgt a = some i' := by
        obtain ⟨n', hn', ht⟩ := h
        rcases List.mem_cons.1 hn' with rfl | hin
        · exact ht
        · exact absurd ⟨n', hin, ht⟩ hL
      rw [foldl_keep tgt val step hsome hnone i' L (step x a) hL, hsome x a i' hhead]
      show (if i' = i' then val a else x i') = v
      rw [if_pos rfl]
      exact hv a List.mem_cons_self hhead

/-! ## A set-scatter at an entry one update lands on -/

variable {s si u : Shape} {w : Nat} {α : Type}

/-- The update `j` lands on `i'` and no other does: the entry ends at update `j`. -/
theorem scatter_set_apply_of_unique (d : ScatterDims s si u) (x : s.Idx → α) (idx : IVec si w) (upd : u.Idx → α)
    (i' : s.Idx) (j : u.Idx) (hj : d.resultIdx? j idx = some i')
    (huniq : ∀ j', d.resultIdx? j' idx = some i' → j' = j) :
    Host.scatter d (fun _ b => b) x idx upd i' = upd j := by
  unfold Host.scatter
  refine foldl_hit (fun n : Fin u.numel => d.resultIdx? (u.rowMajor.symm n) idx) (fun n => upd (u.rowMajor.symm n)) _ ?_ ?_ i'
    (upd j) (List.finRange u.numel) x ?_ ?_
  · intro r n i hn; simp only [hn]
  · intro r n hn; simp only [hn]
  · exact ⟨u.rowMajor j, List.mem_finRange _, by simpa using hj⟩
  · intro n _ hn; rw [huniq _ hn]

/-! ## The whole window -/

variable {M K : Nat}

/-- Operand and updates `[M, K]`, scatter indices of extent `0`: both update axes are window axes, nothing inserted,
    no operand axis named by an index. -/
abbrev wholeDims (M K : Nat)
    (wf : ScatterDims.WF ⟨2, ![M, K]⟩ ⟨1, ![0]⟩ ⟨2, ![M, K]⟩ [0, 1] [] [] 0) :
    ScatterDims ⟨2, ![M, K]⟩ ⟨1, ![0]⟩ ⟨2, ![M, K]⟩ where
  updateWindowDims := [0, 1]
  insertedWindowDims := []
  scatterDimsToOperandDims := []
  indexVectorDim := 0
  wf := wf

/-- Every update lands at its own index. -/
theorem whole_resultIdx (wf : ScatterDims.WF ⟨2, ![M, K]⟩ ⟨1, ![0]⟩ ⟨2, ![M, K]⟩ [0, 1] [] [] 0)
    (idx : IVec ⟨1, ![0]⟩ w) (j : (⟨2, ![M, K]⟩ : Shape).Idx) : (wholeDims M K wf).resultIdx? j idx = some j := by
  have hs : ∀ a, (wholeDims M K wf).start j idx a = 0 := fun a => by
    unfold ScatterDims.start; rw [dif_neg (by simp)]
  have hw : ∀ a, (wholeDims M K wf).window j a = (j a).val := fun a => by
    match a with
    | ⟨0, _⟩ => rfl
    | ⟨1, _⟩ => rfl
  unfold ScatterDims.resultIdx?
  have hc : ∀ a, 0 ≤ (wholeDims M K wf).start j idx a + ((wholeDims M K wf).window j a : Int) ∧
      (wholeDims M K wf).start j idx a + ((wholeDims M K wf).window j a : Int) < ((⟨2, ![M, K]⟩ : Shape).size a : Int) := by
    intro a
    rw [hs, hw]
    have := (j a).isLt
    constructor <;> omega
  rw [dif_pos hc]
  congr 1
  funext a
  refine Fin.ext ?_
  show ((wholeDims M K wf).start j idx a + ((wholeDims M K wf).window j a : Int)).toNat = (j a).val
  rw [hs, hw]; omega

/-- THE WHOLE-WINDOW SET-SCATTER is the updates array. -/
theorem whole_set_apply_of (d : ScatterDims ⟨2, ![M, K]⟩ ⟨1, ![0]⟩ ⟨2, ![M, K]⟩)
    (wf : ScatterDims.WF ⟨2, ![M, K]⟩ ⟨1, ![0]⟩ ⟨2, ![M, K]⟩ [0, 1] [] [] 0) (hd : d = wholeDims M K wf)
    (x : (⟨2, ![M, K]⟩ : Shape).Idx → α) (idx : IVec ⟨1, ![0]⟩ w) (upd : (⟨2, ![M, K]⟩ : Shape).Idx → α)
    (j : (⟨2, ![M, K]⟩ : Shape).Idx) : Host.scatter d (fun _ b => b) x idx upd j = upd j := by
  subst hd
  refine scatter_set_apply_of_unique _ x idx upd j j (whole_resultIdx wf idx j) fun j' hj' => ?_
  rw [whole_resultIdx wf idx j'] at hj'
  exact Option.some.inj hj'

/-! ## One row -/

/-- Operand `[1, K]`, one scatter index, updates `[K]`: the update axis is the window axis (the operand's columns), the
    operand's row axis is inserted and named by the index. -/
abbrev rowDims (K : Nat) (wf : ScatterDims.WF ⟨2, ![1, K]⟩ ⟨1, ![1]⟩ ⟨1, ![K]⟩ [0] [0] [0] 0) :
    ScatterDims ⟨2, ![1, K]⟩ ⟨1, ![1]⟩ ⟨1, ![K]⟩ where
  updateWindowDims := [0]
  insertedWindowDims := [0]
  scatterDimsToOperandDims := [0]
  indexVectorDim := 0
  wf := wf

/-- With the row index `0`, update `c` lands at `(0, c)`. -/
theorem row_resultIdx (wf : ScatterDims.WF ⟨2, ![1, K]⟩ ⟨1, ![1]⟩ ⟨1, ![K]⟩ [0] [0] [0] 0)
    (idx : IVec ⟨1, ![1]⟩ w) (h0 : (idx (ix1 (0 : Fin 1))).toInt = 0) (c : Fin K) :
    (rowDims K wf).resultIdx? (ix1 c) idx = some (ix2 (0 : Fin 1) c) := by
  have hsi : (rowDims K wf).siIdx (ix1 c) ⟨0, Nat.one_pos⟩ = ix1 (0 : Fin 1) := by
    funext b; refine Fin.ext ?_
    match b with
    | ⟨0, _⟩ => rfl
  have hs0 : (rowDims K wf).start (ix1 c) idx 0 = 0 := by
    unfold ScatterDims.start
    rw [dif_pos (show (0 : Fin 2) ∈ (rowDims K wf).scatterDimsToOperandDims from List.mem_cons_self)]
    show (idx ((rowDims K wf).siIdx (ix1 c) ⟨0, _⟩)).toInt = 0
    rw [hsi, h0]
  have hs1 : (rowDims K wf).start (ix1 c) idx 1 = 0 := by
    unfold ScatterDims.start; rw [dif_neg (by show (1 : Fin 2) ∉ [(0 : Fin 2)]; decide)]
  have hw0 : (rowDims K wf).window (ix1 c) 0 = 0 := rfl
  have hw1 : (rowDims K wf).window (ix1 c) 1 = c.val := rfl
  have hlt := c.isLt
  unfold ScatterDims.resultIdx?
  have hc : ∀ a, 0 ≤ (rowDims K wf).start (ix1 c) idx a + ((rowDims K wf).window (ix1 c) a : Int) ∧
      (rowDims K wf).start (ix1 c) idx a + ((rowDims K wf).window (ix1 c) a : Int) < ((⟨2, ![1, K]⟩ : Shape).size a : Int) := by
    intro a
    match a with
    | ⟨0, _⟩ =>
      show 0 ≤ (rowDims K wf).start (ix1 c) idx 0 + ((rowDims K wf).window (ix1 c) 0 : Int) ∧
        (rowDims K wf).start (ix1 c) idx 0 + ((rowDims K wf).window (ix1 c) 0 : Int) < (1 : Int)
      rw [hs0, hw0]; omega
    | ⟨1, _⟩ =>
      show 0 ≤ (rowDims K wf).start (ix1 c) idx 1 + ((rowDims K wf).window (ix1 c) 1 : Int) ∧
        (rowDims K wf).start (ix1 c) idx 1 + ((rowDims K wf).window (ix1 c) 1 : Int) < (K : Int)
      rw [hs1, hw1]; omega
  rw [dif_pos hc]
  congr 1
  funext a
  refine Fin.ext ?_
  match a with
  | ⟨0, _⟩ =>
    show ((rowDims K wf).start (ix1 c) idx 0 + ((rowDims K wf).window (ix1 c) 0 : Int)).toNat = 0
    rw [hs0, hw0]; omega
  | ⟨1, _⟩ =>
    show ((rowDims K wf).start (ix1 c) idx 1 + ((rowDims K wf).window (ix1 c) 1 : Int)).toNat = c.val
    rw [hs1, hw1]; omega

/-- THE ONE-ROW SET-SCATTER at `(0, c)` is update `c`. -/
theorem row_set_apply_of (d : ScatterDims ⟨2, ![1, K]⟩ ⟨1, ![1]⟩ ⟨1, ![K]⟩)
    (wf : ScatterDims.WF ⟨2, ![1, K]⟩ ⟨1, ![1]⟩ ⟨1, ![K]⟩ [0] [0] [0] 0) (hd : d = rowDims K wf)
    (x : (⟨2, ![1, K]⟩ : Shape).Idx → α) (idx : IVec ⟨1, ![1]⟩ w) (h0 : (idx (ix1 (0 : Fin 1))).toInt = 0)
    (upd : (⟨1, ![K]⟩ : Shape).Idx → α) (c : Fin K) :
    Host.scatter d (fun _ b => b) x idx upd (ix2 (0 : Fin 1) c) = upd (ix1 c) := by
  subst hd
  refine scatter_set_apply_of_unique _ x idx upd _ (ix1 c) (row_resultIdx wf idx h0 c) fun j' hj' => ?_
  obtain ⟨e, rfl⟩ : ∃ e : Fin K, j' = ix1 e := ⟨j' 0, eq_ix1 j'⟩
  rw [row_resultIdx wf idx h0 e] at hj'
  have h1 : e = c := congrFun (Option.some.inj hj') 1
  rw [h1]

end Cert.Lib.ScatterOnce

end
-- ==== Proof.LibCornerScatter.lean ====
/-
  A SET-SCATTER INTO THE TOP-LEFT CORNER of a larger array, read at an entry.

  `zeros((P, Q)).at[:M, :K].set(u)` (with `M ≤ P`, `K ≤ Q`) is a `stablehlo.scatter` whose body returns the update,
  with ONE start index, the vector `(0, 0)`, and the whole updates array `[M, K]` as its window: update `(r, c)` lands at
  the operand entry `(0 + r, 0 + c) = (r, c)`.  Distinct updates land on distinct entries, all inside the operand, so
  * an entry `(r, c)` with `r < M` and `c < K` (inside the corner) ends at update `(r, c)`, and
  * every other entry (`r ≥ M` or `c ≥ K`) is the target of no update and keeps the operand's contents.
  The one-axis form `zeros((P,)).at[:M].set(u)` (one start index `0`, updates `[M]`, `M ≤ P`) is the same with one
  coordinate: entry `r < M` ends at update `r`, entry `r ≥ M` keeps the operand's contents.
  Generic in the sizes and the element type; a program's record equals `cornerDims2` / `cornerDims1` by `rfl`.
-/
import Idealize.ShloMosaic.PureOps.Ideal
import Idealize.ShloMosaic.Lib.ValueIdx
import proofs.«129942_j63720134803801_2_alg».proof.Proof.LibScatterOnce

noncomputable section

namespace Cert.Lib.CornerScatter

open Idealize.ShloMosaic Idealize.ShloMosaic.ValueIdx Cert.Lib.ScatterOnce

/-! ## A set-scatter at an entry no update lands on -/

section Miss

variable {s si u : Shape} {w : Nat} {α : Type}

/-- No update lands on `i'`: the entry keeps the operand's contents. -/
theorem scatter_set_apply_of_miss (d : ScatterDims s si u) (x : s.Idx → α) (idx : IVec si w) (upd : u.Idx → α)
    (i' : s.Idx) (hmiss : ∀ j, d.resultIdx? j idx ≠ some i') :
    Host.scatter d (fun _ b => b) x idx upd i' = x i' := by
  unfold Host.scatter
  refine foldl_keep (fun n : Fin u.numel => d.resultIdx? (u.rowMajor.symm n) idx) (fun n => upd (u.rowMajor.symm n)) _ ?_ ?_ i'
    (List.finRange u.numel) x ?_
  · intro r n i hn; simp only [hn]
  · intro r n hn; simp only [hn]
  · rintro ⟨n, _, hn⟩; exact hmiss _ hn

end Miss

variable {w : Nat} {α : Type}

/-! ## Two axes -/

section Two

variable {P Q M K : Nat}

/-- Operand `[P, Q]`, one start index (a vector of two components), updates `[M, K]`: both update axes are window axes,
    nothing inserted, the two components of the start index name the operand's two axes in order. -/
abbrev cornerDims2 (P Q M K : Nat)
    (wf : ScatterDims.WF ⟨2, ![P, Q]⟩ ⟨1, ![2]⟩ ⟨2, ![M, K]⟩ [0, 1] [] [0, 1] 0) :
    ScatterDims ⟨2, ![P, Q]⟩ ⟨1, ![2]⟩ ⟨2, ![M, K]⟩ where
  updateWindowDims := [0, 1]
  insertedWindowDims := []
  scatterDimsToOperandDims := [0, 1]
  indexVectorDim := 0
  wf := wf

/-- With the start index `(0, 0)`, update `(a, b)` lands at the operand entry `(a, b)`. -/
theorem corner2_resultIdx (wf : ScatterDims.WF ⟨2, ![P, Q]⟩ ⟨1, ![2]⟩ ⟨2, ![M, K]⟩ [0, 1] [] [0, 1] 0)
    (hM : M ≤ P) (hK : K ≤ Q) (idx : IVec ⟨1, ![2]⟩ w) (h0 : ∀ e : Fin 2, (idx (ix1 e)).toInt = 0)
    (a : Fin M) (b : Fin K) :
    (cornerDims2 P Q M K wf).resultIdx? (ix2 a b) idx =
      some (ix2 (⟨a.val, Nat.lt_of_lt_of_le a.isLt hM⟩ : Fin P) (⟨b.val, Nat.lt_of_lt_of_le b.isLt hK⟩ : Fin Q)) := by
  have hsi : ∀ c, (cornerDims2 P Q M K wf).siIdx (ix2 a b) c = ix1 (⟨c.val, c.isLt⟩ : Fin 2) := by
    intro c; funext e; refine Fin.ext ?_
    match e with
    | ⟨0, _⟩ => rfl
  have hs : ∀ a', (cornerDims2 P Q M K wf).start (ix2 a b) idx a' = 0 := by
    intro a'
    unfold ScatterDims.start
    split
    · rw [hsi]; exact h0 _
    · rfl
  have hw0 : (cornerDims2 P Q M K wf).window (ix2 a b) 0 = a.val := rfl
  have hw1 : (cornerDims2 P Q M K wf).window (ix2 a b) 1 = b.val := rfl
  have hla := a.isLt
  have hlb := b.isLt
  unfold ScatterDims.resultIdx?
  have hc : ∀ a', 0 ≤ (cornerDims2 P Q M K wf).start (ix2 a b) idx a' + ((cornerDims2 P Q M K wf).window (ix2 a b) a' : Int) ∧
      (cornerDims2 P Q M K wf).start (ix2 a b) idx a' + ((cornerDims2 P Q M K wf).window (ix2 a b) a' : Int) <
        ((⟨2, ![P, Q]⟩ : Shape).size a' : Int) := by
    intro a'
    match a' with
    | ⟨0, _⟩ =>
      show 0 ≤ (cornerDims2 P Q M K wf).start (ix2 a b) idx 0 + ((cornerDims2 P Q M K wf).window (ix2 a b) 0 : Int) ∧
        (cornerDims2 P Q M K wf).start (ix2 a b) idx 0 + ((cornerDims2 P Q M K wf).window (ix2 a b) 0 : Int) < (P : Int)
      rw [hs, hw0]; omega
    | ⟨1, _⟩ =>
      show 0 ≤ (cornerDims2 P Q M K wf).start (ix2 a b) idx 1 + ((cornerDims2 P Q M K wf).window (ix2 a b) 1 : Int) ∧
        (cornerDims2 P Q M K wf).start (ix2 a b) idx 1 + ((cornerDims2 P Q M K wf).window (ix2 a b) 1 : Int) < (Q : Int)
      rw [hs, hw1]; omega
  rw [dif_pos hc]
  congr 1
  funext a'
  refine Fin.ext ?_
  match a' with
  | ⟨0, _⟩ =>
    show ((cornerDims2 P Q M K wf).start (ix2 a b) idx 0 + ((cornerDims2 P Q M K wf).window (ix2 a b) 0 : Int)).toNat = a.val
    rw [hs, hw0]; omega
  | ⟨1, _⟩ =>
    show ((cornerDims2 P Q M K wf).start (ix2 a b) idx 1 + ((cornerDims2 P Q M K wf).window (ix2 a b) 1 : Int)).toNat = b.val
    rw [hs, hw1]; omega

/-- THE CORNER SET-SCATTER INSIDE THE CORNER: the entry `(a, b)` with `a < M`, `b < K` is update `(a, b)`. -/
theorem corner2_hit (d : ScatterDims ⟨2, ![P, Q]⟩ ⟨1, ![2]⟩ ⟨2, ![M, K]⟩)
    (wf : ScatterDims.WF ⟨2, ![P, Q]⟩ ⟨1, ![2]⟩ ⟨2, ![M, K]⟩ [0, 1] [] [0, 1] 0) (hd : d = cornerDims2 P Q M K wf)
    (hM : M ≤ P) (hK : K ≤ Q) (x : (⟨2, ![P, Q]⟩ : Shape).Idx → α) (idx : IVec ⟨1, ![2]⟩ w)
    (h0 : ∀ e : Fin 2, (idx (ix1 e)).toInt = 0) (upd : (⟨2, ![M, K]⟩ : Shape).Idx → α) (a : Fin M) (b : Fin K) :
    Host.scatter d (fun _ b => b) x idx upd
        (ix2 (⟨a.val, Nat.lt_of_lt_of_le a.isLt hM⟩ : Fin P) (⟨b.val, Nat.lt_of_lt_of_le b.isLt hK⟩ : Fin Q)) =
      upd (ix2 a b) := by
  subst hd
  refine scatter_set_apply_of_unique _ x idx upd _ (ix2 a b) (corner2_resultIdx wf hM hK idx h0 a b) fun j' hj' => ?_
  obtain ⟨e, f, rfl⟩ : ∃ (e : Fin M) (f : Fin K), j' = ix2 e f := ⟨j' 0, j' 1, eq_ix2 j'⟩
  rw [corner2_resultIdx wf hM hK idx h0 e f] at hj'
  have h := Option.some.inj hj'
  have h1 := congrArg Fin.val (congrFun h 0)
  have h2 := congrArg Fin.val (congrFun h 1)
  rw [Fin.ext (show e.val = a.val from h1), Fin.ext (show f.val = b.val from h2)]

/-- THE CORNER SET-SCATTER OUTSIDE THE CORNER: an entry `(a, b)` with `a ≥ M` or `b ≥ K` keeps the operand's contents. -/
theorem corner2_miss (d : ScatterDims ⟨2, ![P, Q]⟩ ⟨1, ![2]⟩ ⟨2, ![M, K]⟩)
    (wf : ScatterDims.WF ⟨2, ![P, Q]⟩ ⟨1, ![2]⟩ ⟨2, ![M, K]⟩ [0, 1] [] [0, 1] 0) (hd : d = cornerDims2 P Q M K wf)
    (hM : M ≤ P) (hK : K ≤ Q) (x : (⟨2, ![P, Q]⟩ : Shape).Idx → α) (idx : IVec ⟨1, ![2]⟩ w)
    (h0 : ∀ e : Fin 2, (idx (ix1 e)).toInt = 0) (upd : (⟨2, ![M, K]⟩ : Shape).Idx → α) (a : Fin P) (b : Fin Q)
    (hout : ¬ (a.val < M ∧ b.val < K)) :
    Host.scatter d (fun _ b => b) x idx upd (ix2 a b) = x (ix2 a b) := by
  subst hd
  refine scatter_set_apply_of_miss _ x idx upd _ fun j' hj' => hout ?_
  obtain ⟨e, f, rfl⟩ : ∃ (e : Fin M) (f : Fin K), j' = ix2 e f := ⟨j' 0, j' 1, eq_ix2 j'⟩
  rw [corner2_resultIdx wf hM hK idx h0 e f] at hj'
  have h := Option.some.inj hj'
  have h1 : e.val = a.val := congrArg Fin.val (congrFun h 0)
  have h2 : f.val = b.val := congrArg Fin.val (congrFun h 1)
  exact ⟨h1 ▸ e.isLt, h2 ▸ f.isLt⟩

end Two

/-! ## One axis -/

section One

variable {P M : Nat}

/-- Operand `[P]`, one start index (a vector of one component), updates `[M]`: the update axis is the window axis, nothing
    inserted, the start index's component names the operand's axis. -/
abbrev cornerDims1 (P M : Nat) (wf : ScatterDims.WF ⟨1, ![P]⟩ ⟨1, ![1]⟩ ⟨1, ![M]⟩ [0] [] [0] 0) :
    ScatterDims ⟨1, ![P]⟩ ⟨1, ![1]⟩ ⟨1, ![M]⟩ where
  updateWindowDims := [0]
  insertedWindowDims := []
  scatterDimsToOperandDims := [0]
  indexVectorDim := 0
  wf := wf

/-- With the start index `0`, update `a` lands at the operand entry `a`. -/
theorem corner1_resultIdx (wf : ScatterDims.WF ⟨1, ![P]⟩ ⟨1, ![1]⟩ ⟨1, ![M]⟩ [0] [] [0] 0)
    (hM : M ≤ P) (idx : IVec ⟨1, ![1]⟩ w) (h0 : (idx (ix1 (0 : Fin 1))).toInt = 0) (a : Fin M) :
    (cornerDims1 P M wf).resultIdx? (ix1 a) idx = some (ix1 (⟨a.val, Nat.lt_of_lt_of_le a.isLt hM⟩ : Fin P)) := by
  have hsi : ∀ c, (cornerDims1 P M wf).siIdx (ix1 a) c = ix1 (0 : Fin 1) := by
    intro c; funext e; refine Fin.ext ?_
    have hc : c.val < 1 := c.isLt
    match e with
    | ⟨0, _⟩ => show c.val = 0; omega
  have hs : (cornerDims1 P M wf).start (ix1 a) idx 0 = 0 := by
    unfold ScatterDims.start
    split
    · rw [hsi]; exact h0
    · rfl
  have hw : (cornerDims1 P M wf).window (ix1 a) 0 = a.val := rfl
  have hla := a.isLt
  unfold ScatterDims.resultIdx?
  have hc : ∀ a', 0 ≤ (cornerDims1 P M wf).start (ix1 a) idx a' + ((cornerDims1 P M wf).window (ix1 a) a' : Int) ∧
      (cornerDims1 P M wf).start (ix1 a) idx a' + ((cornerDims1 P M wf).window (ix1 a) a' : Int) <
        ((⟨1, ![P]⟩ : Shape).size a' : Int) := by
    intro a'
    match a' with
    | ⟨0, _⟩ =>
      show 0 ≤ (cornerDims1 P M wf).start (ix1 a) idx 0 + ((cornerDims1 P M wf).window (ix1 a) 0 : Int) ∧
        (cornerDims1 P M wf).start (ix1 a) idx 0 + ((cornerDims1 P M wf).window (ix1 a) 0 : Int) < (P : Int)
      rw [hs, hw]; omega
  rw [dif_pos hc]
  congr 1
  funext a'
  refine Fin.ext ?_
  match a' with
  | ⟨0, _⟩ =>
    show ((cornerDims1 P M wf).start (ix1 a) idx 0 + ((cornerDims1 P M wf).window (ix1 a) 0 : Int)).toNat = a.val
    rw [hs, hw]; omega

/-- THE ONE-AXIS CORNER SET-SCATTER INSIDE THE CORNER: the entry `a < M` is update `a`. -/
theorem corner1_hit (d : ScatterDims ⟨1, ![P]⟩ ⟨1, ![1]⟩ ⟨1, ![M]⟩)
    (wf : ScatterDims.WF ⟨1, ![P]⟩ ⟨1, ![1]⟩ ⟨1, ![M]⟩ [0] [] [0] 0) (hd : d = cornerDims1 P M wf)
    (hM : M ≤ P) (x : (⟨1, ![P]⟩ : Shape).Idx → α) (idx : IVec ⟨1, ![1]⟩ w)
    (h0 : (idx (ix1 (0 : Fin 1))).toInt = 0) (upd : (⟨1, ![M]⟩ : Shape).Idx → α) (a : Fin M) :
    Host.scatter d (fun _ b => b) x idx upd (ix1 (⟨a.val, Nat.lt_of_lt_of_le a.isLt hM⟩ : Fin P)) = upd (ix1 a) := by
  subst hd
  refine scatter_set_apply_of_unique _ x idx upd _ (ix1 a) (corner1_resultIdx wf hM idx h0 a) fun j' hj' => ?_
  obtain ⟨e, rfl⟩ : ∃ e : Fin M, j' = ix1 e := ⟨j' 0, eq_ix1 j'⟩
  rw [corner1_resultIdx wf hM idx h0 e] at hj'
  have h1 := congrArg Fin.val (congrFun (Option.some.inj hj') 0)
  rw [Fin.ext (show e.val = a.val from h1)]

/-- THE ONE-AXIS CORNER SET-SCATTER OUTSIDE THE CORNER: an entry `a ≥ M` keeps the operand's contents. -/
theorem corner1_miss (d : ScatterDims ⟨1, ![P]⟩ ⟨1, ![1]⟩ ⟨1, ![M]⟩)
    (wf : ScatterDims.WF ⟨1, ![P]⟩ ⟨1, ![1]⟩ ⟨1, ![M]⟩ [0] [] [0] 0) (hd : d = cornerDims1 P M wf)
    (hM : M ≤ P) (x : (⟨1, ![P]⟩ : Shape).Idx → α) (idx : IVec ⟨1, ![1]⟩ w)
    (h0 : (idx (ix1 (0 : Fin 1))).toInt = 0) (upd : (⟨1, ![M]⟩ : Shape).Idx → α) (a : Fin P) (hout : ¬ a.val < M) :
    Host.scatter d (fun _ b => b) x idx upd (ix1 a) = x (ix1 a) := by
  subst hd
  refine scatter_set_apply_of_miss _ x idx upd _ fun j' hj' => hout ?_
  obtain ⟨e, rfl⟩ : ∃ e : Fin M, j' = ix1 e := ⟨j' 0, eq_ix1 j'⟩
  rw [corner1_resultIdx wf hM idx h0 e] at hj'
  have h1 : e.val = a.val := congrArg Fin.val (congrFun (Option.some.inj hj') 0)
  exact h1 ▸ e.isLt

end One

/-! ## A program's records are instances -/

example (wf) : (⟨[0, 1], [], [0, 1], 0, wf⟩ : ScatterDims ⟨2, ![16, 16]⟩ ⟨1, ![2]⟩ ⟨2, ![12, 11]⟩) = cornerDims2 16 16 12 11 wf := rfl
example (wf) : (⟨[0], [], [0], 0, wf⟩ : ScatterDims ⟨1, ![16]⟩ ⟨1, ![1]⟩ ⟨1, ![12]⟩) = cornerDims1 16 12 wf := rfl

end Cert.Lib.CornerScatter

end
-- ==== Proof.KPack.lean ====
/-
  The host's packing lines, read entry by entry, are the packings the network argument is stated over.

  The host packs eight rows of sixteen lanes into one row of 128 lanes.  For one layer with weights `W : [dout, din]` and
  bias `b : [dout]` (`din, dout ≤ 16`) it builds
  * the 128 × 128 weight: `Wᵀ : [din, dout]` written into the top-left corner of a zero 16 × 16 block, and that block put
    eight times down the diagonal (the Kronecker product with the 8 × 8 identity).  Entry `(k, l)` is
    `W (l mod 16, k mod 16)` when `k / 16 = l / 16`, `k mod 16 < din` and `l mod 16 < dout`, and zero otherwise;
  * the 128-lane bias: `b` written into the first entries of a zero 16-vector, and that vector repeated eight times.
    Lane `l` is `b (l mod 16)` when `l mod 16 < dout`, and zero otherwise;
  and it regroups the input's rows of 12, padded to 16 lanes, eight to a packed row: input row `r` is lanes
  `16 (r mod 8) .. 16 (r mod 8) + 11` of packed row `r / 8`.
  Each statement follows from the entrywise reading of the Kronecker product, the tiling and the regrouping, and from the
  set-scatter into a corner: inside the corner the update, outside it the zero operand.
-/
import proofs.«129942_j63720134803801_2_alg».proof.Proof.LibCornerScatter
import proofs.«129942_j63720134803801_2_alg».proof.Proof.PackRead
import proofs.«129942_j63720134803801_2_alg».proof.Proof.KHostDefs
import proofs.«129942_j63720134803801_2_alg».proof.Proof.Net

noncomputable section

namespace Cert.KernelIdeal.KPack

open Idealize.ShloMosaic Idealize.ShloMosaic.ValueIdx Cert.KernelIdeal Cert.KernelIdeal.PackRead Cert.KernelIdeal.KHost
  Cert.Lib.CornerScatter Cert.Net
open Cert.KernelIdeal.Facts₀ Cert.KernelIdeal.Facts

variable [Cert.KernelIdeal.Facts]

/-! ## The constants -/

/-- A concatenation all of whose pieces are constantly `c` is constantly `c`. -/
theorem concatenate_apply_of_const {α : Type} {t : Shape} (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

/-- The zero block is zero at every entry. -/
theorem zeros16x16_apply (i : S16x16.Idx) : zeros16x16 i = 0 := by
  unfold zeros16x16
  refine (broadcastInDim_scalar_apply bcast_S_S16x16 _ i).trans ?_
  exact Ideal.ofBits_zero_f32

/-- The zero vector is zero at every entry. -/
theorem zeros16_apply (i : S16.Idx) : zeros16 i = 0 := by
  unfold zeros16
  refine (broadcastInDim_scalar_apply bcast_S_S16 _ i).trans ?_
  exact Ideal.ofBits_zero_f32

/-- The one scatter index is the zero word. -/
theorem idx0_apply (i : S1.Idx) : idx0 i = 0#32 := by
  unfold idx0
  exact broadcastInDim_scalar_apply bcast_S_S1 _ i

/-- The one scatter index reads zero. -/
theorem idx0_toInt : (idx0 (ix1 (0 : Fin 1))).toInt = 0 := by
  rw [idx0_apply]; rfl

/-- Both scatter indices are the zero word. -/
theorem idx00_apply (j : S2.Idx) : idx00 j = 0#32 := by
  unfold idx00
  refine concatenate_apply_of_const _ _ _ _ (fun p hp i => ?_) j
  simp only [List.mem_cons, List.not_mem_nil, or_false, or_self] at hp
  subst hp
  exact idx0_apply i

/-- Both scatter indices read zero. -/
theorem idx00_toInt (e : Fin 2) : (idx00 (ix1 e)).toInt = 0 := by
  rw [idx00_apply]; rfl

/-! ## The packed weights, bias and input -/

/-- THE PACKED WEIGHT. The transposed weights written into the top-left corner of a zero 16 × 16 block, the block repeated
    down the diagonal of a 128 × 128 matrix: entry `(k, l)` is `W (l mod 16, k mod 16)` when `k` and `l` lie in the same
    block of sixteen and `k mod 16 < din`, `l mod 16 < dout`; zero otherwise. -/
theorem packW {din dout : ℕ} (hdin : din ≤ 16) (hdout : dout ≤ 16) (d : ScatterDims S16x16 S2 ⟨2, ![din, dout]⟩)
    (wf : ScatterDims.WF ⟨2, ![16, 16]⟩ ⟨1, ![2]⟩ ⟨2, ![din, dout]⟩ [0, 1] [] [0, 1] 0)
    (hd : d = cornerDims2 16 16 din dout wf)
    (htr : (⟨2, ![dout, din]⟩ : Shape).Transposes [1, 0] ⟨2, ![din, dout]⟩) (W : FVec Ideal ⟨2, ![dout, din]⟩ .f32) :
    PackW din dout
      (fun k l => kron8 eye8 (Host.scatter d (fun _ b => b) zeros16x16 idx00 (transpose ⟨2, ![din, dout]⟩ [1, 0] W htr)) (ix2 k l))
      (fun j k => W (ix2 j k)) := by
  intro k l
  show kron8 eye8 _ (ix2 k l) = _
  rw [kron8_eye8_apply]
  by_cases hb : k.val / 16 = l.val / 16
  · rw [if_pos hb, if_pos hb]
    by_cases hh : k.val % 16 < din ∧ l.val % 16 < dout
    · rw [dif_pos hh]
      refine (corner2_hit d wf hd hdin hdout zeros16x16 idx00 idx00_toInt _
        (⟨k.val % 16, hh.1⟩ : Fin din) (⟨l.val % 16, hh.2⟩ : Fin dout)).trans ?_
      exact transpose_apply [1, 0] W htr _ (ix2 (⟨l.val % 16, hh.2⟩ : Fin dout) (⟨k.val % 16, hh.1⟩ : Fin din))
        fun b => match b with | ⟨0, _⟩ => rfl | ⟨1, _⟩ => rfl
    · rw [dif_neg hh]
      exact (corner2_miss d wf hd hdin hdout zeros16x16 idx00 idx00_toInt _ _ _ hh).trans (zeros16x16_apply _)
  · rw [if_neg hb, if_neg hb]

/-- THE PACKED BIAS. The bias written into the first entries of a zero 16-vector, the vector repeated eight times along a
    row of 128 lanes: lane `l` is `b (l mod 16)` when `l mod 16 < dout`; zero otherwise. -/
theorem packB {dout : ℕ} (hdout : dout ≤ 16) (d : ScatterDims S16 S1 ⟨1, ![dout]⟩)
    (wf : ScatterDims.WF ⟨1, ![16]⟩ ⟨1, ![1]⟩ ⟨1, ![dout]⟩ [0] [] [0] 0) (hd : d = cornerDims1 16 dout wf)
    (b : FVec Ideal ⟨1, ![dout]⟩ .f32) :
    PackB dout (fun l => tile8 (Host.scatter d (fun _ b => b) zeros16 idx0 b) (ix2 (0 : Fin 1) l)) (fun j => b (ix1 j)) := by
  intro l
  show tile8 _ (ix2 (0 : Fin 1) l) = _
  rw [tile8_apply]
  by_cases hh : l.val % 16 < dout
  · rw [dif_pos hh]
    exact corner1_hit d wf hd hdout zeros16 idx0 idx0_toInt b (⟨l.val % 16, hh⟩ : Fin dout)
  · rw [dif_neg hh]
    exact (corner1_miss d wf hd hdout zeros16 idx0 idx0_toInt b _ hh).trans (zeros16_apply _)

/-- THE PACKED INPUT. Input row `r` sits in packed row `r / 8`, in the sixteen lanes of block `r mod 8`: lane
    `16 (r mod 8) + q` of that packed row is entry `q` of row `r`, because `8 (r / 8) + r mod 8 = r`. -/
theorem repX (x : FVec Ideal S2000000x12 .f32) (z : FVec Ideal S_ .f32) (r : Fin 2000000) :
    Rep 12 (⟨r.val % 8, Nat.mod_lt _ (by decide)⟩ : Fin 8)
      (fun k => packX x z (ix2 (⟨r.val / 8, by omega⟩ : Fin 250000) k)) (fun q => x (ix2 r q)) := by
  intro q hq
  show packX x z (ix2 (⟨r.val / 8, by omega⟩ : Fin 250000) (⟨16 * (r.val % 8) + q.val, hq⟩ : Fin 128)) = x (ix2 r q)
  refine (packX_apply x z (⟨r.val / 8, by omega⟩ : Fin 250000) (⟨r.val % 8, Nat.mod_lt _ (by decide)⟩ : Fin 8) q).trans ?_
  have e : (⟨8 * (r.val / 8) + r.val % 8, by omega⟩ : Fin 2000000) = r := Fin.ext (by show 8 * (r.val / 8) + r.val % 8 = r.val; omega)
  show x (ix2 (⟨8 * (r.val / 8) + r.val % 8, _⟩ : Fin 2000000) q) = x (ix2 r q)
  rw [e]

/-! ## The program's records are instances -/

example (W : FVec Ideal S11x12 .f32) :=
  packW (din := 12) (dout := 11) (by decide) (by decide) scatter_S16x16_S2_S12x11_01_n_01_0
    scatter_S16x16_S2_S12x11_01_n_01_0.wf rfl transposes_S11x12_S12x11_1_0 W
example (b : FVec Ideal S12 .f32) :=
  packB (dout := 12) (by decide) scatter_S16_S1_S12_0_n_0_0 scatter_S16_S1_S12_0_n_0_0.wf rfl b

end Cert.KernelIdeal.KPack

end
-- ==== Proof.RefNet.lean ====
/-
  The reference, one row at a time.

  Every operation of the reference acts on each of the 2,000,000 rows independently: a product with a transposed
  weight matrix is, on row `r`, the map `h ↦ fun j => ∑ k, h k * W (j, k)`; the bias is added entry by entry, a saved
  activation likewise, and the maximum with zero is taken entry by entry.  So row `r` of the logits is the plain
  network of the row `r` of the input (`Cert.Net.refNet`).
-/
import proofs.«129942_j63720134803801_2_alg».proof.Proof.Gen.ReferenceIdeal.Read
import proofs.«129942_j63720134803801_2_alg».proof.Proof.Net
import Idealize.ShloMosaic.Lib.ValueIdx
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.ValueIdx Cert.Net

/-- Row `r` of an array of 2,000,000 rows. -/
def refRow {d : ℕ} (v : (⟨2, ![2000000, d]⟩ : Shape).Idx → EReal) (r : Fin 2000000) : Fin d → EReal := fun k => v (ix2 r k)

/-- Layer 1 of the reference on row `r`: the affine map of widths 12 → 12 then the maximum with zero. -/
theorem layer1 (x0 : (⟨S2000000x12, .f32⟩ : BufTy).Contents (Elt Ideal)) (x1 : (⟨S12x12, .f32⟩ : BufTy).Contents (Elt Ideal)) (x2 : (⟨S12, .f32⟩ : BufTy).Contents (Elt Ideal)) (r : Fin 2000000) :
    refRow (val_main_v5 (F := Ideal) x0 x1 x2) r = relu (lin (refRow x0 r) (fun j k => x1 (ix2 j k)) (fun j => x2 (ix1 j))) := by
  funext j
  show val_main_v5 (F := Ideal) x0 x1 x2 (ix2 r j) = max ((∑ k : Fin 12, x0 (ix2 r k) * x1 (ix2 j k)) + x2 (ix1 j)) 0
  rw [val_main_v5_apply, val_main_v4_apply, val_main_v1_apply, val_main_v3_apply, val_main_v2_apply, val_main_call0_v0_apply, val_main_call0_cst_apply]
  simp only [val_main_v0_apply]
  have e1 : ∀ k : Fin 12, lidx_main_v1 (ix2 r j) k = ix2 r k := fun k => funext fun a => by
    match a with
    | ⟨0, _⟩ => rfl
    | ⟨1, _⟩ => rfl
  have e2 : ∀ k : Fin 12, idx_main_v0 (ridx_main_v1 (ix2 r j) k) = ix2 j k := fun k => funext fun a => by
    match a with
    | ⟨0, _⟩ => rfl
    | ⟨1, _⟩ => rfl
  have e3 : idx_main_v2 (idx_main_v3 (ix2 r j)) = ix1 j := funext fun a => by
    match a with
    | ⟨0, _⟩ => rfl
  simp only [e1, e2, e3]
  exact congrArg (max _) Ideal.ofBits_zero_f32

/-- Layer 2 of the reference on row `r`: the affine map of widths 12 → 11 then the maximum with zero. -/
theorem layer2 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (r : Fin 2000000) :
    refRow (val_main_v11 (F := Ideal) x0 x1 x2 x3 x4) r = relu (lin (refRow (val_main_v5 (F := Ideal) x0 x1 x2) r) (fun j k => x3 (ix2 j k)) (fun j => x4 (ix1 j))) := by
  funext j
  show val_main_v11 (F := Ideal) x0 x1 x2 x3 x4 (ix2 r j) = max ((∑ k : Fin 12, (val_main_v5 (F := Ideal) x0 x1 x2) (ix2 r k) * x3 (ix2 j k)) + x4 (ix1 j)) 0
  rw [val_main_v11_apply, val_main_v10_apply, val_main_v7_apply, val_main_v9_apply, val_main_v8_apply, val_main_call1_v0_apply, val_main_call1_cst_apply]
  simp only [val_main_v6_apply]
  have e1 : ∀ k : Fin 12, lidx_main_v7 (ix2 r j) k = ix2 r k := fun k => funext fun a => by
    match a with
    | ⟨0, _⟩ => rfl
    | ⟨1, _⟩ => rfl
  have e2 : ∀ k : Fin 12, idx_main_v6 (ridx_main_v7 (ix2 r j) k) = ix2 j k := fun k => funext fun a => by
    match a with
    | ⟨0, _⟩ => rfl
    | ⟨1, _⟩ => rfl
  have e3 : idx_main_v8 (idx_main_v9 (ix2 r j)) = ix1 j := funext fun a => by
    match a with
    | ⟨0, _⟩ => rfl
  simp only [e1, e2, e3]
  exact congrArg (max _) Ideal.ofBits_zero_f32

/-- Layer 3 of the reference on row `r`: the affine map of widths 11 → 10 then the maximum with zero. -/
theorem layer3 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (r : Fin 2000000) :
    refRow (val_main_v17 (F := Ideal) x0 x1 x2 x3 x4 x5 x6) r = relu (lin (refRow (val_main_v11 (F := Ideal) x0 x1 x2 x3 x4) r) (fun j k => x5 (ix2 j k)) (fun j => x6 (ix1 j))) := by
  funext j
  show val_main_v17 (F := Ideal) x0 x1 x2 x3 x4 x5 x6 (ix2 r j) = max ((∑ k : Fin 11, (val_main_v11 (F := Ideal) x0 x1 x2 x3 x4) (ix2 r k) * x5 (ix2 j k)) + x6 (ix1 j)) 0
  rw [val_main_v17_apply, val_main_v16_apply, val_main_v13_apply, val_main_v15_apply, val_main_v14_apply, val_main_call2_v0_apply, val_main_call2_cst_apply]
  simp only [val_main_v12_apply]
  have e1 : ∀ k : Fin 11, lidx_main_v13 (ix2 r j) k = ix2 r k := fun k => funext fun a => by
    match a with
    | ⟨0, _⟩ => rfl
    | ⟨1, _⟩ => rfl
  have e2 : ∀ k : Fin 11, idx_main_v12 (ridx_main_v13 (ix2 r j) k) = ix2 j k := fun k => funext fun a => by
    match a with
    | ⟨0, _⟩ => rfl
    | ⟨1, _⟩ => rfl
  have e3 : idx_main_v14 (idx_main_v15 (ix2 r j)) = ix1 j := funext fun a => by
    match a with
    | ⟨0, _⟩ => rfl
  simp only [e1, e2, e3]
  exact congrArg (max _) Ideal.ofBits_zero_f32

/-- Layer 4 of the reference on row `r`: the affine map of widths 10 → 9 then the maximum with zero. -/
theorem layer4 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (r : Fin 2000000) :
    refRow (val_main_v23 (F := Ideal) x0 x1 x2 x3 x4 x5 x6 x7 x8) r = relu (lin (refRow (val_main_v17 (F := Ideal) x0 x1 x2 x3 x4 x5 x6) r) (fun j k => x7 (ix2 j k)) (fun j => x8 (ix1 j))) := by
  funext j
  show val_main_v23 (F := Ideal) x0 x1 x2 x3 x4 x5 x6 x7 x8 (ix2 r j) = max ((∑ k : Fin 10, (val_main_v17 (F := Ideal) x0 x1 x2 x3 x4 x5 x6) (ix2 r k) * x7 (ix2 j k)) + x8 (ix1 j)) 0
  rw [val_main_v23_apply, val_main_v22_apply, val_main_v19_apply, val_main_v21_apply, val_main_v20_apply, val_main_call3_v0_apply, val_main_call3_cst_apply]
  simp only [val_main_v18_apply]
  have e1 : ∀ k : Fin 10, lidx_main_v19 (ix2 r j) k = ix2 r k := fun k => funext fun a => by
    match a with
    | ⟨0, _⟩ => rfl
    | ⟨1, _⟩ => rfl
  have e2 : ∀ k : Fin 10, idx_main_v18 (ridx_main_v19 (ix2 r j) k) = ix2 j k := fun k => funext fun a => by
    match a with
    | ⟨0, _⟩ => rfl
    | ⟨1, _⟩ => rfl
  have e3 : idx_main_v20 (idx_main_v21 (ix2 r j)) = ix1 j := funext fun a => by
    match a with
    | ⟨0, _⟩ => rfl
  simp only [e1, e2, e3]
  exact congrArg (max _) Ideal.ofBits_zero_f32

/-- Layer 5 of the reference on row `r`: the affine map of widths 9 → 8 then the maximum with zero. -/
theorem layer5 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (r : Fin 2000000) :
    refRow (val_main_v29 (F := Ideal) x0 x1 x2 x3 x4 x5 x6 x7 x8 x9 x10) r = relu (lin (refRow (val_main_v23 (F := Ideal) x0 x1 x2 x3 x4 x5 x6 x7 x8) r) (fun j k => x9 (ix2 j k)) (fun j => x10 (ix1 j))) := by
  funext j
  show val_main_v29 (F := Ideal) x0 x1 x2 x3 x4 x5 x6 x7 x8 x9 x10 (ix2 r j) = max ((∑ k : Fin 9, (val_main_v23 (F := Ideal) x0 x1 x2 x3 x4 x5 x6 x7 x8) (ix2 r k) * x9 (ix2 j k)) + x10 (ix1 j)) 0
  rw [val_main_v29_apply, val_main_v28_apply, val_main_v25_apply, val_main_v27_apply, val_main_v26_apply, val_main_call4_v0_apply, val_main_call4_cst_apply]
  simp only [val_main_v24_apply]
  have e1 : ∀ k : Fin 9, lidx_main_v25 (ix2 r j) k = ix2 r k := fun k => funext fun a => by
    match a with
    | ⟨0, _⟩ => rfl
    | ⟨1, _⟩ => rfl
  have e2 : ∀ k : Fin 9, idx_main_v24 (ridx_main_v25 (ix2 r j) k) = ix2 j k := fun k => funext fun a => by
    match a with
    | ⟨0, _⟩ => rfl
    | ⟨1, _⟩ => rfl
  have e3 : idx_main_v26 (idx_main_v27 (ix2 r j)) = ix1 j := funext fun a => by
    match a with
    | ⟨0, _⟩ => rfl
  simp only [e1, e2, e3]
  exact congrArg (max _) Ideal.ofBits_zero_f32

/-- Layer 6 of the reference on row `r`: the affine map of widths 8 → 7 then the maximum with zero. -/
theorem layer6 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (r : Fin 2000000) :
    refRow (val_main_v35 (F := Ideal) x0 x1 x2 x3 x4 x5 x6 x7 x8 x9 x10 x11 x12) r = relu (lin (refRow (val_main_v29 (F := Ideal) x0 x1 x2 x3 x4 x5 x6 x7 x8 x9 x10) r) (fun j k => x11 (ix2 j k)) (fun j => x12 (ix1 j))) := by
  funext j
  show val_main_v35 (F := Ideal) x0 x1 x2 x3 x4 x5 x6 x7 x8 x9 x10 x11 x12 (ix2 r j) = max ((∑ k : Fin 8, (val_main_v29 (F := Ideal) x0 x1 x2 x3 x4 x5 x6 x7 x8 x9 x10) (ix2 r k) * x11 (ix2 j k)) + x12 (ix1 j)) 0
  rw [val_main_v35_apply, val_main_v34_apply, val_main_v31_apply, val_main_v33_apply, val_main_v32_apply, val_main_call5_v0_apply, val_main_call5_cst_apply]
  simp only [val_main_v30_apply]
  have e1 : ∀ k : Fin 8, lidx_main_v31 (ix2 r j) k = ix2 r k := fun k => funext fun a => by
    match a with
    | ⟨0, _⟩ => rfl
    | ⟨1, _⟩ => rfl
  have e2 : ∀ k : Fin 8, idx_main_v30 (ridx_main_v31 (ix2 r j) k) = ix2 j k := fun k => funext fun a => by
    match a with
    | ⟨0, _⟩ => rfl
    | ⟨1, _⟩ => rfl
  have e3 : idx_main_v32 (idx_main_v33 (ix2 r j)) = ix1 j := funext fun a => by
    match a with
    | ⟨0, _⟩ => rfl
  simp only [e1, e2, e3]
  exact congrArg (max _) Ideal.ofBits_zero_f32

/-- Layer 7 of the reference on row `r`: the affine map of widths 7 → 6 then the maximum with zero. -/
theorem layer7 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (r : Fin 2000000) :
    refRow (val_main_v41 (F := Ideal) x0 x1 x2 x3 x4 x5 x6 x7 x8 x9 x10 x11 x12 x13 x14) r = relu (lin (refRow (val_main_v35 (F := Ideal) x0 x1 x2 x3 x4 x5 x6 x7 x8 x9 x10 x11 x12) r) (fun j k => x13 (ix2 j k)) (fun j => x14 (ix1 j))) := by
  funext j
  show val_main_v41 (F := Ideal) x0 x1 x2 x3 x4 x5 x6 x7 x8 x9 x10 x11 x12 x13 x14 (ix2 r j) = max ((∑ k : Fin 7, (val_main_v35 (F := Ideal) x0 x1 x2 x3 x4 x5 x6 x7 x8 x9 x10 x11 x12) (ix2 r k) * x13 (ix2 j k)) + x14 (ix1 j)) 0
  rw [val_main_v41_apply, val_main_v40_apply, val_main_v37_apply, val_main_v39_apply, val_main_v38_apply, val_main_call6_v0_apply, val_main_call6_cst_apply]
  simp only [val_main_v36_apply]
  have e1 : ∀ k : Fin 7, lidx_main_v37 (ix2 r j) k = ix2 r k := fun k => funext fun a => by
    match a with
    | ⟨0, _⟩ => rfl
    | ⟨1, _⟩ => rfl
  have e2 : ∀ k : Fin 7, idx_main_v36 (ridx_main_v37 (ix2 r j) k) = ix2 j k := fun k => funext fun a => by
    match a with
    | ⟨0, _⟩ => rfl
    | ⟨1, _⟩ => rfl
  have e3 : idx_main_v38 (idx_main_v39 (ix2 r j)) = ix1 j := funext fun a => by
    match a with
    | ⟨0, _⟩ => rfl
  simp only [e1, e2, e3]
  exact congrArg (max _) Ideal.ofBits_zero_f32

/-- Layer 8 of the reference on row `r`: the affine map of widths 6 → 7, plus layer 6's activation, then the maximum with zero. -/
theorem layer8 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (r : Fin 2000000) :
    refRow (val_main_v48 (F := Ideal) x0 x1 x2 x3 x4 x5 x6 x7 x8 x9 x10 x11 x12 x13 x14 x15 x16) r = relu (vadd (lin (refRow (val_main_v41 (F := Ideal) x0 x1 x2 x3 x4 x5 x6 x7 x8 x9 x10 x11 x12 x13 x14) r) (fun j k => x15 (ix2 j k)) (fun j => x16 (ix1 j))) (refRow (val_main_v35 (F := Ideal) x0 x1 x2 x3 x4 x5 x6 x7 x8 x9 x10 x11 x12) r)) := by
  funext j
  show val_main_v48 (F := Ideal) x0 x1 x2 x3 x4 x5 x6 x7 x8 x9 x10 x11 x12 x13 x14 x15 x16 (ix2 r j) = max (((∑ k : Fin 6, (val_main_v41 (F := Ideal) x0 x1 x2 x3 x4 x5 x6 x7 x8 x9 x10 x11 x12 x13 x14) (ix2 r k) * x15 (ix2 j k)) + x16 (ix1 j)) + (val_main_v35 (F := Ideal) x0 x1 x2 x3 x4 x5 x6 x7 x8 x9 x10 x11 x12) (ix2 r j)) 0
  rw [val_main_v48_apply, val_main_v47_apply, val_main_v46_apply, val_main_v43_apply, val_main_v45_apply, val_main_v44_apply, val_main_call7_v0_apply, val_main_call7_cst_apply]
  simp only [val_main_v42_apply]
  have e1 : ∀ k : Fin 6, lidx_main_v43 (ix2 r j) k = ix2 r k := fun k => funext fun a => by
    match a with
    | ⟨0, _⟩ => rfl
    | ⟨1, _⟩ => rfl
  have e2 : ∀ k : Fin 6, idx_main_v42 (ridx_main_v43 (ix2 r j) k) = ix2 j k := fun k => funext fun a => by
    match a with
    | ⟨0, _⟩ => rfl
    | ⟨1, _⟩ => rfl
  have e3 : idx_main_v44 (idx_main_v45 (ix2 r j)) = ix1 j := funext fun a => by
    match a with
    | ⟨0, _⟩ => rfl
  simp only [e1, e2, e3]
  exact congrArg (max _) Ideal.ofBits_zero_f32

/-- Layer 9 of the reference on row `r`: the affine map of widths 7 → 8, plus layer 5's activation, then the maximum with zero. -/
theorem layer9 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (r : Fin 2000000) :
    refRow (val_main_v55 (F := Ideal) x0 x1 x2 x3 x4 x5 x6 x7 x8 x9 x10 x11 x12 x13 x14 x15 x16 x17 x18) r = relu (vadd (lin (refRow (val_main_v48 (F := Ideal) x0 x1 x2 x3 x4 x5 x6 x7 x8 x9 x10 x11 x12 x13 x14 x15 x16) r) (fun j k => x17 (ix2 j k)) (fun j => x18 (ix1 j))) (refRow (val_main_v29 (F := Ideal) x0 x1 x2 x3 x4 x5 x6 x7 x8 x9 x10) r)) := by
  funext j
  show val_main_v55 (F := Ideal) x0 x1 x2 x3 x4 x5 x6 x7 x8 x9 x10 x11 x12 x13 x14 x15 x16 x17 x18 (ix2 r j) = max (((∑ k : Fin 7, (val_main_v48 (F := Ideal) x0 x1 x2 x3 x4 x5 x6 x7 x8 x9 x10 x11 x12 x13 x14 x15 x16) (ix2 r k) * x17 (ix2 j k)) + x18 (ix1 j)) + (val_main_v29 (F := Ideal) x0 x1 x2 x3 x4 x5 x6 x7 x8 x9 x10) (ix2 r j)) 0
  rw [val_main_v55_apply, val_main_v54_apply, val_main_v53_apply, val_main_v50_apply, val_main_v52_apply, val_main_v51_apply, val_main_call8_v0_apply, val_main_call8_cst_apply]
  simp only [val_main_v49_apply]
  have e1 : ∀ k : Fin 7, lidx_main_v50 (ix2 r j) k = ix2 r k := fun k => funext fun a => by
    match a with
    | ⟨0, _⟩ => rfl
    | ⟨1, _⟩ => rfl
  have e2 : ∀ k : Fin 7, idx_main_v49 (ridx_main_v50 (ix2 r j) k) = ix2 j k := fun k => funext fun a => by
    match a with
    | ⟨0, _⟩ => rfl
    | ⟨1, _⟩ => rfl
  have e3 : idx_main_v51 (idx_main_v52 (ix2 r j)) = ix1 j := funext fun a => by
    match a with
    | ⟨0, _⟩ => rfl
  simp only [e1, e2, e3]
  exact congrArg (max _) Ideal.ofBits_zero_f32

/-- Layer 10 of the reference on row `r`: the affine map of widths 8 → 9, plus layer 4's activation, then the maximum with zero. -/
theorem layer10 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (r : Fin 2000000) :
    refRow (val_main_v62 (F := Ideal) x0 x1 x2 x3 x4 x5 x6 x7 x8 x9 x10 x11 x12 x13 x14 x15 x16 x17 x18 x19 x20) r = relu (vadd (lin (refRow (val_main_v55 (F := Ideal) x0 x1 x2 x3 x4 x5 x6 x7 x8 x9 x10 x11 x12 x13 x14 x15 x16 x17 x18) r) (fun j k => x19 (ix2 j k)) (fun j => x20 (ix1 j))) (refRow (val_main_v23 (F := Ideal) x0 x1 x2 x3 x4 x5 x6 x7 x8) r)) := by
  funext j
  show val_main_v62 (F := Ideal) x0 x1 x2 x3 x4 x5 x6 x7 x8 x9 x10 x11 x12 x13 x14 x15 x16 x17 x18 x19 x20 (ix2 r j) = max (((∑ k : Fin 8, (val_main_v55 (F := Ideal) x0 x1 x2 x3 x4 x5 x6 x7 x8 x9 x10 x11 x12 x13 x14 x15 x16 x17 x18) (ix2 r k) * x19 (ix2 j k)) + x20 (ix1 j)) + (val_main_v23 (F := Ideal) x0 x1 x2 x3 x4 x5 x6 x7 x8) (ix2 r j)) 0
  rw [val_main_v62_apply, val_main_v61_apply, val_main_v60_apply, val_main_v57_apply, val_main_v59_apply, val_main_v58_apply, val_main_call9_v0_apply, val_main_call9_cst_apply]
  simp only [val_main_v56_apply]
  have e1 : ∀ k : Fin 8, lidx_main_v57 (ix2 r j) k = ix2 r k := fun k => funext fun a => by
    match a with
    | ⟨0, _⟩ => rfl
    | ⟨1, _⟩ => rfl
  have e2 : ∀ k : Fin 8, idx_main_v56 (ridx_main_v57 (ix2 r j) k) = ix2 j k := fun k => funext fun a => by
    match a with
    | ⟨0, _⟩ => rfl
    | ⟨1, _⟩ => rfl
  have e3 : idx_main_v58 (idx_main_v59 (ix2 r j)) = ix1 j := funext fun a => by
    match a with
    | ⟨0, _⟩ => rfl
  simp only [e1, e2, e3]
  exact congrArg (max _) Ideal.ofBits_zero_f32

/-- Layer 11 of the reference on row `r`: the affine map of widths 9 → 10, plus layer 3's activation, then the maximum with zero. -/
theorem layer11 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (x21 : (⟨S10x9, .f32⟩ : BufTy).Contents (Elt Ideal)) (x22 : (⟨S10, .f32⟩ : BufTy).Contents (Elt Ideal)) (r : Fin 2000000) :
    refRow (val_main_v69 (F := Ideal) x0 x1 x2 x3 x4 x5 x6 x7 x8 x9 x10 x11 x12 x13 x14 x15 x16 x17 x18 x19 x20 x21 x22) r = relu (vadd (lin (refRow (val_main_v62 (F := Ideal) x0 x1 x2 x3 x4 x5 x6 x7 x8 x9 x10 x11 x12 x13 x14 x15 x16 x17 x18 x19 x20) r) (fun j k => x21 (ix2 j k)) (fun j => x22 (ix1 j))) (refRow (val_main_v17 (F := Ideal) x0 x1 x2 x3 x4 x5 x6) r)) := by
  funext j
  show val_main_v69 (F := Ideal) x0 x1 x2 x3 x4 x5 x6 x7 x8 x9 x10 x11 x12 x13 x14 x15 x16 x17 x18 x19 x20 x21 x22 (ix2 r j) = max (((∑ k : Fin 9, (val_main_v62 (F := Ideal) x0 x1 x2 x3 x4 x5 x6 x7 x8 x9 x10 x11 x12 x13 x14 x15 x16 x17 x18 x19 x20) (ix2 r k) * x21 (ix2 j k)) + x22 (ix1 j)) + (val_main_v17 (F := Ideal) x0 x1 x2 x3 x4 x5 x6) (ix2 r j)) 0
  rw [val_main_v69_apply, val_main_v68_apply, val_main_v67_apply, val_main_v64_apply, val_main_v66_apply, val_main_v65_apply, val_main_call10_v0_apply, val_main_call10_cst_apply]
  simp only [val_main_v63_apply]
  have e1 : ∀ k : Fin 9, lidx_main_v64 (ix2 r j) k = ix2 r k := fun k => funext fun a => by
    match a with
    | ⟨0, _⟩ => rfl
    | ⟨1, _⟩ => rfl
  have e2 : ∀ k : Fin 9, idx_main_v63 (ridx_main_v64 (ix2 r j) k) = ix2 j k := fun k => funext fun a => by
    match a with
    | ⟨0, _⟩ => rfl
    | ⟨1, _⟩ => rfl
  have e3 : idx_main_v65 (idx_main_v66 (ix2 r j)) = ix1 j := funext fun a => by
    match a with
    | ⟨0, _⟩ => rfl
  simp only [e1, e2, e3]
  exact congrArg (max _) Ideal.ofBits_zero_f32

/-- Layer 12 of the reference on row `r`: the affine map of widths 10 → 11, plus layer 2's activation, then the maximum with zero. -/
theorem layer12 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (x21 : (⟨S10x9, .f32⟩ : BufTy).Contents (Elt Ideal)) (x22 : (⟨S10, .f32⟩ : BufTy).Contents (Elt Ideal)) (x23 : (⟨S11x10, .f32⟩ : BufTy).Contents (Elt Ideal)) (x24 : (⟨S11, .f32⟩ : BufTy).Contents (Elt Ideal)) (r : Fin 2000000) :
    refRow (val_main_v76 (F := Ideal) x0 x1 x2 x3 x4 x5 x6 x7 x8 x9 x10 x11 x12 x13 x14 x15 x16 x17 x18 x19 x20 x21 x22 x23 x24) r = relu (vadd (lin (refRow (val_main_v69 (F := Ideal) x0 x1 x2 x3 x4 x5 x6 x7 x8 x9 x10 x11 x12 x13 x14 x15 x16 x17 x18 x19 x20 x21 x22) r) (fun j k => x23 (ix2 j k)) (fun j => x24 (ix1 j))) (refRow (val_main_v11 (F := Ideal) x0 x1 x2 x3 x4) r)) := by
  funext j
  show val_main_v76 (F := Ideal) x0 x1 x2 x3 x4 x5 x6 x7 x8 x9 x10 x11 x12 x13 x14 x15 x16 x17 x18 x19 x20 x21 x22 x23 x24 (ix2 r j) = max (((∑ k : Fin 10, (val_main_v69 (F := Ideal) x0 x1 x2 x3 x4 x5 x6 x7 x8 x9 x10 x11 x12 x13 x14 x15 x16 x17 x18 x19 x20 x21 x22) (ix2 r k) * x23 (ix2 j k)) + x24 (ix1 j)) + (val_main_v11 (F := Ideal) x0 x1 x2 x3 x4) (ix2 r j)) 0
  rw [val_main_v76_apply, val_main_v75_apply, val_main_v74_apply, val_main_v71_apply, val_main_v73_apply, val_main_v72_apply, val_main_call11_v0_apply, val_main_call11_cst_apply]
  simp only [val_main_v70_apply]
  have e1 : ∀ k : Fin 10, lidx_main_v71 (ix2 r j) k = ix2 r k := fun k => funext fun a => by
    match a with
    | ⟨0, _⟩ => rfl
    | ⟨1, _⟩ => rfl
  have e2 : ∀ k : Fin 10, idx_main_v70 (ridx_main_v71 (ix2 r j) k) = ix2 j k := fun k => funext fun a => by
    match a with
    | ⟨0, _⟩ => rfl
    | ⟨1, _⟩ => rfl
  have e3 : idx_main_v72 (idx_main_v73 (ix2 r j)) = ix1 j := funext fun a => by
    match a with
    | ⟨0, _⟩ => rfl
  simp only [e1, e2, e3]
  exact congrArg (max _) Ideal.ofBits_zero_f32

/-- Layer 13 of the reference on row `r`: the affine map of widths 11 → 12, plus layer 1's activation, then the maximum with zero. -/
theorem layer13 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (x21 : (⟨S10x9, .f32⟩ : BufTy).Contents (Elt Ideal)) (x22 : (⟨S10, .f32⟩ : BufTy).Contents (Elt Ideal)) (x23 : (⟨S11x10, .f32⟩ : BufTy).Contents (Elt Ideal)) (x24 : (⟨S11, .f32⟩ : BufTy).Contents (Elt Ideal)) (x25 : (⟨S12x11, .f32⟩ : BufTy).Contents (Elt Ideal)) (x26 : (⟨S12, .f32⟩ : BufTy).Contents (Elt Ideal)) (r : Fin 2000000) :
    refRow (val_main_v83 (F := Ideal) x0 x1 x2 x3 x4 x5 x6 x7 x8 x9 x10 x11 x12 x13 x14 x15 x16 x17 x18 x19 x20 x21 x22 x23 x24 x25 x26) r = relu (vadd (lin (refRow (val_main_v76 (F := Ideal) x0 x1 x2 x3 x4 x5 x6 x7 x8 x9 x10 x11 x12 x13 x14 x15 x16 x17 x18 x19 x20 x21 x22 x23 x24) r) (fun j k => x25 (ix2 j k)) (fun j => x26 (ix1 j))) (refRow (val_main_v5 (F := Ideal) x0 x1 x2) r)) := by
  funext j
  show val_main_v83 (F := Ideal) x0 x1 x2 x3 x4 x5 x6 x7 x8 x9 x10 x11 x12 x13 x14 x15 x16 x17 x18 x19 x20 x21 x22 x23 x24 x25 x26 (ix2 r j) = max (((∑ k : Fin 11, (val_main_v76 (F := Ideal) x0 x1 x2 x3 x4 x5 x6 x7 x8 x9 x10 x11 x12 x13 x14 x15 x16 x17 x18 x19 x20 x21 x22 x23 x24) (ix2 r k) * x25 (ix2 j k)) + x26 (ix1 j)) + (val_main_v5 (F := Ideal) x0 x1 x2) (ix2 r j)) 0
  rw [val_main_v83_apply, val_main_v82_apply, val_main_v81_apply, val_main_v78_apply, val_main_v80_apply, val_main_v79_apply, val_main_call12_v0_apply, val_main_call12_cst_apply]
  simp only [val_main_v77_apply]
  have e1 : ∀ k : Fin 11, lidx_main_v78 (ix2 r j) k = ix2 r k := fun k => funext fun a => by
    match a with
    | ⟨0, _⟩ => rfl
    | ⟨1, _⟩ => rfl
  have e2 : ∀ k : Fin 11, idx_main_v77 (ridx_main_v78 (ix2 r j) k) = ix2 j k := fun k => funext fun a => by
    match a with
    | ⟨0, _⟩ => rfl
    | ⟨1, _⟩ => rfl
  have e3 : idx_main_v79 (idx_main_v80 (ix2 r j)) = ix1 j := funext fun a => by
    match a with
    | ⟨0, _⟩ => rfl
  simp only [e1, e2, e3]
  exact congrArg (max _) Ideal.ofBits_zero_f32

/-- Layer 14 of the reference on row `r`: the affine map of widths 12 → 2. -/
theorem layer14 (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (x21 : (⟨S10x9, .f32⟩ : BufTy).Contents (Elt Ideal)) (x22 : (⟨S10, .f32⟩ : BufTy).Contents (Elt Ideal)) (x23 : (⟨S11x10, .f32⟩ : BufTy).Contents (Elt Ideal)) (x24 : (⟨S11, .f32⟩ : BufTy).Contents (Elt Ideal)) (x25 : (⟨S12x11, .f32⟩ : BufTy).Contents (Elt Ideal)) (x26 : (⟨S12, .f32⟩ : BufTy).Contents (Elt Ideal)) (x27 : (⟨S2x12, .f32⟩ : BufTy).Contents (Elt Ideal)) (x28 : (⟨S2, .f32⟩ : BufTy).Contents (Elt Ideal)) (r : Fin 2000000) :
    refRow (val_main_v88 (F := Ideal) x0 x1 x2 x3 x4 x5 x6 x7 x8 x9 x10 x11 x12 x13 x14 x15 x16 x17 x18 x19 x20 x21 x22 x23 x24 x25 x26 x27 x28) r = lin (refRow (val_main_v83 (F := Ideal) x0 x1 x2 x3 x4 x5 x6 x7 x8 x9 x10 x11 x12 x13 x14 x15 x16 x17 x18 x19 x20 x21 x22 x23 x24 x25 x26) r) (fun j k => x27 (ix2 j k)) (fun j => x28 (ix1 j)) := by
  funext j
  show val_main_v88 (F := Ideal) x0 x1 x2 x3 x4 x5 x6 x7 x8 x9 x10 x11 x12 x13 x14 x15 x16 x17 x18 x19 x20 x21 x22 x23 x24 x25 x26 x27 x28 (ix2 r j) = (∑ k : Fin 12, (val_main_v83 (F := Ideal) x0 x1 x2 x3 x4 x5 x6 x7 x8 x9 x10 x11 x12 x13 x14 x15 x16 x17 x18 x19 x20 x21 x22 x23 x24 x25 x26) (ix2 r k) * x27 (ix2 j k)) + x28 (ix1 j)
  rw [val_main_v88_apply, val_main_v85_apply, val_main_v87_apply, val_main_v86_apply]
  simp only [val_main_v84_apply]
  have e1 : ∀ k : Fin 12, lidx_main_v85 (ix2 r j) k = ix2 r k := fun k => funext fun a => by
    match a with
    | ⟨0, _⟩ => rfl
    | ⟨1, _⟩ => rfl
  have e2 : ∀ k : Fin 12, idx_main_v84 (ridx_main_v85 (ix2 r j) k) = ix2 j k := fun k => funext fun a => by
    match a with
    | ⟨0, _⟩ => rfl
    | ⟨1, _⟩ => rfl
  have e3 : idx_main_v86 (idx_main_v87 (ix2 r j)) = ix1 j := funext fun a => by
    match a with
    | ⟨0, _⟩ => rfl
  simp only [e1, e2, e3]
  rfl

/-- Row `r` of the logits is the plain network of row `r` of the input. -/
theorem logits_row (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (x21 : (⟨S10x9, .f32⟩ : BufTy).Contents (Elt Ideal)) (x22 : (⟨S10, .f32⟩ : BufTy).Contents (Elt Ideal)) (x23 : (⟨S11x10, .f32⟩ : BufTy).Contents (Elt Ideal)) (x24 : (⟨S11, .f32⟩ : BufTy).Contents (Elt Ideal)) (x25 : (⟨S12x11, .f32⟩ : BufTy).Contents (Elt Ideal)) (x26 : (⟨S12, .f32⟩ : BufTy).Contents (Elt Ideal)) (x27 : (⟨S2x12, .f32⟩ : BufTy).Contents (Elt Ideal)) (x28 : (⟨S2, .f32⟩ : BufTy).Contents (Elt Ideal)) (r : Fin 2000000) :
    refRow (val_main_v88 (F := Ideal) x0 x1 x2 x3 x4 x5 x6 x7 x8 x9 x10 x11 x12 x13 x14 x15 x16 x17 x18 x19 x20 x21 x22 x23 x24 x25 x26 x27 x28) r = refNet (refRow x0 r)
      (fun j k => x1 (ix2 j k)) (fun j => x2 (ix1 j))
      (fun j k => x3 (ix2 j k)) (fun j => x4 (ix1 j))
      (fun j k => x5 (ix2 j k)) (fun j => x6 (ix1 j))
      (fun j k => x7 (ix2 j k)) (fun j => x8 (ix1 j))
      (fun j k => x9 (ix2 j k)) (fun j => x10 (ix1 j))
      (fun j k => x11 (ix2 j k)) (fun j => x12 (ix1 j))
      (fun j k => x13 (ix2 j k)) (fun j => x14 (ix1 j))
      (fun j k => x15 (ix2 j k)) (fun j => x16 (ix1 j))
      (fun j k => x17 (ix2 j k)) (fun j => x18 (ix1 j))
      (fun j k => x19 (ix2 j k)) (fun j => x20 (ix1 j))
      (fun j k => x21 (ix2 j k)) (fun j => x22 (ix1 j))
      (fun j k => x23 (ix2 j k)) (fun j => x24 (ix1 j))
      (fun j k => x25 (ix2 j k)) (fun j => x26 (ix1 j))
      (fun j k => x27 (ix2 j k)) (fun j => x28 (ix1 j)) := by
  rw [layer14, layer13, layer12, layer11, layer10, layer9, layer8, layer7, layer6, layer5, layer4, layer3, layer2, layer1]
  rfl

end Cert.ReferenceIdeal.RefNet

end
-- ==== Proof.Bridge.lean ====
/-
  The kernel's logits are the reference's logits.

  Logit `j` of row `r` sits, on the kernel's side, in packed row `r / 8` of the output array at lane `16 (r % 8) + j`: the
  packed network of that packed row of the packed input, with the packed weights and biases.  The packed input holds row
  `r` in lanes `16 (r % 8) ..`, the packed weights are block diagonal with the transposed weights in each block's corner, the
  packed biases are the biases tiled.  So that lane is the plain network of row `r` — the reference's logit.  Stated
  first for any contents of the staged arrays that are the packed input, weights and biases, then at what the host lines
  before the region leave there.
-/
import proofs.«129942_j63720134803801_2_alg».proof.Proof.KTail
import proofs.«129942_j63720134803801_2_alg».proof.Proof.KHostA
import proofs.«129942_j63720134803801_2_alg».proof.Proof.KHostB
import proofs.«129942_j63720134803801_2_alg».proof.Proof.KHostC
import proofs.«129942_j63720134803801_2_alg».proof.Proof.KHostD
import proofs.«129942_j63720134803801_2_alg».proof.Proof.KPack
import proofs.«129942_j63720134803801_2_alg».proof.Proof.RefNet

set_option maxRecDepth 16384

noncomputable section

namespace Cert.KernelIdeal.Bridge

open Idealize.ShloMosaic Idealize.ShloMosaic.ValueIdx Idealize.SL.Sem Cert.KernelIdeal Cert.KernelIdeal.Gen Cert.KernelIdeal.GenP Cert.KernelIdeal.KBody Cert.KernelIdeal.KArr Cert.KernelIdeal.KTail Cert.KernelIdeal.KHost Cert.KernelIdeal.KPack Cert.KernelIdeal.PackRead Cert.Net

attribute [local irreducible] rowNet refNet

set_option maxHeartbeats 4000000 in
/-- For any contents of the staged arrays that are the packed input, weights and biases of the arguments `x0 … x28`: the
    logits read off the array of packed networks are the reference's logits of those arguments. -/
theorem logits_gen (c : Dev nD) (VV : (b : Ref sig .tc) → Buf (Elt Ideal) ((c.tc : Thread nD τ).loc b)) (x0 : FVec Ideal S2000000x12 .f32) (x1 : FVec Ideal S12x12 .f32) (x2 : FVec Ideal S12 .f32) (x3 : FVec Ideal S11x12 .f32) (x4 : FVec Ideal S11 .f32) (x5 : FVec Ideal S10x11 .f32) (x6 : FVec Ideal S10 .f32) (x7 : FVec Ideal S9x10 .f32) (x8 : FVec Ideal S9 .f32) (x9 : FVec Ideal S8x9 .f32) (x10 : FVec Ideal S8 .f32) (x11 : FVec Ideal S7x8 .f32) (x12 : FVec Ideal S7 .f32) (x13 : FVec Ideal S6x7 .f32) (x14 : FVec Ideal S6 .f32) (x15 : FVec Ideal S7x6 .f32) (x16 : FVec Ideal S7 .f32) (x17 : FVec Ideal S8x7 .f32) (x18 : FVec Ideal S8 .f32) (x19 : FVec Ideal S9x8 .f32) (x20 : FVec Ideal S9 .f32) (x21 : FVec Ideal S10x9 .f32) (x22 : FVec Ideal S10 .f32) (x23 : FVec Ideal S11x10 .f32) (x24 : FVec Ideal S11 .f32) (x25 : FVec Ideal S12x11 .f32) (x26 : FVec Ideal S12 .f32) (x27 : FVec Ideal S2x12 .f32) (x28 : FVec Ideal S2 .f32)
    (hx : (VV (Pipeline.arrRef spec0 0) : S250000x128.Idx → EReal) = packX x0 (sitofp .f32 (constantI S_ 32 0#32)))
    (hW1 : (VV (Pipeline.arrRef spec0 1) : S128x128.Idx → EReal) = kron8 eye8 (Host.scatter scatter_S16x16_S2_S12x12_01_n_01_0 (fun _ b => b) zeros16x16 idx00 (transpose S12x12 [1, 0] x1 transposes_S12x12_S12x12_1_0)))
    (hb1 : (VV (Pipeline.arrRef spec0 2) : S1x128.Idx → EReal) = tile8 (Host.scatter scatter_S16_S1_S12_0_n_0_0 (fun _ b => b) zeros16 idx0 x2))
    (hW2 : (VV (Pipeline.arrRef spec0 3) : S128x128.Idx → EReal) = kron8 eye8 (Host.scatter scatter_S16x16_S2_S12x11_01_n_01_0 (fun _ b => b) zeros16x16 idx00 (transpose S12x11 [1, 0] x3 transposes_S11x12_S12x11_1_0)))
    (hb2 : (VV (Pipeline.arrRef spec0 4) : S1x128.Idx → EReal) = tile8 (Host.scatter scatter_S16_S1_S11_0_n_0_0 (fun _ b => b) zeros16 idx0 x4))
    (hW3 : (VV (Pipeline.arrRef spec0 5) : S128x128.Idx → EReal) = kron8 eye8 (Host.scatter scatter_S16x16_S2_S11x10_01_n_01_0 (fun _ b => b) zeros16x16 idx00 (transpose S11x10 [1, 0] x5 transposes_S10x11_S11x10_1_0)))
    (hb3 : (VV (Pipeline.arrRef spec0 6) : S1x128.Idx → EReal) = tile8 (Host.scatter scatter_S16_S1_S10_0_n_0_0 (fun _ b => b) zeros16 idx0 x6))
    (hW4 : (VV (Pipeline.arrRef spec0 7) : S128x128.Idx → EReal) = kron8 eye8 (Host.scatter scatter_S16x16_S2_S10x9_01_n_01_0 (fun _ b => b) zeros16x16 idx00 (transpose S10x9 [1, 0] x7 transposes_S9x10_S10x9_1_0)))
    (hb4 : (VV (Pipeline.arrRef spec0 8) : S1x128.Idx → EReal) = tile8 (Host.scatter scatter_S16_S1_S9_0_n_0_0 (fun _ b => b) zeros16 idx0 x8))
    (hW5 : (VV (Pipeline.arrRef spec0 9) : S128x128.Idx → EReal) = kron8 eye8 (Host.scatter scatter_S16x16_S2_S9x8_01_n_01_0 (fun _ b => b) zeros16x16 idx00 (transpose S9x8 [1, 0] x9 transposes_S8x9_S9x8_1_0)))
    (hb5 : (VV (Pipeline.arrRef spec0 10) : S1x128.Idx → EReal) = tile8 (Host.scatter scatter_S16_S1_S8_0_n_0_0 (fun _ b => b) zeros16 idx0 x10))
    (hW6 : (VV (Pipeline.arrRef spec0 11) : S128x128.Idx → EReal) = kron8 eye8 (Host.scatter scatter_S16x16_S2_S8x7_01_n_01_0 (fun _ b => b) zeros16x16 idx00 (transpose S8x7 [1, 0] x11 transposes_S7x8_S8x7_1_0)))
    (hb6 : (VV (Pipeline.arrRef spec0 12) : S1x128.Idx → EReal) = tile8 (Host.scatter scatter_S16_S1_S7_0_n_0_0 (fun _ b => b) zeros16 idx0 x12))
    (hW7 : (VV (Pipeline.arrRef spec0 13) : S128x128.Idx → EReal) = kron8 eye8 (Host.scatter scatter_S16x16_S2_S7x6_01_n_01_0 (fun _ b => b) zeros16x16 idx00 (transpose S7x6 [1, 0] x13 transposes_S6x7_S7x6_1_0)))
    (hb7 : (VV (Pipeline.arrRef spec0 14) : S1x128.Idx → EReal) = tile8 (Host.scatter scatter_S16_S1_S6_0_n_0_0 (fun _ b => b) zeros16 idx0 x14))
    (hW8 : (VV (Pipeline.arrRef spec0 15) : S128x128.Idx → EReal) = kron8 eye8 (Host.scatter scatter_S16x16_S2_S6x7_01_n_01_0 (fun _ b => b) zeros16x16 idx00 (transpose S6x7 [1, 0] x15 transposes_S7x6_S6x7_1_0)))
    (hb8 : (VV (Pipeline.arrRef spec0 16) : S1x128.Idx → EReal) = tile8 (Host.scatter scatter_S16_S1_S7_0_n_0_0 (fun _ b => b) zeros16 idx0 x16))
    (hW9 : (VV (Pipeline.arrRef spec0 17) : S128x128.Idx → EReal) = kron8 eye8 (Host.scatter scatter_S16x16_S2_S7x8_01_n_01_0 (fun _ b => b) zeros16x16 idx00 (transpose S7x8 [1, 0] x17 transposes_S8x7_S7x8_1_0)))
    (hb9 : (VV (Pipeline.arrRef spec0 18) : S1x128.Idx → EReal) = tile8 (Host.scatter scatter_S16_S1_S8_0_n_0_0 (fun _ b => b) zeros16 idx0 x18))
    (hW10 : (VV (Pipeline.arrRef spec0 19) : S128x128.Idx → EReal) = kron8 eye8 (Host.scatter scatter_S16x16_S2_S8x9_01_n_01_0 (fun _ b => b) zeros16x16 idx00 (transpose S8x9 [1, 0] x19 transposes_S9x8_S8x9_1_0)))
    (hb10 : (VV (Pipeline.arrRef spec0 20) : S1x128.Idx → EReal) = tile8 (Host.scatter scatter_S16_S1_S9_0_n_0_0 (fun _ b => b) zeros16 idx0 x20))
    (hW11 : (VV (Pipeline.arrRef spec0 21) : S128x128.Idx → EReal) = kron8 eye8 (Host.scatter scatter_S16x16_S2_S9x10_01_n_01_0 (fun _ b => b) zeros16x16 idx00 (transpose S9x10 [1, 0] x21 transposes_S10x9_S9x10_1_0)))
    (hb11 : (VV (Pipeline.arrRef spec0 22) : S1x128.Idx → EReal) = tile8 (Host.scatter scatter_S16_S1_S10_0_n_0_0 (fun _ b => b) zeros16 idx0 x22))
    (hW12 : (VV (Pipeline.arrRef spec0 23) : S128x128.Idx → EReal) = kron8 eye8 (Host.scatter scatter_S16x16_S2_S10x11_01_n_01_0 (fun _ b => b) zeros16x16 idx00 (transpose S10x11 [1, 0] x23 transposes_S11x10_S10x11_1_0)))
    (hb12 : (VV (Pipeline.arrRef spec0 24) : S1x128.Idx → EReal) = tile8 (Host.scatter scatter_S16_S1_S11_0_n_0_0 (fun _ b => b) zeros16 idx0 x24))
    (hW13 : (VV (Pipeline.arrRef spec0 25) : S128x128.Idx → EReal) = kron8 eye8 (Host.scatter scatter_S16x16_S2_S11x12_01_n_01_0 (fun _ b => b) zeros16x16 idx00 (transpose S11x12 [1, 0] x25 transposes_S12x11_S11x12_1_0)))
    (hb13 : (VV (Pipeline.arrRef spec0 26) : S1x128.Idx → EReal) = tile8 (Host.scatter scatter_S16_S1_S12_0_n_0_0 (fun _ b => b) zeros16 idx0 x26))
    (hW14 : (VV (Pipeline.arrRef spec0 27) : S128x128.Idx → EReal) = kron8 eye8 (Host.scatter scatter_S16x16_S2_S12x2_01_n_01_0 (fun _ b => b) zeros16x16 idx00 (transpose S12x2 [1, 0] x27 transposes_S2x12_S12x2_1_0)))
    (hb14 : (VV (Pipeline.arrRef spec0 28) : S1x128.Idx → EReal) = tile8 (Host.scatter scatter_S16_S1_S2_0_n_0_0 (fun _ b => b) zeros16 idx0 x28)) :
    logitsK (GG c VV) = Cert.ReferenceIdeal.Read.val_main_v88 (F := Ideal) x0 x1 x2 x3 x4 x5 x6 x7 x8 x9 x10 x11 x12 x13 x14 x15 x16 x17 x18 x19 x20 x21 x22 x23 x24 x25 x26 x27 x28 := by
  funext i
  obtain ⟨r, j, rfl⟩ : ∃ (r : Fin 2000000) (j : Fin 2), i = ix2 r j := ⟨i 0, i 1, eq_ix2 i⟩
  have hr := r.isLt
  have hj := j.isLt
  rw [logitsK_apply, GG_apply]
  have px : Rep 12 (⟨r.val % 8, Nat.mod_lt _ (by decide)⟩ : Fin 8) (fun k => (VV (Pipeline.arrRef spec0 0)) (ix2 (⟨r.val / 8, by omega⟩ : Fin 250000) k)) (fun q => x0 (ix2 r q)) := fun q hq =>
    (congrFun hx _).trans (repX x0 (sitofp .f32 (constantI S_ 32 0#32)) r q hq)
  have pW1 : PackW 12 12 (matOf (VV (Pipeline.arrRef spec0 1))) (fun j k => x1 (ix2 j k)) := fun k l =>
    (congrFun hW1 (ix2 k l)).trans (packW (din := 12) (dout := 12) (by decide) (by decide) scatter_S16x16_S2_S12x12_01_n_01_0 scatter_S16x16_S2_S12x12_01_n_01_0.wf rfl transposes_S12x12_S12x12_1_0 x1 k l)
  have pb1 : PackB 12 (vecOf (VV (Pipeline.arrRef spec0 2))) (fun j => x2 (ix1 j)) := fun l =>
    (congrFun hb1 (ix2 (0 : Fin 1) l)).trans (packB (dout := 12) (by decide) scatter_S16_S1_S12_0_n_0_0 scatter_S16_S1_S12_0_n_0_0.wf rfl x2 l)
  have pW2 : PackW 12 11 (matOf (VV (Pipeline.arrRef spec0 3))) (fun j k => x3 (ix2 j k)) := fun k l =>
    (congrFun hW2 (ix2 k l)).trans (packW (din := 12) (dout := 11) (by decide) (by decide) scatter_S16x16_S2_S12x11_01_n_01_0 scatter_S16x16_S2_S12x11_01_n_01_0.wf rfl transposes_S11x12_S12x11_1_0 x3 k l)
  have pb2 : PackB 11 (vecOf (VV (Pipeline.arrRef spec0 4))) (fun j => x4 (ix1 j)) := fun l =>
    (congrFun hb2 (ix2 (0 : Fin 1) l)).trans (packB (dout := 11) (by decide) scatter_S16_S1_S11_0_n_0_0 scatter_S16_S1_S11_0_n_0_0.wf rfl x4 l)
  have pW3 : PackW 11 10 (matOf (VV (Pipeline.arrRef spec0 5))) (fun j k => x5 (ix2 j k)) := fun k l =>
    (congrFun hW3 (ix2 k l)).trans (packW (din := 11) (dout := 10) (by decide) (by decide) scatter_S16x16_S2_S11x10_01_n_01_0 scatter_S16x16_S2_S11x10_01_n_01_0.wf rfl transposes_S10x11_S11x10_1_0 x5 k l)
  have pb3 : PackB 10 (vecOf (VV (Pipeline.arrRef spec0 6))) (fun j => x6 (ix1 j)) := fun l =>
    (congrFun hb3 (ix2 (0 : Fin 1) l)).trans (packB (dout := 10) (by decide) scatter_S16_S1_S10_0_n_0_0 scatter_S16_S1_S10_0_n_0_0.wf rfl x6 l)
  have pW4 : PackW 10 9 (matOf (VV (Pipeline.arrRef spec0 7))) (fun j k => x7 (ix2 j k)) := fun k l =>
    (congrFun hW4 (ix2 k l)).trans (packW (din := 10) (dout := 9) (by decide) (by decide) scatter_S16x16_S2_S10x9_01_n_01_0 scatter_S16x16_S2_S10x9_01_n_01_0.wf rfl transposes_S9x10_S10x9_1_0 x7 k l)
  have pb4 : PackB 9 (vecOf (VV (Pipeline.arrRef spec0 8))) (fun j => x8 (ix1 j)) := fun l =>
    (congrFun hb4 (ix2 (0 : Fin 1) l)).trans (packB (dout := 9) (by decide) scatter_S16_S1_S9_0_n_0_0 scatter_S16_S1_S9_0_n_0_0.wf rfl x8 l)
  have pW5 : PackW 9 8 (matOf (VV (Pipeline.arrRef spec0 9))) (fun j k => x9 (ix2 j k)) := fun k l =>
    (congrFun hW5 (ix2 k l)).trans (packW (din := 9) (dout := 8) (by decide) (by decide) scatter_S16x16_S2_S9x8_01_n_01_0 scatter_S16x16_S2_S9x8_01_n_01_0.wf rfl transposes_S8x9_S9x8_1_0 x9 k l)
  have pb5 : PackB 8 (vecOf (VV (Pipeline.arrRef spec0 10))) (fun j => x10 (ix1 j)) := fun l =>
    (congrFun hb5 (ix2 (0 : Fin 1) l)).trans (packB (dout := 8) (by decide) scatter_S16_S1_S8_0_n_0_0 scatter_S16_S1_S8_0_n_0_0.wf rfl x10 l)
  have pW6 : PackW 8 7 (matOf (VV (Pipeline.arrRef spec0 11))) (fun j k => x11 (ix2 j k)) := fun k l =>
    (congrFun hW6 (ix2 k l)).trans (packW (din := 8) (dout := 7) (by decide) (by decide) scatter_S16x16_S2_S8x7_01_n_01_0 scatter_S16x16_S2_S8x7_01_n_01_0.wf rfl transposes_S7x8_S8x7_1_0 x11 k l)
  have pb6 : PackB 7 (vecOf (VV (Pipeline.arrRef spec0 12))) (fun j => x12 (ix1 j)) := fun l =>
    (congrFun hb6 (ix2 (0 : Fin 1) l)).trans (packB (dout := 7) (by decide) scatter_S16_S1_S7_0_n_0_0 scatter_S16_S1_S7_0_n_0_0.wf rfl x12 l)
  have pW7 : PackW 7 6 (matOf (VV (Pipeline.arrRef spec0 13))) (fun j k => x13 (ix2 j k)) := fun k l =>
    (congrFun hW7 (ix2 k l)).trans (packW (din := 7) (dout := 6) (by decide) (by decide) scatter_S16x16_S2_S7x6_01_n_01_0 scatter_S16x16_S2_S7x6_01_n_01_0.wf rfl transposes_S6x7_S7x6_1_0 x13 k l)
  have pb7 : PackB 6 (vecOf (VV (Pipeline.arrRef spec0 14))) (fun j => x14 (ix1 j)) := fun l =>
    (congrFun hb7 (ix2 (0 : Fin 1) l)).trans (packB (dout := 6) (by decide) scatter_S16_S1_S6_0_n_0_0 scatter_S16_S1_S6_0_n_0_0.wf rfl x14 l)
  have pW8 : PackW 6 7 (matOf (VV (Pipeline.arrRef spec0 15))) (fun j k => x15 (ix2 j k)) := fun k l =>
    (congrFun hW8 (ix2 k l)).trans (packW (din := 6) (dout := 7) (by decide) (by decide) scatter_S16x16_S2_S6x7_01_n_01_0 scatter_S16x16_S2_S6x7_01_n_01_0.wf rfl transposes_S7x6_S6x7_1_0 x15 k l)
  have pb8 : PackB 7 (vecOf (VV (Pipeline.arrRef spec0 16))) (fun j => x16 (ix1 j)) := fun l =>
    (congrFun hb8 (ix2 (0 : Fin 1) l)).trans (packB (dout := 7) (by decide) scatter_S16_S1_S7_0_n_0_0 scatter_S16_S1_S7_0_n_0_0.wf rfl x16 l)
  have pW9 : PackW 7 8 (matOf (VV (Pipeline.arrRef spec0 17))) (fun j k => x17 (ix2 j k)) := fun k l =>
    (congrFun hW9 (ix2 k l)).trans (packW (din := 7) (dout := 8) (by decide) (by decide) scatter_S16x16_S2_S7x8_01_n_01_0 scatter_S16x16_S2_S7x8_01_n_01_0.wf rfl transposes_S8x7_S7x8_1_0 x17 k l)
  have pb9 : PackB 8 (vecOf (VV (Pipeline.arrRef spec0 18))) (fun j => x18 (ix1 j)) := fun l =>
    (congrFun hb9 (ix2 (0 : Fin 1) l)).trans (packB (dout := 8) (by decide) scatter_S16_S1_S8_0_n_0_0 scatter_S16_S1_S8_0_n_0_0.wf rfl x18 l)
  have pW10 : PackW 8 9 (matOf (VV (Pipeline.arrRef spec0 19))) (fun j k => x19 (ix2 j k)) := fun k l =>
    (congrFun hW10 (ix2 k l)).trans (packW (din := 8) (dout := 9) (by decide) (by decide) scatter_S16x16_S2_S8x9_01_n_01_0 scatter_S16x16_S2_S8x9_01_n_01_0.wf rfl transposes_S9x8_S8x9_1_0 x19 k l)
  have pb10 : PackB 9 (vecOf (VV (Pipeline.arrRef spec0 20))) (fun j => x20 (ix1 j)) := fun l =>
    (congrFun hb10 (ix2 (0 : Fin 1) l)).trans (packB (dout := 9) (by decide) scatter_S16_S1_S9_0_n_0_0 scatter_S16_S1_S9_0_n_0_0.wf rfl x20 l)
  have pW11 : PackW 9 10 (matOf (VV (Pipeline.arrRef spec0 21))) (fun j k => x21 (ix2 j k)) := fun k l =>
    (congrFun hW11 (ix2 k l)).trans (packW (din := 9) (dout := 10) (by decide) (by decide) scatter_S16x16_S2_S9x10_01_n_01_0 scatter_S16x16_S2_S9x10_01_n_01_0.wf rfl transposes_S10x9_S9x10_1_0 x21 k l)
  have pb11 : PackB 10 (vecOf (VV (Pipeline.arrRef spec0 22))) (fun j => x22 (ix1 j)) := fun l =>
    (congrFun hb11 (ix2 (0 : Fin 1) l)).trans (packB (dout := 10) (by decide) scatter_S16_S1_S10_0_n_0_0 scatter_S16_S1_S10_0_n_0_0.wf rfl x22 l)
  have pW12 : PackW 10 11 (matOf (VV (Pipeline.arrRef spec0 23))) (fun j k => x23 (ix2 j k)) := fun k l =>
    (congrFun hW12 (ix2 k l)).trans (packW (din := 10) (dout := 11) (by decide) (by decide) scatter_S16x16_S2_S10x11_01_n_01_0 scatter_S16x16_S2_S10x11_01_n_01_0.wf rfl transposes_S11x10_S10x11_1_0 x23 k l)
  have pb12 : PackB 11 (vecOf (VV (Pipeline.arrRef spec0 24))) (fun j => x24 (ix1 j)) := fun l =>
    (congrFun hb12 (ix2 (0 : Fin 1) l)).trans (packB (dout := 11) (by decide) scatter_S16_S1_S11_0_n_0_0 scatter_S16_S1_S11_0_n_0_0.wf rfl x24 l)
  have pW13 : PackW 11 12 (matOf (VV (Pipeline.arrRef spec0 25))) (fun j k => x25 (ix2 j k)) := fun k l =>
    (congrFun hW13 (ix2 k l)).trans (packW (din := 11) (dout := 12) (by decide) (by decide) scatter_S16x16_S2_S11x12_01_n_01_0 scatter_S16x16_S2_S11x12_01_n_01_0.wf rfl transposes_S12x11_S11x12_1_0 x25 k l)
  have pb13 : PackB 12 (vecOf (VV (Pipeline.arrRef spec0 26))) (fun j => x26 (ix1 j)) := fun l =>
    (congrFun hb13 (ix2 (0 : Fin 1) l)).trans (packB (dout := 12) (by decide) scatter_S16_S1_S12_0_n_0_0 scatter_S16_S1_S12_0_n_0_0.wf rfl x26 l)
  have pW14 : PackW 12 2 (matOf (VV (Pipeline.arrRef spec0 27))) (fun j k => x27 (ix2 j k)) := fun k l =>
    (congrFun hW14 (ix2 k l)).trans (packW (din := 12) (dout := 2) (by decide) (by decide) scatter_S16x16_S2_S12x2_01_n_01_0 scatter_S16x16_S2_S12x2_01_n_01_0.wf rfl transposes_S2x12_S12x2_1_0 x27 k l)
  have pb14 : PackB 2 (vecOf (VV (Pipeline.arrRef spec0 28))) (fun j => x28 (ix1 j)) := fun l =>
    (congrFun hb14 (ix2 (0 : Fin 1) l)).trans (packB (dout := 2) (by decide) scatter_S16_S1_S2_0_n_0_0 scatter_S16_S1_S2_0_n_0_0.wf rfl x28 l)
  have hrep := rep_net (⟨r.val % 8, Nat.mod_lt _ (by decide)⟩ : Fin 8) _ _ px _ _ _ _ _ _ _ _ _ _ _ _ _ _ _ _ _ _ _ _ _ _ _ _ _ _ _ _ _ _ _ _ _ _ _ _ _ _ _ _ _ _ _ _ _ _ _ _ _ _ _ _ _ _ _ _
    pW1 pb1 pW2 pb2 pW3 pb3 pW4 pb4 pW5 pb5 pW6 pb6 pW7 pb7 pW8 pb8 pW9 pb9 pW10 pb10 pW11 pb11 pW12 pb12 pW13 pb13 pW14 pb14
  refine (hrep j (by omega)).trans ?_
  exact (congrFun (Cert.ReferenceIdeal.RefNet.logits_row x0 x1 x2 x3 x4 x5 x6 x7 x8 x9 x10 x11 x12 x13 x14 x15 x16 x17 x18 x19 x20 x21 x22 x23 x24 x25 x26 x27 x28 r) j).symm

variable (m : (ℓ : Loc nD τ sig) → Buf (Elt Ideal) ℓ)

set_option maxHeartbeats 4000000 in
/-- The kernel's logits, read off its output array, are the reference's logits of the same arguments. -/
theorem logits_eq (c : Dev nD) :
    logitsK (G m c) = Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  logits_gen c (V m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
    (V_x m c) (V_W1 m c) (V_b1 m c) (V_W2 m c) (V_b2 m c) (V_W3 m c) (V_b3 m c) (V_W4 m c) (V_b4 m c) (V_W5 m c) (V_b5 m c) (V_W6 m c) (V_b6 m c) (V_W7 m c) (V_b7 m c) (V_W8 m c) (V_b8 m c) (V_W9 m c) (V_b9 m c) (V_W10 m c) (V_b10 m c) (V_W11 m c) (V_b11 m c) (V_W12 m c) (V_b12 m c) (V_W13 m c) (V_b13 m c) (V_W14 m c) (V_b14 m c)

end Cert.KernelIdeal.Bridge

end
-- ==== Proof.RefTail.lean ====
/-
  The reference's last lines: the softmax of its logits, as one function of the logits.
-/
import proofs.«129942_j63720134803801_2_alg».proof.Proof.Gen.ReferenceIdeal.Read

noncomputable section

namespace Cert.ReferenceIdeal.RefTail

open Cert.ReferenceIdeal Cert.ReferenceIdeal.Gen Cert.ReferenceIdeal.Read Idealize.ShloMosaic

/-- The softmax over the two columns, as the host computes it: subtract the row maximum, exponentiate, divide by the row sum. -/
def softmaxR (L : FVec Ideal S2000000x2 .f32) : FVec Ideal S2000000x2 .f32 :=
  Host.divf
    (Host.exp (subf L (broadcastInDim S2000000x2 ![0, 1] bcast_S2000000x1_S2000000x2_0_1 (broadcastInDim S2000000x1 ![0] bcast_S2000000_S2000000x1_0
      (maximumf (broadcastInDim S2000000 ![] bcast_S_S2000000 (constant S_ .f32 0xFF800000#32)) (Host.reduce FloatOps.maximumf L (constant S_ .f32 0xFF800000#32) reducesTo_S2000000x2_S2000000_d1 h_S_))))))
    (broadcastInDim S2000000x2 ![0, 1] bcast_S2000000x1_S2000000x2_0_1 (broadcastInDim S2000000x1 ![0] bcast_S2000000_S2000000x1_0
      (Host.reduceAdd (Host.exp (subf L (broadcastInDim S2000000x2 ![0, 1] bcast_S2000000x1_S2000000x2_0_1 (broadcastInDim S2000000x1 ![0] bcast_S2000000_S2000000x1_0
        (maximumf (broadcastInDim S2000000 ![] bcast_S_S2000000 (constant S_ .f32 0xFF800000#32)) (Host.reduce FloatOps.maximumf L (constant S_ .f32 0xFF800000#32) reducesTo_S2000000x2_S2000000_d1 h_S_))))))
        (constant S_ .f32 0x00000000#32) reducesTo_S2000000x2_S2000000_d1 h_S_)))

/-- The reference's result is the softmax of its logits. -/
theorem result_eq (x0 : (⟨S2000000x12, .f32⟩ : BufTy).Contents (Elt Ideal)) (x1 : (⟨S12x12, .f32⟩ : BufTy).Contents (Elt Ideal)) (x2 : (⟨S12, .f32⟩ : BufTy).Contents (Elt Ideal)) (x3 : (⟨S11x12, .f32⟩ : BufTy).Contents (Elt Ideal)) (x4 : (⟨S11, .f32⟩ : BufTy).Contents (Elt Ideal)) (x5 : (⟨S10x11, .f32⟩ : BufTy).Contents (Elt Ideal)) (x6 : (⟨S10, .f32⟩ : BufTy).Contents (Elt Ideal)) (x7 : (⟨S9x10, .f32⟩ : BufTy).Contents (Elt Ideal)) (x8 : (⟨S9, .f32⟩ : BufTy).Contents (Elt Ideal)) (x9 : (⟨S8x9, .f32⟩ : BufTy).Contents (Elt Ideal)) (x10 : (⟨S8, .f32⟩ : BufTy).Contents (Elt Ideal)) (x11 : (⟨S7x8, .f32⟩ : BufTy).Contents (Elt Ideal)) (x12 : (⟨S7, .f32⟩ : BufTy).Contents (Elt Ideal)) (x13 : (⟨S6x7, .f32⟩ : BufTy).Contents (Elt Ideal)) (x14 : (⟨S6, .f32⟩ : BufTy).Contents (Elt Ideal)) (x15 : (⟨S7x6, .f32⟩ : BufTy).Contents (Elt Ideal)) (x16 : (⟨S7, .f32⟩ : BufTy).Contents (Elt Ideal)) (x17 : (⟨S8x7, .f32⟩ : BufTy).Contents (Elt Ideal)) (x18 : (⟨S8, .f32⟩ : BufTy).Contents (Elt Ideal)) (x19 : (⟨S9x8, .f32⟩ : BufTy).Contents (Elt Ideal)) (x20 : (⟨S9, .f32⟩ : BufTy).Contents (Elt Ideal)) (x21 : (⟨S10x9, .f32⟩ : BufTy).Contents (Elt Ideal)) (x22 : (⟨S10, .f32⟩ : BufTy).Contents (Elt Ideal)) (x23 : (⟨S11x10, .f32⟩ : BufTy).Contents (Elt Ideal)) (x24 : (⟨S11, .f32⟩ : BufTy).Contents (Elt Ideal)) (x25 : (⟨S12x11, .f32⟩ : BufTy).Contents (Elt Ideal)) (x26 : (⟨S12, .f32⟩ : BufTy).Contents (Elt Ideal)) (x27 : (⟨S2x12, .f32⟩ : BufTy).Contents (Elt Ideal)) (x28 : (⟨S2, .f32⟩ : BufTy).Contents (Elt Ideal)) :
    val_main_v99 (F := Ideal) x0 x1 x2 x3 x4 x5 x6 x7 x8 x9 x10 x11 x12 x13 x14 x15 x16 x17 x18 x19 x20 x21 x22 x23 x24 x25 x26 x27 x28 = softmaxR (val_main_v88 (F := Ideal) x0 x1 x2 x3 x4 x5 x6 x7 x8 x9 x10 x11 x12 x13 x14 x15 x16 x17 x18 x19 x20 x21 x22 x23 x24 x25 x26 x27 x28) := by
  unfold val_main_v99 val_main_v98 val_main_v97 val_main_v96 val_main_v95 val_main_v94 val_main_v93 val_main_v92 val_main_v91 val_main_v90 val_main_v89 val_main_cst val_main_cst_0 val_main_cst_1 softmaxR
  rfl

end Cert.ReferenceIdeal.RefTail

end
-- ==== Proof.lean ====
/-
  Fourteen small dense layers with skip connections and a two-class softmax, over two million rows: the kernel packs eight
  rows into one 128-lane row and multiplies by block-diagonal weights; the reference multiplies each row by the plain
  transposed weights.  At the exact extended-real instance the two agree entry by entry: a block-diagonal product
  restricted to one block is the plain product (every other term has a zero factor, and zero times any extended real is
  zero), the biases are tiled, the maximum with zero and the additions act entry by entry, and both programs end with the
  same softmax of their logits.  The three frames are the frame runs of the two kernel programs and the reference's run with the result
  dropped; the idealized kernel program is the kernel program itself, so `preserves` is trivial.
-/
import proofs.«129942_j63720134803801_2_alg».proof.Defs
import proofs.«129942_j63720134803801_2_alg».proof.Proof.Gen.Kernel
import proofs.«129942_j63720134803801_2_alg».proof.Proof.Gen.Kernel.Skeleton
import proofs.«129942_j63720134803801_2_alg».proof.Proof.Gen.Kernel.Launch
import proofs.«129942_j63720134803801_2_alg».proof.Proof.Gen.Kernel.Points
import proofs.«129942_j63720134803801_2_alg».proof.Proof.KernelFrameP
import proofs.«129942_j63720134803801_2_alg».proof.Proof.Gen.KernelIdeal
import proofs.«129942_j63720134803801_2_alg».proof.Proof.Gen.KernelIdeal.Skeleton
import proofs.«129942_j63720134803801_2_alg».proof.Proof.Gen.KernelIdeal.Launch
import proofs.«129942_j63720134803801_2_alg».proof.Proof.Gen.KernelIdeal.Points
import proofs.«129942_j63720134803801_2_alg».proof.Proof.KernelIdealFrameP
import proofs.«129942_j63720134803801_2_alg».proof.Proof.Gen.ReferenceIdeal
import proofs.«129942_j63720134803801_2_alg».proof.Proof.Gen.Pre_finite_inputs
import proofs.«129942_j63720134803801_2_alg».proof.Proof.Gen.ReferenceIdeal.Run
import proofs.«129942_j63720134803801_2_alg».proof.Proof.Gen.ReferenceIdeal.Read
import proofs.«129942_j63720134803801_2_alg».proof.Proof.KRun
import proofs.«129942_j63720134803801_2_alg».proof.Proof.Bridge
import proofs.«129942_j63720134803801_2_alg».proof.Proof.RefTail
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- Both programs end at the softmax of the same logits. -/
theorem algebraic : Cert.algebraic_KernelIdeal_ReferenceIdeal := by
  intro m ρ m' ρ' _ hagree
  refine ⟨fun c => Cert.KernelIdeal.KTail.softmaxK (Cert.KernelIdeal.KTail.logitsK (Cert.KernelIdeal.KArr.G m c)), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28⟩ := hagree c
  rw [Cert.ReferenceIdeal.Read.val_main_v99_eq, Cert.ReferenceIdeal.RefTail.result_eq, h0, h1, h2, h3, h4, h5, h6, h7, h8, h9, h10, h11, h12, h13, h14, h15, h16, h17, h18, h19, h20, h21, h22, h23, h24, h25, h26, h27, h28, ← Cert.KernelIdeal.Bridge.logits_eq m c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
